-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S4x128 : Shape := ⟨2, ![4, 128]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S4x128 .f32) : IVec S_ 1 :=
  let main_v0 : FVec F S4x128 .f32 := Host.absf main_arg1
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 3#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S4x128 : Shape := ⟨2, ![4, 128]⟩
abbrev S32x200x128 : Shape := ⟨3, ![32, 200, 128]⟩
abbrev S32x200x128x128 : Shape := ⟨4, ![32, 200, 128, 128]⟩
abbrev S200x128 : Shape := ⟨2, ![200, 128]⟩
abbrev S4x128x128 : Shape := ⟨3, ![4, 128, 128]⟩
abbrev S4 : Shape := ⟨1, ![4]⟩
abbrev S_ : Shape := ⟨0, ![]⟩
abbrev S1x200x128 : Shape := ⟨3, ![1, 200, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x1x128x128 : Shape := ⟨4, ![1, 1, 128, 128]⟩
abbrev S1x819200x128 : Shape := ⟨3, ![1, 819200, 128]⟩

abbrev nBuf : Table → Nat
  | .hbm => 5
  | .shared => 1
  | .local .scVector .vmem => 2
  | _ => 0

abbrev bufTy : (tb : Table) → Fin (nBuf tb) → BufTy
  | .hbm, ⟨0, _⟩ => ⟨S16384x50, .i32⟩
  | .hbm, ⟨1, _⟩ => ⟨S4x128, .f32⟩
  | .hbm, ⟨2, _⟩ => ⟨S32x200x128, .i32⟩
  | .hbm, ⟨3, _⟩ => ⟨S32x200x128x128, .f32⟩
  | .hbm, ⟨4, _⟩ => ⟨S1x819200x128, .f32⟩
  | .shared, ⟨0, _⟩ => ⟨S4x128, .f32⟩
  | .local .scVector .vmem, ⟨0, _⟩ => ⟨S200x128, .i32⟩
  | .local .scVector .vmem, ⟨1, _⟩ => ⟨S4x128x128, .f32⟩
  | _, _ => ⟨S16384x50, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 5 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7403_r1 : BitVec 32 := 0#32
  let c0_i32_7404_r1 : BitVec 32 := 0#32
  ![v1.toNat, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_25 : BitVec 32 := 0#32
  let c0_i32_29 : BitVec 32 := 0#32
  let c0_i32_30 : BitVec 32 := 0#32
  ![v1.toNat, 0, 0, 0]
def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_52 : BitVec 32 := 1#32
  let c0_i32_56 : BitVec 32 := 0#32
  let c0_i32_57 : BitVec 32 := 0#32
  ![v1.toNat, 1, 0, 0]
def k0_off4 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_78 : BitVec 32 := 2#32
  let c0_i32_82 : BitVec 32 := 0#32
  let c0_i32_83 : BitVec 32 := 0#32
  ![v1.toNat, 2, 0, 0]
def k0_off5 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_115 : BitVec 32 := 3#32
  let c0_i32_119 : BitVec 32 := 0#32
  let c0_i32_120 : BitVec 32 := 0#32
  ![v1.toNat, 3, 0, 0]
def k0_off6 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_152 : BitVec 32 := 4#32
  let c0_i32_156 : BitVec 32 := 0#32
  let c0_i32_157 : BitVec 32 := 0#32
  ![v1.toNat, 4, 0, 0]
def k0_off7 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_189 : BitVec 32 := 5#32
  let c0_i32_193 : BitVec 32 := 0#32
  let c0_i32_194 : BitVec 32 := 0#32
  ![v1.toNat, 5, 0, 0]
def k0_off8 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_226 : BitVec 32 := 6#32
  let c0_i32_230 : BitVec 32 := 0#32
  let c0_i32_231 : BitVec 32 := 0#32
  ![v1.toNat, 6, 0, 0]
def k0_off9 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_263 : BitVec 32 := 7#32
  let c0_i32_267 : BitVec 32 := 0#32
  let c0_i32_268 : BitVec 32 := 0#32
  ![v1.toNat, 7, 0, 0]
def k0_off10 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_300 : BitVec 32 := 8#32
  let c0_i32_304 : BitVec 32 := 0#32
  let c0_i32_305 : BitVec 32 := 0#32
  ![v1.toNat, 8, 0, 0]
def k0_off11 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32_337 : BitVec 32 := 9#32
  let c0_i32_341 : BitVec 32 := 0#32
  let c0_i32_342 : BitVec 32 := 0#32
  ![v1.toNat, 9, 0, 0]
def k0_off12 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_374 : BitVec 32 := 10#32
  let c0_i32_378 : BitVec 32 := 0#32
  let c0_i32_379 : BitVec 32 := 0#32
  ![v1.toNat, 10, 0, 0]
def k0_off13 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_411 : BitVec 32 := 11#32
  let c0_i32_415 : BitVec 32 := 0#32
  let c0_i32_416 : BitVec 32 := 0#32
  ![v1.toNat, 11, 0, 0]
def k0_off14 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32_448 : BitVec 32 := 12#32
  let c0_i32_452 : BitVec 32 := 0#32
  let c0_i32_453 : BitVec 32 := 0#32
  ![v1.toNat, 12, 0, 0]
def k0_off15 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_485 : BitVec 32 := 13#32
  let c0_i32_489 : BitVec 32 := 0#32
  let c0_i32_490 : BitVec 32 := 0#32
  ![v1.toNat, 13, 0, 0]
def k0_off16 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14_i32_522 : BitVec 32 := 14#32
  let c0_i32_526 : BitVec 32 := 0#32
  let c0_i32_527 : BitVec 32 := 0#32
  ![v1.toNat, 14, 0, 0]
def k0_off17 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_559 : BitVec 32 := 15#32
  let c0_i32_563 : BitVec 32 := 0#32
  let c0_i32_564 : BitVec 32 := 0#32
  ![v1.toNat, 15, 0, 0]
def k0_off18 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_596 : BitVec 32 := 16#32
  let c0_i32_600 : BitVec 32 := 0#32
  let c0_i32_601 : BitVec 32 := 0#32
  ![v1.toNat, 16, 0, 0]
def k0_off19 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32_633 : BitVec 32 := 17#32
  let c0_i32_637 : BitVec 32 := 0#32
  let c0_i32_638 : BitVec 32 := 0#32
  ![v1.toNat, 17, 0, 0]
def k0_off20 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c18_i32_670 : BitVec 32 := 18#32
  let c0_i32_674 : BitVec 32 := 0#32
  let c0_i32_675 : BitVec 32 := 0#32
  ![v1.toNat, 18, 0, 0]
def k0_off21 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_707 : BitVec 32 := 19#32
  let c0_i32_711 : BitVec 32 := 0#32
  let c0_i32_712 : BitVec 32 := 0#32
  ![v1.toNat, 19, 0, 0]
def k0_off22 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32_744 : BitVec 32 := 20#32
  let c0_i32_748 : BitVec 32 := 0#32
  let c0_i32_749 : BitVec 32 := 0#32
  ![v1.toNat, 20, 0, 0]
def k0_off23 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_781 : BitVec 32 := 21#32
  let c0_i32_785 : BitVec 32 := 0#32
  let c0_i32_786 : BitVec 32 := 0#32
  ![v1.toNat, 21, 0, 0]
def k0_off24 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c22_i32_818 : BitVec 32 := 22#32
  let c0_i32_822 : BitVec 32 := 0#32
  let c0_i32_823 : BitVec 32 := 0#32
  ![v1.toNat, 22, 0, 0]
def k0_off25 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c23_i32_855 : BitVec 32 := 23#32
  let c0_i32_859 : BitVec 32 := 0#32
  let c0_i32_860 : BitVec 32 := 0#32
  ![v1.toNat, 23, 0, 0]
def k0_off26 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_892 : BitVec 32 := 24#32
  let c0_i32_896 : BitVec 32 := 0#32
  let c0_i32_897 : BitVec 32 := 0#32
  ![v1.toNat, 24, 0, 0]
def k0_off27 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32_929 : BitVec 32 := 25#32
  let c0_i32_933 : BitVec 32 := 0#32
  let c0_i32_934 : BitVec 32 := 0#32
  ![v1.toNat, 25, 0, 0]
def k0_off28 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32_966 : BitVec 32 := 26#32
  let c0_i32_970 : BitVec 32 := 0#32
  let c0_i32_971 : BitVec 32 := 0#32
  ![v1.toNat, 26, 0, 0]
def k0_off29 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c27_i32_1003 : BitVec 32 := 27#32
  let c0_i32_1007 : BitVec 32 := 0#32
  let c0_i32_1008 : BitVec 32 := 0#32
  ![v1.toNat, 27, 0, 0]
def k0_off30 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28_i32_1040 : BitVec 32 := 28#32
  let c0_i32_1044 : BitVec 32 := 0#32
  let c0_i32_1045 : BitVec 32 := 0#32
  ![v1.toNat, 28, 0, 0]
def k0_off31 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c29_i32_1077 : BitVec 32 := 29#32
  let c0_i32_1081 : BitVec 32 := 0#32
  let c0_i32_1082 : BitVec 32 := 0#32
  ![v1.toNat, 29, 0, 0]
def k0_off32 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32_1114 : BitVec 32 := 30#32
  let c0_i32_1118 : BitVec 32 := 0#32
  let c0_i32_1119 : BitVec 32 := 0#32
  ![v1.toNat, 30, 0, 0]
def k0_off33 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_1151 : BitVec 32 := 31#32
  let c0_i32_1155 : BitVec 32 := 0#32
  let c0_i32_1156 : BitVec 32 := 0#32
  ![v1.toNat, 31, 0, 0]
def k0_off34 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_1188 : BitVec 32 := 32#32
  let c0_i32_1192 : BitVec 32 := 0#32
  let c0_i32_1193 : BitVec 32 := 0#32
  ![v1.toNat, 32, 0, 0]
def k0_off35 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c33_i32_1225 : BitVec 32 := 33#32
  let c0_i32_1229 : BitVec 32 := 0#32
  let c0_i32_1230 : BitVec 32 := 0#32
  ![v1.toNat, 33, 0, 0]
def k0_off36 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c34_i32_1262 : BitVec 32 := 34#32
  let c0_i32_1266 : BitVec 32 := 0#32
  let c0_i32_1267 : BitVec 32 := 0#32
  ![v1.toNat, 34, 0, 0]
def k0_off37 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c35_i32_1299 : BitVec 32 := 35#32
  let c0_i32_1303 : BitVec 32 := 0#32
  let c0_i32_1304 : BitVec 32 := 0#32
  ![v1.toNat, 35, 0, 0]
def k0_off38 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c36_i32_1336 : BitVec 32 := 36#32
  let c0_i32_1340 : BitVec 32 := 0#32
  let c0_i32_1341 : BitVec 32 := 0#32
  ![v1.toNat, 36, 0, 0]
def k0_off39 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c37_i32_1373 : BitVec 32 := 37#32
  let c0_i32_1377 : BitVec 32 := 0#32
  let c0_i32_1378 : BitVec 32 := 0#32
  ![v1.toNat, 37, 0, 0]
def k0_off40 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c38_i32_1410 : BitVec 32 := 38#32
  let c0_i32_1414 : BitVec 32 := 0#32
  let c0_i32_1415 : BitVec 32 := 0#32
  ![v1.toNat, 38, 0, 0]
def k0_off41 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c39_i32_1447 : BitVec 32 := 39#32
  let c0_i32_1451 : BitVec 32 := 0#32
  let c0_i32_1452 : BitVec 32 := 0#32
  ![v1.toNat, 39, 0, 0]
def k0_off42 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32_1484 : BitVec 32 := 40#32
  let c0_i32_1488 : BitVec 32 := 0#32
  let c0_i32_1489 : BitVec 32 := 0#32
  ![v1.toNat, 40, 0, 0]
def k0_off43 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41_i32_1521 : BitVec 32 := 41#32
  let c0_i32_1525 : BitVec 32 := 0#32
  let c0_i32_1526 : BitVec 32 := 0#32
  ![v1.toNat, 41, 0, 0]
def k0_off44 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c42_i32_1558 : BitVec 32 := 42#32
  let c0_i32_1562 : BitVec 32 := 0#32
  let c0_i32_1563 : BitVec 32 := 0#32
  ![v1.toNat, 42, 0, 0]
def k0_off45 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c43_i32_1595 : BitVec 32 := 43#32
  let c0_i32_1599 : BitVec 32 := 0#32
  let c0_i32_1600 : BitVec 32 := 0#32
  ![v1.toNat, 43, 0, 0]
def k0_off46 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c44_i32_1632 : BitVec 32 := 44#32
  let c0_i32_1636 : BitVec 32 := 0#32
  let c0_i32_1637 : BitVec 32 := 0#32
  ![v1.toNat, 44, 0, 0]
def k0_off47 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c45_i32_1669 : BitVec 32 := 45#32
  let c0_i32_1673 : BitVec 32 := 0#32
  let c0_i32_1674 : BitVec 32 := 0#32
  ![v1.toNat, 45, 0, 0]
def k0_off48 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c46_i32_1706 : BitVec 32 := 46#32
  let c0_i32_1710 : BitVec 32 := 0#32
  let c0_i32_1711 : BitVec 32 := 0#32
  ![v1.toNat, 46, 0, 0]
def k0_off49 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c47_i32_1743 : BitVec 32 := 47#32
  let c0_i32_1747 : BitVec 32 := 0#32
  let c0_i32_1748 : BitVec 32 := 0#32
  ![v1.toNat, 47, 0, 0]
def k0_off50 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_1780 : BitVec 32 := 48#32
  let c0_i32_1784 : BitVec 32 := 0#32
  let c0_i32_1785 : BitVec 32 := 0#32
  ![v1.toNat, 48, 0, 0]
def k0_off51 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c49_i32_1817 : BitVec 32 := 49#32
  let c0_i32_1821 : BitVec 32 := 0#32
  let c0_i32_1822 : BitVec 32 := 0#32
  ![v1.toNat, 49, 0, 0]
def k0_off52 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_1854 : BitVec 32 := 50#32
  let c0_i32_1858 : BitVec 32 := 0#32
  let c0_i32_1859 : BitVec 32 := 0#32
  ![v1.toNat, 50, 0, 0]
def k0_off53 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c51_i32_1891 : BitVec 32 := 51#32
  let c0_i32_1895 : BitVec 32 := 0#32
  let c0_i32_1896 : BitVec 32 := 0#32
  ![v1.toNat, 51, 0, 0]
def k0_off54 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c52_i32_1928 : BitVec 32 := 52#32
  let c0_i32_1932 : BitVec 32 := 0#32
  let c0_i32_1933 : BitVec 32 := 0#32
  ![v1.toNat, 52, 0, 0]
def k0_off55 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c53_i32_1965 : BitVec 32 := 53#32
  let c0_i32_1969 : BitVec 32 := 0#32
  let c0_i32_1970 : BitVec 32 := 0#32
  ![v1.toNat, 53, 0, 0]
def k0_off56 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c54_i32_2002 : BitVec 32 := 54#32
  let c0_i32_2006 : BitVec 32 := 0#32
  let c0_i32_2007 : BitVec 32 := 0#32
  ![v1.toNat, 54, 0, 0]
def k0_off57 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c55_i32_2039 : BitVec 32 := 55#32
  let c0_i32_2043 : BitVec 32 := 0#32
  let c0_i32_2044 : BitVec 32 := 0#32
  ![v1.toNat, 55, 0, 0]
def k0_off58 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c56_i32_2076 : BitVec 32 := 56#32
  let c0_i32_2080 : BitVec 32 := 0#32
  let c0_i32_2081 : BitVec 32 := 0#32
  ![v1.toNat, 56, 0, 0]
def k0_off59 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c57_i32_2113 : BitVec 32 := 57#32
  let c0_i32_2117 : BitVec 32 := 0#32
  let c0_i32_2118 : BitVec 32 := 0#32
  ![v1.toNat, 57, 0, 0]
def k0_off60 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c58_i32_2150 : BitVec 32 := 58#32
  let c0_i32_2154 : BitVec 32 := 0#32
  let c0_i32_2155 : BitVec 32 := 0#32
  ![v1.toNat, 58, 0, 0]
def k0_off61 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c59_i32_2187 : BitVec 32 := 59#32
  let c0_i32_2191 : BitVec 32 := 0#32
  let c0_i32_2192 : BitVec 32 := 0#32
  ![v1.toNat, 59, 0, 0]
def k0_off62 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c60_i32_2224 : BitVec 32 := 60#32
  let c0_i32_2228 : BitVec 32 := 0#32
  let c0_i32_2229 : BitVec 32 := 0#32
  ![v1.toNat, 60, 0, 0]
def k0_off63 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32_2261 : BitVec 32 := 61#32
  let c0_i32_2265 : BitVec 32 := 0#32
  let c0_i32_2266 : BitVec 32 := 0#32
  ![v1.toNat, 61, 0, 0]
def k0_off64 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c62_i32_2298 : BitVec 32 := 62#32
  let c0_i32_2302 : BitVec 32 := 0#32
  let c0_i32_2303 : BitVec 32 := 0#32
  ![v1.toNat, 62, 0, 0]
def k0_off65 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c63_i32_2335 : BitVec 32 := 63#32
  let c0_i32_2339 : BitVec 32 := 0#32
  let c0_i32_2340 : BitVec 32 := 0#32
  ![v1.toNat, 63, 0, 0]
def k0_off66 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_2372 : BitVec 32 := 64#32
  let c0_i32_2376 : BitVec 32 := 0#32
  let c0_i32_2377 : BitVec 32 := 0#32
  ![v1.toNat, 64, 0, 0]
def k0_off67 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65_i32_2409 : BitVec 32 := 65#32
  let c0_i32_2413 : BitVec 32 := 0#32
  let c0_i32_2414 : BitVec 32 := 0#32
  ![v1.toNat, 65, 0, 0]
def k0_off68 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c66_i32_2446 : BitVec 32 := 66#32
  let c0_i32_2450 : BitVec 32 := 0#32
  let c0_i32_2451 : BitVec 32 := 0#32
  ![v1.toNat, 66, 0, 0]
def k0_off69 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c67_i32_2483 : BitVec 32 := 67#32
  let c0_i32_2487 : BitVec 32 := 0#32
  let c0_i32_2488 : BitVec 32 := 0#32
  ![v1.toNat, 67, 0, 0]
def k0_off70 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c68_i32_2520 : BitVec 32 := 68#32
  let c0_i32_2524 : BitVec 32 := 0#32
  let c0_i32_2525 : BitVec 32 := 0#32
  ![v1.toNat, 68, 0, 0]
def k0_off71 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c69_i32_2557 : BitVec 32 := 69#32
  let c0_i32_2561 : BitVec 32 := 0#32
  let c0_i32_2562 : BitVec 32 := 0#32
  ![v1.toNat, 69, 0, 0]
def k0_off72 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32_2594 : BitVec 32 := 70#32
  let c0_i32_2598 : BitVec 32 := 0#32
  let c0_i32_2599 : BitVec 32 := 0#32
  ![v1.toNat, 70, 0, 0]
def k0_off73 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c71_i32_2631 : BitVec 32 := 71#32
  let c0_i32_2635 : BitVec 32 := 0#32
  let c0_i32_2636 : BitVec 32 := 0#32
  ![v1.toNat, 71, 0, 0]
def k0_off74 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c72_i32_2668 : BitVec 32 := 72#32
  let c0_i32_2672 : BitVec 32 := 0#32
  let c0_i32_2673 : BitVec 32 := 0#32
  ![v1.toNat, 72, 0, 0]
def k0_off75 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c73_i32_2705 : BitVec 32 := 73#32
  let c0_i32_2709 : BitVec 32 := 0#32
  let c0_i32_2710 : BitVec 32 := 0#32
  ![v1.toNat, 73, 0, 0]
def k0_off76 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c74_i32_2742 : BitVec 32 := 74#32
  let c0_i32_2746 : BitVec 32 := 0#32
  let c0_i32_2747 : BitVec 32 := 0#32
  ![v1.toNat, 74, 0, 0]
def k0_off77 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c75_i32_2779 : BitVec 32 := 75#32
  let c0_i32_2783 : BitVec 32 := 0#32
  let c0_i32_2784 : BitVec 32 := 0#32
  ![v1.toNat, 75, 0, 0]
def k0_off78 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c76_i32_2816 : BitVec 32 := 76#32
  let c0_i32_2820 : BitVec 32 := 0#32
  let c0_i32_2821 : BitVec 32 := 0#32
  ![v1.toNat, 76, 0, 0]
def k0_off79 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c77_i32_2853 : BitVec 32 := 77#32
  let c0_i32_2857 : BitVec 32 := 0#32
  let c0_i32_2858 : BitVec 32 := 0#32
  ![v1.toNat, 77, 0, 0]
def k0_off80 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32_2890 : BitVec 32 := 78#32
  let c0_i32_2894 : BitVec 32 := 0#32
  let c0_i32_2895 : BitVec 32 := 0#32
  ![v1.toNat, 78, 0, 0]
def k0_off81 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c79_i32_2927 : BitVec 32 := 79#32
  let c0_i32_2931 : BitVec 32 := 0#32
  let c0_i32_2932 : BitVec 32 := 0#32
  ![v1.toNat, 79, 0, 0]
def k0_off82 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32_2964 : BitVec 32 := 80#32
  let c0_i32_2968 : BitVec 32 := 0#32
  let c0_i32_2969 : BitVec 32 := 0#32
  ![v1.toNat, 80, 0, 0]
def k0_off83 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c81_i32_3001 : BitVec 32 := 81#32
  let c0_i32_3005 : BitVec 32 := 0#32
  let c0_i32_3006 : BitVec 32 := 0#32
  ![v1.toNat, 81, 0, 0]
def k0_off84 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c82_i32_3038 : BitVec 32 := 82#32
  let c0_i32_3042 : BitVec 32 := 0#32
  let c0_i32_3043 : BitVec 32 := 0#32
  ![v1.toNat, 82, 0, 0]
def k0_off85 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c83_i32_3075 : BitVec 32 := 83#32
  let c0_i32_3079 : BitVec 32 := 0#32
  let c0_i32_3080 : BitVec 32 := 0#32
  ![v1.toNat, 83, 0, 0]
def k0_off86 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32_3112 : BitVec 32 := 84#32
  let c0_i32_3116 : BitVec 32 := 0#32
  let c0_i32_3117 : BitVec 32 := 0#32
  ![v1.toNat, 84, 0, 0]
def k0_off87 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c85_i32_3149 : BitVec 32 := 85#32
  let c0_i32_3153 : BitVec 32 := 0#32
  let c0_i32_3154 : BitVec 32 := 0#32
  ![v1.toNat, 85, 0, 0]
def k0_off88 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c86_i32_3186 : BitVec 32 := 86#32
  let c0_i32_3190 : BitVec 32 := 0#32
  let c0_i32_3191 : BitVec 32 := 0#32
  ![v1.toNat, 86, 0, 0]
def k0_off89 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c87_i32_3223 : BitVec 32 := 87#32
  let c0_i32_3227 : BitVec 32 := 0#32
  let c0_i32_3228 : BitVec 32 := 0#32
  ![v1.toNat, 87, 0, 0]
def k0_off90 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c88_i32_3260 : BitVec 32 := 88#32
  let c0_i32_3264 : BitVec 32 := 0#32
  let c0_i32_3265 : BitVec 32 := 0#32
  ![v1.toNat, 88, 0, 0]
def k0_off91 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c89_i32_3297 : BitVec 32 := 89#32
  let c0_i32_3301 : BitVec 32 := 0#32
  let c0_i32_3302 : BitVec 32 := 0#32
  ![v1.toNat, 89, 0, 0]
def k0_off92 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c90_i32_3334 : BitVec 32 := 90#32
  let c0_i32_3338 : BitVec 32 := 0#32
  let c0_i32_3339 : BitVec 32 := 0#32
  ![v1.toNat, 90, 0, 0]
def k0_off93 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c91_i32_3371 : BitVec 32 := 91#32
  let c0_i32_3375 : BitVec 32 := 0#32
  let c0_i32_3376 : BitVec 32 := 0#32
  ![v1.toNat, 91, 0, 0]
def k0_off94 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c92_i32_3408 : BitVec 32 := 92#32
  let c0_i32_3412 : BitVec 32 := 0#32
  let c0_i32_3413 : BitVec 32 := 0#32
  ![v1.toNat, 92, 0, 0]
def k0_off95 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c93_i32_3445 : BitVec 32 := 93#32
  let c0_i32_3449 : BitVec 32 := 0#32
  let c0_i32_3450 : BitVec 32 := 0#32
  ![v1.toNat, 93, 0, 0]
def k0_off96 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c94_i32_3482 : BitVec 32 := 94#32
  let c0_i32_3486 : BitVec 32 := 0#32
  let c0_i32_3487 : BitVec 32 := 0#32
  ![v1.toNat, 94, 0, 0]
def k0_off97 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c95_i32_3519 : BitVec 32 := 95#32
  let c0_i32_3523 : BitVec 32 := 0#32
  let c0_i32_3524 : BitVec 32 := 0#32
  ![v1.toNat, 95, 0, 0]
def k0_off98 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32_3556 : BitVec 32 := 96#32
  let c0_i32_3560 : BitVec 32 := 0#32
  let c0_i32_3561 : BitVec 32 := 0#32
  ![v1.toNat, 96, 0, 0]
def k0_off99 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c97_i32_3593 : BitVec 32 := 97#32
  let c0_i32_3597 : BitVec 32 := 0#32
  let c0_i32_3598 : BitVec 32 := 0#32
  ![v1.toNat, 97, 0, 0]
def k0_off100 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32_3630 : BitVec 32 := 98#32
  let c0_i32_3634 : BitVec 32 := 0#32
  let c0_i32_3635 : BitVec 32 := 0#32
  ![v1.toNat, 98, 0, 0]
def k0_off101 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c99_i32_3667 : BitVec 32 := 99#32
  let c0_i32_3671 : BitVec 32 := 0#32
  let c0_i32_3672 : BitVec 32 := 0#32
  ![v1.toNat, 99, 0, 0]
def k0_off102 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100_i32_3704 : BitVec 32 := 100#32
  let c0_i32_3708 : BitVec 32 := 0#32
  let c0_i32_3709 : BitVec 32 := 0#32
  ![v1.toNat, 100, 0, 0]
def k0_off103 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c101_i32_3741 : BitVec 32 := 101#32
  let c0_i32_3745 : BitVec 32 := 0#32
  let c0_i32_3746 : BitVec 32 := 0#32
  ![v1.toNat, 101, 0, 0]
def k0_off104 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102_i32_3778 : BitVec 32 := 102#32
  let c0_i32_3782 : BitVec 32 := 0#32
  let c0_i32_3783 : BitVec 32 := 0#32
  ![v1.toNat, 102, 0, 0]
def k0_off105 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c103_i32_3815 : BitVec 32 := 103#32
  let c0_i32_3819 : BitVec 32 := 0#32
  let c0_i32_3820 : BitVec 32 := 0#32
  ![v1.toNat, 103, 0, 0]
def k0_off106 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32_3852 : BitVec 32 := 104#32
  let c0_i32_3856 : BitVec 32 := 0#32
  let c0_i32_3857 : BitVec 32 := 0#32
  ![v1.toNat, 104, 0, 0]
def k0_off107 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c105_i32_3889 : BitVec 32 := 105#32
  let c0_i32_3893 : BitVec 32 := 0#32
  let c0_i32_3894 : BitVec 32 := 0#32
  ![v1.toNat, 105, 0, 0]
def k0_off108 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c106_i32_3926 : BitVec 32 := 106#32
  let c0_i32_3930 : BitVec 32 := 0#32
  let c0_i32_3931 : BitVec 32 := 0#32
  ![v1.toNat, 106, 0, 0]
def k0_off109 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c107_i32_3963 : BitVec 32 := 107#32
  let c0_i32_3967 : BitVec 32 := 0#32
  let c0_i32_3968 : BitVec 32 := 0#32
  ![v1.toNat, 107, 0, 0]
def k0_off110 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c108_i32_4000 : BitVec 32 := 108#32
  let c0_i32_4004 : BitVec 32 := 0#32
  let c0_i32_4005 : BitVec 32 := 0#32
  ![v1.toNat, 108, 0, 0]
def k0_off111 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c109_i32_4037 : BitVec 32 := 109#32
  let c0_i32_4041 : BitVec 32 := 0#32
  let c0_i32_4042 : BitVec 32 := 0#32
  ![v1.toNat, 109, 0, 0]
def k0_off112 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c110_i32_4074 : BitVec 32 := 110#32
  let c0_i32_4078 : BitVec 32 := 0#32
  let c0_i32_4079 : BitVec 32 := 0#32
  ![v1.toNat, 110, 0, 0]
def k0_off113 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c111_i32_4111 : BitVec 32 := 111#32
  let c0_i32_4115 : BitVec 32 := 0#32
  let c0_i32_4116 : BitVec 32 := 0#32
  ![v1.toNat, 111, 0, 0]
def k0_off114 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32_4148 : BitVec 32 := 112#32
  let c0_i32_4152 : BitVec 32 := 0#32
  let c0_i32_4153 : BitVec 32 := 0#32
  ![v1.toNat, 112, 0, 0]
def k0_off115 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c113_i32_4185 : BitVec 32 := 113#32
  let c0_i32_4189 : BitVec 32 := 0#32
  let c0_i32_4190 : BitVec 32 := 0#32
  ![v1.toNat, 113, 0, 0]
def k0_off116 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114_i32_4222 : BitVec 32 := 114#32
  let c0_i32_4226 : BitVec 32 := 0#32
  let c0_i32_4227 : BitVec 32 := 0#32
  ![v1.toNat, 114, 0, 0]
def k0_off117 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c115_i32_4259 : BitVec 32 := 115#32
  let c0_i32_4263 : BitVec 32 := 0#32
  let c0_i32_4264 : BitVec 32 := 0#32
  ![v1.toNat, 115, 0, 0]
def k0_off118 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c116_i32_4296 : BitVec 32 := 116#32
  let c0_i32_4300 : BitVec 32 := 0#32
  let c0_i32_4301 : BitVec 32 := 0#32
  ![v1.toNat, 116, 0, 0]
def k0_off119 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32_4333 : BitVec 32 := 117#32
  let c0_i32_4337 : BitVec 32 := 0#32
  let c0_i32_4338 : BitVec 32 := 0#32
  ![v1.toNat, 117, 0, 0]
def k0_off120 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c118_i32_4370 : BitVec 32 := 118#32
  let c0_i32_4374 : BitVec 32 := 0#32
  let c0_i32_4375 : BitVec 32 := 0#32
  ![v1.toNat, 118, 0, 0]
def k0_off121 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c119_i32_4407 : BitVec 32 := 119#32
  let c0_i32_4411 : BitVec 32 := 0#32
  let c0_i32_4412 : BitVec 32 := 0#32
  ![v1.toNat, 119, 0, 0]
def k0_off122 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c120_i32_4444 : BitVec 32 := 120#32
  let c0_i32_4448 : BitVec 32 := 0#32
  let c0_i32_4449 : BitVec 32 := 0#32
  ![v1.toNat, 120, 0, 0]
def k0_off123 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c121_i32_4481 : BitVec 32 := 121#32
  let c0_i32_4485 : BitVec 32 := 0#32
  let c0_i32_4486 : BitVec 32 := 0#32
  ![v1.toNat, 121, 0, 0]
def k0_off124 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c122_i32_4518 : BitVec 32 := 122#32
  let c0_i32_4522 : BitVec 32 := 0#32
  let c0_i32_4523 : BitVec 32 := 0#32
  ![v1.toNat, 122, 0, 0]
def k0_off125 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c123_i32_4555 : BitVec 32 := 123#32
  let c0_i32_4559 : BitVec 32 := 0#32
  let c0_i32_4560 : BitVec 32 := 0#32
  ![v1.toNat, 123, 0, 0]
def k0_off126 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c124_i32_4592 : BitVec 32 := 124#32
  let c0_i32_4596 : BitVec 32 := 0#32
  let c0_i32_4597 : BitVec 32 := 0#32
  ![v1.toNat, 124, 0, 0]
def k0_off127 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c125_i32_4629 : BitVec 32 := 125#32
  let c0_i32_4633 : BitVec 32 := 0#32
  let c0_i32_4634 : BitVec 32 := 0#32
  ![v1.toNat, 125, 0, 0]
def k0_off128 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c126_i32_4666 : BitVec 32 := 126#32
  let c0_i32_4670 : BitVec 32 := 0#32
  let c0_i32_4671 : BitVec 32 := 0#32
  ![v1.toNat, 126, 0, 0]
def k0_off129 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c127_i32_4703 : BitVec 32 := 127#32
  let c0_i32_4707 : BitVec 32 := 0#32
  let c0_i32_4708 : BitVec 32 := 0#32
  ![v1.toNat, 127, 0, 0]
def k0_off130 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_4740 : BitVec 32 := 128#32
  let c0_i32_4744 : BitVec 32 := 0#32
  let c0_i32_4745 : BitVec 32 := 0#32
  ![v1.toNat, 128, 0, 0]
def k0_off131 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c129_i32_4777 : BitVec 32 := 129#32
  let c0_i32_4781 : BitVec 32 := 0#32
  let c0_i32_4782 : BitVec 32 := 0#32
  ![v1.toNat, 129, 0, 0]
def k0_off132 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c130_i32_4814 : BitVec 32 := 130#32
  let c0_i32_4818 : BitVec 32 := 0#32
  let c0_i32_4819 : BitVec 32 := 0#32
  ![v1.toNat, 130, 0, 0]
def k0_off133 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131_i32_4851 : BitVec 32 := 131#32
  let c0_i32_4855 : BitVec 32 := 0#32
  let c0_i32_4856 : BitVec 32 := 0#32
  ![v1.toNat, 131, 0, 0]
def k0_off134 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c132_i32_4888 : BitVec 32 := 132#32
  let c0_i32_4892 : BitVec 32 := 0#32
  let c0_i32_4893 : BitVec 32 := 0#32
  ![v1.toNat, 132, 0, 0]
def k0_off135 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c133_i32_4925 : BitVec 32 := 133#32
  let c0_i32_4929 : BitVec 32 := 0#32
  let c0_i32_4930 : BitVec 32 := 0#32
  ![v1.toNat, 133, 0, 0]
def k0_off136 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c134_i32_4962 : BitVec 32 := 134#32
  let c0_i32_4966 : BitVec 32 := 0#32
  let c0_i32_4967 : BitVec 32 := 0#32
  ![v1.toNat, 134, 0, 0]
def k0_off137 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c135_i32_4999 : BitVec 32 := 135#32
  let c0_i32_5003 : BitVec 32 := 0#32
  let c0_i32_5004 : BitVec 32 := 0#32
  ![v1.toNat, 135, 0, 0]
def k0_off138 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c136_i32_5036 : BitVec 32 := 136#32
  let c0_i32_5040 : BitVec 32 := 0#32
  let c0_i32_5041 : BitVec 32 := 0#32
  ![v1.toNat, 136, 0, 0]
def k0_off139 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c137_i32_5073 : BitVec 32 := 137#32
  let c0_i32_5077 : BitVec 32 := 0#32
  let c0_i32_5078 : BitVec 32 := 0#32
  ![v1.toNat, 137, 0, 0]
def k0_off140 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c138_i32_5110 : BitVec 32 := 138#32
  let c0_i32_5114 : BitVec 32 := 0#32
  let c0_i32_5115 : BitVec 32 := 0#32
  ![v1.toNat, 138, 0, 0]
def k0_off141 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c139_i32_5147 : BitVec 32 := 139#32
  let c0_i32_5151 : BitVec 32 := 0#32
  let c0_i32_5152 : BitVec 32 := 0#32
  ![v1.toNat, 139, 0, 0]
def k0_off142 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c140_i32_5184 : BitVec 32 := 140#32
  let c0_i32_5188 : BitVec 32 := 0#32
  let c0_i32_5189 : BitVec 32 := 0#32
  ![v1.toNat, 140, 0, 0]
def k0_off143 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c141_i32_5221 : BitVec 32 := 141#32
  let c0_i32_5225 : BitVec 32 := 0#32
  let c0_i32_5226 : BitVec 32 := 0#32
  ![v1.toNat, 141, 0, 0]
def k0_off144 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c142_i32_5258 : BitVec 32 := 142#32
  let c0_i32_5262 : BitVec 32 := 0#32
  let c0_i32_5263 : BitVec 32 := 0#32
  ![v1.toNat, 142, 0, 0]
def k0_off145 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c143_i32_5295 : BitVec 32 := 143#32
  let c0_i32_5299 : BitVec 32 := 0#32
  let c0_i32_5300 : BitVec 32 := 0#32
  ![v1.toNat, 143, 0, 0]
def k0_off146 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32_5332 : BitVec 32 := 144#32
  let c0_i32_5336 : BitVec 32 := 0#32
  let c0_i32_5337 : BitVec 32 := 0#32
  ![v1.toNat, 144, 0, 0]
def k0_off147 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c145_i32_5369 : BitVec 32 := 145#32
  let c0_i32_5373 : BitVec 32 := 0#32
  let c0_i32_5374 : BitVec 32 := 0#32
  ![v1.toNat, 145, 0, 0]
def k0_off148 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c146_i32_5406 : BitVec 32 := 146#32
  let c0_i32_5410 : BitVec 32 := 0#32
  let c0_i32_5411 : BitVec 32 := 0#32
  ![v1.toNat, 146, 0, 0]
def k0_off149 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c147_i32_5443 : BitVec 32 := 147#32
  let c0_i32_5447 : BitVec 32 := 0#32
  let c0_i32_5448 : BitVec 32 := 0#32
  ![v1.toNat, 147, 0, 0]
def k0_off150 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c148_i32_5480 : BitVec 32 := 148#32
  let c0_i32_5484 : BitVec 32 := 0#32
  let c0_i32_5485 : BitVec 32 := 0#32
  ![v1.toNat, 148, 0, 0]
def k0_off151 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c149_i32_5517 : BitVec 32 := 149#32
  let c0_i32_5521 : BitVec 32 := 0#32
  let c0_i32_5522 : BitVec 32 := 0#32
  ![v1.toNat, 149, 0, 0]
def k0_off152 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c150_i32_5554 : BitVec 32 := 150#32
  let c0_i32_5558 : BitVec 32 := 0#32
  let c0_i32_5559 : BitVec 32 := 0#32
  ![v1.toNat, 150, 0, 0]
def k0_off153 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c151_i32_5591 : BitVec 32 := 151#32
  let c0_i32_5595 : BitVec 32 := 0#32
  let c0_i32_5596 : BitVec 32 := 0#32
  ![v1.toNat, 151, 0, 0]
def k0_off154 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c152_i32_5628 : BitVec 32 := 152#32
  let c0_i32_5632 : BitVec 32 := 0#32
  let c0_i32_5633 : BitVec 32 := 0#32
  ![v1.toNat, 152, 0, 0]
def k0_off155 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c153_i32_5665 : BitVec 32 := 153#32
  let c0_i32_5669 : BitVec 32 := 0#32
  let c0_i32_5670 : BitVec 32 := 0#32
  ![v1.toNat, 153, 0, 0]
def k0_off156 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c154_i32_5702 : BitVec 32 := 154#32
  let c0_i32_5706 : BitVec 32 := 0#32
  let c0_i32_5707 : BitVec 32 := 0#32
  ![v1.toNat, 154, 0, 0]
def k0_off157 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c155_i32_5739 : BitVec 32 := 155#32
  let c0_i32_5743 : BitVec 32 := 0#32
  let c0_i32_5744 : BitVec 32 := 0#32
  ![v1.toNat, 155, 0, 0]
def k0_off158 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c156_i32_5776 : BitVec 32 := 156#32
  let c0_i32_5780 : BitVec 32 := 0#32
  let c0_i32_5781 : BitVec 32 := 0#32
  ![v1.toNat, 156, 0, 0]
def k0_off159 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c157_i32_5813 : BitVec 32 := 157#32
  let c0_i32_5817 : BitVec 32 := 0#32
  let c0_i32_5818 : BitVec 32 := 0#32
  ![v1.toNat, 157, 0, 0]
def k0_off160 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c158_i32_5850 : BitVec 32 := 158#32
  let c0_i32_5854 : BitVec 32 := 0#32
  let c0_i32_5855 : BitVec 32 := 0#32
  ![v1.toNat, 158, 0, 0]
def k0_off161 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c159_i32_5887 : BitVec 32 := 159#32
  let c0_i32_5891 : BitVec 32 := 0#32
  let c0_i32_5892 : BitVec 32 := 0#32
  ![v1.toNat, 159, 0, 0]
def k0_off162 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_5924 : BitVec 32 := 160#32
  let c0_i32_5928 : BitVec 32 := 0#32
  let c0_i32_5929 : BitVec 32 := 0#32
  ![v1.toNat, 160, 0, 0]
def k0_off163 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c161_i32_5961 : BitVec 32 := 161#32
  let c0_i32_5965 : BitVec 32 := 0#32
  let c0_i32_5966 : BitVec 32 := 0#32
  ![v1.toNat, 161, 0, 0]
def k0_off164 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c162_i32_5998 : BitVec 32 := 162#32
  let c0_i32_6002 : BitVec 32 := 0#32
  let c0_i32_6003 : BitVec 32 := 0#32
  ![v1.toNat, 162, 0, 0]
def k0_off165 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c163_i32_6035 : BitVec 32 := 163#32
  let c0_i32_6039 : BitVec 32 := 0#32
  let c0_i32_6040 : BitVec 32 := 0#32
  ![v1.toNat, 163, 0, 0]
def k0_off166 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c164_i32_6072 : BitVec 32 := 164#32
  let c0_i32_6076 : BitVec 32 := 0#32
  let c0_i32_6077 : BitVec 32 := 0#32
  ![v1.toNat, 164, 0, 0]
def k0_off167 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c165_i32_6109 : BitVec 32 := 165#32
  let c0_i32_6113 : BitVec 32 := 0#32
  let c0_i32_6114 : BitVec 32 := 0#32
  ![v1.toNat, 165, 0, 0]
def k0_off168 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c166_i32_6146 : BitVec 32 := 166#32
  let c0_i32_6150 : BitVec 32 := 0#32
  let c0_i32_6151 : BitVec 32 := 0#32
  ![v1.toNat, 166, 0, 0]
def k0_off169 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c167_i32_6183 : BitVec 32 := 167#32
  let c0_i32_6187 : BitVec 32 := 0#32
  let c0_i32_6188 : BitVec 32 := 0#32
  ![v1.toNat, 167, 0, 0]
def k0_off170 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c168_i32_6220 : BitVec 32 := 168#32
  let c0_i32_6224 : BitVec 32 := 0#32
  let c0_i32_6225 : BitVec 32 := 0#32
  ![v1.toNat, 168, 0, 0]
def k0_off171 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c169_i32_6257 : BitVec 32 := 169#32
  let c0_i32_6261 : BitVec 32 := 0#32
  let c0_i32_6262 : BitVec 32 := 0#32
  ![v1.toNat, 169, 0, 0]
def k0_off172 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c170_i32_6294 : BitVec 32 := 170#32
  let c0_i32_6298 : BitVec 32 := 0#32
  let c0_i32_6299 : BitVec 32 := 0#32
  ![v1.toNat, 170, 0, 0]
def k0_off173 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c171_i32_6331 : BitVec 32 := 171#32
  let c0_i32_6335 : BitVec 32 := 0#32
  let c0_i32_6336 : BitVec 32 := 0#32
  ![v1.toNat, 171, 0, 0]
def k0_off174 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c172_i32_6368 : BitVec 32 := 172#32
  let c0_i32_6372 : BitVec 32 := 0#32
  let c0_i32_6373 : BitVec 32 := 0#32
  ![v1.toNat, 172, 0, 0]
def k0_off175 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c173_i32_6405 : BitVec 32 := 173#32
  let c0_i32_6409 : BitVec 32 := 0#32
  let c0_i32_6410 : BitVec 32 := 0#32
  ![v1.toNat, 173, 0, 0]
def k0_off176 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c174_i32_6442 : BitVec 32 := 174#32
  let c0_i32_6446 : BitVec 32 := 0#32
  let c0_i32_6447 : BitVec 32 := 0#32
  ![v1.toNat, 174, 0, 0]
def k0_off177 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c175_i32_6479 : BitVec 32 := 175#32
  let c0_i32_6483 : BitVec 32 := 0#32
  let c0_i32_6484 : BitVec 32 := 0#32
  ![v1.toNat, 175, 0, 0]
def k0_off178 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c176_i32_6516 : BitVec 32 := 176#32
  let c0_i32_6520 : BitVec 32 := 0#32
  let c0_i32_6521 : BitVec 32 := 0#32
  ![v1.toNat, 176, 0, 0]
def k0_off179 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c177_i32_6553 : BitVec 32 := 177#32
  let c0_i32_6557 : BitVec 32 := 0#32
  let c0_i32_6558 : BitVec 32 := 0#32
  ![v1.toNat, 177, 0, 0]
def k0_off180 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c178_i32_6590 : BitVec 32 := 178#32
  let c0_i32_6594 : BitVec 32 := 0#32
  let c0_i32_6595 : BitVec 32 := 0#32
  ![v1.toNat, 178, 0, 0]
def k0_off181 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c179_i32_6627 : BitVec 32 := 179#32
  let c0_i32_6631 : BitVec 32 := 0#32
  let c0_i32_6632 : BitVec 32 := 0#32
  ![v1.toNat, 179, 0, 0]
def k0_off182 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c180_i32_6664 : BitVec 32 := 180#32
  let c0_i32_6668 : BitVec 32 := 0#32
  let c0_i32_6669 : BitVec 32 := 0#32
  ![v1.toNat, 180, 0, 0]
def k0_off183 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c181_i32_6701 : BitVec 32 := 181#32
  let c0_i32_6705 : BitVec 32 := 0#32
  let c0_i32_6706 : BitVec 32 := 0#32
  ![v1.toNat, 181, 0, 0]
def k0_off184 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c182_i32_6738 : BitVec 32 := 182#32
  let c0_i32_6742 : BitVec 32 := 0#32
  let c0_i32_6743 : BitVec 32 := 0#32
  ![v1.toNat, 182, 0, 0]
def k0_off185 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c183_i32_6775 : BitVec 32 := 183#32
  let c0_i32_6779 : BitVec 32 := 0#32
  let c0_i32_6780 : BitVec 32 := 0#32
  ![v1.toNat, 183, 0, 0]
def k0_off186 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c184_i32_6812 : BitVec 32 := 184#32
  let c0_i32_6816 : BitVec 32 := 0#32
  let c0_i32_6817 : BitVec 32 := 0#32
  ![v1.toNat, 184, 0, 0]
def k0_off187 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c185_i32_6849 : BitVec 32 := 185#32
  let c0_i32_6853 : BitVec 32 := 0#32
  let c0_i32_6854 : BitVec 32 := 0#32
  ![v1.toNat, 185, 0, 0]
def k0_off188 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c186_i32_6886 : BitVec 32 := 186#32
  let c0_i32_6890 : BitVec 32 := 0#32
  let c0_i32_6891 : BitVec 32 := 0#32
  ![v1.toNat, 186, 0, 0]
def k0_off189 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c187_i32_6923 : BitVec 32 := 187#32
  let c0_i32_6927 : BitVec 32 := 0#32
  let c0_i32_6928 : BitVec 32 := 0#32
  ![v1.toNat, 187, 0, 0]
def k0_off190 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c188_i32_6960 : BitVec 32 := 188#32
  let c0_i32_6964 : BitVec 32 := 0#32
  let c0_i32_6965 : BitVec 32 := 0#32
  ![v1.toNat, 188, 0, 0]
def k0_off191 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c189_i32_6997 : BitVec 32 := 189#32
  let c0_i32_7001 : BitVec 32 := 0#32
  let c0_i32_7002 : BitVec 32 := 0#32
  ![v1.toNat, 189, 0, 0]
def k0_off192 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c190_i32_7034 : BitVec 32 := 190#32
  let c0_i32_7038 : BitVec 32 := 0#32
  let c0_i32_7039 : BitVec 32 := 0#32
  ![v1.toNat, 190, 0, 0]
def k0_off193 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c191_i32_7071 : BitVec 32 := 191#32
  let c0_i32_7075 : BitVec 32 := 0#32
  let c0_i32_7076 : BitVec 32 := 0#32
  ![v1.toNat, 191, 0, 0]
def k0_off194 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32_7108 : BitVec 32 := 192#32
  let c0_i32_7112 : BitVec 32 := 0#32
  let c0_i32_7113 : BitVec 32 := 0#32
  ![v1.toNat, 192, 0, 0]
def k0_off195 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c193_i32_7145 : BitVec 32 := 193#32
  let c0_i32_7149 : BitVec 32 := 0#32
  let c0_i32_7150 : BitVec 32 := 0#32
  ![v1.toNat, 193, 0, 0]
def k0_off196 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c194_i32_7182 : BitVec 32 := 194#32
  let c0_i32_7186 : BitVec 32 := 0#32
  let c0_i32_7187 : BitVec 32 := 0#32
  ![v1.toNat, 194, 0, 0]
def k0_off197 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c195_i32_7219 : BitVec 32 := 195#32
  let c0_i32_7223 : BitVec 32 := 0#32
  let c0_i32_7224 : BitVec 32 := 0#32
  ![v1.toNat, 195, 0, 0]
def k0_off198 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c196_i32_7256 : BitVec 32 := 196#32
  let c0_i32_7260 : BitVec 32 := 0#32
  let c0_i32_7261 : BitVec 32 := 0#32
  ![v1.toNat, 196, 0, 0]
def k0_off199 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c197_i32_7293 : BitVec 32 := 197#32
  let c0_i32_7297 : BitVec 32 := 0#32
  let c0_i32_7298 : BitVec 32 := 0#32
  ![v1.toNat, 197, 0, 0]
def k0_off200 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c198_i32_7330 : BitVec 32 := 198#32
  let c0_i32_7334 : BitVec 32 := 0#32
  let c0_i32_7335 : BitVec 32 := 0#32
  ![v1.toNat, 198, 0, 0]
def k0_off201 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c199_i32_7349 : BitVec 32 := 199#32
  let c0_i32_7353 : BitVec 32 := 0#32
  let c0_i32_7354 : BitVec 32 := 0#32
  ![v1.toNat, 199, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x50_S32x200x128 : S16384x50.ShapeCasts S32x200x128
  squeezes_S1x200x128_S200x128 : S1x200x128.Squeezes S200x128
  inb_S4x128x128_S1x128x128_0_0_0 : ∀ a, (![0, 0, 0] : Fin 3 → Nat) a + S1x128x128.size a ≤ S4x128x128.size a
  squeezes_S1x128x128_S128x128 : S1x128x128.Squeezes S128x128
  inb_S200x128_S1x128_0_0 : ∀ a, (![0, 0] : Fin 2 → Nat) a + S1x128.size a ≤ S200x128.size a
  squeezes_S1x128_S128 : S1x128.Squeezes S128
  inb_S4x128_S4x128_0_0 : ∀ a, (![0, 0] : Fin 2 → Nat) a + S4x128.size a ≤ S4x128.size a
  inb_S4_S1_0 : ∀ a, (![0] : Fin 1 → Nat) a + S1.size a ≤ S4.size a
  squeezes_S1_S_ : S1.Squeezes S_
  gathers_S4x128_S128x128 : S4x128.Gathers 0 S128x128
  inb_S4x128x128_S1x128x128_1_0_0 : ∀ a, (![1, 0, 0] : Fin 3 → Nat) a + S1x128x128.size a ≤ S4x128x128.size a
  inb_S200x128_S1x128_1_0 : ∀ a, (![1, 0] : Fin 2 → Nat) a + S1x128.size a ≤ S200x128.size a
  inb_S4_S1_1 : ∀ a, (![1] : Fin 1 → Nat) a + S1.size a ≤ S4.size a
  squeezes_S1x1x128x128_S128x128 : S1x1x128x128.Squeezes S128x128
  inb_S4x128x128_S1x128x128_2_0_0 : ∀ a, (![2, 0, 0] : Fin 3 → Nat) a + S1x128x128.size a ≤ S4x128x128.size a
  inb_S200x128_S1x128_2_0 : ∀ a, (![2, 0] : Fin 2 → Nat) a + S1x128.size a ≤ S200x128.size a
  inb_S4_S1_2 : ∀ a, (![2] : Fin 1 → Nat) a + S1.size a ≤ S4.size a
  inb_S4x128x128_S1x128x128_3_0_0 : ∀ a, (![3, 0, 0] : Fin 3 → Nat) a + S1x128x128.size a ≤ S4x128x128.size a
  inb_S200x128_S1x128_3_0 : ∀ a, (![3, 0] : Fin 2 → Nat) a + S1x128.size a ≤ S200x128.size a
  inb_S4_S1_3 : ∀ a, (![3] : Fin 1 → Nat) a + S1.size a ≤ S4.size a
  inb_S200x128_S1x128_4_0 : ∀ a, (![4, 0] : Fin 2 → Nat) a + S1x128.size a ≤ S200x128.size a
  inb_S200x128_S1x128_5_0 : ∀ a, (![5, 0] : Fin 2 → Nat) a + S1x128.size a ≤ S200x128.size a
  inb_S200x128_S1x128_6_0 : ∀ a, (![6, 0] : Fin 2 → Nat) a + S1x128.size a ≤ S200x128.size a
  inb_S200x128_S1x128_7_0 : ∀ a, (![7, 0] : Fin 2 → Nat) a + S1x128.size a ≤ S200x128.size a
  inb_S200x128_S1x128_8_0 : ∀ a, (![8, 0] : Fin 2 → Nat) a + S1x128.size a ≤ S200x128.size a
  inb_S200x128_S1x128_9_0 : ∀ a, (![9, 0] : Fin 2 → Nat) a + S1x128.size a ≤ S200x128.size a
  inb_S200x128_S1x128_10_0 : ∀ a, (![10, 0] : Fin 2 → Nat) a + S1x128.size a ≤ S200x128.size a
  inb_S200x128_S1x128_11_0 : ∀ a, (![11, 0] : Fin 2 → Nat) a + S1x128.size a ≤ S200x128.size a
  inb_S200x128_S1x128_12_0 : ∀ a, (![12, 0] : Fin 2 → Nat) a + S1x128.size a ≤ S200x128.size a
  inb_S200x128_S1x128_13_0 : ∀ a, (![13, 0] : Fin 2 → Nat) a + S1x128.size a ≤ S200x128.size a
  inb_S200x128_S1x128_14_0 : ∀ a, (![14, 0] : Fin 2 → Nat) a + S1x128.size a ≤ S200x128.size a
  inb_S200x128_S1x128_15_0 : ∀ a, (![15, 0] : Fin 2 → Nat) a + S1x128.size a ≤ S200x128.size a
  inb_S200x128_S1x128_16_0 : ∀ a, (![16, 0] : Fin 2 → Nat) a + S1x128.size a ≤ S200x128.size a
  inb_S200x128_S1x128_17_0 : ∀ a, (![17, 0] : Fin 2 → Nat) a + S1x128.size a ≤ S200x128.size a
  inb_S200x128_S1x128_18_0 : ∀ a, (![18, 0] : Fin 2 → Nat) a + S1x128.size a ≤ S200x128.size a
  inb_S200x128_S1x128_19_0 : ∀ a, (![19, 0] : Fin 2 → Nat) a + S1x128.size a ≤ S200x128.size a
  inb_S200x128_S1x128_20_0 : ∀ a, (![20, 0] : Fin 2 → Nat) a + S1x128.size a ≤ S200x128.size a
  inb_S200x128_S1x128_21_0 : ∀ a, (![21, 0] : Fin 2 → Nat) a + S1x128.size a ≤ S200x128.size a
  inb_S200x128_S1x128_22_0 : ∀ a, (![22, 0] : Fin 2 → Nat) a + S1x128.size a ≤ S200x128.size a
  inb_S200x128_S1x128_23_0 : ∀ a, (![23, 0] : Fin 2 → Nat) a + S1x128.size a ≤ S200x128.size a
  inb_S200x128_S1x128_24_0 : ∀ a, (![24, 0] : Fin 2 → Nat) a + S1x128.size a ≤ S200x128.size a
  inb_S200x128_S1x128_25_0 : ∀ a, (![25, 0] : Fin 2 → Nat) a + S1x128.size a ≤ S200x128.size a
  inb_S200x128_S1x128_26_0 : ∀ a, (![26, 0] : Fin 2 → Nat) a + S1x128.size a ≤ S200x128.size a
  inb_S200x128_S1x128_27_0 : ∀ a, (![27, 0] : Fin 2 → Nat) a + S1x128.size a ≤ S200x128.size a
  inb_S200x128_S1x128_28_0 : ∀ a, (![28, 0] : Fin 2 → Nat) a + S1x128.size a ≤ S200x128.size a
  inb_S200x128_S1x128_29_0 : ∀ a, (![29, 0] : Fin 2 → Nat) a + S1x128.size a ≤ S200x128.size a
  inb_S200x128_S1x128_30_0 : ∀ a, (![30, 0] : Fin 2 → Nat) a + S1x128.size a ≤ S200x128.size a
  inb_S200x128_S1x128_31_0 : ∀ a, (![31, 0] : Fin 2 → Nat) a + S1x128.size a ≤ S200x128.size a
  inb_S200x128_S1x128_32_0 : ∀ a, (![32, 0] : Fin 2 → Nat) a + S1x128.size a ≤ S200x128.size a
  inb_S200x128_S1x128_33_0 : ∀ a, (![33, 0] : Fin 2 → Nat) a + S1x128.size a ≤ S200x128.size a
  inb_S200x128_S1x128_34_0 : ∀ a, (![34, 0] : Fin 2 → Nat) a + S1x128.size a ≤ S200x128.size a
  inb_S200x128_S1x128_35_0 : ∀ a, (![35, 0] : Fin 2 → Nat) a + S1x128.size a ≤ S200x128.size a
  inb_S200x128_S1x128_36_0 : ∀ a, (![36, 0] : Fin 2 → Nat) a + S1x128.size a ≤ S200x128.size a
  inb_S200x128_S1x128_37_0 : ∀ a, (![37, 0] : Fin 2 → Nat) a + S1x128.size a ≤ S200x128.size a
  inb_S200x128_S1x128_38_0 : ∀ a, (![38, 0] : Fin 2 → Nat) a + S1x128.size a ≤ S200x128.size a
  inb_S200x128_S1x128_39_0 : ∀ a, (![39, 0] : Fin 2 → Nat) a + S1x128.size a ≤ S200x128.size a
  inb_S200x128_S1x128_40_0 : ∀ a, (![40, 0] : Fin 2 → Nat) a + S1x128.size a ≤ S200x128.size a
  inb_S200x128_S1x128_41_0 : ∀ a, (![41, 0] : Fin 2 → Nat) a + S1x128.size a ≤ S200x128.size a
  inb_S200x128_S1x128_42_0 : ∀ a, (![42, 0] : Fin 2 → Nat) a + S1x128.size a ≤ S200x128.size a
  inb_S200x128_S1x128_43_0 : ∀ a, (![43, 0] : Fin 2 → Nat) a + S1x128.size a ≤ S200x128.size a
  inb_S200x128_S1x128_44_0 : ∀ a, (![44, 0] : Fin 2 → Nat) a + S1x128.size a ≤ S200x128.size a
  inb_S200x128_S1x128_45_0 : ∀ a, (![45, 0] : Fin 2 → Nat) a + S1x128.size a ≤ S200x128.size a
  inb_S200x128_S1x128_46_0 : ∀ a, (![46, 0] : Fin 2 → Nat) a + S1x128.size a ≤ S200x128.size a
  inb_S200x128_S1x128_47_0 : ∀ a, (![47, 0] : Fin 2 → Nat) a + S1x128.size a ≤ S200x128.size a
  inb_S200x128_S1x128_48_0 : ∀ a, (![48, 0] : Fin 2 → Nat) a + S1x128.size a ≤ S200x128.size a
  inb_S200x128_S1x128_49_0 : ∀ a, (![49, 0] : Fin 2 → Nat) a + S1x128.size a ≤ S200x128.size a
  inb_S200x128_S1x128_50_0 : ∀ a, (![50, 0] : Fin 2 → Nat) a + S1x128.size a ≤ S200x128.size a
  inb_S200x128_S1x128_51_0 : ∀ a, (![51, 0] : Fin 2 → Nat) a + S1x128.size a ≤ S200x128.size a
  inb_S200x128_S1x128_52_0 : ∀ a, (![52, 0] : Fin 2 → Nat) a + S1x128.size a ≤ S200x128.size a
  inb_S200x128_S1x128_53_0 : ∀ a, (![53, 0] : Fin 2 → Nat) a + S1x128.size a ≤ S200x128.size a
  inb_S200x128_S1x128_54_0 : ∀ a, (![54, 0] : Fin 2 → Nat) a + S1x128.size a ≤ S200x128.size a
  inb_S200x128_S1x128_55_0 : ∀ a, (![55, 0] : Fin 2 → Nat) a + S1x128.size a ≤ S200x128.size a
  inb_S200x128_S1x128_56_0 : ∀ a, (![56, 0] : Fin 2 → Nat) a + S1x128.size a ≤ S200x128.size a
  inb_S200x128_S1x128_57_0 : ∀ a, (![57, 0] : Fin 2 → Nat) a + S1x128.size a ≤ S200x128.size a
  inb_S200x128_S1x128_58_0 : ∀ a, (![58, 0] : Fin 2 → Nat) a + S1x128.size a ≤ S200x128.size a
  inb_S200x128_S1x128_59_0 : ∀ a, (![59, 0] : Fin 2 → Nat) a + S1x128.size a ≤ S200x128.size a
  inb_S200x128_S1x128_60_0 : ∀ a, (![60, 0] : Fin 2 → Nat) a + S1x128.size a ≤ S200x128.size a
  inb_S200x128_S1x128_61_0 : ∀ a, (![61, 0] : Fin 2 → Nat) a + S1x128.size a ≤ S200x128.size a
  inb_S200x128_S1x128_62_0 : ∀ a, (![62, 0] : Fin 2 → Nat) a + S1x128.size a ≤ S200x128.size a
  inb_S200x128_S1x128_63_0 : ∀ a, (![63, 0] : Fin 2 → Nat) a + S1x128.size a ≤ S200x128.size a
  inb_S200x128_S1x128_64_0 : ∀ a, (![64, 0] : Fin 2 → Nat) a + S1x128.size a ≤ S200x128.size a
  inb_S200x128_S1x128_65_0 : ∀ a, (![65, 0] : Fin 2 → Nat) a + S1x128.size a ≤ S200x128.size a
  inb_S200x128_S1x128_66_0 : ∀ a, (![66, 0] : Fin 2 → Nat) a + S1x128.size a ≤ S200x128.size a
  inb_S200x128_S1x128_67_0 : ∀ a, (![67, 0] : Fin 2 → Nat) a + S1x128.size a ≤ S200x128.size a
  inb_S200x128_S1x128_68_0 : ∀ a, (![68, 0] : Fin 2 → Nat) a + S1x128.size a ≤ S200x128.size a
  inb_S200x128_S1x128_69_0 : ∀ a, (![69, 0] : Fin 2 → Nat) a + S1x128.size a ≤ S200x128.size a
  inb_S200x128_S1x128_70_0 : ∀ a, (![70, 0] : Fin 2 → Nat) a + S1x128.size a ≤ S200x128.size a
  inb_S200x128_S1x128_71_0 : ∀ a, (![71, 0] : Fin 2 → Nat) a + S1x128.size a ≤ S200x128.size a
  inb_S200x128_S1x128_72_0 : ∀ a, (![72, 0] : Fin 2 → Nat) a + S1x128.size a ≤ S200x128.size a
  inb_S200x128_S1x128_73_0 : ∀ a, (![73, 0] : Fin 2 → Nat) a + S1x128.size a ≤ S200x128.size a
  inb_S200x128_S1x128_74_0 : ∀ a, (![74, 0] : Fin 2 → Nat) a + S1x128.size a ≤ S200x128.size a
  inb_S200x128_S1x128_75_0 : ∀ a, (![75, 0] : Fin 2 → Nat) a + S1x128.size a ≤ S200x128.size a
  inb_S200x128_S1x128_76_0 : ∀ a, (![76, 0] : Fin 2 → Nat) a + S1x128.size a ≤ S200x128.size a
  inb_S200x128_S1x128_77_0 : ∀ a, (![77, 0] : Fin 2 → Nat) a + S1x128.size a ≤ S200x128.size a
  inb_S200x128_S1x128_78_0 : ∀ a, (![78, 0] : Fin 2 → Nat) a + S1x128.size a ≤ S200x128.size a
  inb_S200x128_S1x128_79_0 : ∀ a, (![79, 0] : Fin 2 → Nat) a + S1x128.size a ≤ S200x128.size a
  inb_S200x128_S1x128_80_0 : ∀ a, (![80, 0] : Fin 2 → Nat) a + S1x128.size a ≤ S200x128.size a
  inb_S200x128_S1x128_81_0 : ∀ a, (![81, 0] : Fin 2 → Nat) a + S1x128.size a ≤ S200x128.size a
  inb_S200x128_S1x128_82_0 : ∀ a, (![82, 0] : Fin 2 → Nat) a + S1x128.size a ≤ S200x128.size a
  inb_S200x128_S1x128_83_0 : ∀ a, (![83, 0] : Fin 2 → Nat) a + S1x128.size a ≤ S200x128.size a
  inb_S200x128_S1x128_84_0 : ∀ a, (![84, 0] : Fin 2 → Nat) a + S1x128.size a ≤ S200x128.size a
  inb_S200x128_S1x128_85_0 : ∀ a, (![85, 0] : Fin 2 → Nat) a + S1x128.size a ≤ S200x128.size a
  inb_S200x128_S1x128_86_0 : ∀ a, (![86, 0] : Fin 2 → Nat) a + S1x128.size a ≤ S200x128.size a
  inb_S200x128_S1x128_87_0 : ∀ a, (![87, 0] : Fin 2 → Nat) a + S1x128.size a ≤ S200x128.size a
  inb_S200x128_S1x128_88_0 : ∀ a, (![88, 0] : Fin 2 → Nat) a + S1x128.size a ≤ S200x128.size a
  inb_S200x128_S1x128_89_0 : ∀ a, (![89, 0] : Fin 2 → Nat) a + S1x128.size a ≤ S200x128.size a
  inb_S200x128_S1x128_90_0 : ∀ a, (![90, 0] : Fin 2 → Nat) a + S1x128.size a ≤ S200x128.size a
  inb_S200x128_S1x128_91_0 : ∀ a, (![91, 0] : Fin 2 → Nat) a + S1x128.size a ≤ S200x128.size a
  inb_S200x128_S1x128_92_0 : ∀ a, (![92, 0] : Fin 2 → Nat) a + S1x128.size a ≤ S200x128.size a
  inb_S200x128_S1x128_93_0 : ∀ a, (![93, 0] : Fin 2 → Nat) a + S1x128.size a ≤ S200x128.size a
  inb_S200x128_S1x128_94_0 : ∀ a, (![94, 0] : Fin 2 → Nat) a + S1x128.size a ≤ S200x128.size a
  inb_S200x128_S1x128_95_0 : ∀ a, (![95, 0] : Fin 2 → Nat) a + S1x128.size a ≤ S200x128.size a
  inb_S200x128_S1x128_96_0 : ∀ a, (![96, 0] : Fin 2 → Nat) a + S1x128.size a ≤ S200x128.size a
  inb_S200x128_S1x128_97_0 : ∀ a, (![97, 0] : Fin 2 → Nat) a + S1x128.size a ≤ S200x128.size a
  inb_S200x128_S1x128_98_0 : ∀ a, (![98, 0] : Fin 2 → Nat) a + S1x128.size a ≤ S200x128.size a
  inb_S200x128_S1x128_99_0 : ∀ a, (![99, 0] : Fin 2 → Nat) a + S1x128.size a ≤ S200x128.size a
  inb_S200x128_S1x128_100_0 : ∀ a, (![100, 0] : Fin 2 → Nat) a + S1x128.size a ≤ S200x128.size a
  inb_S200x128_S1x128_101_0 : ∀ a, (![101, 0] : Fin 2 → Nat) a + S1x128.size a ≤ S200x128.size a
  inb_S200x128_S1x128_102_0 : ∀ a, (![102, 0] : Fin 2 → Nat) a + S1x128.size a ≤ S200x128.size a
  inb_S200x128_S1x128_103_0 : ∀ a, (![103, 0] : Fin 2 → Nat) a + S1x128.size a ≤ S200x128.size a
  inb_S200x128_S1x128_104_0 : ∀ a, (![104, 0] : Fin 2 → Nat) a + S1x128.size a ≤ S200x128.size a
  inb_S200x128_S1x128_105_0 : ∀ a, (![105, 0] : Fin 2 → Nat) a + S1x128.size a ≤ S200x128.size a
  inb_S200x128_S1x128_106_0 : ∀ a, (![106, 0] : Fin 2 → Nat) a + S1x128.size a ≤ S200x128.size a
  inb_S200x128_S1x128_107_0 : ∀ a, (![107, 0] : Fin 2 → Nat) a + S1x128.size a ≤ S200x128.size a
  inb_S200x128_S1x128_108_0 : ∀ a, (![108, 0] : Fin 2 → Nat) a + S1x128.size a ≤ S200x128.size a
  inb_S200x128_S1x128_109_0 : ∀ a, (![109, 0] : Fin 2 → Nat) a + S1x128.size a ≤ S200x128.size a
  inb_S200x128_S1x128_110_0 : ∀ a, (![110, 0] : Fin 2 → Nat) a + S1x128.size a ≤ S200x128.size a
  inb_S200x128_S1x128_111_0 : ∀ a, (![111, 0] : Fin 2 → Nat) a + S1x128.size a ≤ S200x128.size a
  inb_S200x128_S1x128_112_0 : ∀ a, (![112, 0] : Fin 2 → Nat) a + S1x128.size a ≤ S200x128.size a
  inb_S200x128_S1x128_113_0 : ∀ a, (![113, 0] : Fin 2 → Nat) a + S1x128.size a ≤ S200x128.size a
  inb_S200x128_S1x128_114_0 : ∀ a, (![114, 0] : Fin 2 → Nat) a + S1x128.size a ≤ S200x128.size a
  inb_S200x128_S1x128_115_0 : ∀ a, (![115, 0] : Fin 2 → Nat) a + S1x128.size a ≤ S200x128.size a
  inb_S200x128_S1x128_116_0 : ∀ a, (![116, 0] : Fin 2 → Nat) a + S1x128.size a ≤ S200x128.size a
  inb_S200x128_S1x128_117_0 : ∀ a, (![117, 0] : Fin 2 → Nat) a + S1x128.size a ≤ S200x128.size a
  inb_S200x128_S1x128_118_0 : ∀ a, (![118, 0] : Fin 2 → Nat) a + S1x128.size a ≤ S200x128.size a
  inb_S200x128_S1x128_119_0 : ∀ a, (![119, 0] : Fin 2 → Nat) a + S1x128.size a ≤ S200x128.size a
  inb_S200x128_S1x128_120_0 : ∀ a, (![120, 0] : Fin 2 → Nat) a + S1x128.size a ≤ S200x128.size a
  inb_S200x128_S1x128_121_0 : ∀ a, (![121, 0] : Fin 2 → Nat) a + S1x128.size a ≤ S200x128.size a
  inb_S200x128_S1x128_122_0 : ∀ a, (![122, 0] : Fin 2 → Nat) a + S1x128.size a ≤ S200x128.size a
  inb_S200x128_S1x128_123_0 : ∀ a, (![123, 0] : Fin 2 → Nat) a + S1x128.size a ≤ S200x128.size a
  inb_S200x128_S1x128_124_0 : ∀ a, (![124, 0] : Fin 2 → Nat) a + S1x128.size a ≤ S200x128.size a
  inb_S200x128_S1x128_125_0 : ∀ a, (![125, 0] : Fin 2 → Nat) a + S1x128.size a ≤ S200x128.size a
  inb_S200x128_S1x128_126_0 : ∀ a, (![126, 0] : Fin 2 → Nat) a + S1x128.size a ≤ S200x128.size a
  inb_S200x128_S1x128_127_0 : ∀ a, (![127, 0] : Fin 2 → Nat) a + S1x128.size a ≤ S200x128.size a
  inb_S200x128_S1x128_128_0 : ∀ a, (![128, 0] : Fin 2 → Nat) a + S1x128.size a ≤ S200x128.size a
  inb_S200x128_S1x128_129_0 : ∀ a, (![129, 0] : Fin 2 → Nat) a + S1x128.size a ≤ S200x128.size a
  inb_S200x128_S1x128_130_0 : ∀ a, (![130, 0] : Fin 2 → Nat) a + S1x128.size a ≤ S200x128.size a
  inb_S200x128_S1x128_131_0 : ∀ a, (![131, 0] : Fin 2 → Nat) a + S1x128.size a ≤ S200x128.size a
  inb_S200x128_S1x128_132_0 : ∀ a, (![132, 0] : Fin 2 → Nat) a + S1x128.size a ≤ S200x128.size a
  inb_S200x128_S1x128_133_0 : ∀ a, (![133, 0] : Fin 2 → Nat) a + S1x128.size a ≤ S200x128.size a
  inb_S200x128_S1x128_134_0 : ∀ a, (![134, 0] : Fin 2 → Nat) a + S1x128.size a ≤ S200x128.size a
  inb_S200x128_S1x128_135_0 : ∀ a, (![135, 0] : Fin 2 → Nat) a + S1x128.size a ≤ S200x128.size a
  inb_S200x128_S1x128_136_0 : ∀ a, (![136, 0] : Fin 2 → Nat) a + S1x128.size a ≤ S200x128.size a
  inb_S200x128_S1x128_137_0 : ∀ a, (![137, 0] : Fin 2 → Nat) a + S1x128.size a ≤ S200x128.size a
  inb_S200x128_S1x128_138_0 : ∀ a, (![138, 0] : Fin 2 → Nat) a + S1x128.size a ≤ S200x128.size a
  inb_S200x128_S1x128_139_0 : ∀ a, (![139, 0] : Fin 2 → Nat) a + S1x128.size a ≤ S200x128.size a
  inb_S200x128_S1x128_140_0 : ∀ a, (![140, 0] : Fin 2 → Nat) a + S1x128.size a ≤ S200x128.size a
  inb_S200x128_S1x128_141_0 : ∀ a, (![141, 0] : Fin 2 → Nat) a + S1x128.size a ≤ S200x128.size a
  inb_S200x128_S1x128_142_0 : ∀ a, (![142, 0] : Fin 2 → Nat) a + S1x128.size a ≤ S200x128.size a
  inb_S200x128_S1x128_143_0 : ∀ a, (![143, 0] : Fin 2 → Nat) a + S1x128.size a ≤ S200x128.size a
  inb_S200x128_S1x128_144_0 : ∀ a, (![144, 0] : Fin 2 → Nat) a + S1x128.size a ≤ S200x128.size a
  inb_S200x128_S1x128_145_0 : ∀ a, (![145, 0] : Fin 2 → Nat) a + S1x128.size a ≤ S200x128.size a
  inb_S200x128_S1x128_146_0 : ∀ a, (![146, 0] : Fin 2 → Nat) a + S1x128.size a ≤ S200x128.size a
  inb_S200x128_S1x128_147_0 : ∀ a, (![147, 0] : Fin 2 → Nat) a + S1x128.size a ≤ S200x128.size a
  inb_S200x128_S1x128_148_0 : ∀ a, (![148, 0] : Fin 2 → Nat) a + S1x128.size a ≤ S200x128.size a
  inb_S200x128_S1x128_149_0 : ∀ a, (![149, 0] : Fin 2 → Nat) a + S1x128.size a ≤ S200x128.size a
  inb_S200x128_S1x128_150_0 : ∀ a, (![150, 0] : Fin 2 → Nat) a + S1x128.size a ≤ S200x128.size a
  inb_S200x128_S1x128_151_0 : ∀ a, (![151, 0] : Fin 2 → Nat) a + S1x128.size a ≤ S200x128.size a
  inb_S200x128_S1x128_152_0 : ∀ a, (![152, 0] : Fin 2 → Nat) a + S1x128.size a ≤ S200x128.size a
  inb_S200x128_S1x128_153_0 : ∀ a, (![153, 0] : Fin 2 → Nat) a + S1x128.size a ≤ S200x128.size a
  inb_S200x128_S1x128_154_0 : ∀ a, (![154, 0] : Fin 2 → Nat) a + S1x128.size a ≤ S200x128.size a
  inb_S200x128_S1x128_155_0 : ∀ a, (![155, 0] : Fin 2 → Nat) a + S1x128.size a ≤ S200x128.size a
  inb_S200x128_S1x128_156_0 : ∀ a, (![156, 0] : Fin 2 → Nat) a + S1x128.size a ≤ S200x128.size a
  inb_S200x128_S1x128_157_0 : ∀ a, (![157, 0] : Fin 2 → Nat) a + S1x128.size a ≤ S200x128.size a
  inb_S200x128_S1x128_158_0 : ∀ a, (![158, 0] : Fin 2 → Nat) a + S1x128.size a ≤ S200x128.size a
  inb_S200x128_S1x128_159_0 : ∀ a, (![159, 0] : Fin 2 → Nat) a + S1x128.size a ≤ S200x128.size a
  inb_S200x128_S1x128_160_0 : ∀ a, (![160, 0] : Fin 2 → Nat) a + S1x128.size a ≤ S200x128.size a
  inb_S200x128_S1x128_161_0 : ∀ a, (![161, 0] : Fin 2 → Nat) a + S1x128.size a ≤ S200x128.size a
  inb_S200x128_S1x128_162_0 : ∀ a, (![162, 0] : Fin 2 → Nat) a + S1x128.size a ≤ S200x128.size a
  inb_S200x128_S1x128_163_0 : ∀ a, (![163, 0] : Fin 2 → Nat) a + S1x128.size a ≤ S200x128.size a
  inb_S200x128_S1x128_164_0 : ∀ a, (![164, 0] : Fin 2 → Nat) a + S1x128.size a ≤ S200x128.size a
  inb_S200x128_S1x128_165_0 : ∀ a, (![165, 0] : Fin 2 → Nat) a + S1x128.size a ≤ S200x128.size a
  inb_S200x128_S1x128_166_0 : ∀ a, (![166, 0] : Fin 2 → Nat) a + S1x128.size a ≤ S200x128.size a
  inb_S200x128_S1x128_167_0 : ∀ a, (![167, 0] : Fin 2 → Nat) a + S1x128.size a ≤ S200x128.size a
  inb_S200x128_S1x128_168_0 : ∀ a, (![168, 0] : Fin 2 → Nat) a + S1x128.size a ≤ S200x128.size a
  inb_S200x128_S1x128_169_0 : ∀ a, (![169, 0] : Fin 2 → Nat) a + S1x128.size a ≤ S200x128.size a
  inb_S200x128_S1x128_170_0 : ∀ a, (![170, 0] : Fin 2 → Nat) a + S1x128.size a ≤ S200x128.size a
  inb_S200x128_S1x128_171_0 : ∀ a, (![171, 0] : Fin 2 → Nat) a + S1x128.size a ≤ S200x128.size a
  inb_S200x128_S1x128_172_0 : ∀ a, (![172, 0] : Fin 2 → Nat) a + S1x128.size a ≤ S200x128.size a
  inb_S200x128_S1x128_173_0 : ∀ a, (![173, 0] : Fin 2 → Nat) a + S1x128.size a ≤ S200x128.size a
  inb_S200x128_S1x128_174_0 : ∀ a, (![174, 0] : Fin 2 → Nat) a + S1x128.size a ≤ S200x128.size a
  inb_S200x128_S1x128_175_0 : ∀ a, (![175, 0] : Fin 2 → Nat) a + S1x128.size a ≤ S200x128.size a
  inb_S200x128_S1x128_176_0 : ∀ a, (![176, 0] : Fin 2 → Nat) a + S1x128.size a ≤ S200x128.size a
  inb_S200x128_S1x128_177_0 : ∀ a, (![177, 0] : Fin 2 → Nat) a + S1x128.size a ≤ S200x128.size a
  inb_S200x128_S1x128_178_0 : ∀ a, (![178, 0] : Fin 2 → Nat) a + S1x128.size a ≤ S200x128.size a
  inb_S200x128_S1x128_179_0 : ∀ a, (![179, 0] : Fin 2 → Nat) a + S1x128.size a ≤ S200x128.size a
  inb_S200x128_S1x128_180_0 : ∀ a, (![180, 0] : Fin 2 → Nat) a + S1x128.size a ≤ S200x128.size a
  inb_S200x128_S1x128_181_0 : ∀ a, (![181, 0] : Fin 2 → Nat) a + S1x128.size a ≤ S200x128.size a
  inb_S200x128_S1x128_182_0 : ∀ a, (![182, 0] : Fin 2 → Nat) a + S1x128.size a ≤ S200x128.size a
  inb_S200x128_S1x128_183_0 : ∀ a, (![183, 0] : Fin 2 → Nat) a + S1x128.size a ≤ S200x128.size a
  inb_S200x128_S1x128_184_0 : ∀ a, (![184, 0] : Fin 2 → Nat) a + S1x128.size a ≤ S200x128.size a
  inb_S200x128_S1x128_185_0 : ∀ a, (![185, 0] : Fin 2 → Nat) a + S1x128.size a ≤ S200x128.size a
  inb_S200x128_S1x128_186_0 : ∀ a, (![186, 0] : Fin 2 → Nat) a + S1x128.size a ≤ S200x128.size a
  inb_S200x128_S1x128_187_0 : ∀ a, (![187, 0] : Fin 2 → Nat) a + S1x128.size a ≤ S200x128.size a
  inb_S200x128_S1x128_188_0 : ∀ a, (![188, 0] : Fin 2 → Nat) a + S1x128.size a ≤ S200x128.size a
  inb_S200x128_S1x128_189_0 : ∀ a, (![189, 0] : Fin 2 → Nat) a + S1x128.size a ≤ S200x128.size a
  inb_S200x128_S1x128_190_0 : ∀ a, (![190, 0] : Fin 2 → Nat) a + S1x128.size a ≤ S200x128.size a
  inb_S200x128_S1x128_191_0 : ∀ a, (![191, 0] : Fin 2 → Nat) a + S1x128.size a ≤ S200x128.size a
  inb_S200x128_S1x128_192_0 : ∀ a, (![192, 0] : Fin 2 → Nat) a + S1x128.size a ≤ S200x128.size a
  inb_S200x128_S1x128_193_0 : ∀ a, (![193, 0] : Fin 2 → Nat) a + S1x128.size a ≤ S200x128.size a
  inb_S200x128_S1x128_194_0 : ∀ a, (![194, 0] : Fin 2 → Nat) a + S1x128.size a ≤ S200x128.size a
  inb_S200x128_S1x128_195_0 : ∀ a, (![195, 0] : Fin 2 → Nat) a + S1x128.size a ≤ S200x128.size a
  inb_S200x128_S1x128_196_0 : ∀ a, (![196, 0] : Fin 2 → Nat) a + S1x128.size a ≤ S200x128.size a
  inb_S200x128_S1x128_197_0 : ∀ a, (![197, 0] : Fin 2 → Nat) a + S1x128.size a ≤ S200x128.size a
  inb_S200x128_S1x128_198_0 : ∀ a, (![198, 0] : Fin 2 → Nat) a + S1x128.size a ≤ S200x128.size a
  inb_S200x128_S1x128_199_0 : ∀ a, (![199, 0] : Fin 2 → Nat) a + S1x128.size a ≤ S200x128.size a
  shapeCasts_S32x200x128x128_S1x819200x128 : S32x200x128x128.ShapeCasts S1x819200x128
  hcc0_scratch3 : 0 + S4.numel ≤ 10
  hcc0_scratch4 : 4 + S4.numel ≤ 10
  hcc0_scoped0 : 8 + S_.numel ≤ 10
  hcc0_scoped1 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x200x128.size a ≤ S32x200x128.size a
  k0_off2_inb : ∀ i : grid0.Coords, ∀ a, (k0_off2 i) a + S1x1x128x128.size a ≤ S32x200x128x128.size a
  k0_off3_inb : ∀ i : grid0.Coords, ∀ a, (k0_off3 i) a + S1x1x128x128.size a ≤ S32x200x128x128.size a
  k0_off4_inb : ∀ i : grid0.Coords, ∀ a, (k0_off4 i) a + S1x1x128x128.size a ≤ S32x200x128x128.size a
  k0_off5_inb : ∀ i : grid0.Coords, ∀ a, (k0_off5 i) a + S1x1x128x128.size a ≤ S32x200x128x128.size a
  k0_off6_inb : ∀ i : grid0.Coords, ∀ a, (k0_off6 i) a + S1x1x128x128.size a ≤ S32x200x128x128.size a
  k0_off7_inb : ∀ i : grid0.Coords, ∀ a, (k0_off7 i) a + S1x1x128x128.size a ≤ S32x200x128x128.size a
  k0_off8_inb : ∀ i : grid0.Coords, ∀ a, (k0_off8 i) a + S1x1x128x128.size a ≤ S32x200x128x128.size a
  k0_off9_inb : ∀ i : grid0.Coords, ∀ a, (k0_off9 i) a + S1x1x128x128.size a ≤ S32x200x128x128.size a
  k0_off10_inb : ∀ i : grid0.Coords, ∀ a, (k0_off10 i) a + S1x1x128x128.size a ≤ S32x200x128x128.size a
  k0_off11_inb : ∀ i : grid0.Coords, ∀ a, (k0_off11 i) a + S1x1x128x128.size a ≤ S32x200x128x128.size a
  k0_off12_inb : ∀ i : grid0.Coords, ∀ a, (k0_off12 i) a + S1x1x128x128.size a ≤ S32x200x128x128.size a
  k0_off13_inb : ∀ i : grid0.Coords, ∀ a, (k0_off13 i) a + S1x1x128x128.size a ≤ S32x200x128x128.size a
  k0_off14_inb : ∀ i : grid0.Coords, ∀ a, (k0_off14 i) a + S1x1x128x128.size a ≤ S32x200x128x128.size a
  k0_off15_inb : ∀ i : grid0.Coords, ∀ a, (k0_off15 i) a + S1x1x128x128.size a ≤ S32x200x128x128.size a
  k0_off16_inb : ∀ i : grid0.Coords, ∀ a, (k0_off16 i) a + S1x1x128x128.size a ≤ S32x200x128x128.size a
  k0_off17_inb : ∀ i : grid0.Coords, ∀ a, (k0_off17 i) a + S1x1x128x128.size a ≤ S32x200x128x128.size a
  k0_off18_inb : ∀ i : grid0.Coords, ∀ a, (k0_off18 i) a + S1x1x128x128.size a ≤ S32x200x128x128.size a
  k0_off19_inb : ∀ i : grid0.Coords, ∀ a, (k0_off19 i) a + S1x1x128x128.size a ≤ S32x200x128x128.size a
  k0_off20_inb : ∀ i : grid0.Coords, ∀ a, (k0_off20 i) a + S1x1x128x128.size a ≤ S32x200x128x128.size a
  k0_off21_inb : ∀ i : grid0.Coords, ∀ a, (k0_off21 i) a + S1x1x128x128.size a ≤ S32x200x128x128.size a
  k0_off22_inb : ∀ i : grid0.Coords, ∀ a, (k0_off22 i) a + S1x1x128x128.size a ≤ S32x200x128x128.size a
  k0_off23_inb : ∀ i : grid0.Coords, ∀ a, (k0_off23 i) a + S1x1x128x128.size a ≤ S32x200x128x128.size a
  k0_off24_inb : ∀ i : grid0.Coords, ∀ a, (k0_off24 i) a + S1x1x128x128.size a ≤ S32x200x128x128.size a
  k0_off25_inb : ∀ i : grid0.Coords, ∀ a, (k0_off25 i) a + S1x1x128x128.size a ≤ S32x200x128x128.size a
  k0_off26_inb : ∀ i : grid0.Coords, ∀ a, (k0_off26 i) a + S1x1x128x128.size a ≤ S32x200x128x128.size a
  k0_off27_inb : ∀ i : grid0.Coords, ∀ a, (k0_off27 i) a + S1x1x128x128.size a ≤ S32x200x128x128.size a
  k0_off28_inb : ∀ i : grid0.Coords, ∀ a, (k0_off28 i) a + S1x1x128x128.size a ≤ S32x200x128x128.size a
  k0_off29_inb : ∀ i : grid0.Coords, ∀ a, (k0_off29 i) a + S1x1x128x128.size a ≤ S32x200x128x128.size a
  k0_off30_inb : ∀ i : grid0.Coords, ∀ a, (k0_off30 i) a + S1x1x128x128.size a ≤ S32x200x128x128.size a
  k0_off31_inb : ∀ i : grid0.Coords, ∀ a, (k0_off31 i) a + S1x1x128x128.size a ≤ S32x200x128x128.size a
  k0_off32_inb : ∀ i : grid0.Coords, ∀ a, (k0_off32 i) a + S1x1x128x128.size a ≤ S32x200x128x128.size a
  k0_off33_inb : ∀ i : grid0.Coords, ∀ a, (k0_off33 i) a + S1x1x128x128.size a ≤ S32x200x128x128.size a
  k0_off34_inb : ∀ i : grid0.Coords, ∀ a, (k0_off34 i) a + S1x1x128x128.size a ≤ S32x200x128x128.size a
  k0_off35_inb : ∀ i : grid0.Coords, ∀ a, (k0_off35 i) a + S1x1x128x128.size a ≤ S32x200x128x128.size a
  k0_off36_inb : ∀ i : grid0.Coords, ∀ a, (k0_off36 i) a + S1x1x128x128.size a ≤ S32x200x128x128.size a
  k0_off37_inb : ∀ i : grid0.Coords, ∀ a, (k0_off37 i) a + S1x1x128x128.size a ≤ S32x200x128x128.size a
  k0_off38_inb : ∀ i : grid0.Coords, ∀ a, (k0_off38 i) a + S1x1x128x128.size a ≤ S32x200x128x128.size a
  k0_off39_inb : ∀ i : grid0.Coords, ∀ a, (k0_off39 i) a + S1x1x128x128.size a ≤ S32x200x128x128.size a
  k0_off40_inb : ∀ i : grid0.Coords, ∀ a, (k0_off40 i) a + S1x1x128x128.size a ≤ S32x200x128x128.size a
  k0_off41_inb : ∀ i : grid0.Coords, ∀ a, (k0_off41 i) a + S1x1x128x128.size a ≤ S32x200x128x128.size a
  k0_off42_inb : ∀ i : grid0.Coords, ∀ a, (k0_off42 i) a + S1x1x128x128.size a ≤ S32x200x128x128.size a
  k0_off43_inb : ∀ i : grid0.Coords, ∀ a, (k0_off43 i) a + S1x1x128x128.size a ≤ S32x200x128x128.size a
  k0_off44_inb : ∀ i : grid0.Coords, ∀ a, (k0_off44 i) a + S1x1x128x128.size a ≤ S32x200x128x128.size a
  k0_off45_inb : ∀ i : grid0.Coords, ∀ a, (k0_off45 i) a + S1x1x128x128.size a ≤ S32x200x128x128.size a
  k0_off46_inb : ∀ i : grid0.Coords, ∀ a, (k0_off46 i) a + S1x1x128x128.size a ≤ S32x200x128x128.size a
  k0_off47_inb : ∀ i : grid0.Coords, ∀ a, (k0_off47 i) a + S1x1x128x128.size a ≤ S32x200x128x128.size a
  k0_off48_inb : ∀ i : grid0.Coords, ∀ a, (k0_off48 i) a + S1x1x128x128.size a ≤ S32x200x128x128.size a
  k0_off49_inb : ∀ i : grid0.Coords, ∀ a, (k0_off49 i) a + S1x1x128x128.size a ≤ S32x200x128x128.size a
  k0_off50_inb : ∀ i : grid0.Coords, ∀ a, (k0_off50 i) a + S1x1x128x128.size a ≤ S32x200x128x128.size a
  k0_off51_inb : ∀ i : grid0.Coords, ∀ a, (k0_off51 i) a + S1x1x128x128.size a ≤ S32x200x128x128.size a
  k0_off52_inb : ∀ i : grid0.Coords, ∀ a, (k0_off52 i) a + S1x1x128x128.size a ≤ S32x200x128x128.size a
  k0_off53_inb : ∀ i : grid0.Coords, ∀ a, (k0_off53 i) a + S1x1x128x128.size a ≤ S32x200x128x128.size a
  k0_off54_inb : ∀ i : grid0.Coords, ∀ a, (k0_off54 i) a + S1x1x128x128.size a ≤ S32x200x128x128.size a
  k0_off55_inb : ∀ i : grid0.Coords, ∀ a, (k0_off55 i) a + S1x1x128x128.size a ≤ S32x200x128x128.size a
  k0_off56_inb : ∀ i : grid0.Coords, ∀ a, (k0_off56 i) a + S1x1x128x128.size a ≤ S32x200x128x128.size a
  k0_off57_inb : ∀ i : grid0.Coords, ∀ a, (k0_off57 i) a + S1x1x128x128.size a ≤ S32x200x128x128.size a
  k0_off58_inb : ∀ i : grid0.Coords, ∀ a, (k0_off58 i) a + S1x1x128x128.size a ≤ S32x200x128x128.size a
  k0_off59_inb : ∀ i : grid0.Coords, ∀ a, (k0_off59 i) a + S1x1x128x128.size a ≤ S32x200x128x128.size a
  k0_off60_inb : ∀ i : grid0.Coords, ∀ a, (k0_off60 i) a + S1x1x128x128.size a ≤ S32x200x128x128.size a
  k0_off61_inb : ∀ i : grid0.Coords, ∀ a, (k0_off61 i) a + S1x1x128x128.size a ≤ S32x200x128x128.size a
  k0_off62_inb : ∀ i : grid0.Coords, ∀ a, (k0_off62 i) a + S1x1x128x128.size a ≤ S32x200x128x128.size a
  k0_off63_inb : ∀ i : grid0.Coords, ∀ a, (k0_off63 i) a + S1x1x128x128.size a ≤ S32x200x128x128.size a
  k0_off64_inb : ∀ i : grid0.Coords, ∀ a, (k0_off64 i) a + S1x1x128x128.size a ≤ S32x200x128x128.size a
  k0_off65_inb : ∀ i : grid0.Coords, ∀ a, (k0_off65 i) a + S1x1x128x128.size a ≤ S32x200x128x128.size a
  k0_off66_inb : ∀ i : grid0.Coords, ∀ a, (k0_off66 i) a + S1x1x128x128.size a ≤ S32x200x128x128.size a
  k0_off67_inb : ∀ i : grid0.Coords, ∀ a, (k0_off67 i) a + S1x1x128x128.size a ≤ S32x200x128x128.size a
  k0_off68_inb : ∀ i : grid0.Coords, ∀ a, (k0_off68 i) a + S1x1x128x128.size a ≤ S32x200x128x128.size a
  k0_off69_inb : ∀ i : grid0.Coords, ∀ a, (k0_off69 i) a + S1x1x128x128.size a ≤ S32x200x128x128.size a
  k0_off70_inb : ∀ i : grid0.Coords, ∀ a, (k0_off70 i) a + S1x1x128x128.size a ≤ S32x200x128x128.size a
  k0_off71_inb : ∀ i : grid0.Coords, ∀ a, (k0_off71 i) a + S1x1x128x128.size a ≤ S32x200x128x128.size a
  k0_off72_inb : ∀ i : grid0.Coords, ∀ a, (k0_off72 i) a + S1x1x128x128.size a ≤ S32x200x128x128.size a
  k0_off73_inb : ∀ i : grid0.Coords, ∀ a, (k0_off73 i) a + S1x1x128x128.size a ≤ S32x200x128x128.size a
  k0_off74_inb : ∀ i : grid0.Coords, ∀ a, (k0_off74 i) a + S1x1x128x128.size a ≤ S32x200x128x128.size a
  k0_off75_inb : ∀ i : grid0.Coords, ∀ a, (k0_off75 i) a + S1x1x128x128.size a ≤ S32x200x128x128.size a
  k0_off76_inb : ∀ i : grid0.Coords, ∀ a, (k0_off76 i) a + S1x1x128x128.size a ≤ S32x200x128x128.size a
  k0_off77_inb : ∀ i : grid0.Coords, ∀ a, (k0_off77 i) a + S1x1x128x128.size a ≤ S32x200x128x128.size a
  k0_off78_inb : ∀ i : grid0.Coords, ∀ a, (k0_off78 i) a + S1x1x128x128.size a ≤ S32x200x128x128.size a
  k0_off79_inb : ∀ i : grid0.Coords, ∀ a, (k0_off79 i) a + S1x1x128x128.size a ≤ S32x200x128x128.size a
  k0_off80_inb : ∀ i : grid0.Coords, ∀ a, (k0_off80 i) a + S1x1x128x128.size a ≤ S32x200x128x128.size a
  k0_off81_inb : ∀ i : grid0.Coords, ∀ a, (k0_off81 i) a + S1x1x128x128.size a ≤ S32x200x128x128.size a
  k0_off82_inb : ∀ i : grid0.Coords, ∀ a, (k0_off82 i) a + S1x1x128x128.size a ≤ S32x200x128x128.size a
  k0_off83_inb : ∀ i : grid0.Coords, ∀ a, (k0_off83 i) a + S1x1x128x128.size a ≤ S32x200x128x128.size a
  k0_off84_inb : ∀ i : grid0.Coords, ∀ a, (k0_off84 i) a + S1x1x128x128.size a ≤ S32x200x128x128.size a
  k0_off85_inb : ∀ i : grid0.Coords, ∀ a, (k0_off85 i) a + S1x1x128x128.size a ≤ S32x200x128x128.size a
  k0_off86_inb : ∀ i : grid0.Coords, ∀ a, (k0_off86 i) a + S1x1x128x128.size a ≤ S32x200x128x128.size a
  k0_off87_inb : ∀ i : grid0.Coords, ∀ a, (k0_off87 i) a + S1x1x128x128.size a ≤ S32x200x128x128.size a
  k0_off88_inb : ∀ i : grid0.Coords, ∀ a, (k0_off88 i) a + S1x1x128x128.size a ≤ S32x200x128x128.size a
  k0_off89_inb : ∀ i : grid0.Coords, ∀ a, (k0_off89 i) a + S1x1x128x128.size a ≤ S32x200x128x128.size a
  k0_off90_inb : ∀ i : grid0.Coords, ∀ a, (k0_off90 i) a + S1x1x128x128.size a ≤ S32x200x128x128.size a
  k0_off91_inb : ∀ i : grid0.Coords, ∀ a, (k0_off91 i) a + S1x1x128x128.size a ≤ S32x200x128x128.size a
  k0_off92_inb : ∀ i : grid0.Coords, ∀ a, (k0_off92 i) a + S1x1x128x128.size a ≤ S32x200x128x128.size a
  k0_off93_inb : ∀ i : grid0.Coords, ∀ a, (k0_off93 i) a + S1x1x128x128.size a ≤ S32x200x128x128.size a
  k0_off94_inb : ∀ i : grid0.Coords, ∀ a, (k0_off94 i) a + S1x1x128x128.size a ≤ S32x200x128x128.size a
  k0_off95_inb : ∀ i : grid0.Coords, ∀ a, (k0_off95 i) a + S1x1x128x128.size a ≤ S32x200x128x128.size a
  k0_off96_inb : ∀ i : grid0.Coords, ∀ a, (k0_off96 i) a + S1x1x128x128.size a ≤ S32x200x128x128.size a
  k0_off97_inb : ∀ i : grid0.Coords, ∀ a, (k0_off97 i) a + S1x1x128x128.size a ≤ S32x200x128x128.size a
  k0_off98_inb : ∀ i : grid0.Coords, ∀ a, (k0_off98 i) a + S1x1x128x128.size a ≤ S32x200x128x128.size a
  k0_off99_inb : ∀ i : grid0.Coords, ∀ a, (k0_off99 i) a + S1x1x128x128.size a ≤ S32x200x128x128.size a
  k0_off100_inb : ∀ i : grid0.Coords, ∀ a, (k0_off100 i) a + S1x1x128x128.size a ≤ S32x200x128x128.size a
  k0_off101_inb : ∀ i : grid0.Coords, ∀ a, (k0_off101 i) a + S1x1x128x128.size a ≤ S32x200x128x128.size a
  k0_off102_inb : ∀ i : grid0.Coords, ∀ a, (k0_off102 i) a + S1x1x128x128.size a ≤ S32x200x128x128.size a
  k0_off103_inb : ∀ i : grid0.Coords, ∀ a, (k0_off103 i) a + S1x1x128x128.size a ≤ S32x200x128x128.size a
  k0_off104_inb : ∀ i : grid0.Coords, ∀ a, (k0_off104 i) a + S1x1x128x128.size a ≤ S32x200x128x128.size a
  k0_off105_inb : ∀ i : grid0.Coords, ∀ a, (k0_off105 i) a + S1x1x128x128.size a ≤ S32x200x128x128.size a
  k0_off106_inb : ∀ i : grid0.Coords, ∀ a, (k0_off106 i) a + S1x1x128x128.size a ≤ S32x200x128x128.size a
  k0_off107_inb : ∀ i : grid0.Coords, ∀ a, (k0_off107 i) a + S1x1x128x128.size a ≤ S32x200x128x128.size a
  k0_off108_inb : ∀ i : grid0.Coords, ∀ a, (k0_off108 i) a + S1x1x128x128.size a ≤ S32x200x128x128.size a
  k0_off109_inb : ∀ i : grid0.Coords, ∀ a, (k0_off109 i) a + S1x1x128x128.size a ≤ S32x200x128x128.size a
  k0_off110_inb : ∀ i : grid0.Coords, ∀ a, (k0_off110 i) a + S1x1x128x128.size a ≤ S32x200x128x128.size a
  k0_off111_inb : ∀ i : grid0.Coords, ∀ a, (k0_off111 i) a + S1x1x128x128.size a ≤ S32x200x128x128.size a
  k0_off112_inb : ∀ i : grid0.Coords, ∀ a, (k0_off112 i) a + S1x1x128x128.size a ≤ S32x200x128x128.size a
  k0_off113_inb : ∀ i : grid0.Coords, ∀ a, (k0_off113 i) a + S1x1x128x128.size a ≤ S32x200x128x128.size a
  k0_off114_inb : ∀ i : grid0.Coords, ∀ a, (k0_off114 i) a + S1x1x128x128.size a ≤ S32x200x128x128.size a
  k0_off115_inb : ∀ i : grid0.Coords, ∀ a, (k0_off115 i) a + S1x1x128x128.size a ≤ S32x200x128x128.size a
  k0_off116_inb : ∀ i : grid0.Coords, ∀ a, (k0_off116 i) a + S1x1x128x128.size a ≤ S32x200x128x128.size a
  k0_off117_inb : ∀ i : grid0.Coords, ∀ a, (k0_off117 i) a + S1x1x128x128.size a ≤ S32x200x128x128.size a
  k0_off118_inb : ∀ i : grid0.Coords, ∀ a, (k0_off118 i) a + S1x1x128x128.size a ≤ S32x200x128x128.size a
  k0_off119_inb : ∀ i : grid0.Coords, ∀ a, (k0_off119 i) a + S1x1x128x128.size a ≤ S32x200x128x128.size a
  k0_off120_inb : ∀ i : grid0.Coords, ∀ a, (k0_off120 i) a + S1x1x128x128.size a ≤ S32x200x128x128.size a
  k0_off121_inb : ∀ i : grid0.Coords, ∀ a, (k0_off121 i) a + S1x1x128x128.size a ≤ S32x200x128x128.size a
  k0_off122_inb : ∀ i : grid0.Coords, ∀ a, (k0_off122 i) a + S1x1x128x128.size a ≤ S32x200x128x128.size a
  k0_off123_inb : ∀ i : grid0.Coords, ∀ a, (k0_off123 i) a + S1x1x128x128.size a ≤ S32x200x128x128.size a
  k0_off124_inb : ∀ i : grid0.Coords, ∀ a, (k0_off124 i) a + S1x1x128x128.size a ≤ S32x200x128x128.size a
  k0_off125_inb : ∀ i : grid0.Coords, ∀ a, (k0_off125 i) a + S1x1x128x128.size a ≤ S32x200x128x128.size a
  k0_off126_inb : ∀ i : grid0.Coords, ∀ a, (k0_off126 i) a + S1x1x128x128.size a ≤ S32x200x128x128.size a
  k0_off127_inb : ∀ i : grid0.Coords, ∀ a, (k0_off127 i) a + S1x1x128x128.size a ≤ S32x200x128x128.size a
  k0_off128_inb : ∀ i : grid0.Coords, ∀ a, (k0_off128 i) a + S1x1x128x128.size a ≤ S32x200x128x128.size a
  k0_off129_inb : ∀ i : grid0.Coords, ∀ a, (k0_off129 i) a + S1x1x128x128.size a ≤ S32x200x128x128.size a
  k0_off130_inb : ∀ i : grid0.Coords, ∀ a, (k0_off130 i) a + S1x1x128x128.size a ≤ S32x200x128x128.size a
  k0_off131_inb : ∀ i : grid0.Coords, ∀ a, (k0_off131 i) a + S1x1x128x128.size a ≤ S32x200x128x128.size a
  k0_off132_inb : ∀ i : grid0.Coords, ∀ a, (k0_off132 i) a + S1x1x128x128.size a ≤ S32x200x128x128.size a
  k0_off133_inb : ∀ i : grid0.Coords, ∀ a, (k0_off133 i) a + S1x1x128x128.size a ≤ S32x200x128x128.size a
  k0_off134_inb : ∀ i : grid0.Coords, ∀ a, (k0_off134 i) a + S1x1x128x128.size a ≤ S32x200x128x128.size a
  k0_off135_inb : ∀ i : grid0.Coords, ∀ a, (k0_off135 i) a + S1x1x128x128.size a ≤ S32x200x128x128.size a
  k0_off136_inb : ∀ i : grid0.Coords, ∀ a, (k0_off136 i) a + S1x1x128x128.size a ≤ S32x200x128x128.size a
  k0_off137_inb : ∀ i : grid0.Coords, ∀ a, (k0_off137 i) a + S1x1x128x128.size a ≤ S32x200x128x128.size a
  k0_off138_inb : ∀ i : grid0.Coords, ∀ a, (k0_off138 i) a + S1x1x128x128.size a ≤ S32x200x128x128.size a
  k0_off139_inb : ∀ i : grid0.Coords, ∀ a, (k0_off139 i) a + S1x1x128x128.size a ≤ S32x200x128x128.size a
  k0_off140_inb : ∀ i : grid0.Coords, ∀ a, (k0_off140 i) a + S1x1x128x128.size a ≤ S32x200x128x128.size a
  k0_off141_inb : ∀ i : grid0.Coords, ∀ a, (k0_off141 i) a + S1x1x128x128.size a ≤ S32x200x128x128.size a
  k0_off142_inb : ∀ i : grid0.Coords, ∀ a, (k0_off142 i) a + S1x1x128x128.size a ≤ S32x200x128x128.size a
  k0_off143_inb : ∀ i : grid0.Coords, ∀ a, (k0_off143 i) a + S1x1x128x128.size a ≤ S32x200x128x128.size a
  k0_off144_inb : ∀ i : grid0.Coords, ∀ a, (k0_off144 i) a + S1x1x128x128.size a ≤ S32x200x128x128.size a
  k0_off145_inb : ∀ i : grid0.Coords, ∀ a, (k0_off145 i) a + S1x1x128x128.size a ≤ S32x200x128x128.size a
  k0_off146_inb : ∀ i : grid0.Coords, ∀ a, (k0_off146 i) a + S1x1x128x128.size a ≤ S32x200x128x128.size a
  k0_off147_inb : ∀ i : grid0.Coords, ∀ a, (k0_off147 i) a + S1x1x128x128.size a ≤ S32x200x128x128.size a
  k0_off148_inb : ∀ i : grid0.Coords, ∀ a, (k0_off148 i) a + S1x1x128x128.size a ≤ S32x200x128x128.size a
  k0_off149_inb : ∀ i : grid0.Coords, ∀ a, (k0_off149 i) a + S1x1x128x128.size a ≤ S32x200x128x128.size a
  k0_off150_inb : ∀ i : grid0.Coords, ∀ a, (k0_off150 i) a + S1x1x128x128.size a ≤ S32x200x128x128.size a
  k0_off151_inb : ∀ i : grid0.Coords, ∀ a, (k0_off151 i) a + S1x1x128x128.size a ≤ S32x200x128x128.size a
  k0_off152_inb : ∀ i : grid0.Coords, ∀ a, (k0_off152 i) a + S1x1x128x128.size a ≤ S32x200x128x128.size a
  k0_off153_inb : ∀ i : grid0.Coords, ∀ a, (k0_off153 i) a + S1x1x128x128.size a ≤ S32x200x128x128.size a
  k0_off154_inb : ∀ i : grid0.Coords, ∀ a, (k0_off154 i) a + S1x1x128x128.size a ≤ S32x200x128x128.size a
  k0_off155_inb : ∀ i : grid0.Coords, ∀ a, (k0_off155 i) a + S1x1x128x128.size a ≤ S32x200x128x128.size a
  k0_off156_inb : ∀ i : grid0.Coords, ∀ a, (k0_off156 i) a + S1x1x128x128.size a ≤ S32x200x128x128.size a
  k0_off157_inb : ∀ i : grid0.Coords, ∀ a, (k0_off157 i) a + S1x1x128x128.size a ≤ S32x200x128x128.size a
  k0_off158_inb : ∀ i : grid0.Coords, ∀ a, (k0_off158 i) a + S1x1x128x128.size a ≤ S32x200x128x128.size a
  k0_off159_inb : ∀ i : grid0.Coords, ∀ a, (k0_off159 i) a + S1x1x128x128.size a ≤ S32x200x128x128.size a
  k0_off160_inb : ∀ i : grid0.Coords, ∀ a, (k0_off160 i) a + S1x1x128x128.size a ≤ S32x200x128x128.size a
  k0_off161_inb : ∀ i : grid0.Coords, ∀ a, (k0_off161 i) a + S1x1x128x128.size a ≤ S32x200x128x128.size a
  k0_off162_inb : ∀ i : grid0.Coords, ∀ a, (k0_off162 i) a + S1x1x128x128.size a ≤ S32x200x128x128.size a
  k0_off163_inb : ∀ i : grid0.Coords, ∀ a, (k0_off163 i) a + S1x1x128x128.size a ≤ S32x200x128x128.size a
  k0_off164_inb : ∀ i : grid0.Coords, ∀ a, (k0_off164 i) a + S1x1x128x128.size a ≤ S32x200x128x128.size a
  k0_off165_inb : ∀ i : grid0.Coords, ∀ a, (k0_off165 i) a + S1x1x128x128.size a ≤ S32x200x128x128.size a
  k0_off166_inb : ∀ i : grid0.Coords, ∀ a, (k0_off166 i) a + S1x1x128x128.size a ≤ S32x200x128x128.size a
  k0_off167_inb : ∀ i : grid0.Coords, ∀ a, (k0_off167 i) a + S1x1x128x128.size a ≤ S32x200x128x128.size a
  k0_off168_inb : ∀ i : grid0.Coords, ∀ a, (k0_off168 i) a + S1x1x128x128.size a ≤ S32x200x128x128.size a
  k0_off169_inb : ∀ i : grid0.Coords, ∀ a, (k0_off169 i) a + S1x1x128x128.size a ≤ S32x200x128x128.size a
  k0_off170_inb : ∀ i : grid0.Coords, ∀ a, (k0_off170 i) a + S1x1x128x128.size a ≤ S32x200x128x128.size a
  k0_off171_inb : ∀ i : grid0.Coords, ∀ a, (k0_off171 i) a + S1x1x128x128.size a ≤ S32x200x128x128.size a
  k0_off172_inb : ∀ i : grid0.Coords, ∀ a, (k0_off172 i) a + S1x1x128x128.size a ≤ S32x200x128x128.size a
  k0_off173_inb : ∀ i : grid0.Coords, ∀ a, (k0_off173 i) a + S1x1x128x128.size a ≤ S32x200x128x128.size a
  k0_off174_inb : ∀ i : grid0.Coords, ∀ a, (k0_off174 i) a + S1x1x128x128.size a ≤ S32x200x128x128.size a
  k0_off175_inb : ∀ i : grid0.Coords, ∀ a, (k0_off175 i) a + S1x1x128x128.size a ≤ S32x200x128x128.size a
  k0_off176_inb : ∀ i : grid0.Coords, ∀ a, (k0_off176 i) a + S1x1x128x128.size a ≤ S32x200x128x128.size a
  k0_off177_inb : ∀ i : grid0.Coords, ∀ a, (k0_off177 i) a + S1x1x128x128.size a ≤ S32x200x128x128.size a
  k0_off178_inb : ∀ i : grid0.Coords, ∀ a, (k0_off178 i) a + S1x1x128x128.size a ≤ S32x200x128x128.size a
  k0_off179_inb : ∀ i : grid0.Coords, ∀ a, (k0_off179 i) a + S1x1x128x128.size a ≤ S32x200x128x128.size a
  k0_off180_inb : ∀ i : grid0.Coords, ∀ a, (k0_off180 i) a + S1x1x128x128.size a ≤ S32x200x128x128.size a
  k0_off181_inb : ∀ i : grid0.Coords, ∀ a, (k0_off181 i) a + S1x1x128x128.size a ≤ S32x200x128x128.size a
  k0_off182_inb : ∀ i : grid0.Coords, ∀ a, (k0_off182 i) a + S1x1x128x128.size a ≤ S32x200x128x128.size a
  k0_off183_inb : ∀ i : grid0.Coords, ∀ a, (k0_off183 i) a + S1x1x128x128.size a ≤ S32x200x128x128.size a
  k0_off184_inb : ∀ i : grid0.Coords, ∀ a, (k0_off184 i) a + S1x1x128x128.size a ≤ S32x200x128x128.size a
  k0_off185_inb : ∀ i : grid0.Coords, ∀ a, (k0_off185 i) a + S1x1x128x128.size a ≤ S32x200x128x128.size a
  k0_off186_inb : ∀ i : grid0.Coords, ∀ a, (k0_off186 i) a + S1x1x128x128.size a ≤ S32x200x128x128.size a
  k0_off187_inb : ∀ i : grid0.Coords, ∀ a, (k0_off187 i) a + S1x1x128x128.size a ≤ S32x200x128x128.size a
  k0_off188_inb : ∀ i : grid0.Coords, ∀ a, (k0_off188 i) a + S1x1x128x128.size a ≤ S32x200x128x128.size a
  k0_off189_inb : ∀ i : grid0.Coords, ∀ a, (k0_off189 i) a + S1x1x128x128.size a ≤ S32x200x128x128.size a
  k0_off190_inb : ∀ i : grid0.Coords, ∀ a, (k0_off190 i) a + S1x1x128x128.size a ≤ S32x200x128x128.size a
  k0_off191_inb : ∀ i : grid0.Coords, ∀ a, (k0_off191 i) a + S1x1x128x128.size a ≤ S32x200x128x128.size a
  k0_off192_inb : ∀ i : grid0.Coords, ∀ a, (k0_off192 i) a + S1x1x128x128.size a ≤ S32x200x128x128.size a
  k0_off193_inb : ∀ i : grid0.Coords, ∀ a, (k0_off193 i) a + S1x1x128x128.size a ≤ S32x200x128x128.size a
  k0_off194_inb : ∀ i : grid0.Coords, ∀ a, (k0_off194 i) a + S1x1x128x128.size a ≤ S32x200x128x128.size a
  k0_off195_inb : ∀ i : grid0.Coords, ∀ a, (k0_off195 i) a + S1x1x128x128.size a ≤ S32x200x128x128.size a
  k0_off196_inb : ∀ i : grid0.Coords, ∀ a, (k0_off196 i) a + S1x1x128x128.size a ≤ S32x200x128x128.size a
  k0_off197_inb : ∀ i : grid0.Coords, ∀ a, (k0_off197 i) a + S1x1x128x128.size a ≤ S32x200x128x128.size a
  k0_off198_inb : ∀ i : grid0.Coords, ∀ a, (k0_off198 i) a + S1x1x128x128.size a ≤ S32x200x128x128.size a
  k0_off199_inb : ∀ i : grid0.Coords, ∀ a, (k0_off199 i) a + S1x1x128x128.size a ≤ S32x200x128x128.size a
  k0_off200_inb : ∀ i : grid0.Coords, ∀ a, (k0_off200 i) a + S1x1x128x128.size a ≤ S32x200x128x128.size a
  k0_off201_inb : ∀ i : grid0.Coords, ∀ a, (k0_off201 i) a + S1x1x128x128.size a ≤ S32x200x128x128.size a

variable [Facts₀]

abbrev cc0_scratch3 : DmaSems sig S4 := SemArray.consecutive 0 S4 hcc0_scratch3
abbrev cc0_scratch4 : DmaSems sig S4 := SemArray.consecutive 4 S4 hcc0_scratch4
abbrev cc0_scoped0 : DmaSems sig S_ := SemArray.consecutive 8 S_ hcc0_scoped0
abbrev cc0_scoped1 : DmaSems sig S_ := SemArray.consecutive 9 S_ hcc0_scoped1

class Facts : Prop extends Facts₀ where

variable [Facts]
-- ==== ReferenceIdeal.lean ====
abbrev S16384x50 : Shape := ⟨2, ![16384, 50]⟩
abbrev S4x128 : Shape := ⟨2, ![4, 128]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x128 : Shape := ⟨3, ![16384, 50, 128]⟩
abbrev S1x819200x128 : Shape := ⟨3, ![1, 819200, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S4x128, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x128, .f32⟩
  | .hbm, ⟨21, _⟩ => ⟨S16384x50x128, .i1⟩
  | .hbm, ⟨22, _⟩ => ⟨S_, .f32⟩
  | .hbm, ⟨23, _⟩ => ⟨S16384x50x128, .f32⟩
  | .hbm, ⟨24, _⟩ => ⟨S16384x50x128, .f32⟩
  | .hbm, ⟨25, _⟩ => ⟨S1x819200x128, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x128_0_1 : S16384x50.BroadcastsInDim S16384x50x128 (![0, 1] : Fin 2 → Fin S16384x50x128.rank)
  bcast_S_S16384x50x128 : S_.BroadcastsInDim S16384x50x128 (![] : Fin 0 → Fin S16384x50x128.rank)
  shapeCasts_S16384x50x128_S1x819200x128 : S16384x50x128.ShapeCasts S1x819200x128
  gather_S4x128_S16384x50x1_S16384x50x128_2_0_n_n_0_2_1128_wf : GatherDims.WF S4x128 S16384x50x1 S16384x50x128 [2] [0] [] [0] [] 2 ![1, 128]

variable [Facts₀]

def gather_S4x128_S16384x50x1_S16384x50x128_2_0_n_n_0_2_1128 : GatherDims S4x128 S16384x50x1 S16384x50x128 where
  offsetDims := [2]
  collapsedSliceDims := [0]
  operandBatchingDims := []
  startIndicesBatchingDims := []
  startIndexMap := [0]
  indexVectorDim := 2
  sliceSizes := ![1, 128]
  wf := gather_S4x128_S16384x50x1_S16384x50x128_2_0_n_n_0_2_1128_wf

class Facts : Prop extends Facts₀ where

variable [Facts]
-- ==== Proof.Spec.lean ====
/-
  The function both programs compute. The index array has 16384 × 50 entries, each naming one of the table's four rows;
  read in row-major order they are 819200 row numbers, and the result's row n (of 819200) is the table row the n-th
  entry names: result[0, n, k] = table[index[n / 50, n % 50], k]. The row number is taken modulo 4 so that the function
  is total; the precondition puts every entry in 0..3, where the reduction changes nothing.
-/
import Idealize.ShloMosaic.PureOps.Ideal
import Idealize.ShloMosaic.Lib.ValueIdx

noncomputable section

namespace Cert.Spec

open Idealize.ShloMosaic Idealize.ShloMosaic.ValueIdx

abbrev SIdx : Shape := ⟨2, ![16384, 50]⟩
abbrev STab : Shape := ⟨2, ![4, 128]⟩
abbrev SOut : Shape := ⟨3, ![1, 819200, 128]⟩

/-- The table row the n-th index entry (row-major) names. -/
def rowOf (idx : IVec SIdx 32) (n : Fin 819200) : Fin 4 :=
  ⟨(idx (ix2 (⟨n.val / 50, by have := n.isLt; omega⟩ : Fin 16384) (⟨n.val % 50, Nat.mod_lt _ (by decide)⟩ : Fin 50))).toNat % 4,
    Nat.mod_lt _ (by decide)⟩

/-- The looked-up rows, laid out as the result: entry (0, n, k) is column k of the table row the n-th index names. -/
def G {F : FTy → Type} (idx : IVec SIdx 32) (tab : FVec F STab .f32) : FVec F SOut .f32 :=
  fun i => tab (ix2 (rowOf idx (i 1)) (i 2))

theorem G_apply {F : FTy → Type} (idx : IVec SIdx 32) (tab : FVec F STab .f32) (z : Fin 1) (n : Fin 819200) (k : Fin 128) :
    G idx tab (ix3 z n k) = tab (ix2 (rowOf idx n) k) := rfl

end Cert.Spec

end
-- ==== Proof.PreRange.lean ====
/-
  The precondition's index range, read back. The precondition function ends in the conjunction of two `jnp.all`s; the
  second is over the index array and says, entry by entry, 0 ≤ idx and idx ≤ 3, both signed. A 32-bit word in [0, 3]
  signed is one of the words 0, 1, 2, 3, so its unsigned reading is below 4. Nothing here depends on the float instance:
  the index array is an integer array and the table is only carried along.
-/
import proofs.«216814_g8117488189630_cont_sun_m_833_27_alg».proof.Pre_input_domain
import Idealize.ShloMosaic.Lib.ReduceAll

namespace Cert.PreRange

open Idealize.ShloMosaic Cert.Pre_input_domain

/-- The scalar shape has one index. -/
instance subsingleton_scalar : Subsingleton S_.Idx := ⟨fun a b => funext fun d => d.elim0⟩

/-- A 32-bit word that is at least 0 and at most 3, read signed, reads below 4 unsigned. -/
theorem toNat_lt_four (w : BitVec 32) (h0 : IntOp.cmpi .sge w 0#32 = 1#1) (h3 : IntOp.cmpi .sle w 3#32 = 1#1) :
    w.toNat < 4 := by
  rw [IntOp.cmpi_sge] at h0
  rw [IntOp.cmpi_sle] at h3
  have e0 : (0#32 : BitVec 32).toInt = 0 := by decide
  have e3 : (3#32 : BitVec 32).toInt = 3 := by decide
  rw [e0] at h0
  rw [e3] at h3
  have e := BitVec.toInt_eq_toNat_cond w
  have hw := w.isLt
  split at e <;> omega

/-- Under the precondition every index entry is one of 0, 1, 2, 3. -/
theorem idx_lt {F : FTy → Type} [FloatOps F] [Cert.Pre_input_domain.Facts]
    (a0 : IVec Cert.Pre_input_domain.S16384x50 32) (a1 : FVec F Cert.Pre_input_domain.S4x128 .f32)
    (h : Cert.Pre_input_domain.fn (F := F) a0 a1 = fun _ => 1#1) : ∀ i, (a0 i).toNat < 4 := by
  intro i
  have e := congrFun h (fun a => a.elim0)
  dsimp only [fn] at e
  obtain ⟨-, e9⟩ := IntOp.andi_eq_one.1 e
  have e8 := Host.reduce_andi_all _ _ _ _ _ e9 i
  obtain ⟨e5, e7⟩ := IntOp.andi_eq_one.1 e8
  exact toNat_lt_four _ e5 e7

end Cert.PreRange
-- ==== Proof.RefTerm.lean ====
/-
  The reference's result as one function of its two argument arrays, for any float values: the lookup `take(table, idx, axis = 0)`
  as it is lowered, then the reshape. Stage by stage:
    `wrapped`  a negative index is moved up by the number of rows (idx < 0 ? idx + 4 : idx);
    `start`    the wrapped indices with a trailing unit axis, the gather's start indices;
    `inb`      per entry, whether the wrapped index is a row of the table (0 ≤ · ≤ 3), as the conjunction over the unit axis;
    `taken`    the gathered row where the index is in bounds, the NaN word's value elsewhere;
    `out`      the same elements in row-major order under the shape [1, 819200, 128].
-/
import proofs.«216814_g8117488189630_cont_sun_m_833_27_alg».proof.Proof.Gen.ReferenceIdeal

noncomputable section

namespace Cert.RefTerm

open Cert.ReferenceIdeal Cert.ReferenceIdeal.Gen Idealize.ShloMosaic

variable {F : FTy → Type} [FloatOps F]

/-- The index with a negative value moved up by the number of rows. -/
def wrapped (idx : IVec S16384x50 32) : IVec S16384x50 32 :=
  select (cmpi .slt idx (broadcastInDim S16384x50 ![] bcast_S_S16384x50 (constantI S_ 32 0#32)))
    (addi idx (broadcastInDim S16384x50 ![] bcast_S_S16384x50 (constantI S_ 32 4#32))) idx

/-- The gather's start indices: the wrapped indices under a trailing unit axis. -/
def start (idx : IVec S16384x50 32) : IVec S16384x50x1 32 :=
  broadcastInDim S16384x50x1 ![0, 1] bcast_S16384x50_S16384x50x1_0_1 (wrapped idx)

/-- Per entry: the wrapped index is at least 0 and at most 3. -/
def inb (idx : IVec S16384x50 32) : IVec S16384x50 1 :=
  Host.reduce IntOp.andi
    (andi (cmpi .sge (start idx) (broadcastInDim S16384x50x1 ![] bcast_S_S16384x50x1 (constantI S_ 32 0#32)))
      (cmpi .sle (start idx)
        (broadcastInDim S16384x50x1 ![0, 1, 2] bcast_S1x1x1_S16384x50x1_0_1_2
          (broadcastInDim S1x1x1 ![2] bcast_S1_S1x1x1_2 (constantI S1 32 3#32)))))
    (constantI S_ 1 1#1) reducesTo_S16384x50x1_S16384x50_d2 h_S_

/-- The looked-up rows: the gathered row where the index is in bounds, the NaN word's value elsewhere. -/
def taken (idx : IVec S16384x50 32) (tab : FVec F S4x128 .f32) : FVec F S16384x50x128 .f32 :=
  select (broadcastInDim S16384x50x128 ![0, 1] bcast_S16384x50_S16384x50x128_0_1 (inb idx))
    (Host.gather gather_S4x128_S16384x50x1_S16384x50x128_2_0_n_n_0_2_1128 tab (start idx))
    (broadcastInDim S16384x50x128 ![] bcast_S_S16384x50x128 (constant S_ .f32 0x7FC00000#32))

/-- The result: the looked-up rows reshaped to [1, 819200, 128]. -/
def out (idx : IVec S16384x50 32) (tab : FVec F S4x128 .f32) : FVec F S1x819200x128 .f32 :=
  shapeCast S1x819200x128 (taken idx tab) shapeCasts_S16384x50x128_S1x819200x128

end Cert.RefTerm

end
-- ==== Proof.RefRun.lean ====
/-
  The reference's run. The reference is a program of host operations only; its @main calls the lookup function, which calls the
  select function, and then reshapes. With the two functions' bodies unfolded at their calls @main is a straight line of
  twenty-four operations over literal buffers, so every weakly fair execution terminates with each buffer at the operations'
  fold over the launch contents; at the result buffer that fold is the term `Cert.RefTerm.out` of the two arguments' contents,
  and no operation writes an argument.
-/
import proofs.«216814_g8117488189630_cont_sun_m_833_27_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty-four operations in order, the two calls unfolded: the lookup function's twenty-two lines (the select that
    wraps a negative index is the inner function's one line, into its own buffer) over the call's buffers, the table and the
    index array in the places of its two parameters, then @main's reshape. -/
abbrev ops : List (HloOp τ sig (Elt F)) :=
  [ nullary main_call0_c (constantI S_ 32 0#32),
    unary main_call0_c main_call0_v0 (broadcastInDim S16384x50 ![] bcast_S_S16384x50 : (⟨S_, .i32⟩ : BufTy).Contents (Elt F) → (⟨S16384x50, .i32⟩ : BufTy).Contents (Elt F)),
    binary main_arg0 main_call0_v0 main_call0_v1 (cmpi .slt : (⟨S16384x50, .i32⟩ : BufTy).Contents (Elt F) → (⟨S16384x50, .i32⟩ : BufTy).Contents (Elt F) → (⟨S16384x50, .i1⟩ : BufTy).Contents (Elt F)),
    nullary main_call0_c_0 (constantI S_ 32 4#32),
    unary main_call0_c_0 main_call0_v2 (broadcastInDim S16384x50 ![] bcast_S_S16384x50 : (⟨S_, .i32⟩ : BufTy).Contents (Elt F) → (⟨S16384x50, .i32⟩ : BufTy).Contents (Elt F)),
    binary main_arg0 main_call0_v2 main_call0_v3 (addi : (⟨S16384x50, .i32⟩ : BufTy).Contents (Elt F) → (⟨S16384x50, .i32⟩ : BufTy).Contents (Elt F) → (⟨S16384x50, .i32⟩ : BufTy).Contents (Elt F)),
    ternary main_call0_v1 main_call0_v3 main_arg0 main_call0_v4 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    unary main_call0_v4 main_call0_v5 (broadcastInDim S16384x50x1 ![0, 1] bcast_S16384x50_S16384x50x1_0_1 : (⟨S16384x50, .i32⟩ : BufTy).Contents (Elt F) → (⟨S16384x50x1, .i32⟩ : BufTy).Contents (Elt F)),
    nullary main_call0_c_1 (constantI S1 32 3#32),
    nullary main_call0_c_2 (constantI S_ 32 0#32),
    unary main_call0_c_2 main_call0_v6 (broadcastInDim S16384x50x1 ![] bcast_S_S16384x50x1 : (⟨S_, .i32⟩ : BufTy).Contents (Elt F) → (⟨S16384x50x1, .i32⟩ : BufTy).Contents (Elt F)),
    binary main_call0_v5 main_call0_v6 main_call0_v7 (cmpi .sge : (⟨S16384x50x1, .i32⟩ : BufTy).Contents (Elt F) → (⟨S16384x50x1, .i32⟩ : BufTy).Contents (Elt F) → (⟨S16384x50x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x50x1 ![0, 1, 2] bcast_S1x1x1_S16384x50x1_0_1_2 : (⟨S1x1x1, .i32⟩ : BufTy).Contents (Elt F) → (⟨S16384x50x1, .i32⟩ : BufTy).Contents (Elt F)),
    binary main_call0_v5 main_call0_v9 main_call0_v10 (cmpi .sle : (⟨S16384x50x1, .i32⟩ : BufTy).Contents (Elt F) → (⟨S16384x50x1, .i32⟩ : BufTy).Contents (Elt F) → (⟨S16384x50x1, .i1⟩ : BufTy).Contents (Elt F)),
    binary main_call0_v7 main_call0_v10 main_call0_v11 (andi : (⟨S16384x50x1, .i1⟩ : BufTy).Contents (Elt F) → (⟨S16384x50x1, .i1⟩ : BufTy).Contents (Elt F) → (⟨S16384x50x1, .i1⟩ : BufTy).Contents (Elt F)),
    nullary main_call0_c_3 (constantI S_ 1 1#1),
    binary main_call0_v11 main_call0_c_3 main_call0_v12 ((fun x v => Host.reduce IntOp.andi x v reducesTo_S16384x50x1_S16384x50_d2 h_S_) : (⟨S16384x50x1, .i1⟩ : BufTy).Contents (Elt F) → (⟨S_, .i1⟩ : BufTy).Contents (Elt F) → (⟨S16384x50, .i1⟩ : BufTy).Contents (Elt F)),
    binary main_arg1 main_call0_v5 main_call0_v13 ((fun x i => Host.gather gather_S4x128_S16384x50x1_S16384x50x128_2_0_n_n_0_2_1128 x i) : (⟨S4x128, .f32⟩ : BufTy).Contents (Elt F) → (⟨S16384x50x1, .i32⟩ : BufTy).Contents (Elt F) → (⟨S16384x50x128, .f32⟩ : BufTy).Contents (Elt F)),
    unary main_call0_v12 main_call0_v14 (broadcastInDim S16384x50x128 ![0, 1] bcast_S16384x50_S16384x50x128_0_1 : (⟨S16384x50, .i1⟩ : BufTy).Contents (Elt F) → (⟨S16384x50x128, .i1⟩ : BufTy).Contents (Elt F)),
    nullary main_call0_cst (constant S_ .f32 0x7FC00000#32),
    unary main_call0_cst main_call0_v15 (broadcastInDim S16384x50x128 ![] bcast_S_S16384x50x128 : (⟨S_, .f32⟩ : BufTy).Contents (Elt F) → (⟨S16384x50x128, .f32⟩ : BufTy).Contents (Elt F)),
    ternary main_call0_v14 main_call0_v13 main_call0_v15 main_v0 (select : (⟨S16384x50x128, .i1⟩ : BufTy).Contents (Elt F) → (⟨S16384x50x128, .f32⟩ : BufTy).Contents (Elt F) → (⟨S16384x50x128, .f32⟩ : BufTy).Contents (Elt F) → (⟨S16384x50x128, .f32⟩ : BufTy).Contents (Elt F)),
    reshape main_v0 main_v1 rfl shapeCasts_S16384x50x128_S1x819200x128 ]

attribute [local irreducible] Host.reduce Host.gather in
set_option maxRecDepth 8192 in
/-- @main is that straight line: the two functions' definitions unfolded at their calls, sequencing reassociated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..⟩

/-- The fold of the operations at the result buffer is the composed term of the two argument buffers' contents. -/
theorem out_eq (V : Valuation τ sig (Elt F)) :
    after ops V (main_v1 : DevRef τ sig)
      = Cert.RefTerm.out (V (main_arg0 : DevRef τ sig)) (V (main_arg1 : DevRef τ sig)) := by
  after_results
  rfl

/-- No operation writes the index array. -/
theorem arg0_eq (V : Valuation τ sig (Elt F)) :
    after ops V (main_arg0 : DevRef τ sig) = V (main_arg0 : DevRef τ sig) := by
  after_results

/-- No operation writes the table. -/
theorem arg1_eq (V : Valuation τ sig (Elt F)) :
    after ops V (main_arg1 : DevRef τ sig) = V (main_arg1 : DevRef τ sig) := by
  after_results

/-- On every device, for any float values, from any memory with zero counters: every weakly fair execution of @main terminates
    with the result buffer at the composed term of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = Cert.RefTerm.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _), (h c main_arg1).trans (arg1_eq _)⟩)
    (run_seq scopedRefs_eq scopedSems_eq defs main (fun _ => ops) main_eq (fun _ => ops_sub) m ρ)

end Cert.RefRun

end
-- ==== Proof.RefRead.lean ====
/-
  The reference's composed term read at an index, under the range 0..3 of the index entries: the wrap of negative indices does
  nothing, every entry passes the bounds mask, so the select takes the gathered row and never the NaN word; the gather reads the
  table row its start index names (no clamping happens in range); the reshape puts row-major position n of the 16384 × 50
  entries at row n of the result. For any float values: no float is computed, only moved.
-/
import proofs.«216814_g8117488189630_cont_sun_m_833_27_alg».proof.Proof.RefTerm
import Idealize.ShloMosaic.Lib.ValueIdx
import Idealize.ShloMosaic.Lib.Pipeline.Value
import Idealize.ShloMosaic.Lib.ReduceAll

noncomputable section

namespace Cert.RefRead

open Cert.ReferenceIdeal Cert.ReferenceIdeal.Gen Cert.RefTerm Idealize.ShloMosaic Idealize.ShloMosaic.ValueIdx

variable {F : FTy → Type} [FloatOps F]

/-- A word below 4 unsigned reads the same signed. -/
theorem toInt_eq_of_lt_four {w : BitVec 32} (h : w.toNat < 4) : w.toInt = (w.toNat : Int) := by
  have e := BitVec.toInt_eq_toNat_cond w
  split at e <;> omega

/-- An index in 0..3 is not negative, so the wrap leaves it. -/
theorem wrapped_apply (idx : IVec S16384x50 32) (h : ∀ i, (idx i).toNat < 4) (i : S16384x50.Idx) : wrapped idx i = idx i := by
  have hn : ¬ IntOp.cmpi .slt (idx i) 0#32 = 1#1 := by
    rw [IntOp.cmpi_slt, toInt_eq_of_lt_four (h i)]
    have e0 : (0#32 : BitVec 32).toInt = 0 := by decide
    rw [e0]; omega
  show Scalar.select (IntOp.cmpi .slt (idx i) 0#32) (IntOp.addi (idx i) 4#32) (idx i) = idx i
  rw [eq_zero_of_ne_one hn, select_zero]

/-- The start index at (a, b, 0) is the index entry (a, b). -/
theorem start_apply (idx : IVec S16384x50 32) (h : ∀ i, (idx i).toNat < 4) (a : Fin 16384) (b : Fin 50) (z : Fin 1) :
    start idx (ix3 a b z) = idx (ix2 a b) := by
  unfold start
  rw [broadcastInDim_apply _ _ _ _ (ix2 a b) (fun c => by match c with | ⟨0, _⟩ => rfl | ⟨1, _⟩ => rfl)]
  exact wrapped_apply idx h _

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    have ha : IntOp.andi 1#1 (f a) = 1#1 := by rw [h a (List.mem_cons.2 (Or.inl rfl))]; decide
    rw [List.foldl_cons, ha]
    exact ih fun n hn => h n (List.mem_cons.2 (Or.inr hn))

/-- Every entry is in bounds. -/
theorem inb_apply (idx : IVec S16384x50 32) (h : ∀ i, (idx i).toNat < 4) (j : S16384x50.Idx) : inb idx j = 1#1 := by
  unfold inb
  rw [Host.reduce_eq_foldl]
  refine foldl_andi_one _ _ fun i _ => ?_
  obtain ⟨a, b, z, rfl⟩ : ∃ a b z, i = ix3 a b z := ⟨i 0, i 1, i 2, eq_ix3 i⟩
  show IntOp.andi (IntOp.cmpi .sge (start idx (ix3 a b z)) 0#32) (IntOp.cmpi .sle (start idx (ix3 a b z)) 3#32) = 1#1
  rw [start_apply idx h, IntOp.andi_eq_one, IntOp.cmpi_sge, IntOp.cmpi_sle, toInt_eq_of_lt_four (h _)]
  have e0 : (0#32 : BitVec 32).toInt = 0 := by decide
  have e3 : (3#32 : BitVec 32).toInt = 3 := by decide
  rw [e0, e3]
  have := h (ix2 a b)
  omega

local notation "gd" => gather_S4x128_S16384x50x1_S16384x50x128_2_0_n_n_0_2_1128

/-- The gather of rows read at (a, b, k): column k of the table row the start index (a, b, 0) names, read signed and clamped to 0..3. -/
theorem gather_row_apply {α : Type} (tab : S4x128.Idx → α) (st : IVec S16384x50x1 32) (a : Fin 16384) (b : Fin 50) (k : Fin 128) :
    Host.gather gd tab st (ix3 a b k)
      = tab (ix2 (⟨min (st (ix3 a b (0 : Fin 1))).toInt.toNat 3, by omega⟩ : Fin 4) k) := by
  unfold Host.gather
  congr 1
  funext ax
  refine Fin.ext ?_
  match ax with
  | ⟨0, _⟩ =>
    show GatherDims.start gd (ix3 a b k) st 0 + GatherDims.batchCoord gd (ix3 a b k) 0 + GatherDims.offCoord gd (ix3 a b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd (ix3 a b k) ⟨List.idxOf (0 : Fin 2) (GatherDims.startIndexMap gd),
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start gd (ix3 a b k) st 1 + GatherDims.batchCoord gd (ix3 a b k) 1 + GatherDims.offCoord gd (ix3 a b k) 1 = k.val
    rw [GatherDims.batchCoord_eq_zero _ _ _ List.not_mem_nil]
    have hs : GatherDims.start gd (ix3 a b k) st 1 = 0 := by
      unfold GatherDims.start
      rw [dif_neg (show (1 : Fin 2) ∉ GatherDims.startIndexMap gd from by decide)]
    have ho : GatherDims.offCoord gd (ix3 a b k) 1 = k.val := by
      unfold GatherDims.offCoord
      rw [dif_pos (show (1 : Fin 2) ∈ GatherDims.sKept gd from by decide)]
      rfl
    rw [hs, ho]
    omega

/-- The looked-up rows at (a, b, k): column k of the table row the index entry (a, b) names. -/
theorem taken_apply (idx : IVec S16384x50 32) (tab : FVec F S4x128 .f32) (h : ∀ i, (idx i).toNat < 4)
    (a : Fin 16384) (b : Fin 50) (k : Fin 128) :
    taken idx tab (ix3 a b k) = tab (ix2 (⟨(idx (ix2 a b)).toNat % 4, Nat.mod_lt _ (by decide)⟩ : Fin 4) k) := by
  unfold taken
  rw [select_apply, broadcastInDim_apply _ _ _ _ (ix2 a b) (fun c => by match c with | ⟨0, _⟩ => rfl | ⟨1, _⟩ => rfl),
    inb_apply idx h, select_one, gather_row_apply]
  refine congrArg (fun r : Fin 4 => tab (ix2 r k)) (Fin.ext ?_)
  have h4 := h (ix2 a b)
  show min (start idx (ix3 a b (0 : Fin 1))).toInt.toNat 3 = (idx (ix2 a b)).toNat % 4
  rw [start_apply idx h a b 0, toInt_eq_of_lt_four h4]
  omega

/-- The result at (0, n, k): column k of the table row the n-th index entry, in row-major order, names. -/
theorem out_apply (idx : IVec S16384x50 32) (tab : FVec F S4x128 .f32) (h : ∀ i, (idx i).toNat < 4)
    (z : Fin 1) (n : Fin 819200) (k : Fin 128) :
    out idx tab (ix3 z n k)
      = tab (ix2 (⟨(idx (ix2 (⟨n.val / 50, by have := n.isLt; omega⟩ : Fin 16384) (⟨n.val % 50, Nat.mod_lt _ (by decide)⟩ : Fin 50))).toNat % 4,
          Nat.mod_lt _ (by decide)⟩ : Fin 4) k) := by
  unfold out
  rw [shapeCast_apply _ _ _ (ix3 (⟨n.val / 50, by have := n.isLt; omega⟩ : Fin 16384) (⟨n.val % 50, Nat.mod_lt _ (by decide)⟩ : Fin 50) k) (by
    rw [Shape.rowMajor_val_three, Shape.rowMajor_val_three]
    show (n.val / 50 * 50 + n.val % 50) * 128 + k.val = (z.val * 819200 + n.val) * 128 + k.val
    have hz : z.val = 0 := by omega
    rw [hz]
    omega)]
  exact taken_apply idx tab h _ _ k

end Cert.RefRead

end
-- ==== Proof.RefValue.lean ====
/-
  The reference's run with its result named by the specification. Under the precondition every index entry is one of 0, 1, 2, 3
  (`Cert.PreRange.idx_lt`); on such an index array the reference's composed term, read index by index
  (`Cert.RefRead.out_apply`), is the specification `Cert.Spec.G`: result row n is the table row the n-th index entry names. The
  run itself (`Cert.RefRun.run`) needs no precondition; the precondition only identifies the value.
-/
import proofs.«216814_g8117488189630_cont_sun_m_833_27_alg».proof.Defs
import proofs.«216814_g8117488189630_cont_sun_m_833_27_alg».proof.Proof.Gen.ReferenceIdeal
import proofs.«216814_g8117488189630_cont_sun_m_833_27_alg».proof.Proof.Gen.Pre_input_domain
import proofs.«216814_g8117488189630_cont_sun_m_833_27_alg».proof.Proof.Spec
import proofs.«216814_g8117488189630_cont_sun_m_833_27_alg».proof.Proof.PreRange
import proofs.«216814_g8117488189630_cont_sun_m_833_27_alg».proof.Proof.RefRun
import proofs.«216814_g8117488189630_cont_sun_m_833_27_alg».proof.Proof.RefRead

noncomputable section

namespace Cert.RefValue

open Idealize.ShloMosaic Idealize.SL.Sem Idealize.ShloMosaic.ValueIdx

/-- On an index array with every entry in 0..3 the reference's term is the specification, for any float values. -/
theorem out_eq_G {F : FTy → Type} [FloatOps F] (idx : IVec Cert.ReferenceIdeal.S16384x50 32)
    (tab : FVec F Cert.ReferenceIdeal.S4x128 .f32) (h : ∀ i, (idx i).toNat < 4) :
    Cert.RefTerm.out idx tab = Cert.Spec.G idx tab := by
  funext i
  obtain ⟨z, n, k, rfl⟩ : ∃ (z : Fin 1) (n : Fin 819200) (k : Fin 128), i = ix3 z n k := ⟨i 0, i 1, i 2, eq_ix3 i⟩
  rw [Cert.RefRead.out_apply idx tab h, Cert.Spec.G_apply]
  rfl

/-- Under the precondition every weakly fair execution of the reference terminates with its result the specification of the
    launch contents of its two arguments, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v1)
          = Cert.Spec.G (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun r h c => ⟨(h c).1.trans (out_eq_G _ _ (Cert.PreRange.idx_lt _ _ (hpre c))), (h c).2⟩)
    (Cert.RefRun.run (F := Ideal) m ρ)

end Cert.RefValue

end
-- ==== Proof.Asm.lean ====
/-
  The assembly of the claim from the two programs' runs. What is proved here: the precondition read as the range 0..3 of every
  index entry, for the kernel's memory at either instance, and carried over to the reference's memory when the two memories
  agree on the arguments; the reference's frame (its run needs no precondition); and the five conjuncts of the claim from the
  kernel's runs at the two instances, which enter as hypotheses: each says that from a memory whose index entries are in 0..3
  every weakly fair execution ends with the result at some function of the launch memory and the arguments unchanged, and, at
  the ideal instance, that this function is the specification. The two frames of the kernel drop the value; the idealization
  rewrote nothing, so it is preserved trivially; the algebraic conjunct takes the specification of the kernel's arguments as the
  shared value, the kernel's run by the hypothesis and the reference's by `Cert.RefValue.run`, its arguments identified with the
  kernel's by the agreement.
-/
import proofs.«216814_g8117488189630_cont_sun_m_833_27_alg».proof.Defs
import proofs.«216814_g8117488189630_cont_sun_m_833_27_alg».proof.Proof.Gen.Kernel
import proofs.«216814_g8117488189630_cont_sun_m_833_27_alg».proof.Proof.Gen.KernelIdeal
import proofs.«216814_g8117488189630_cont_sun_m_833_27_alg».proof.Proof.Gen.ReferenceIdeal
import proofs.«216814_g8117488189630_cont_sun_m_833_27_alg».proof.Proof.Gen.Pre_input_domain
import proofs.«216814_g8117488189630_cont_sun_m_833_27_alg».proof.Proof.Spec
import proofs.«216814_g8117488189630_cont_sun_m_833_27_alg».proof.Proof.PreRange
import proofs.«216814_g8117488189630_cont_sun_m_833_27_alg».proof.Proof.RefRun
import proofs.«216814_g8117488189630_cont_sun_m_833_27_alg».proof.Proof.RefValue

noncomputable section

namespace Cert.Asm

open Idealize.ShloMosaic Idealize.SL.Sem

/-! ## The precondition as a range -/

/-- Under the kernel's precondition at the ideal instance every index entry is one of 0, 1, 2, 3. -/
theorem idx_lt_KI (m : (ℓ : Loc Cert.KernelIdeal.nD Cert.KernelIdeal.τ Cert.KernelIdeal.sig) → Buf (Elt Ideal) ℓ) (h : Cert.Pre_KernelIdeal m) :
    ∀ (d : Dev Cert.KernelIdeal.nD) x, (m ((SparseCore.T d).loc Cert.KernelIdeal.main_arg0) x).toNat < 4 :=
  fun d => Cert.PreRange.idx_lt (F := Ideal) _ _ (h d)

/-- Under the kernel's precondition at the word-level instance every index entry is one of 0, 1, 2, 3. -/
theorem idx_lt_K (m : (ℓ : Loc Cert.Kernel.nD Cert.Kernel.τ Cert.Kernel.sig) → Buf (Elt Bits) ℓ) (h : Cert.Pre_Kernel m) :
    ∀ (d : Dev Cert.Kernel.nD) x, (m ((SparseCore.T d).loc Cert.Kernel.main_arg0) x).toNat < 4 :=
  fun d => Cert.PreRange.idx_lt (F := Bits) _ _ (h d)

/-- The precondition passes from the kernel's memory to a reference memory that agrees with it on the two arguments. -/
theorem pre_ref (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (h : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.Pre_ReferenceIdeal m' := by
  intro c
  rw [(hagree c).1, (hagree c).2]
  exact h c

/-! ## The reference's frame -/

/-- The reference runs and leaves its arguments unchanged, from any memory. -/
theorem frame_ri : Cert.frame_ReferenceIdeal := fun m g _ =>
  (θ_run (Cert.ReferenceIdeal.defs (F := Ideal)) _ _).mono (fun _ h c => (h c).2) (Cert.RefRun.run (F := Ideal) m g)

/-! ## The claim from the kernel's runs -/

/-- The five conjuncts, given the kernel's run at each instance from a memory whose index entries are in 0..3 — ending with the
    result at a function (`KoutB`, `KoutI`) of the launch memory and the arguments unchanged — and, at the ideal instance, that
    function identified with the specification. -/
theorem claim_of
    (KoutB : ((ℓ : Loc Cert.Kernel.nD Cert.Kernel.τ Cert.Kernel.sig) → Buf (Elt Bits) ℓ) → (c : Dev Cert.Kernel.nD) → Buf (Elt Bits) ((c.tc : Thread Cert.Kernel.nD Cert.Kernel.τ).loc Cert.Kernel.main_v2))
    (KoutI : ((ℓ : Loc Cert.KernelIdeal.nD Cert.KernelIdeal.τ Cert.KernelIdeal.sig) → Buf (Elt Ideal) ℓ) → (c : Dev Cert.KernelIdeal.nD) → Buf (Elt Ideal) ((c.tc : Thread Cert.KernelIdeal.nD Cert.KernelIdeal.τ).loc Cert.KernelIdeal.main_v2))
    (hK : ∀ (m : (ℓ : Loc Cert.Kernel.nD Cert.Kernel.τ Cert.Kernel.sig) → Buf (Elt Bits) ℓ) (ρ : Dev Cert.Kernel.nD → PrngReg),
      (∀ d x, (m ((SparseCore.T d).loc Cert.Kernel.main_arg0) x).toNat < 4) →
      θ_run (Cert.Kernel.defs (F := Bits)) (Cert.Kernel.threads (F := Bits)) ⟨m, fun _ => 0, ρ⟩ (fun r => ∀ c : Dev Cert.Kernel.nD,
        r.2.mem ((c.tc : Thread Cert.Kernel.nD Cert.Kernel.τ).loc Cert.Kernel.main_v2) = KoutB m c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)))
    (hKI : ∀ (m : (ℓ : Loc Cert.KernelIdeal.nD Cert.KernelIdeal.τ Cert.KernelIdeal.sig) → Buf (Elt Ideal) ℓ) (ρ : Dev Cert.KernelIdeal.nD → PrngReg),
      (∀ d x, (m ((SparseCore.T d).loc Cert.KernelIdeal.main_arg0) x).toNat < 4) →
      θ_run (Cert.KernelIdeal.defs (F := Ideal)) (Cert.KernelIdeal.threads (F := Ideal)) ⟨m, fun _ => 0, ρ⟩ (fun r => ∀ c : Dev Cert.KernelIdeal.nD,
        r.2.mem ((c.tc : Thread Cert.KernelIdeal.nD Cert.KernelIdeal.τ).loc Cert.KernelIdeal.main_v2) = KoutI m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)))
    (hval : ∀ (m : (ℓ : Loc Cert.KernelIdeal.nD Cert.KernelIdeal.τ Cert.KernelIdeal.sig) → Buf (Elt Ideal) ℓ) (c : Dev Cert.KernelIdeal.nD),
      KoutI m c = Cert.Spec.G (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) :
    Cert.Claim :=
  ⟨Cert.Kernel.Gen.facts, Cert.KernelIdeal.Gen.facts, Cert.ReferenceIdeal.Gen.facts, Cert.Pre_input_domain.Gen.facts,
    -- the kernel's frame at the word-level instance: its run with the value dropped
    fun m g hpre => (θ_run (Cert.Kernel.defs (F := Bits)) _ _).mono (fun _ h c => (h c).2) (hK m g (idx_lt_K m hpre)),
    -- the kernel's frame at the ideal instance
    fun m g hpre => (θ_run (Cert.KernelIdeal.defs (F := Ideal)) _ _).mono (fun _ h c => (h c).2) (hKI m g (idx_lt_KI m hpre)),
    -- the reference's frame
    frame_ri,
    -- the idealization rewrote no operation
    trivial,
    -- both programs end at the specification of the kernel's arguments
    fun m g m' g' hpre hagree =>
      ⟨fun c => Cert.Spec.G (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
        (θ_run (Cert.KernelIdeal.defs (F := Ideal)) _ _).mono (fun _ h c => ⟨(h c).1.trans (hval m c), (h c).2⟩) (hKI m g (idx_lt_KI m hpre)),
        (θ_run (Cert.ReferenceIdeal.defs (F := Ideal)) _ _).mono
          (fun _ h c => ⟨(h c).1.trans (by rw [(hagree c).1, (hagree c).2]), (h c).2⟩)
          (Cert.RefValue.run m' g' (pre_ref m m' hpre hagree))⟩⟩

end Cert.Asm

end
-- ==== Proof.KI.Common.lean ====
/-
  The vocabulary of the lookup kernel's run on the SparseCores, shared by the tile's proof and the launch.
  Thirty-two tiles (two SparseCores of sixteen) each look up one 25600-entry stretch of the index array: tile (c, s)
  handles stretch w = 2 s + c. Tile 0 of each SparseCore copies the table into the SparseCore's shared memory; all
  sixteen tiles then meet at the subcore barrier, across which tile 0 hands every tile a read share of the shared
  table; after it each tile streams its 200 chunks of 128 rows through four row buffers.
  The barrier is one round of one unit duty per tile on every tile's barrier cell; tile 0's duty in tile j's round
  carries the j-th sixteenth of the shared table, at the table's contents.
-/
import proofs.«216814_g8117488189630_cont_sun_m_833_27_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«216814_g8117488189630_cont_sun_m_833_27_alg».proof.Proof.Gen.KernelIdeal

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

variable (m : (ℓ : Loc nD τ sig) → Buf (Elt F) ℓ) (ρ : Dev nD → PrngReg)

/-- The index array (as reshaped to 32 stretches of 200 chunks of 128), the table, the result (32 × 200 × 128 rows). -/
abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

/-- SparseCore c's shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl

/-- The table's contents, read as contents of a SparseCore's shared copy (same shape, same element type). -/
abbrev tabC (d : Dev nD) (c : Fin τ.nSC) : Buf (Elt F) (shLoc d c) := fun x => m (tLoc d) x

theorem pos16 : 0 < 16 := by decide

/-- Tile j's sixteenth of the shared table, at the table's contents. -/
abbrev shShare (d : Dev nD) (c : Fin τ.nSC) (j : Fin 16) : sProp 𝕄 :=
  shLoc d c ↦{pieceOf fullShare 16 pos16 j} tabC m d c

variable [FloatOps F]

/-! ## The barrier cells -/

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What duty n of tile j's round hands over: tile 0's, tile j's share of the shared table; the others', nothing. -/
def bPay (g : GSem nD τ sig) (n : ℕ) : sProp 𝕄 :=
  match g with
  | ((d, .scVector c j), _) => if n = 0 then shShare m d c (Fin.cast nSub_eq j) else iprop(emp)
  | _ => iprop(emp)

/-- The barrier cells' schedule: one round on each, one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, the credit for its own round's units. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## The stretches -/

section Stretches

open Idealize.ShloMosaic.ValueIdx

local notation "iV" => (Memref.whole Cert.KernelIdeal.main_v0_scv : Memref Cert.KernelIdeal.sig Kind.scVector Space.hbm Cert.KernelIdeal.S32x200x128 EltTy.i32)
local notation "oV" => (Memref.whole Cert.KernelIdeal.main_v1_scv : Memref Cert.KernelIdeal.sig Kind.scVector Space.hbm Cert.KernelIdeal.S32x200x128x128 EltTy.f32)

omit [FloatOps F] in
theorem hdiv32i : 32 ∣ S32x200x128.size 0 := ⟨1, rfl⟩
omit [FloatOps F] in
theorem hdiv32o : 32 ∣ S32x200x128x128.size 0 := ⟨1, rfl⟩
/-- Stretch w of the index array, and of the result. -/
abbrev iRow (w : Fin 32) : Rect S32x200x128 := Rect.part (s := S32x200x128) (a₀ := 0) hdiv32i w
abbrev oRow (w : Fin 32) : Rect S32x200x128x128 := Rect.part (s := S32x200x128x128) (a₀ := 0) hdiv32o w
abbrev iRowSet (w : Fin 32) : Finset S32x200x128.Idx := ((iV).view.slice (iRow w)).set
abbrev oRowSet (w : Fin 32) : Finset S32x200x128x128.Idx := ((oV).view.slice (oRow w)).set

/-- The stretch tile s of SparseCore c handles. -/
def wid (c : Fin τ.nSC) (s : Fin τ.nSub) : Fin 32 :=
  ⟨2 * s.val + c.val, by have h1 : c.val < 2 := c.isLt; have h2 : s.val < 16 := s.isLt; omega⟩

/-- The result of the call as a function of the (reshaped) index array and the table: row (w, k, r) is the table row
    that index names (modulo 4: total; the precondition keeps every index below 4). -/
def Gout (fI : IVec S32x200x128 32) (ft : FVec F S4x128 .f32) : FVec F S32x200x128x128 .f32 :=
  fun x => ft (ix2 (⟨(fI (ix3 (x 0) (x 1) (x 2))).toNat % 4, Nat.mod_lt _ (by decide)⟩ : Fin 4) (x 3))

omit [FloatOps F] in
theorem pos2 : 0 < 2 := by decide

variable (fI : (d : Dev nD) → IVec S32x200x128 32)

/-- SparseCore c's half of the table's read share (only its tile 0 reads the table). -/
abbrev tShare (d : Dev nD) (c : Fin τ.nSC) : sProp 𝕄 := tLoc d ↦{pieceOf fullShare 2 pos2 (Fin.cast (by rfl) c)} m (tLoc d)

/-- What tile (c, s) is handed at its start: its stretch of the index array (at the reshaped contents fI) and of the
    result (at what the result array held); tile 0 also its SparseCore's read share of the table and the shared copy. -/
def goRes (d : Dev nD) (c : Fin τ.nSC) (s : Fin τ.nSub) : sProp 𝕄 :=
  iprop((iLoc d ↦[iRowSet (wid c s)]{fullShare} fI d) ∗ (oLoc d ↦[oRowSet (wid c s)]{fullShare} m (oLoc d))
    ∗ (if s.val = 0 then iprop(tShare m d c ∗ ∃ f, shLoc d c ↦{fullShare} f) else iprop(emp)))

/-- What it hands back: its stretch of the index array, its stretch of the result at the looked-up rows, tile 0 the
    table's share, and every tile its sixteenth of the shared copy at the table's contents. -/
def tdRes (d : Dev nD) (c : Fin τ.nSC) (s : Fin τ.nSub) : sProp 𝕄 :=
  iprop((iLoc d ↦[iRowSet (wid c s)]{fullShare} fI d) ∗ (oLoc d ↦[oRowSet (wid c s)]{fullShare} Gout (fI d) (m (tLoc d)))
    ∗ (if s.val = 0 then tShare m d c else iprop(emp)) ∗ shShare m d c (Fin.cast nSub_eq s))

end Stretches

end Cert.KI

end
-- ==== Proof.KI.Launch1.lean ====
/-
  The launch of the lookup kernel, first part: what the handshakes of the one call carry, and a tile's obligation
  from the proof of its task at a symbolic place.
  The TensorCore hands SparseCore c the sixteen stretches of the index array and of the result that its tiles handle
  and its half of the table's read share; the sequencer hands tile s its two stretches, and tile 0 the table's share
  and the SparseCore's shared scratch; each tile brings back its stretches, the result's at the looked-up rows, and a
  sixteenth of the shared copy at the table's contents.
-/
import proofs.«216814_g8117488189630_cont_sun_m_833_27_alg».proof.Proof.KI.Common

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable (fI : (d : Dev nD) → IVec S32x200x128 32)
variable [FloatOps F]

/-! ## What the handshakes carry -/

/-- The stretches of SparseCore c's sixteen tiles: of the index array at the reshaped contents, of the result at
    given contents. -/
abbrev stretches (d : Dev nD) (c : Fin τ.nSC) (fo : Buf (Elt F) (oLoc d)) : sProp 𝕄 :=
  bigSep Finset.univ fun s : Fin τ.nSub =>
    iprop((iLoc d ↦[iRowSet (wid c s)]{fullShare} fI d) ∗ (oLoc d ↦[oRowSet (wid c s)]{fullShare} fo))

/-- The one call: each SparseCore its tiles' stretches and its half of the table's share; each tile what its task
    starts from and what it hands back; each task's proof consumes its barrier kit; each tile owes its arrivals. -/
def P : (K (F := F)).Pay (nD := nD) (Val := Elt F) (Name := ℕ) (U := UU) where
  st := fun q d c => match q with | 0 => iprop(stretches fI d (coreOf c) (m (oLoc d)) ∗ tShare m d (coreOf c))
  dn := fun q d c => match q with | 0 => iprop(stretches fI d (coreOf c) (Gout (fI d) (m (tLoc d))) ∗ tShare m d (coreOf c))
  go := fun q d c i => match q with | 0 => goRes m fI d (coreOf c) ((K (F := F)).sub 0 i)
  td := fun q d c i => match q with | 0 => tdRes m fI d (coreOf c) ((K (F := F)).sub 0 i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m fI).IsStorable where
  st q d c := match q with
    | 0 => (inferInstance : BI.Storable (upEmb : UEmb _ 𝕄) iprop(stretches fI d (coreOf c) (m (oLoc d)) ∗ tShare m d (coreOf c)))
  dn q d c := match q with
    | 0 => (inferInstance : BI.Storable (upEmb : UEmb _ 𝕄) iprop(stretches fI d (coreOf c) (Gout (fI d) (m (tLoc d))) ∗ tShare m d (coreOf c)))
  go q d c i := match q with
    | 0 => by
      show BI.Storable (upEmb : UEmb _ 𝕄) (goRes m fI d (coreOf c) ((K (F := F)).sub 0 i))
      unfold goRes; split <;> infer_instance
  td q d c i := match q with
    | 0 => by
      show BI.Storable (upEmb : UEmb _ 𝕄) (tdRes m fI d (coreOf c) ((K (F := F)).sub 0 i))
      unfold tdRes; split <;> infer_instance

theorem P_st (d : Dev nD) (c : Fin ((K (F := F)).nCore 0)) :
    (P m fI).st 0 d c = iprop(stretches fI d (coreOf c) (m (oLoc d)) ∗ tShare m d (coreOf c)) := rfl
theorem P_dn (d : Dev nD) (c : Fin ((K (F := F)).nCore 0)) :
    (P m fI).dn 0 d c = iprop(stretches fI d (coreOf c) (Gout (fI d) (m (tLoc d))) ∗ tShare m d (coreOf c)) := rfl
theorem P_go (d : Dev nD) (c : Fin ((K (F := F)).nCore 0)) (i : Fin ((K (F := F)).nSub 0)) :
    (P m fI).go 0 d c i = goRes m fI d (coreOf c) ((K (F := F)).sub 0 i) := rfl
theorem P_td (d : Dev nD) (c : Fin ((K (F := F)).nCore 0)) (i : Fin ((K (F := F)).nSub 0)) :
    (P m fI).td 0 d c i = tdRes m fI d (coreOf c) ((K (F := F)).sub 0 i) := rfl
theorem P_x_V (d : Dev nD) (c : Fin τ.nSC) (i : Fin τ.nSub) : (P m fI).x 0 (V d c i) = bkit m d c i := rfl
theorem P_ox_V (d : Dev nD) (c : Fin τ.nSC) (i : Fin τ.nSub) : (P m fI).ox 0 (V d c i) = oxV d c := rfl

/-! ## A tile's task, and the obligation -/

local notation "iV" => (Memref.whole Cert.KernelIdeal.main_v0_scv : Memref Cert.KernelIdeal.sig Kind.scVector Space.hbm Cert.KernelIdeal.S32x200x128 EltTy.i32)
local notation "tV" => (Memref.whole Cert.KernelIdeal.main_arg1_scv : Memref Cert.KernelIdeal.sig Kind.scVector Space.hbm Cert.KernelIdeal.S4x128 EltTy.f32)
local notation "oV" => (Memref.whole Cert.KernelIdeal.main_v1_scv : Memref Cert.KernelIdeal.sig Kind.scVector Space.hbm Cert.KernelIdeal.S32x200x128x128 EltTy.f32)
local notation "xV" => (Memref.whole Cert.KernelIdeal.cc0_scratch0 : Memref Cert.KernelIdeal.sig Kind.scVector Space.vmem Cert.KernelIdeal.S200x128 EltTy.i32)
local notation "bV" => (Memref.whole Cert.KernelIdeal.cc0_scratch1 : Memref Cert.KernelIdeal.sig Kind.scVector Space.vmem Cert.KernelIdeal.S4x128x128 EltTy.f32)
local notation "shV" => (Memref.whole Cert.KernelIdeal.cc0_scratch2 : Memref Cert.KernelIdeal.sig Kind.scVector Space.shared Cert.KernelIdeal.S4x128 EltTy.f32)

/-- The statement about one tile's task at a symbolic place of the grid that the launch rests on: from the level
    facts, the tile's barrier kit, what the task starts from, the tile's scoped storage and its debt, the task runs and
    leaves what it hands back, the scoped storage, and the debt the barrier added paid. -/
def TileSpec : Prop :=
  ∀ (d : Dev nD) (L : grid0.Coords) (_ : (K (F := F)).Facts) (_ : ∀ x, (fI d x).toNat < 4)
    (O : CellTallies nD τ sig (HIx 1)) (W : Waits sig (HIx 1)) (_ : ∀ g, O g none = 0)
    (_ : ∀ g ι, 0 < O g ι → 8 * (0 : Fin 1).val + 6 ≤ (K (F := F)).lev g ι),
    iprop(levAts (K (F := F)).L (K (F := F)).lev ∗ bkit m d ((L 0).castLE hcore0) ((L 1).castLE hsub0)
        ∗ goRes m fI d ((L 0).castLE hcore0) ((L 1).castLE hsub0)
        ∗ scopedBufs (V d ((L 0).castLE hcore0) ((L 1).castLE hsub0)) ∗ scopedSems0 (V d ((L 0).castLE hcore0) ((L 1).castLE hsub0))
        ∗ owes (V d ((L 0).castLE hcore0) ((L 1).castLE hsub0)) (O + oxV d ((L 0).castLE hcore0)) W)
      ⊢ wp frame (wpE (defs₀ (F := F)) 𝒱₀ (V d ((L 0).castLE hcore0) ((L 1).castLE hsub0)) none) Set.univ
          (cc0__emb_lookup L iV (Memref.isWhole_whole _) tV (Memref.isWhole_whole _) oV (Memref.isWhole_whole _)
            xV (Memref.isWhole_whole _) bV (Memref.isWhole_whole _) shV (Memref.isWhole_whole _)
            cc0_scratch3 cc0_scratch4 cc0_scoped0 cc0_scoped1)
          fun _ => iprop(tdRes m fI d ((L 0).castLE hcore0) ((L 1).castLE hsub0)
            ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none ∨ p.2 = some (0 : Fin 1)⌝ ∗ owes (V d ((L 0).castLE hcore0) ((L 1).castLE hsub0)) O W')

/-- The place (c, s) of the call's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_lookup (coordsV c s)
          iV (Memref.isWhole_whole _) tV (Memref.isWhole_whole _) oV (Memref.isWhole_whole _)
          xV (Memref.isWhole_whole _) bV (Memref.isWhole_whole _) shV (Memref.isWhole_whole _)
          cc0_scratch3 cc0_scratch4 cc0_scoped0 cc0_scoped1) ⟨⟩ c s := rfl

set_option maxRecDepth 16384 in
theorem tileObl (hF : (K (F := F)).Facts) (hpre : ∀ d x, (fI d x).toNat < 4) (tb : TileSpec m fI) :
    (K (F := F)).TileObl (D (F := F)) 𝒱 (P m fI) v₀ 0 := by
  intro d c i O W hO hOlev _
  have hci : ((K (F := F)).core 0 c).val < grid0.bound 0 ∧ ((K (F := F)).sub 0 i).val < grid0.bound 1 := ⟨c.isLt, i.isLt⟩
  rw [P_ox_V, P_x_V, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tb d (coordsV ⟨_, hci.1⟩ ⟨_, hci.2⟩) hF (hpre d) O W hO hOlev

end Cert.KI

end
-- ==== Proof.KI.Launch3.lean ====
/-
  The launch of the lookup kernel, third part: the launch element of the ghost state. The element splits into the
  handshakes' rounds and the barrier cells' rounds; the latter fund one round of sixteen unit duties on every tile's
  barrier cell, whose invariants are allocated at once over the barrier semaphores at zero; tokens, positions and the
  credit for the tiles' arrivals are dealt tile by tile as its barrier kit.
-/
import proofs.«216814_g8117488189630_cont_sun_m_833_27_alg».proof.Proof.KI.Common
import proofs.«216814_g8117488189630_cont_sun_m_833_27_alg».proof.Proof.KI.Launch1

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable (fI : (d : Dev nD) → IVec S32x200x128 32)
variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m fI).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m fI).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m fI).oxFrom 0 (V d c i) = oxV d c := fun i => by
    rw [show (0 : ℕ) = (0 : Fin 1).val from rfl, (P m fI).oxFrom_step, (P m fI).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m fI).x q (SparseCore.T d)) = iprop(emp) :=
  bigSep_univ_of_subsingleton (0 : Fin 1)
theorem Px_S (d : Dev nD) (c : Fin τ.nSC) : (bigSep Finset.univ fun q : Fin 1 => (P (F := F) m fI).x q (S d c)) = iprop(emp) :=
  bigSep_univ_of_subsingleton (0 : Fin 1)
theorem Px_V (d : Dev nD) (c : Fin τ.nSC) (i : Fin τ.nSub) :
    (bigSep Finset.univ fun q : Fin 1 => (P (F := F) m fI).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m fI).x q thr : sProp 𝕄) := by
  rw [SparseCore.Cfg.bigSep_threads (fun thr : Thread nD τ => bigSep Finset.univ fun q : Fin 1 => (P m fI).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m fI).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m fI).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m fI) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m fI)
  isplitr
  · isplitl; · iexists κ; iexact Hinv'
    iexact Hr'
  isplitl [Hat']; · iexact Hat'
  isplitl [Htok']; · iexact Htok'
  iexact Hcred'

end Cert.KI

end
-- ==== Proof.KI.Launch2.lean ====
/-
  The launch of the lookup kernel, second part: how the arrays split among the SparseCores and among a SparseCore's
  tiles, and how the pieces rejoin.
  The index array and the result are cut along their first axis into 32 stretches; stretch 2 s + c goes to tile s of
  SparseCore c, so the 32 stretches regroup as 2 families of 16. The table's read share is halved between the
  SparseCores. Within a SparseCore tile 0 alone takes the table's share and the shared scratch; at the end the sixteen
  tiles' sixteenths of the shared copy, all at the table's contents, are the shared scratch whole again.
-/
import proofs.«216814_g8117488189630_cont_sun_m_833_27_alg».proof.Proof.KI.Common
import proofs.«216814_g8117488189630_cont_sun_m_833_27_alg».proof.Proof.KI.Launch1

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable (fI : (d : Dev nD) → IVec S32x200x128 32)

/-! ## The 32 stretches -/

theorem iRowSet_eq (w : Fin 32) : iRowSet w = (iRow w).set := by
  show ((View.whole (main_v0_scv : Ref sig .scVector)).slice (iRow w)).set = _
  rw [View.set_slice]; exact Finset.map_refl
theorem oRowSet_eq (w : Fin 32) : oRowSet w = (oRow w).set := by
  show ((View.whole (main_v1_scv : Ref sig .scVector)).slice (oRow w)).set = _
  rw [View.set_slice]; exact Finset.map_refl

theorem iRows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint hdiv32i h
theorem oRows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint hdiv32o h
theorem iRows_cover : (Finset.univ : Finset (Fin 32)).biUnion iRowSet = Finset.univ :=
  (Finset.biUnion_congr rfl fun i _ => iRowSet_eq i).trans (Rect.biUnion_part hdiv32i)
theorem oRows_cover : (Finset.univ : Finset (Fin 32)).biUnion oRowSet = Finset.univ :=
  (Finset.biUnion_congr rfl fun i _ => oRowSet_eq i).trans (Rect.biUnion_part hdiv32o)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet iRows_disjoint, iRows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet oRows_disjoint, oRows_cover]; try rfl

/-- Stretch numbers are the pairs (SparseCore, tile): w = 2 s + c. -/
def widEquiv : Fin τ.nSC × Fin τ.nSub ≃ Fin 32 where
  toFun p := wid p.1 p.2
  invFun w := (⟨w.val % 2, Nat.mod_lt _ (by decide)⟩, ⟨w.val / 2, by have := w.isLt; show w.val / 2 < 16; omega⟩)
  left_inv p := by
    obtain ⟨c, s⟩ := p
    have h1 : c.val < 2 := c.isLt
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val; omega

theorem bigSep_wid (Φ : Fin 32 → sProp 𝕄) :
    bigSep Finset.univ Φ = bigSep Finset.univ fun c : Fin τ.nSC => bigSep Finset.univ fun s : Fin τ.nSub => Φ (wid c s) := by
  rw [bigSep_univ_equiv widEquiv Φ, bigSep_univ_prod]; rfl

/-- The call's core numbers are the device's SparseCores, its task numbers a SparseCore's tiles. -/
theorem bigSep_cores (Φ : Fin τ.nSC → sProp 𝕄) :
    (bigSep Finset.univ fun c : Fin ((K (F := F)).nCore 0) => Φ (coreOf c)) = bigSep Finset.univ Φ :=
  bigSep_congr fun _ _ => congrArg Φ (Fin.ext rfl)
theorem bigSep_subs (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

/-- The two arrays whole are the stretches of both SparseCores' tiles. -/
theorem stretches_all (d : Dev nD) (fo : Buf (Elt F) (oLoc d)) :
    iprop((iLoc d ↦{fullShare} fI d) ∗ (oLoc d ↦{fullShare} fo) : sProp 𝕄)
      = bigSep Finset.univ fun c : Fin τ.nSC => stretches fI d c fo := by
  unfold stretches
  rw [iPts_rows, oPts_rows, bigSep_wid (fun w => iLoc d ↦[iRowSet w]{fullShare} fI d), bigSep_wid (fun w => oLoc d ↦[oRowSet w]{fullShare} fo),
    ← bigSep_sep']
  exact bigSep_congr fun c _ => (bigSep_sep' _ _ _).symm

/-- The table's read share is the two SparseCores' halves. -/
theorem tShare_all (d : Dev nD) :
    (tLoc d ↦{fullShare} m (tLoc d) : sProp 𝕄) = bigSep Finset.univ fun c : Fin τ.nSC => tShare m d c := by
  rw [pointsTo_piecesOf Finset.univ (m (tLoc d)) pos2 fullShare]
  exact bigSep_congr fun c _ => congrArg (fun j => (tLoc d ↦{pieceOf fullShare 2 pos2 j} m (tLoc d) : sProp 𝕄)) (Fin.ext rfl)

variable [FloatOps F]

/-- What the call takes, and what it brings back: the index array and the result whole, and the table's share. -/
theorem st_all (d : Dev nD) :
    (bigSep Finset.univ fun c : Fin ((K (F := F)).nCore 0) => (P m fI).st 0 d c)
      = iprop(((iLoc d ↦{fullShare} fI d) ∗ (oLoc d ↦{fullShare} m (oLoc d))) ∗ tLoc d ↦{fullShare} m (tLoc d)) := by
  rw [stretches_all, tShare_all, ← bigSep_sep']
  exact bigSep_cores (F := F) fun c => iprop(stretches fI d c (m (oLoc d)) ∗ tShare m d c)
theorem dn_all (d : Dev nD) :
    (bigSep Finset.univ fun c : Fin ((K (F := F)).nCore 0) => (P m fI).dn 0 d c)
      = iprop(((iLoc d ↦{fullShare} fI d) ∗ (oLoc d ↦{fullShare} Gout (fI d) (m (tLoc d)))) ∗ tLoc d ↦{fullShare} m (tLoc d)) := by
  rw [stretches_all, tShare_all, ← bigSep_sep']
  exact bigSep_cores (F := F) fun c => iprop(stretches fI d c (Gout (fI d) (m (tLoc d))) ∗ tShare m d c)

/-! ## Within a SparseCore -/

omit [FloatOps F] in
/-- What only tile 0 holds, over all the tiles. -/
theorem tile0_all (A : sProp 𝕄) : (bigSep Finset.univ fun s : Fin τ.nSub => if s.val = 0 then A else iprop(emp)) = A := by
  rw [SparseCore.bigSep_erase' (Finset.mem_univ (⟨0, by decide⟩ : Fin τ.nSub)),
    bigSep_congr (Ψ := fun _ => iprop(emp)) (fun s hs => if_neg fun h => (Finset.mem_erase.mp hs).1 (Fin.ext h)), bigSep_emp']
  exact equiv_iff.mp BI.sep_emp

omit [FloatOps F] in
/-- The sixteen tiles' pieces of the shared copy are the shared copy. -/
theorem shShare_all (d : Dev nD) (c : Fin τ.nSC) :
    (bigSep Finset.univ fun s : Fin τ.nSub => shShare m d c (Fin.cast nSub_eq s)) = (shLoc d c ↦{fullShare} tabC m d c : sProp 𝕄) := by
  rw [pointsTo_piecesOf Finset.univ (tabC m d c) pos16 fullShare]
  exact bigSep_congr fun s _ => congrArg (fun j => (shLoc d c ↦{pieceOf fullShare 16 pos16 j} tabC m d c : sProp 𝕄)) (Fin.ext rfl)

omit [FloatOps F] in
theorem go_intro (d : Dev nD) (c : Fin τ.nSC) :
    iprop(stretches fI d c (m (oLoc d)) ∗ tShare m d c ∗ ∃ f, shLoc d c ↦{fullShare} f)
      ⊢ (bigSep Finset.univ fun s : Fin τ.nSub => goRes m fI d c s : sProp 𝕄) := by
  unfold goRes stretches
  rw [bigSep_sep', bigSep_sep', bigSep_sep', tile0_all]
  iintro ⟨⟨Hi, Ho⟩, H0⟩
  isplitl [Hi]; · iexact Hi
  isplitl [Ho]; · iexact Ho
  iexact H0

omit [FloatOps F] in
theorem td_elim (d : Dev nD) (c : Fin τ.nSC) :
    (bigSep Finset.univ fun s : Fin τ.nSub => tdRes m fI d c s : sProp 𝕄)
      ⊢ iprop(stretches fI d c (Gout (fI d) (m (tLoc d))) ∗ tShare m d c ∗ shLoc d c ↦{fullShare} tabC m d c) := by
  unfold tdRes stretches
  rw [bigSep_sep', bigSep_sep', bigSep_sep', bigSep_sep', tile0_all, shShare_all]
  iintro ⟨Hi, Ho, Ht, Hsh⟩
  isplitl [Hi Ho]
  · isplitl [Hi]; · iexact Hi
    iexact Ho
  isplitl [Ht]; · iexact Ht
  iexact Hsh

omit [FloatOps F] in
/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The split: tile 0 of the SparseCore is handed the table's share and the sequencer's shared scratch; at the end the
    scratch is whole again at the table's contents. -/
theorem vecSplit : (K (F := F)).VecSplit (P m fI) 0 := by
  intro d c
  show iprop(iprop(stretches fI d (coreOf c) (m (oLoc d)) ∗ tShare m d (coreOf c)) ∗ ownBufs (S d (coreOf c))) ⊢ |={Set.univ}=> iprop(
      (bigSep Finset.univ fun i : Fin ((K (F := F)).nSub 0) => goRes m fI d (coreOf c) ((K (F := F)).sub 0 i))
      ∗ ((bigSep Finset.univ fun i : Fin ((K (F := F)).nSub 0) => tdRes m fI d (coreOf c) ((K (F := F)).sub 0 i))
          -∗ iprop(iprop(stretches fI d (coreOf c) (Gout (fI d) (m (tLoc d))) ∗ tShare m d (coreOf c)) ∗ ownBufs (S d (coreOf c)))))
  rw [bigSep_subs (F := F) (fun s => goRes m fI d (coreOf c) s), bigSep_subs (F := F) (fun s => tdRes m fI d (coreOf c) s), ownBufs_S]
  iintro ⟨⟨Hst, Ht⟩, Hsh, Hrest⟩; imodintro
  isplitl [Hst Ht Hsh]
  · iapply (go_intro m fI d (coreOf c))
    isplitl [Hst]; · iexact Hst
    isplitl [Ht]; · iexact Ht
    iexact Hsh
  iintro Htd
  ihave Htd' := (td_elim m fI d (coreOf c)) $$ Htd
  icases Htd' with ⟨Hst, Ht, Hsh⟩
  isplitl [Hst Ht]
  · isplitl [Hst]; · iexact Hst
    iexact Ht
  isplitl [Hsh]; · iexists _; iexact Hsh
  iexact Hrest

end Cert.KI

end
-- ==== Proof.KI.Launch4.lean ====
/-
  The launch of the lookup kernel, fourth part: @main on the TensorCore. The first reshape leaves the index array, read
  in row-major order as 32 stretches of 200 chunks of 128, in the call's first operand; the call takes that, the
  result array and the table's read share, and brings them back with the result at the looked-up rows; the second
  reshape reads the result in row-major order as one batch of 819200 rows.
-/
import proofs.«216814_g8117488189630_cont_sun_m_833_27_alg».proof.Proof.KI.Common
import proofs.«216814_g8117488189630_cont_sun_m_833_27_alg».proof.Proof.KI.Launch2
import Idealize.ShloMosaic.Lib.Pipeline.Value

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The arrays of @main and the two reshapes' values -/

abbrev a0Loc (d : Dev nD) : Loc nD τ sig := (SparseCore.T d).loc main_arg0
abbrev v2Loc (d : Dev nD) : Loc nD τ sig := (SparseCore.T d).loc main_v2

/-- What the first reshape leaves in the call's first operand: the index array read in row-major order at the shape
    32 × 200 × 128. -/
def fIof (d : Dev nD) : IVec S32x200x128 32 := shapeCast S32x200x128 (m (a0Loc d)) shapeCasts_S16384x50_S32x200x128

/-- Entry (w, k, r) of it is entry number 25600 w + 128 k + r of the index array in row-major order. -/
theorem fIof_apply (d : Dev nD) (w : Fin 32) (k : Fin 200) (r : Fin 128) :
    fIof m d (ix3 w k r)
      = m (a0Loc d) (ix2 (⟨(w.val * 25600 + k.val * 128 + r.val) / 50, by have := w.isLt; have := k.isLt; have := r.isLt; omega⟩ : Fin 16384)
          (⟨(w.val * 25600 + k.val * 128 + r.val) % 50, Nat.mod_lt _ (by decide)⟩ : Fin 50)) := by
  unfold fIof
  refine shapeCast_apply _ _ _ _ ?_
  refine (Shape.rowMajor_val_two (d := ![16384, 50]) _).trans (Eq.trans ?_ (Shape.rowMajor_val_three (d := ![32, 200, 128]) _).symm)
  show (w.val * 25600 + k.val * 128 + r.val) / 50 * 50 + (w.val * 25600 + k.val * 128 + r.val) % 50 = (w.val * 200 + k.val) * 128 + r.val
  omega

/-- Every entry of it is an entry of the index array. -/
theorem fIof_lt (h : ∀ d x, (m (a0Loc d) x).toNat < 4) : ∀ d x, (fIof m d x).toNat < 4 := fun d x => h d _

/-- The program's result: the looked-up rows read in row-major order as one batch of 819200 rows. -/
def Kout (d : Dev nD) : FVec F S1x819200x128 .f32 :=
  shapeCast S1x819200x128 (Gout (fIof m d) (m (tLoc d))) shapeCasts_S32x200x128x128_S1x819200x128

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev opR1 : HloOp τ sig (Elt F) := StableHlo.reshape main_arg0 main_v0 rfl shapeCasts_S16384x50_S32x200x128
abbrev opR2 : HloOp τ sig (Elt F) := StableHlo.reshape main_v1 main_v2 rfl shapeCasts_S32x200x128x128_S1x819200x128

/-- The TensorCore's arrays, all unscoped. -/
abbrev S5 : Finset (DevRef τ sig) := {a0', a1', v0', v1', v2'}

theorem held_S5 (d : Dev nD) (W : Valuation τ sig (Elt F)) :
    (held (T d) S5 W : sProp 𝕄)
      = iprop((a0Loc d ↦{fullShare} W a0') ∗ (tLoc d ↦{fullShare} W a1') ∗ (iLoc d ↦{fullShare} W v0')
          ∗ (oLoc d ↦{fullShare} W v1') ∗ v2Loc d ↦{fullShare} W v2') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tLoc d ↦{fullShare} W main_arg1) ∗ (iLoc d ↦{fullShare} W main_v0)
          ∗ (oLoc d ↦{fullShare} W main_v1) ∗ v2Loc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call; after the second reshape. -/
def V0 (d : Dev nD) : Valuation τ sig (Elt F) := fun b => m (d, b)
def V1 (d : Dev nD) : Valuation τ sig (Elt F) := (opR1 (F := F)).result (V0 m d)
def V2 (d : Dev nD) : Valuation τ sig (Elt F) := Function.update (V1 m d) v1' (Gout (fIof m d) (m (tLoc d)))
def V3 (d : Dev nD) : Valuation τ sig (Elt F) := (opR2 (F := F)).result (V2 m d)

theorem unscoped_held (d : Dev nD) : (unscopedBufs d (fun b => m ((SparseCore.T d).loc b)) : sProp 𝕄) = held (T d) S5 (V0 m d) := by
  rw [unscopedBufs_eq, held_S5]; rfl

theorem V1_a0 (d : Dev nD) : V1 m d a0' = m (a0Loc d) :=
  (opR1 (F := F)).result_of_not_mem _ (show a0' ∉ ({v0'} : Finset (DevRef τ sig)) by decide)
theorem V1_a1 (d : Dev nD) : V1 m d a1' = m (tLoc d) :=
  (opR1 (F := F)).result_of_not_mem _ (show a1' ∉ ({v0'} : Finset (DevRef τ sig)) by decide)
theorem V1_v0 (d : Dev nD) : V1 m d v0' = fIof m d :=
  (StableHlo.reshape_result main_arg0 main_v0 rfl shapeCasts_S16384x50_S32x200x128 ⟨by decide, rfl⟩ ⟨by decide, rfl⟩ (V0 m d)).trans rfl
theorem V1_v1 (d : Dev nD) : V1 m d v1' = m (oLoc d) :=
  (opR1 (F := F)).result_of_not_mem _ (show v1' ∉ ({v0'} : Finset (DevRef τ sig)) by decide)
theorem V1_v2 (d : Dev nD) : V1 m d v2' = m (v2Loc d) :=
  (opR1 (F := F)).result_of_not_mem _ (show v2' ∉ ({v0'} : Finset (DevRef τ sig)) by decide)

theorem V2_a0 (d : Dev nD) : V2 m d a0' = m (a0Loc d) := (Function.update_of_ne (show a0' ≠ v1' by decide) _ _).trans (V1_a0 m d)
theorem V2_a1 (d : Dev nD) : V2 m d a1' = m (tLoc d) := (Function.update_of_ne (show a1' ≠ v1' by decide) _ _).trans (V1_a1 m d)
theorem V2_v0 (d : Dev nD) : V2 m d v0' = fIof m d := (Function.update_of_ne (show v0' ≠ v1' by decide) _ _).trans (V1_v0 m d)
theorem V2_v1 (d : Dev nD) : V2 m d v1' = Gout (fIof m d) (m (tLoc d)) := Function.update_self _ _ _
theorem V2_v2 (d : Dev nD) : V2 m d v2' = m (v2Loc d) := (Function.update_of_ne (show v2' ≠ v1' by decide) _ _).trans (V1_v2 m d)

theorem V3_a0 (d : Dev nD) : V3 m d a0' = m (a0Loc d) :=
  ((opR2 (F := F)).result_of_not_mem _ (show a0' ∉ ({v2'} : Finset (DevRef τ sig)) by decide)).trans (V2_a0 m d)
theorem V3_a1 (d : Dev nD) : V3 m d a1' = m (tLoc d) :=
  ((opR2 (F := F)).result_of_not_mem _ (show a1' ∉ ({v2'} : Finset (DevRef τ sig)) by decide)).trans (V2_a1 m d)
theorem V3_v2 (d : Dev nD) : V3 m d v2' = Kout m d := by
  unfold V3 Kout
  rw [show (opR2 (F := F)).result (V2 m d) v2' = _ from
    StableHlo.reshape_result main_v1 main_v2 rfl shapeCasts_S32x200x128x128_S1x819200x128 ⟨by decide, rfl⟩ ⟨by decide, rfl⟩ (V2 m d)]
  show shapeCast S1x819200x128 (V2 m d v1') _ = _
  rw [V2_v1]

/-- The five arrays before the call, and after the second reshape. -/
theorem held_V1 (d : Dev nD) :
    (held (T d) S5 ((opR1 (F := F)).result (V0 m d)) : sProp 𝕄)
      = iprop((a0Loc d ↦{fullShare} m (a0Loc d)) ∗ (tLoc d ↦{fullShare} m (tLoc d)) ∗ (iLoc d ↦{fullShare} fIof m d)
          ∗ (oLoc d ↦{fullShare} m (oLoc d)) ∗ v2Loc d ↦{fullShare} m (v2Loc d)) := by
  show held (SparseCore.T d) S5 (V1 m d) = _
  rw [held_S5, V1_a0, V1_a1, V1_v0, V1_v1, V1_v2]
theorem held_V3 (d : Dev nD) :
    (held (T d) S5 ((opR2 (F := F)).result (V2 m d)) : sProp 𝕄)
      = iprop((a0Loc d ↦{fullShare} m (a0Loc d)) ∗ (tLoc d ↦{fullShare} m (tLoc d)) ∗ (iLoc d ↦{fullShare} V3 m d v0')
          ∗ (oLoc d ↦{fullShare} V3 m d v1') ∗ v2Loc d ↦{fullShare} Kout m d) := by
  show held (SparseCore.T d) S5 (V3 m d) = _
  rw [held_S5, V3_a0, V3_a1, V3_v2]

theorem hR1 : (opR1 (F := F)).bufs ⊆ S5 := show ({a0', v0'} : Finset (DevRef τ sig)) ⊆ S5 by decide
theorem hR2 : (opR2 (F := F)).bufs ⊆ S5 := show ({v1', v2'} : Finset (DevRef τ sig)) ⊆ S5 by decide

/-- What @main leaves the claim: the two arguments at their launch contents, the result at the looked-up rows. -/
abbrev FIN (d : Dev nD) : sProp 𝕄 :=
  iprop((a0Loc d ↦{fullShare} m (a0Loc d)) ∗ (tLoc d ↦{fullShare} m (tLoc d)) ∗ v2Loc d ↦{fullShare} Kout m d)

variable [FloatOps F]

/-- @main on device d's TensorCore: the first reshape (over the five arrays held whole), the call (from the reshaped
    index array, the result array and the table's share), the second reshape. -/
theorem hmain (κ : GSem nD τ sig → ℕ) (d : Dev nD) :
    iprop((K (F := F)).ctx EH (P m (fIof m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape
  iapply (wp_hlo_within 𝒱 (SparseCore.T d) none Set.univ (op := opR1) (S := S5) hR1 (V := V0 m d)) $$ [Hb Hheld]
  · isplitl [Hb] <;> iassumption
  iintro ⟨Hb, Hheld⟩
  rw [wp_ret]; imodintro
  -- the call
  ihave Hh := (Entails.of_eq (held_V1 (F := F) m d)) $$ Hheld
  icases Hh with ⟨Ha0, Ha1, Hv0, Hv1, Hv2⟩
  iapply ((K (F := F)).wp_run (D (F := F)) 𝒱 (EH := EH) (P := P m (fIof m)) κ d 0) $$ [Hst Ha1 Hv0 Hv1 Hb Ha0 Hv2]
  isplitr; · iexact Hctx
  isplitl [Hst]; · iexact Hst
  isplitl [Ha1 Hv0 Hv1]
  · rw [st_all]
    isplitl [Hv0 Hv1]
    · isplitl [Hv0]; · iexact Hv0
      iexact Hv1
    iexact Ha1
  iintro ⟨Hst, Hdn⟩
  ihave Hdn' := (Entails.of_eq (dn_all m (fIof m) d)) $$ Hdn
  icases Hdn' with ⟨⟨Hv0, Hv1⟩, Ha1⟩
  -- the second reshape
  iapply (wp_hlo_within 𝒱 (SparseCore.T d) none Set.univ (op := opR2) (S := S5) hR2 (V := V2 m d)) $$ [Hb Ha0 Ha1 Hv0 Hv1 Hv2]
  · isplitl [Hb]; · iexact Hb
    rw [held_S5, V2_a0, V2_a1, V2_v0, V2_v1, V2_v2]
    isplitl [Ha0]; · iexact Ha0
    isplitl [Ha1]; · iexact Ha1
    isplitl [Hv0]; · iexact Hv0
    isplitl [Hv1]; · iexact Hv1
    iexact Hv2
  iintro ⟨Hb, Hheld⟩
  ihave Hh := (Entails.of_eq (held_V3 (F := F) m d)) $$ Hheld
  icases Hh with ⟨Ha0, Ha1, -, -, Hv2⟩
  rw [wp_ret]; imodintro; imodintro
  isplitl [Hst]; · iexact Hst
  isplitl [Ha0]; · iexact Ha0
  isplitl [Ha1]; · iexact Ha1
  iexact Hv2

end Cert.KI

end
-- ==== Proof.KI.Launch5.lean ====
/-
  The launch of the lookup kernel, last part: the final memory reads the claim, the program's run.
-/
import proofs.«216814_g8117488189630_cont_sun_m_833_27_alg».proof.Proof.KI.Common
import proofs.«216814_g8117488189630_cont_sun_m_833_27_alg».proof.Proof.KI.Launch3
import proofs.«216814_g8117488189630_cont_sun_m_833_27_alg».proof.Proof.KI.Launch4

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-! ## The final memory -/

def fq (d : Dev nD) (s' : Phys nD τ sig (Elt F)) : Prop :=
  s'.mem.mem (v2Loc d) = Kout m d ∧ s'.mem.mem (a0Loc d) = m (a0Loc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha0, Ha1, Hv2⟩, HSI⟩
  icombine HSI Ha0 gives %h0
  icombine HSI Ha1 gives %h1
  icombine HSI Hv2 gives %h2
  ipureintro
  exact ⟨funext fun i => h2 i (Finset.mem_univ i), funext fun i => h0 i (Finset.mem_univ i), funext fun i => h1 i (Finset.mem_univ i)⟩

/-! ## The program's run -/

/-- The run's post: on every device the result is the looked-up rows and the two arguments are unchanged. -/
def QC : PUnit × MemSt nD τ sig (Elt F) → Prop := fun r => ∀ c : Dev nD,
  r.2.mem ((c.tc : Thread nD τ).loc main_v2) = Kout m c
    ∧ r.2.mem ((c.tc : Thread nD τ).loc main_arg0) = m ((c.tc : Thread nD τ).loc main_arg0)
    ∧ r.2.mem ((c.tc : Thread nD τ).loc main_arg1) = m ((c.tc : Thread nD τ).loc main_arg1)

variable [FloatOps F]

/-- Every weakly fair execution of the program's threads ends, nothing faulting, with the result at the looked-up rows
    and the arguments unchanged: from the proof of one tile's task at a symbolic place, and every entry of the
    reshaped index array naming a row of the table. -/
theorem run_main [∀ e, Nonempty (Elt F e)] (hpre : ∀ d x, (fIof m d x).toNat < 4) (tb : TileSpec m (fIof m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (fIof m)) Cert.KI.facts v₀
    (fun q hq => match q with | 0 => nomatch hq)
    (fun q _ => match q with | 0 => tileObl m (fIof m) Cert.KI.facts hpre tb)
    (fun q _ => match q with | 0 => vecSplit m (fIof m))
    m ρ main (fun _ => iprop(emp)) (FIN m) (u₀ (F := F)) (hu₀ m (fIof m)) (hmain m ρ) (fq m) (hfin m) (QC m) (fun _ h => h)

/-- The same from the index array's own entries naming rows of the table. -/
theorem run_main' [∀ e, Nonempty (Elt F e)] (hpre : ∀ d x, (m ((SparseCore.T d).loc main_arg0) x).toNat < 4) (tb : TileSpec m (fIof m)) :
    θ_run (Cert.KernelIdeal.defs (F := F)) (Cert.KernelIdeal.threads (F := F)) ⟨m, fun _ => 0, ρ⟩ (QC m) :=
  run_main m ρ (fIof_lt m hpre) tb

end Cert.KI

end
-- ==== Proof.KI.LaunchValue.lean ====
/-
  The lookup kernel's result as the function both programs compute.
-/
import proofs.«216814_g8117488189630_cont_sun_m_833_27_alg».proof.Proof.KI.Common
import proofs.«216814_g8117488189630_cont_sun_m_833_27_alg».proof.Proof.KI.Launch4
import proofs.«216814_g8117488189630_cont_sun_m_833_27_alg».proof.Proof.Spec

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## The result as a function of the arguments -/

/-- Row n of the 819200 rows of the result is the table row the n-th entry of the index array, in row-major order,
    names: the second reshape reads row (w, k, r) of the call's result at n = 25600 w + 128 k + r, and the first left
    entry n of the index array at (w, k, r). -/
theorem Kout_eq (d : Dev nD) :
    Kout m d = Cert.Spec.G (m ((d.tc : Thread nD τ).loc main_arg0)) (m ((d.tc : Thread nD τ).loc main_arg1)) := by
  funext i
  have hn : (i 1).val < 819200 := (i 1).isLt
  have e1 : (i 1).val / 25600 * 25600 + (i 1).val / 128 % 200 * 128 + (i 1).val % 128 = (i 1).val := by omega
  unfold Kout
  refine (shapeCast_apply (s := S32x200x128x128) (t := S1x819200x128) _ _ i (ix4 (⟨(i 1).val / 25600, by omega⟩ : Fin 32)
      (⟨(i 1).val / 128 % 200, Nat.mod_lt _ (by decide)⟩ : Fin 200) (⟨(i 1).val % 128, Nat.mod_lt _ (by decide)⟩ : Fin 128) (i 2)) ?_).trans ?_
  · refine (Shape.rowMajor_val_four (d := ![32, 200, 128, 128]) _).trans (Eq.trans ?_ (Shape.rowMajor_val_three (d := ![1, 819200, 128]) _).symm)
    have h0 : (i 0).val = 0 := by have h := (i 0).isLt; show (i 0).val = 0; exact Nat.lt_one_iff.mp h
    show ((((i 1).val / 25600) * 200 + (i 1).val / 128 % 200) * 128 + (i 1).val % 128) * 128 + (i 2).val = ((i 0).val * 819200 + (i 1).val) * 128 + (i 2).val
    rw [h0]; omega
  · refine congrArg (fun x : Fin 4 => m (tLoc d) (ix2 x (i 2))) (Fin.ext ?_)
    show (fIof m d (ix3 (⟨(i 1).val / 25600, _⟩ : Fin 32) (⟨(i 1).val / 128 % 200, _⟩ : Fin 200) (⟨(i 1).val % 128, _⟩ : Fin 128))).toNat % 4
      = (m (a0Loc d) (ix2 (⟨(i 1).val / 50, _⟩ : Fin 16384) (⟨(i 1).val % 50, _⟩ : Fin 50))).toNat % 4
    refine congrArg (fun x : BitVec 32 => x.toNat % 4) ((fIof_apply m d _ _ _).trans (congrArg (m (a0Loc d)) ?_))
    refine congrArg₂ (ix2 (n0 := 16384) (n1 := 50)) (Fin.ext ?_) (Fin.ext ?_)
    · show ((i 1).val / 25600 * 25600 + (i 1).val / 128 % 200 * 128 + (i 1).val % 128) / 50 = (i 1).val / 50
      rw [e1]
    · show ((i 1).val / 25600 * 25600 + (i 1).val / 128 % 200 * 128 + (i 1).val % 128) % 50 = (i 1).val % 50
      rw [e1]

end Cert.KI

end
-- ==== Proof.KB.Common.lean ====
/-
  The vocabulary of the lookup kernel's run on the SparseCores, shared by the tile's proof and the launch.
  Thirty-two tiles (two SparseCores of sixteen) each look up one 25600-entry stretch of the index array: tile (c, s)
  handles stretch w = 2 s + c. Tile 0 of each SparseCore copies the table into the SparseCore's shared memory; all
  sixteen tiles then meet at the subcore barrier, across which tile 0 hands every tile a read share of the shared
  table; after it each tile streams its 200 chunks of 128 rows through four row buffers.
  The barrier is one round of one unit duty per tile on every tile's barrier cell; tile 0's duty in tile j's round
  carries the j-th sixteenth of the shared table, at the table's contents.
-/
import proofs.«216814_g8117488189630_cont_sun_m_833_27_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«216814_g8117488189630_cont_sun_m_833_27_alg».proof.Proof.Gen.Kernel

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

variable (m : (ℓ : Loc nD τ sig) → Buf (Elt F) ℓ) (ρ : Dev nD → PrngReg)

/-- The index array (as reshaped to 32 stretches of 200 chunks of 128), the table, the result (32 × 200 × 128 rows). -/
abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

/-- SparseCore c's shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl

/-- The table's contents, read as contents of a SparseCore's shared copy (same shape, same element type). -/
abbrev tabC (d : Dev nD) (c : Fin τ.nSC) : Buf (Elt F) (shLoc d c) := fun x => m (tLoc d) x

theorem pos16 : 0 < 16 := by decide

/-- Tile j's sixteenth of the shared table, at the table's contents. -/
abbrev shShare (d : Dev nD) (c : Fin τ.nSC) (j : Fin 16) : sProp 𝕄 :=
  shLoc d c ↦{pieceOf fullShare 16 pos16 j} tabC m d c

variable [FloatOps F]

/-! ## The barrier cells -/

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What duty n of tile j's round hands over: tile 0's, tile j's share of the shared table; the others', nothing. -/
def bPay (g : GSem nD τ sig) (n : ℕ) : sProp 𝕄 :=
  match g with
  | ((d, .scVector c j), _) => if n = 0 then shShare m d c (Fin.cast nSub_eq j) else iprop(emp)
  | _ => iprop(emp)

/-- The barrier cells' schedule: one round on each, one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, the credit for its own round's units. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## The stretches -/

section Stretches

open Idealize.ShloMosaic.ValueIdx

local notation "iV" => (Memref.whole Cert.Kernel.main_v0_scv : Memref Cert.Kernel.sig Kind.scVector Space.hbm Cert.Kernel.S32x200x128 EltTy.i32)
local notation "oV" => (Memref.whole Cert.Kernel.main_v1_scv : Memref Cert.Kernel.sig Kind.scVector Space.hbm Cert.Kernel.S32x200x128x128 EltTy.f32)

omit [FloatOps F] in
theorem hdiv32i : 32 ∣ S32x200x128.size 0 := ⟨1, rfl⟩
omit [FloatOps F] in
theorem hdiv32o : 32 ∣ S32x200x128x128.size 0 := ⟨1, rfl⟩
/-- Stretch w of the index array, and of the result. -/
abbrev iRow (w : Fin 32) : Rect S32x200x128 := Rect.part (s := S32x200x128) (a₀ := 0) hdiv32i w
abbrev oRow (w : Fin 32) : Rect S32x200x128x128 := Rect.part (s := S32x200x128x128) (a₀ := 0) hdiv32o w
abbrev iRowSet (w : Fin 32) : Finset S32x200x128.Idx := ((iV).view.slice (iRow w)).set
abbrev oRowSet (w : Fin 32) : Finset S32x200x128x128.Idx := ((oV).view.slice (oRow w)).set

/-- The stretch tile s of SparseCore c handles. -/
def wid (c : Fin τ.nSC) (s : Fin τ.nSub) : Fin 32 :=
  ⟨2 * s.val + c.val, by have h1 : c.val < 2 := c.isLt; have h2 : s.val < 16 := s.isLt; omega⟩

/-- The result of the call as a function of the (reshaped) index array and the table: row (w, k, r) is the table row
    that index names (modulo 4: total; the precondition keeps every index below 4). -/
def Gout (fI : IVec S32x200x128 32) (ft : FVec F S4x128 .f32) : FVec F S32x200x128x128 .f32 :=
  fun x => ft (ix2 (⟨(fI (ix3 (x 0) (x 1) (x 2))).toNat % 4, Nat.mod_lt _ (by decide)⟩ : Fin 4) (x 3))

omit [FloatOps F] in
theorem pos2 : 0 < 2 := by decide

variable (fI : (d : Dev nD) → IVec S32x200x128 32)

/-- SparseCore c's half of the table's read share (only its tile 0 reads the table). -/
abbrev tShare (d : Dev nD) (c : Fin τ.nSC) : sProp 𝕄 := tLoc d ↦{pieceOf fullShare 2 pos2 (Fin.cast (by rfl) c)} m (tLoc d)

/-- What tile (c, s) is handed at its start: its stretch of the index array (at the reshaped contents fI) and of the
    result (at what the result array held); tile 0 also its SparseCore's read share of the table and the shared copy. -/
def goRes (d : Dev nD) (c : Fin τ.nSC) (s : Fin τ.nSub) : sProp 𝕄 :=
  iprop((iLoc d ↦[iRowSet (wid c s)]{fullShare} fI d) ∗ (oLoc d ↦[oRowSet (wid c s)]{fullShare} m (oLoc d))
    ∗ (if s.val = 0 then iprop(tShare m d c ∗ ∃ f, shLoc d c ↦{fullShare} f) else iprop(emp)))

/-- What it hands back: its stretch of the index array, its stretch of the result at the looked-up rows, tile 0 the
    table's share, and every tile its sixteenth of the shared copy at the table's contents. -/
def tdRes (d : Dev nD) (c : Fin τ.nSC) (s : Fin τ.nSub) : sProp 𝕄 :=
  iprop((iLoc d ↦[iRowSet (wid c s)]{fullShare} fI d) ∗ (oLoc d ↦[oRowSet (wid c s)]{fullShare} Gout (fI d) (m (tLoc d)))
    ∗ (if s.val = 0 then tShare m d c else iprop(emp)) ∗ shShare m d c (Fin.cast nSub_eq s))

end Stretches

end Cert.KB

end
-- ==== Proof.KB.Launch1.lean ====
/-
  The launch of the lookup kernel, first part: what the handshakes of the one call carry, and a tile's obligation
  from the proof of its task at a symbolic place.
  The TensorCore hands SparseCore c the sixteen stretches of the index array and of the result that its tiles handle
  and its half of the table's read share; the sequencer hands tile s its two stretches, and tile 0 the table's share
  and the SparseCore's shared scratch; each tile brings back its stretches, the result's at the looked-up rows, and a
  sixteenth of the shared copy at the table's contents.
-/
import proofs.«216814_g8117488189630_cont_sun_m_833_27_alg».proof.Proof.KB.Common

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable (fI : (d : Dev nD) → IVec S32x200x128 32)
variable [FloatOps F]

/-! ## What the handshakes carry -/

/-- The stretches of SparseCore c's sixteen tiles: of the index array at the reshaped contents, of the result at
    given contents. -/
abbrev stretches (d : Dev nD) (c : Fin τ.nSC) (fo : Buf (Elt F) (oLoc d)) : sProp 𝕄 :=
  bigSep Finset.univ fun s : Fin τ.nSub =>
    iprop((iLoc d ↦[iRowSet (wid c s)]{fullShare} fI d) ∗ (oLoc d ↦[oRowSet (wid c s)]{fullShare} fo))

/-- The one call: each SparseCore its tiles' stretches and its half of the table's share; each tile what its task
    starts from and what it hands back; each task's proof consumes its barrier kit; each tile owes its arrivals. -/
def P : (K (F := F)).Pay (nD := nD) (Val := Elt F) (Name := ℕ) (U := UU) where
  st := fun q d c => match q with | 0 => iprop(stretches fI d (coreOf c) (m (oLoc d)) ∗ tShare m d (coreOf c))
  dn := fun q d c => match q with | 0 => iprop(stretches fI d (coreOf c) (Gout (fI d) (m (tLoc d))) ∗ tShare m d (coreOf c))
  go := fun q d c i => match q with | 0 => goRes m fI d (coreOf c) ((K (F := F)).sub 0 i)
  td := fun q d c i => match q with | 0 => tdRes m fI d (coreOf c) ((K (F := F)).sub 0 i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m fI).IsStorable where
  st q d c := match q with
    | 0 => (inferInstance : BI.Storable (upEmb : UEmb _ 𝕄) iprop(stretches fI d (coreOf c) (m (oLoc d)) ∗ tShare m d (coreOf c)))
  dn q d c := match q with
    | 0 => (inferInstance : BI.Storable (upEmb : UEmb _ 𝕄) iprop(stretches fI d (coreOf c) (Gout (fI d) (m (tLoc d))) ∗ tShare m d (coreOf c)))
  go q d c i := match q with
    | 0 => by
      show BI.Storable (upEmb : UEmb _ 𝕄) (goRes m fI d (coreOf c) ((K (F := F)).sub 0 i))
      unfold goRes; split <;> infer_instance
  td q d c i := match q with
    | 0 => by
      show BI.Storable (upEmb : UEmb _ 𝕄) (tdRes m fI d (coreOf c) ((K (F := F)).sub 0 i))
      unfold tdRes; split <;> infer_instance

theorem P_st (d : Dev nD) (c : Fin ((K (F := F)).nCore 0)) :
    (P m fI).st 0 d c = iprop(stretches fI d (coreOf c) (m (oLoc d)) ∗ tShare m d (coreOf c)) := rfl
theorem P_dn (d : Dev nD) (c : Fin ((K (F := F)).nCore 0)) :
    (P m fI).dn 0 d c = iprop(stretches fI d (coreOf c) (Gout (fI d) (m (tLoc d))) ∗ tShare m d (coreOf c)) := rfl
theorem P_go (d : Dev nD) (c : Fin ((K (F := F)).nCore 0)) (i : Fin ((K (F := F)).nSub 0)) :
    (P m fI).go 0 d c i = goRes m fI d (coreOf c) ((K (F := F)).sub 0 i) := rfl
theorem P_td (d : Dev nD) (c : Fin ((K (F := F)).nCore 0)) (i : Fin ((K (F := F)).nSub 0)) :
    (P m fI).td 0 d c i = tdRes m fI d (coreOf c) ((K (F := F)).sub 0 i) := rfl
theorem P_x_V (d : Dev nD) (c : Fin τ.nSC) (i : Fin τ.nSub) : (P m fI).x 0 (V d c i) = bkit m d c i := rfl
theorem P_ox_V (d : Dev nD) (c : Fin τ.nSC) (i : Fin τ.nSub) : (P m fI).ox 0 (V d c i) = oxV d c := rfl

/-! ## A tile's task, and the obligation -/

local notation "iV" => (Memref.whole Cert.Kernel.main_v0_scv : Memref Cert.Kernel.sig Kind.scVector Space.hbm Cert.Kernel.S32x200x128 EltTy.i32)
local notation "tV" => (Memref.whole Cert.Kernel.main_arg1_scv : Memref Cert.Kernel.sig Kind.scVector Space.hbm Cert.Kernel.S4x128 EltTy.f32)
local notation "oV" => (Memref.whole Cert.Kernel.main_v1_scv : Memref Cert.Kernel.sig Kind.scVector Space.hbm Cert.Kernel.S32x200x128x128 EltTy.f32)
local notation "xV" => (Memref.whole Cert.Kernel.cc0_scratch0 : Memref Cert.Kernel.sig Kind.scVector Space.vmem Cert.Kernel.S200x128 EltTy.i32)
local notation "bV" => (Memref.whole Cert.Kernel.cc0_scratch1 : Memref Cert.Kernel.sig Kind.scVector Space.vmem Cert.Kernel.S4x128x128 EltTy.f32)
local notation "shV" => (Memref.whole Cert.Kernel.cc0_scratch2 : Memref Cert.Kernel.sig Kind.scVector Space.shared Cert.Kernel.S4x128 EltTy.f32)

/-- The statement about one tile's task at a symbolic place of the grid that the launch rests on: from the level
    facts, the tile's barrier kit, what the task starts from, the tile's scoped storage and its debt, the task runs and
    leaves what it hands back, the scoped storage, and the debt the barrier added paid. -/
def TileSpec : Prop :=
  ∀ (d : Dev nD) (L : grid0.Coords) (_ : (K (F := F)).Facts) (_ : ∀ x, (fI d x).toNat < 4)
    (O : CellTallies nD τ sig (HIx 1)) (W : Waits sig (HIx 1)) (_ : ∀ g, O g none = 0)
    (_ : ∀ g ι, 0 < O g ι → 8 * (0 : Fin 1).val + 6 ≤ (K (F := F)).lev g ι),
    iprop(levAts (K (F := F)).L (K (F := F)).lev ∗ bkit m d ((L 0).castLE hcore0) ((L 1).castLE hsub0)
        ∗ goRes m fI d ((L 0).castLE hcore0) ((L 1).castLE hsub0)
        ∗ scopedBufs (V d ((L 0).castLE hcore0) ((L 1).castLE hsub0)) ∗ scopedSems0 (V d ((L 0).castLE hcore0) ((L 1).castLE hsub0))
        ∗ owes (V d ((L 0).castLE hcore0) ((L 1).castLE hsub0)) (O + oxV d ((L 0).castLE hcore0)) W)
      ⊢ wp frame (wpE (defs₀ (F := F)) 𝒱₀ (V d ((L 0).castLE hcore0) ((L 1).castLE hsub0)) none) Set.univ
          (cc0__emb_lookup L iV (Memref.isWhole_whole _) tV (Memref.isWhole_whole _) oV (Memref.isWhole_whole _)
            xV (Memref.isWhole_whole _) bV (Memref.isWhole_whole _) shV (Memref.isWhole_whole _)
            cc0_scratch3 cc0_scratch4 cc0_scoped0 cc0_scoped1)
          fun _ => iprop(tdRes m fI d ((L 0).castLE hcore0) ((L 1).castLE hsub0)
            ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none ∨ p.2 = some (0 : Fin 1)⌝ ∗ owes (V d ((L 0).castLE hcore0) ((L 1).castLE hsub0)) O W')

/-- The place (c, s) of the call's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_lookup (coordsV c s)
          iV (Memref.isWhole_whole _) tV (Memref.isWhole_whole _) oV (Memref.isWhole_whole _)
          xV (Memref.isWhole_whole _) bV (Memref.isWhole_whole _) shV (Memref.isWhole_whole _)
          cc0_scratch3 cc0_scratch4 cc0_scoped0 cc0_scoped1) ⟨⟩ c s := rfl

set_option maxRecDepth 16384 in
theorem tileObl (hF : (K (F := F)).Facts) (hpre : ∀ d x, (fI d x).toNat < 4) (tb : TileSpec m fI) :
    (K (F := F)).TileObl (D (F := F)) 𝒱 (P m fI) v₀ 0 := by
  intro d c i O W hO hOlev _
  have hci : ((K (F := F)).core 0 c).val < grid0.bound 0 ∧ ((K (F := F)).sub 0 i).val < grid0.bound 1 := ⟨c.isLt, i.isLt⟩
  rw [P_ox_V, P_x_V, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tb d (coordsV ⟨_, hci.1⟩ ⟨_, hci.2⟩) hF (hpre d) O W hO hOlev

end Cert.KB

end
-- ==== Proof.KB.Launch3.lean ====
/-
  The launch of the lookup kernel, third part: the launch element of the ghost state. The element splits into the
  handshakes' rounds and the barrier cells' rounds; the latter fund one round of sixteen unit duties on every tile's
  barrier cell, whose invariants are allocated at once over the barrier semaphores at zero; tokens, positions and the
  credit for the tiles' arrivals are dealt tile by tile as its barrier kit.
-/
import proofs.«216814_g8117488189630_cont_sun_m_833_27_alg».proof.Proof.KB.Common
import proofs.«216814_g8117488189630_cont_sun_m_833_27_alg».proof.Proof.KB.Launch1

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable (fI : (d : Dev nD) → IVec S32x200x128 32)
variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m fI).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m fI).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m fI).oxFrom 0 (V d c i) = oxV d c := fun i => by
    rw [show (0 : ℕ) = (0 : Fin 1).val from rfl, (P m fI).oxFrom_step, (P m fI).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m fI).x q (SparseCore.T d)) = iprop(emp) :=
  bigSep_univ_of_subsingleton (0 : Fin 1)
theorem Px_S (d : Dev nD) (c : Fin τ.nSC) : (bigSep Finset.univ fun q : Fin 1 => (P (F := F) m fI).x q (S d c)) = iprop(emp) :=
  bigSep_univ_of_subsingleton (0 : Fin 1)
theorem Px_V (d : Dev nD) (c : Fin τ.nSC) (i : Fin τ.nSub) :
    (bigSep Finset.univ fun q : Fin 1 => (P (F := F) m fI).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m fI).x q thr : sProp 𝕄) := by
  rw [SparseCore.Cfg.bigSep_threads (fun thr : Thread nD τ => bigSep Finset.univ fun q : Fin 1 => (P m fI).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m fI).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m fI).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m fI) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m fI)
  isplitr
  · isplitl; · iexists κ; iexact Hinv'
    iexact Hr'
  isplitl [Hat']; · iexact Hat'
  isplitl [Htok']; · iexact Htok'
  iexact Hcred'

end Cert.KB

end
-- ==== Proof.KB.Launch2.lean ====
/-
  The launch of the lookup kernel, second part: how the arrays split among the SparseCores and among a SparseCore's
  tiles, and how the pieces rejoin.
  The index array and the result are cut along their first axis into 32 stretches; stretch 2 s + c goes to tile s of
  SparseCore c, so the 32 stretches regroup as 2 families of 16. The table's read share is halved between the
  SparseCores. Within a SparseCore tile 0 alone takes the table's share and the shared scratch; at the end the sixteen
  tiles' sixteenths of the shared copy, all at the table's contents, are the shared scratch whole again.
-/
import proofs.«216814_g8117488189630_cont_sun_m_833_27_alg».proof.Proof.KB.Common
import proofs.«216814_g8117488189630_cont_sun_m_833_27_alg».proof.Proof.KB.Launch1

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable (fI : (d : Dev nD) → IVec S32x200x128 32)

/-! ## The 32 stretches -/

theorem iRowSet_eq (w : Fin 32) : iRowSet w = (iRow w).set := by
  show ((View.whole (main_v0_scv : Ref sig .scVector)).slice (iRow w)).set = _
  rw [View.set_slice]; exact Finset.map_refl
theorem oRowSet_eq (w : Fin 32) : oRowSet w = (oRow w).set := by
  show ((View.whole (main_v1_scv : Ref sig .scVector)).slice (oRow w)).set = _
  rw [View.set_slice]; exact Finset.map_refl

theorem iRows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint hdiv32i h
theorem oRows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint hdiv32o h
theorem iRows_cover : (Finset.univ : Finset (Fin 32)).biUnion iRowSet = Finset.univ :=
  (Finset.biUnion_congr rfl fun i _ => iRowSet_eq i).trans (Rect.biUnion_part hdiv32i)
theorem oRows_cover : (Finset.univ : Finset (Fin 32)).biUnion oRowSet = Finset.univ :=
  (Finset.biUnion_congr rfl fun i _ => oRowSet_eq i).trans (Rect.biUnion_part hdiv32o)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet iRows_disjoint, iRows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet oRows_disjoint, oRows_cover]; try rfl

/-- Stretch numbers are the pairs (SparseCore, tile): w = 2 s + c. -/
def widEquiv : Fin τ.nSC × Fin τ.nSub ≃ Fin 32 where
  toFun p := wid p.1 p.2
  invFun w := (⟨w.val % 2, Nat.mod_lt _ (by decide)⟩, ⟨w.val / 2, by have := w.isLt; show w.val / 2 < 16; omega⟩)
  left_inv p := by
    obtain ⟨c, s⟩ := p
    have h1 : c.val < 2 := c.isLt
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val; omega

theorem bigSep_wid (Φ : Fin 32 → sProp 𝕄) :
    bigSep Finset.univ Φ = bigSep Finset.univ fun c : Fin τ.nSC => bigSep Finset.univ fun s : Fin τ.nSub => Φ (wid c s) := by
  rw [bigSep_univ_equiv widEquiv Φ, bigSep_univ_prod]; rfl

/-- The call's core numbers are the device's SparseCores, its task numbers a SparseCore's tiles. -/
theorem bigSep_cores (Φ : Fin τ.nSC → sProp 𝕄) :
    (bigSep Finset.univ fun c : Fin ((K (F := F)).nCore 0) => Φ (coreOf c)) = bigSep Finset.univ Φ :=
  bigSep_congr fun _ _ => congrArg Φ (Fin.ext rfl)
theorem bigSep_subs (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

/-- The two arrays whole are the stretches of both SparseCores' tiles. -/
theorem stretches_all (d : Dev nD) (fo : Buf (Elt F) (oLoc d)) :
    iprop((iLoc d ↦{fullShare} fI d) ∗ (oLoc d ↦{fullShare} fo) : sProp 𝕄)
      = bigSep Finset.univ fun c : Fin τ.nSC => stretches fI d c fo := by
  unfold stretches
  rw [iPts_rows, oPts_rows, bigSep_wid (fun w => iLoc d ↦[iRowSet w]{fullShare} fI d), bigSep_wid (fun w => oLoc d ↦[oRowSet w]{fullShare} fo),
    ← bigSep_sep']
  exact bigSep_congr fun c _ => (bigSep_sep' _ _ _).symm

/-- The table's read share is the two SparseCores' halves. -/
theorem tShare_all (d : Dev nD) :
    (tLoc d ↦{fullShare} m (tLoc d) : sProp 𝕄) = bigSep Finset.univ fun c : Fin τ.nSC => tShare m d c := by
  rw [pointsTo_piecesOf Finset.univ (m (tLoc d)) pos2 fullShare]
  exact bigSep_congr fun c _ => congrArg (fun j => (tLoc d ↦{pieceOf fullShare 2 pos2 j} m (tLoc d) : sProp 𝕄)) (Fin.ext rfl)

variable [FloatOps F]

/-- What the call takes, and what it brings back: the index array and the result whole, and the table's share. -/
theorem st_all (d : Dev nD) :
    (bigSep Finset.univ fun c : Fin ((K (F := F)).nCore 0) => (P m fI).st 0 d c)
      = iprop(((iLoc d ↦{fullShare} fI d) ∗ (oLoc d ↦{fullShare} m (oLoc d))) ∗ tLoc d ↦{fullShare} m (tLoc d)) := by
  rw [stretches_all, tShare_all, ← bigSep_sep']
  exact bigSep_cores (F := F) fun c => iprop(stretches fI d c (m (oLoc d)) ∗ tShare m d c)
theorem dn_all (d : Dev nD) :
    (bigSep Finset.univ fun c : Fin ((K (F := F)).nCore 0) => (P m fI).dn 0 d c)
      = iprop(((iLoc d ↦{fullShare} fI d) ∗ (oLoc d ↦{fullShare} Gout (fI d) (m (tLoc d)))) ∗ tLoc d ↦{fullShare} m (tLoc d)) := by
  rw [stretches_all, tShare_all, ← bigSep_sep']
  exact bigSep_cores (F := F) fun c => iprop(stretches fI d c (Gout (fI d) (m (tLoc d))) ∗ tShare m d c)

/-! ## Within a SparseCore -/

omit [FloatOps F] in
/-- What only tile 0 holds, over all the tiles. -/
theorem tile0_all (A : sProp 𝕄) : (bigSep Finset.univ fun s : Fin τ.nSub => if s.val = 0 then A else iprop(emp)) = A := by
  rw [SparseCore.bigSep_erase' (Finset.mem_univ (⟨0, by decide⟩ : Fin τ.nSub)),
    bigSep_congr (Ψ := fun _ => iprop(emp)) (fun s hs => if_neg fun h => (Finset.mem_erase.mp hs).1 (Fin.ext h)), bigSep_emp']
  exact equiv_iff.mp BI.sep_emp

omit [FloatOps F] in
/-- The sixteen tiles' pieces of the shared copy are the shared copy. -/
theorem shShare_all (d : Dev nD) (c : Fin τ.nSC) :
    (bigSep Finset.univ fun s : Fin τ.nSub => shShare m d c (Fin.cast nSub_eq s)) = (shLoc d c ↦{fullShare} tabC m d c : sProp 𝕄) := by
  rw [pointsTo_piecesOf Finset.univ (tabC m d c) pos16 fullShare]
  exact bigSep_congr fun s _ => congrArg (fun j => (shLoc d c ↦{pieceOf fullShare 16 pos16 j} tabC m d c : sProp 𝕄)) (Fin.ext rfl)

omit [FloatOps F] in
theorem go_intro (d : Dev nD) (c : Fin τ.nSC) :
    iprop(stretches fI d c (m (oLoc d)) ∗ tShare m d c ∗ ∃ f, shLoc d c ↦{fullShare} f)
      ⊢ (bigSep Finset.univ fun s : Fin τ.nSub => goRes m fI d c s : sProp 𝕄) := by
  unfold goRes stretches
  rw [bigSep_sep', bigSep_sep', bigSep_sep', tile0_all]
  iintro ⟨⟨Hi, Ho⟩, H0⟩
  isplitl [Hi]; · iexact Hi
  isplitl [Ho]; · iexact Ho
  iexact H0

omit [FloatOps F] in
theorem td_elim (d : Dev nD) (c : Fin τ.nSC) :
    (bigSep Finset.univ fun s : Fin τ.nSub => tdRes m fI d c s : sProp 𝕄)
      ⊢ iprop(stretches fI d c (Gout (fI d) (m (tLoc d))) ∗ tShare m d c ∗ shLoc d c ↦{fullShare} tabC m d c) := by
  unfold tdRes stretches
  rw [bigSep_sep', bigSep_sep', bigSep_sep', bigSep_sep', tile0_all, shShare_all]
  iintro ⟨Hi, Ho, Ht, Hsh⟩
  isplitl [Hi Ho]
  · isplitl [Hi]; · iexact Hi
    iexact Ho
  isplitl [Ht]; · iexact Ht
  iexact Hsh

omit [FloatOps F] in
/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The split: tile 0 of the SparseCore is handed the table's share and the sequencer's shared scratch; at the end the
    scratch is whole again at the table's contents. -/
theorem vecSplit : (K (F := F)).VecSplit (P m fI) 0 := by
  intro d c
  show iprop(iprop(stretches fI d (coreOf c) (m (oLoc d)) ∗ tShare m d (coreOf c)) ∗ ownBufs (S d (coreOf c))) ⊢ |={Set.univ}=> iprop(
      (bigSep Finset.univ fun i : Fin ((K (F := F)).nSub 0) => goRes m fI d (coreOf c) ((K (F := F)).sub 0 i))
      ∗ ((bigSep Finset.univ fun i : Fin ((K (F := F)).nSub 0) => tdRes m fI d (coreOf c) ((K (F := F)).sub 0 i))
          -∗ iprop(iprop(stretches fI d (coreOf c) (Gout (fI d) (m (tLoc d))) ∗ tShare m d (coreOf c)) ∗ ownBufs (S d (coreOf c)))))
  rw [bigSep_subs (F := F) (fun s => goRes m fI d (coreOf c) s), bigSep_subs (F := F) (fun s => tdRes m fI d (coreOf c) s), ownBufs_S]
  iintro ⟨⟨Hst, Ht⟩, Hsh, Hrest⟩; imodintro
  isplitl [Hst Ht Hsh]
  · iapply (go_intro m fI d (coreOf c))
    isplitl [Hst]; · iexact Hst
    isplitl [Ht]; · iexact Ht
    iexact Hsh
  iintro Htd
  ihave Htd' := (td_elim m fI d (coreOf c)) $$ Htd
  icases Htd' with ⟨Hst, Ht, Hsh⟩
  isplitl [Hst Ht]
  · isplitl [Hst]; · iexact Hst
    iexact Ht
  isplitl [Hsh]; · iexists _; iexact Hsh
  iexact Hrest

end Cert.KB

end
-- ==== Proof.KB.Launch4.lean ====
/-
  The launch of the lookup kernel, fourth part: @main on the TensorCore. The first reshape leaves the index array, read
  in row-major order as 32 stretches of 200 chunks of 128, in the call's first operand; the call takes that, the
  result array and the table's read share, and brings them back with the result at the looked-up rows; the second
  reshape reads the result in row-major order as one batch of 819200 rows.
-/
import proofs.«216814_g8117488189630_cont_sun_m_833_27_alg».proof.Proof.KB.Common
import proofs.«216814_g8117488189630_cont_sun_m_833_27_alg».proof.Proof.KB.Launch2
import Idealize.ShloMosaic.Lib.Pipeline.Value

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The arrays of @main and the two reshapes' values -/

abbrev a0Loc (d : Dev nD) : Loc nD τ sig := (SparseCore.T d).loc main_arg0
abbrev v2Loc (d : Dev nD) : Loc nD τ sig := (SparseCore.T d).loc main_v2

/-- What the first reshape leaves in the call's first operand: the index array read in row-major order at the shape
    32 × 200 × 128. -/
def fIof (d : Dev nD) : IVec S32x200x128 32 := shapeCast S32x200x128 (m (a0Loc d)) shapeCasts_S16384x50_S32x200x128

/-- Entry (w, k, r) of it is entry number 25600 w + 128 k + r of the index array in row-major order. -/
theorem fIof_apply (d : Dev nD) (w : Fin 32) (k : Fin 200) (r : Fin 128) :
    fIof m d (ix3 w k r)
      = m (a0Loc d) (ix2 (⟨(w.val * 25600 + k.val * 128 + r.val) / 50, by have := w.isLt; have := k.isLt; have := r.isLt; omega⟩ : Fin 16384)
          (⟨(w.val * 25600 + k.val * 128 + r.val) % 50, Nat.mod_lt _ (by decide)⟩ : Fin 50)) := by
  unfold fIof
  refine shapeCast_apply _ _ _ _ ?_
  refine (Shape.rowMajor_val_two (d := ![16384, 50]) _).trans (Eq.trans ?_ (Shape.rowMajor_val_three (d := ![32, 200, 128]) _).symm)
  show (w.val * 25600 + k.val * 128 + r.val) / 50 * 50 + (w.val * 25600 + k.val * 128 + r.val) % 50 = (w.val * 200 + k.val) * 128 + r.val
  omega

/-- Every entry of it is an entry of the index array. -/
theorem fIof_lt (h : ∀ d x, (m (a0Loc d) x).toNat < 4) : ∀ d x, (fIof m d x).toNat < 4 := fun d x => h d _

/-- The program's result: the looked-up rows read in row-major order as one batch of 819200 rows. -/
def Kout (d : Dev nD) : FVec F S1x819200x128 .f32 :=
  shapeCast S1x819200x128 (Gout (fIof m d) (m (tLoc d))) shapeCasts_S32x200x128x128_S1x819200x128

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev opR1 : HloOp τ sig (Elt F) := StableHlo.reshape main_arg0 main_v0 rfl shapeCasts_S16384x50_S32x200x128
abbrev opR2 : HloOp τ sig (Elt F) := StableHlo.reshape main_v1 main_v2 rfl shapeCasts_S32x200x128x128_S1x819200x128

/-- The TensorCore's arrays, all unscoped. -/
abbrev S5 : Finset (DevRef τ sig) := {a0', a1', v0', v1', v2'}

theorem held_S5 (d : Dev nD) (W : Valuation τ sig (Elt F)) :
    (held (T d) S5 W : sProp 𝕄)
      = iprop((a0Loc d ↦{fullShare} W a0') ∗ (tLoc d ↦{fullShare} W a1') ∗ (iLoc d ↦{fullShare} W v0')
          ∗ (oLoc d ↦{fullShare} W v1') ∗ v2Loc d ↦{fullShare} W v2') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tLoc d ↦{fullShare} W main_arg1) ∗ (iLoc d ↦{fullShare} W main_v0)
          ∗ (oLoc d ↦{fullShare} W main_v1) ∗ v2Loc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call; after the second reshape. -/
def V0 (d : Dev nD) : Valuation τ sig (Elt F) := fun b => m (d, b)
def V1 (d : Dev nD) : Valuation τ sig (Elt F) := (opR1 (F := F)).result (V0 m d)
def V2 (d : Dev nD) : Valuation τ sig (Elt F) := Function.update (V1 m d) v1' (Gout (fIof m d) (m (tLoc d)))
def V3 (d : Dev nD) : Valuation τ sig (Elt F) := (opR2 (F := F)).result (V2 m d)

theorem unscoped_held (d : Dev nD) : (unscopedBufs d (fun b => m ((SparseCore.T d).loc b)) : sProp 𝕄) = held (T d) S5 (V0 m d) := by
  rw [unscopedBufs_eq, held_S5]; rfl

theorem V1_a0 (d : Dev nD) : V1 m d a0' = m (a0Loc d) :=
  (opR1 (F := F)).result_of_not_mem _ (show a0' ∉ ({v0'} : Finset (DevRef τ sig)) by decide)
theorem V1_a1 (d : Dev nD) : V1 m d a1' = m (tLoc d) :=
  (opR1 (F := F)).result_of_not_mem _ (show a1' ∉ ({v0'} : Finset (DevRef τ sig)) by decide)
theorem V1_v0 (d : Dev nD) : V1 m d v0' = fIof m d :=
  (StableHlo.reshape_result main_arg0 main_v0 rfl shapeCasts_S16384x50_S32x200x128 ⟨by decide, rfl⟩ ⟨by decide, rfl⟩ (V0 m d)).trans rfl
theorem V1_v1 (d : Dev nD) : V1 m d v1' = m (oLoc d) :=
  (opR1 (F := F)).result_of_not_mem _ (show v1' ∉ ({v0'} : Finset (DevRef τ sig)) by decide)
theorem V1_v2 (d : Dev nD) : V1 m d v2' = m (v2Loc d) :=
  (opR1 (F := F)).result_of_not_mem _ (show v2' ∉ ({v0'} : Finset (DevRef τ sig)) by decide)

theorem V2_a0 (d : Dev nD) : V2 m d a0' = m (a0Loc d) := (Function.update_of_ne (show a0' ≠ v1' by decide) _ _).trans (V1_a0 m d)
theorem V2_a1 (d : Dev nD) : V2 m d a1' = m (tLoc d) := (Function.update_of_ne (show a1' ≠ v1' by decide) _ _).trans (V1_a1 m d)
theorem V2_v0 (d : Dev nD) : V2 m d v0' = fIof m d := (Function.update_of_ne (show v0' ≠ v1' by decide) _ _).trans (V1_v0 m d)
theorem V2_v1 (d : Dev nD) : V2 m d v1' = Gout (fIof m d) (m (tLoc d)) := Function.update_self _ _ _
theorem V2_v2 (d : Dev nD) : V2 m d v2' = m (v2Loc d) := (Function.update_of_ne (show v2' ≠ v1' by decide) _ _).trans (V1_v2 m d)

theorem V3_a0 (d : Dev nD) : V3 m d a0' = m (a0Loc d) :=
  ((opR2 (F := F)).result_of_not_mem _ (show a0' ∉ ({v2'} : Finset (DevRef τ sig)) by decide)).trans (V2_a0 m d)
theorem V3_a1 (d : Dev nD) : V3 m d a1' = m (tLoc d) :=
  ((opR2 (F := F)).result_of_not_mem _ (show a1' ∉ ({v2'} : Finset (DevRef τ sig)) by decide)).trans (V2_a1 m d)
theorem V3_v2 (d : Dev nD) : V3 m d v2' = Kout m d := by
  unfold V3 Kout
  rw [show (opR2 (F := F)).result (V2 m d) v2' = _ from
    StableHlo.reshape_result main_v1 main_v2 rfl shapeCasts_S32x200x128x128_S1x819200x128 ⟨by decide, rfl⟩ ⟨by decide, rfl⟩ (V2 m d)]
  show shapeCast S1x819200x128 (V2 m d v1') _ = _
  rw [V2_v1]

/-- The five arrays before the call, and after the second reshape. -/
theorem held_V1 (d : Dev nD) :
    (held (T d) S5 ((opR1 (F := F)).result (V0 m d)) : sProp 𝕄)
      = iprop((a0Loc d ↦{fullShare} m (a0Loc d)) ∗ (tLoc d ↦{fullShare} m (tLoc d)) ∗ (iLoc d ↦{fullShare} fIof m d)
          ∗ (oLoc d ↦{fullShare} m (oLoc d)) ∗ v2Loc d ↦{fullShare} m (v2Loc d)) := by
  show held (SparseCore.T d) S5 (V1 m d) = _
  rw [held_S5, V1_a0, V1_a1, V1_v0, V1_v1, V1_v2]
theorem held_V3 (d : Dev nD) :
    (held (T d) S5 ((opR2 (F := F)).result (V2 m d)) : sProp 𝕄)
      = iprop((a0Loc d ↦{fullShare} m (a0Loc d)) ∗ (tLoc d ↦{fullShare} m (tLoc d)) ∗ (iLoc d ↦{fullShare} V3 m d v0')
          ∗ (oLoc d ↦{fullShare} V3 m d v1') ∗ v2Loc d ↦{fullShare} Kout m d) := by
  show held (SparseCore.T d) S5 (V3 m d) = _
  rw [held_S5, V3_a0, V3_a1, V3_v2]

theorem hR1 : (opR1 (F := F)).bufs ⊆ S5 := show ({a0', v0'} : Finset (DevRef τ sig)) ⊆ S5 by decide
theorem hR2 : (opR2 (F := F)).bufs ⊆ S5 := show ({v1', v2'} : Finset (DevRef τ sig)) ⊆ S5 by decide

/-- What @main leaves the claim: the two arguments at their launch contents, the result at the looked-up rows. -/
abbrev FIN (d : Dev nD) : sProp 𝕄 :=
  iprop((a0Loc d ↦{fullShare} m (a0Loc d)) ∗ (tLoc d ↦{fullShare} m (tLoc d)) ∗ v2Loc d ↦{fullShare} Kout m d)

variable [FloatOps F]

/-- @main on device d's TensorCore: the first reshape (over the five arrays held whole), the call (from the reshaped
    index array, the result array and the table's share), the second reshape. -/
theorem hmain (κ : GSem nD τ sig → ℕ) (d : Dev nD) :
    iprop((K (F := F)).ctx EH (P m (fIof m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape
  iapply (wp_hlo_within 𝒱 (SparseCore.T d) none Set.univ (op := opR1) (S := S5) hR1 (V := V0 m d)) $$ [Hb Hheld]
  · isplitl [Hb] <;> iassumption
  iintro ⟨Hb, Hheld⟩
  rw [wp_ret]; imodintro
  -- the call
  ihave Hh := (Entails.of_eq (held_V1 (F := F) m d)) $$ Hheld
  icases Hh with ⟨Ha0, Ha1, Hv0, Hv1, Hv2⟩
  iapply ((K (F := F)).wp_run (D (F := F)) 𝒱 (EH := EH) (P := P m (fIof m)) κ d 0) $$ [Hst Ha1 Hv0 Hv1 Hb Ha0 Hv2]
  isplitr; · iexact Hctx
  isplitl [Hst]; · iexact Hst
  isplitl [Ha1 Hv0 Hv1]
  · rw [st_all]
    isplitl [Hv0 Hv1]
    · isplitl [Hv0]; · iexact Hv0
      iexact Hv1
    iexact Ha1
  iintro ⟨Hst, Hdn⟩
  ihave Hdn' := (Entails.of_eq (dn_all m (fIof m) d)) $$ Hdn
  icases Hdn' with ⟨⟨Hv0, Hv1⟩, Ha1⟩
  -- the second reshape
  iapply (wp_hlo_within 𝒱 (SparseCore.T d) none Set.univ (op := opR2) (S := S5) hR2 (V := V2 m d)) $$ [Hb Ha0 Ha1 Hv0 Hv1 Hv2]
  · isplitl [Hb]; · iexact Hb
    rw [held_S5, V2_a0, V2_a1, V2_v0, V2_v1, V2_v2]
    isplitl [Ha0]; · iexact Ha0
    isplitl [Ha1]; · iexact Ha1
    isplitl [Hv0]; · iexact Hv0
    isplitl [Hv1]; · iexact Hv1
    iexact Hv2
  iintro ⟨Hb, Hheld⟩
  ihave Hh := (Entails.of_eq (held_V3 (F := F) m d)) $$ Hheld
  icases Hh with ⟨Ha0, Ha1, -, -, Hv2⟩
  rw [wp_ret]; imodintro; imodintro
  isplitl [Hst]; · iexact Hst
  isplitl [Ha0]; · iexact Ha0
  isplitl [Ha1]; · iexact Ha1
  iexact Hv2

end Cert.KB

end
-- ==== Proof.KB.Launch5.lean ====
/-
  The launch of the lookup kernel, last part: the final memory reads the claim, the program's run.
-/
import proofs.«216814_g8117488189630_cont_sun_m_833_27_alg».proof.Proof.KB.Common
import proofs.«216814_g8117488189630_cont_sun_m_833_27_alg».proof.Proof.KB.Launch3
import proofs.«216814_g8117488189630_cont_sun_m_833_27_alg».proof.Proof.KB.Launch4

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-! ## The final memory -/

def fq (d : Dev nD) (s' : Phys nD τ sig (Elt F)) : Prop :=
  s'.mem.mem (v2Loc d) = Kout m d ∧ s'.mem.mem (a0Loc d) = m (a0Loc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha0, Ha1, Hv2⟩, HSI⟩
  icombine HSI Ha0 gives %h0
  icombine HSI Ha1 gives %h1
  icombine HSI Hv2 gives %h2
  ipureintro
  exact ⟨funext fun i => h2 i (Finset.mem_univ i), funext fun i => h0 i (Finset.mem_univ i), funext fun i => h1 i (Finset.mem_univ i)⟩

/-! ## The program's run -/

/-- The run's post: on every device the result is the looked-up rows and the two arguments are unchanged. -/
def QC : PUnit × MemSt nD τ sig (Elt F) → Prop := fun r => ∀ c : Dev nD,
  r.2.mem ((c.tc : Thread nD τ).loc main_v2) = Kout m c
    ∧ r.2.mem ((c.tc : Thread nD τ).loc main_arg0) = m ((c.tc : Thread nD τ).loc main_arg0)
    ∧ r.2.mem ((c.tc : Thread nD τ).loc main_arg1) = m ((c.tc : Thread nD τ).loc main_arg1)

variable [FloatOps F]

/-- Every weakly fair execution of the program's threads ends, nothing faulting, with the result at the looked-up rows
    and the arguments unchanged: from the proof of one tile's task at a symbolic place, and every entry of the
    reshaped index array naming a row of the table. -/
theorem run_main [∀ e, Nonempty (Elt F e)] (hpre : ∀ d x, (fIof m d x).toNat < 4) (tb : TileSpec m (fIof m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (fIof m)) Cert.KB.facts v₀
    (fun q hq => match q with | 0 => nomatch hq)
    (fun q _ => match q with | 0 => tileObl m (fIof m) Cert.KB.facts hpre tb)
    (fun q _ => match q with | 0 => vecSplit m (fIof m))
    m ρ main (fun _ => iprop(emp)) (FIN m) (u₀ (F := F)) (hu₀ m (fIof m)) (hmain m ρ) (fq m) (hfin m) (QC m) (fun _ h => h)

/-- The same from the index array's own entries naming rows of the table. -/
theorem run_main' [∀ e, Nonempty (Elt F e)] (hpre : ∀ d x, (m ((SparseCore.T d).loc main_arg0) x).toNat < 4) (tb : TileSpec m (fIof m)) :
    θ_run (Cert.Kernel.defs (F := F)) (Cert.Kernel.threads (F := F)) ⟨m, fun _ => 0, ρ⟩ (QC m) :=
  run_main m ρ (fIof_lt m hpre) tb

end Cert.KB

end
-- ==== Proof.Final.lean ====
/-
  The claim from the proof of one tile's task. The kernel's run on the SparseCores — from the task of one tile at a symbolic
  place of the grid, through the launch — ends with the result at a named function of the arguments and the arguments
  unchanged, at the word-level instance and at the ideal one; at the ideal instance that function is the specification both
  programs compute; the assembly takes these and the reference's run to the five conjuncts.
-/
import proofs.«216814_g8117488189630_cont_sun_m_833_27_alg».proof.Defs
import proofs.«216814_g8117488189630_cont_sun_m_833_27_alg».proof.Proof.Asm
import proofs.«216814_g8117488189630_cont_sun_m_833_27_alg».proof.Proof.KI.Launch5
import proofs.«216814_g8117488189630_cont_sun_m_833_27_alg».proof.Proof.KI.LaunchValue
import proofs.«216814_g8117488189630_cont_sun_m_833_27_alg».proof.Proof.KB.Launch5

noncomputable section

namespace Cert.Final

open Idealize.ShloMosaic Idealize.SL.Sem

/-- The five conjuncts, given the task of one tile at a symbolic place at each instance. -/
theorem claim_of_tiles
    (tbB : ∀ m : (ℓ : Loc Cert.Kernel.nD Cert.Kernel.τ Cert.Kernel.sig) → Buf (Elt Bits) ℓ, Cert.KB.TileSpec (F := Bits) m (Cert.KB.fIof m))
    (tbI : ∀ m : (ℓ : Loc Cert.KernelIdeal.nD Cert.KernelIdeal.τ Cert.KernelIdeal.sig) → Buf (Elt Ideal) ℓ, Cert.KI.TileSpec (F := Ideal) m (Cert.KI.fIof m)) :
    Cert.Claim :=
  Cert.Asm.claim_of (fun m c => Cert.KB.Kout m c) (fun m c => Cert.KI.Kout m c)
    (fun m ρ h => Cert.KB.run_main' (F := Bits) m ρ h (tbB m))
    (fun m ρ h => Cert.KI.run_main' (F := Ideal) m ρ h (tbI m))
    (fun m c => Cert.KI.Kout_eq m c)

end Cert.Final

end
-- ==== Proof.KI.Views.lean ====
/-
  The kernel's memref views read and written index by index. Each access of the lookup kernel goes through a whole
  buffer restricted to a unit-stride window and then squeezed (the window's unit axes dropped). Such a view places its
  index at the window's offsets followed by the index's own coordinates; so a write through it replaces exactly the
  elements of the window, and a read through it reads the buffer at the offset index. Last, the indirect gather's
  payload at an index is the source at the row its offset names, and the row an offset list names is the list's word.
-/
import proofs.«216814_g8117488189630_cont_sun_m_833_27_alg».proof.Proof.KI.Common
import Idealize.ShloMosaic.Lib.ValueLayout

noncomputable section

namespace Cert.KI

open Cert.KernelIdeal Cert.KernelIdeal.Gen
open Idealize.ShloMosaic
open Idealize.ShloMosaic.ValueIdx

variable {F : FTy → Type}

local notation "oV" => (Memref.whole Cert.KernelIdeal.main_v1_scv : Memref Cert.KernelIdeal.sig Kind.scVector Space.hbm Cert.KernelIdeal.S32x200x128x128 EltTy.f32)
local notation "xV" => (Memref.whole Cert.KernelIdeal.cc0_scratch0 : Memref Cert.KernelIdeal.sig Kind.scVector Space.vmem Cert.KernelIdeal.S200x128 EltTy.i32)
local notation "bV" => (Memref.whole Cert.KernelIdeal.cc0_scratch1 : Memref Cert.KernelIdeal.sig Kind.scVector Space.vmem Cert.KernelIdeal.S4x128x128 EltTy.f32)
local notation "iV" => (Memref.whole Cert.KernelIdeal.main_v0_scv : Memref Cert.KernelIdeal.sig Kind.scVector Space.hbm Cert.KernelIdeal.S32x200x128 EltTy.i32)
local notation "shV" => (Memref.whole Cert.KernelIdeal.cc0_scratch2 : Memref Cert.KernelIdeal.sig Kind.scVector Space.shared Cert.KernelIdeal.S4x128 EltTy.f32)

/-! ## The result window -/

/-- Index (x, y) of the result's window at offsets `off`, squeezed to 128 × 128, sits at `off` plus (0, 0, x, y). -/
theorem oWin_emb (off : Fin 4 → ℕ) (hinb : ∀ a, off a + S1x1x128x128.size a ≤ S32x200x128x128.size a)
    (hs : ∀ a, (Rect.unit (s := S32x200x128x128) off S1x1x128x128.size hinb).stride a = 1)
    (y : S128x128.Idx) (a : Fin 4) :
    ((((oV).slice (Rect.unit (s := S32x200x128x128) off S1x1x128x128.size hinb) hs).squeeze S128x128
        squeezes_S1x1x128x128_S128x128).view.emb y a).val
      = off a + (ix4 (n2 := 128) (n3 := 128) (⟨0, Nat.one_pos⟩ : Fin 1) (⟨0, Nat.one_pos⟩ : Fin 1) (y 0) (y 1) a).val := by
  have hy : Shape.reshapeEquiv (squeezes_S1x1x128x128_S128x128).numel_eq y
      = ix4 (n2 := 128) (n3 := 128) (⟨0, Nat.one_pos⟩ : Fin 1) (⟨0, Nat.one_pos⟩ : Fin 1) (y 0) (y 1) := by
    conv_lhs => rw [eq_ix2 y]
    exact reshapeEquiv_ix2_11ab _ _ _
  show ((Rect.unit (s := S32x200x128x128) off S1x1x128x128.size hinb).emb
    (Shape.reshapeEquiv (squeezes_S1x1x128x128_S128x128).numel_eq y) a).val = _
  rw [hy]
  show off a + 1 * _ = _
  rw [Nat.one_mul]

/-- WRITE THROUGH A RESULT WINDOW. Writing a 128 × 128 block through the result's window at (w, c, 0, 0) replaces the
    elements (w, c, ·, ·) of the result by the block and leaves every other element as it was. -/
theorem write_oWin (off : Fin 4 → ℕ) (hinb : ∀ a, off a + S1x1x128x128.size a ≤ S32x200x128x128.size a)
    (hs : ∀ a, (Rect.unit (s := S32x200x128x128) off S1x1x128x128.size hinb).stride a = 1)
    (w c : ℕ) (hoff : off = ![w, c, 0, 0])
    (prev : (oV).view.ty.Contents (Elt F)) (pay : S128x128.Idx → Elt F .f32) (i : S32x200x128x128.Idx) :
    View.write (Elt F) (((oV).slice (Rect.unit (s := S32x200x128x128) off S1x1x128x128.size hinb) hs).squeeze S128x128
        squeezes_S1x1x128x128_S128x128).view prev pay Finset.univ i
      = if (i 0).val = w ∧ (i 1).val = c then pay (ix2 (i 2) (i 3)) else prev i := by
  subst hoff
  split
  · next h =>
    have hi : (((oV).slice (Rect.unit (s := S32x200x128x128) ![w, c, 0, 0] S1x1x128x128.size hinb) hs).squeeze S128x128
        squeezes_S1x1x128x128_S128x128).view.emb (ix2 (i 2) (i 3)) = i := by
      funext a; apply Fin.ext
      rw [oWin_emb]
      match a with
      | ⟨0, _⟩ => exact h.1.symm
      | ⟨1, _⟩ => exact h.2.symm
      | ⟨2, _⟩ => exact Nat.zero_add _
      | ⟨3, _⟩ => exact Nat.zero_add _
    conv_lhs => rw [← hi, View.write_emb_of_mem _ _ (Finset.mem_univ _)]
    rfl
  · next h =>
    refine View.write_of_not_mem _ _ _ fun hmem => h ?_
    obtain ⟨x, -, hx⟩ := Finset.mem_map.mp hmem
    subst hx
    exact ⟨by rw [oWin_emb]; rfl, by rw [oWin_emb]; rfl⟩

/-! ## The row buffers -/

/-- A window's in-bounds evidence at offsets (b, 0, 0) bounds b. -/
theorem slot_lt {b : ℕ} (h : ∀ a, (![b, 0, 0] : Fin 3 → ℕ) a + S1x128x128.size a ≤ S4x128x128.size a) : b < 4 := h 0

/-- Index (x, y) of the row buffers' window at offsets `off`, squeezed to 128 × 128, sits at `off` plus (0, x, y). -/
theorem bSlot_emb (off : Fin 3 → ℕ) (h : ∀ a, off a + S1x128x128.size a ≤ S4x128x128.size a)
    (hs : ∀ a, (Rect.unit (s := S4x128x128) off S1x128x128.size h).stride a = 1)
    (y : S128x128.Idx) (a : Fin 3) :
    ((((bV).slice (Rect.unit (s := S4x128x128) off S1x128x128.size h) hs).squeeze S128x128
        squeezes_S1x128x128_S128x128).view.emb y a).val
      = off a + (ix3 (n1 := 128) (n2 := 128) (⟨0, Nat.one_pos⟩ : Fin 1) (y 0) (y 1) a).val := by
  have hy : Shape.reshapeEquiv (squeezes_S1x128x128_S128x128).numel_eq y
      = ix3 (n1 := 128) (n2 := 128) (⟨0, Nat.one_pos⟩ : Fin 1) (y 0) (y 1) := by
    conv_lhs => rw [eq_ix2 y]
    exact reshapeEquiv_ix2_1ab _ _ _
  show ((Rect.unit (s := S4x128x128) off S1x128x128.size h).emb
    (Shape.reshapeEquiv (squeezes_S1x128x128_S128x128).numel_eq y) a).val = _
  rw [hy]
  show off a + 1 * _ = _
  rw [Nat.one_mul]

/-- Index (x, y) of row buffer b is element (b, x, y) of the buffers. -/
theorem bSlot_emb_eq (b : ℕ) (h : ∀ a, (![b, 0, 0] : Fin 3 → ℕ) a + S1x128x128.size a ≤ S4x128x128.size a)
    (hs : ∀ a, (Rect.unit (s := S4x128x128) ![b, 0, 0] S1x128x128.size h).stride a = 1) (y : S128x128.Idx) :
    (((bV).slice (Rect.unit (s := S4x128x128) ![b, 0, 0] S1x128x128.size h) hs).squeeze S128x128
        squeezes_S1x128x128_S128x128).view.emb y = ix3 (⟨b, slot_lt h⟩ : Fin 4) (y 0) (y 1) := by
  funext a; apply Fin.ext
  rw [bSlot_emb]
  match a with
  | ⟨0, _⟩ => exact Nat.add_zero _
  | ⟨1, _⟩ => exact Nat.zero_add _
  | ⟨2, _⟩ => exact Nat.zero_add _

/-- READ A ROW BUFFER. Row buffer b read at (x, y) is the buffers' element (b, x, y). -/
theorem read_bSlot (b : ℕ) (h : ∀ a, (![b, 0, 0] : Fin 3 → ℕ) a + S1x128x128.size a ≤ S4x128x128.size a)
    (hs : ∀ a, (Rect.unit (s := S4x128x128) ![b, 0, 0] S1x128x128.size h).stride a = 1)
    (f : (bV).view.ty.Contents (Elt F)) (y : S128x128.Idx) :
    View.read (Elt F) (((bV).slice (Rect.unit (s := S4x128x128) ![b, 0, 0] S1x128x128.size h) hs).squeeze S128x128
        squeezes_S1x128x128_S128x128).view f y = f (ix3 (⟨b, slot_lt h⟩ : Fin 4) (y 0) (y 1)) := by
  rw [View.read_apply, bSlot_emb_eq]
  rfl

/-- THE ROW BUFFERS ARE DISJOINT. A write through row buffer b' is not seen through another row buffer b. -/
theorem read_bSlot_write_bSlot_of_ne (b b' : ℕ) (hne : b ≠ b')
    (h : ∀ a, (![b, 0, 0] : Fin 3 → ℕ) a + S1x128x128.size a ≤ S4x128x128.size a)
    (hs : ∀ a, (Rect.unit (s := S4x128x128) ![b, 0, 0] S1x128x128.size h).stride a = 1)
    (h' : ∀ a, (![b', 0, 0] : Fin 3 → ℕ) a + S1x128x128.size a ≤ S4x128x128.size a)
    (hs' : ∀ a, (Rect.unit (s := S4x128x128) ![b', 0, 0] S1x128x128.size h').stride a = 1)
    (f : (bV).view.ty.Contents (Elt F)) (g : S128x128.Idx → Elt F .f32) (y : S128x128.Idx) :
    View.read (Elt F) (((bV).slice (Rect.unit (s := S4x128x128) ![b, 0, 0] S1x128x128.size h) hs).squeeze S128x128
        squeezes_S1x128x128_S128x128).view
      (View.write (Elt F) (((bV).slice (Rect.unit (s := S4x128x128) ![b', 0, 0] S1x128x128.size h') hs').squeeze S128x128
        squeezes_S1x128x128_S128x128).view f g Finset.univ) y
      = View.read (Elt F) (((bV).slice (Rect.unit (s := S4x128x128) ![b, 0, 0] S1x128x128.size h) hs).squeeze S128x128
        squeezes_S1x128x128_S128x128).view f y := by
  refine View.read_congr_at y (View.write_of_not_mem _ _ _ fun hmem => hne ?_)
  obtain ⟨x, -, hx⟩ := Finset.mem_map.mp hmem
  have h0 := congrArg (fun i : S4x128x128.Idx => (i 0).val) hx
  rw [bSlot_emb_eq, bSlot_emb_eq] at h0
  exact h0.symm

/-! ## The indirect gather -/

/-- THE GATHER'S PAYLOAD AT AN INDEX. The payload of a gather of 128 rows of the 4 × 128 table is, at (k, x), the table
    at (the row named for k, x). -/
theorem gatherPayload_apply (hg : S4x128.Gathers 0 S128x128) (g : S4x128.Idx → Elt F .f32)
    (r : Fin (S128x128.size hg.axis') → Fin (S4x128.size hg.axis)) (y : S128x128.Idx) :
    SparseCore.gatherPayload hg g r y = g (ix2 (n0 := 4) (n1 := 128) (r (y 0)) (y 1)) := by
  unfold SparseCore.gatherPayload
  refine congrArg g (funext fun b => Fin.ext ?_)
  match b with
  | ⟨0, _⟩ => exact congrArg Fin.val (Shape.Gathers.idx_axis hg r y)
  | ⟨1, _⟩ => exact Shape.Gathers.idx_of_ne hg r y ⟨1, by decide⟩ (by decide)

/-- An offset list of 128 words has as many entries as it is said to have. -/
theorem offs_lt {o : ℕ} (hn : S128.numel = o) (k : Fin o) : k.val < 128 := by
  exact k.isLt.trans_eq (hn.symm.trans (Shape.numel_rank1 _))

/-- THE ROW AN OFFSET LIST NAMES. Entry k of a list of 128 words names the row its k-th word spells. -/
theorem rows_val {o z : ℕ} (idx : S128.Idx → Elt F .i32) (hn : S128.numel = o) (hlt : ∀ x, (idx x).toNat < z) (k : Fin o) :
    (SparseCore.rows idx hn hlt k).val = (idx (ix1 (⟨k.val, offs_lt hn k⟩ : Fin 128))).toNat := by
  unfold SparseCore.rows
  have hk : S128.rowMajor.symm (k.cast hn.symm) = ix1 (⟨k.val, offs_lt hn k⟩ : Fin 128) := by
    rw [Equiv.symm_apply_eq]
    apply Fin.ext
    rw [Shape.rowMajor_val_one]
    rfl
  show (idx (S128.rowMajor.symm (k.cast hn.symm))).toNat = _
  rw [hk]

/-! ## The index rows -/

/-- An index x matched with shape [1, a] is (0, x). -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

/-- A window's in-bounds evidence at offsets (c, 0) bounds c. -/
theorem xRow_lt {r : Fin 2 → ℕ} {c : ℕ} (hr : r = ![c, 0]) (h : ∀ a, r a + S1x128.size a ≤ S200x128.size a) : c < 200 := by
  subst hr; exact h 0

/-- Index x of the index buffer's window at offsets `r`, squeezed to 128, sits at `r` plus (0, x). -/
theorem xRow_emb (r : Fin 2 → ℕ) (h : ∀ a, r a + S1x128.size a ≤ S200x128.size a)
    (hs : ∀ a, (Rect.unit (s := S200x128) r S1x128.size h).stride a = 1) (y : S128.Idx) (a : Fin 2) :
    ((((xV).slice (Rect.unit (s := S200x128) r S1x128.size h) hs).squeeze S128 squeezes_S1x128_S128).view.emb y a).val
      = r a + (ix2 (n1 := 128) (⟨0, Nat.one_pos⟩ : Fin 1) (y 0) a).val := by
  have hy : Shape.reshapeEquiv (squeezes_S1x128_S128).numel_eq y = ix2 (n1 := 128) (⟨0, Nat.one_pos⟩ : Fin 1) (y 0) := by
    conv_lhs => rw [eq_ix1 y]
    exact reshapeEquiv_ix1_1a _ _
  show ((Rect.unit (s := S200x128) r S1x128.size h).emb (Shape.reshapeEquiv (squeezes_S1x128_S128).numel_eq y) a).val = _
  rw [hy]
  show r a + 1 * _ = _
  rw [Nat.one_mul]

/-- READ AN INDEX ROW. Row c of the index buffer read at x is the buffer's element (c, x). -/
theorem read_xRow (c : ℕ) (r : Fin 2 → ℕ) (hr : r = ![c, 0]) (h : ∀ a, r a + S1x128.size a ≤ S200x128.size a)
    (hs : ∀ a, (Rect.unit (s := S200x128) r S1x128.size h).stride a = 1)
    (f : (xV).view.ty.Contents (Elt F)) (y : S128.Idx) :
    View.read (Elt F) (((xV).slice (Rect.unit (s := S200x128) r S1x128.size h) hs).squeeze S128 squeezes_S1x128_S128).view f y
      = f (ix2 (⟨c, xRow_lt hr h⟩ : Fin 200) (y 0)) := by
  have he : (((xV).slice (Rect.unit (s := S200x128) r S1x128.size h) hs).squeeze S128 squeezes_S1x128_S128).view.emb y
      = ix2 (⟨c, xRow_lt hr h⟩ : Fin 200) (y 0) := by
    funext a; apply Fin.ext
    rw [xRow_emb]
    subst hr
    match a with
    | ⟨0, _⟩ => exact Nat.add_zero _
    | ⟨1, _⟩ => exact Nat.zero_add _
  rw [View.read_apply, he]
  rfl

/-! ## The tile's stretch of the index array -/

/-- Tile (c, s)'s stretch 2 s + c is one of the 32. -/
theorem stretch_lt (L : grid0.Coords) (h : ∀ a, (k0_off1 L) a + S1x200x128.size a ≤ S32x200x128.size a) :
    2 * (L 1).val + (L 0).val < 32 := by
  have h0 := h 0
  rw [k0_off1_eq L] at h0
  exact h0

/-- Index (x, y) of the index array's window at offsets `off`, squeezed to 200 × 128, sits at `off` plus (0, x, y). -/
theorem iStretch_emb (off : Fin 3 → ℕ) (h : ∀ a, off a + S1x200x128.size a ≤ S32x200x128.size a)
    (hs : ∀ a, (Rect.unit (s := S32x200x128) off S1x200x128.size h).stride a = 1)
    (y : S200x128.Idx) (a : Fin 3) :
    ((((iV).slice (Rect.unit (s := S32x200x128) off S1x200x128.size h) hs).squeeze S200x128
        squeezes_S1x200x128_S200x128).view.emb y a).val
      = off a + (ix3 (n1 := 200) (n2 := 128) (⟨0, Nat.one_pos⟩ : Fin 1) (y 0) (y 1) a).val := by
  have hy : Shape.reshapeEquiv (squeezes_S1x200x128_S200x128).numel_eq y
      = ix3 (n1 := 200) (n2 := 128) (⟨0, Nat.one_pos⟩ : Fin 1) (y 0) (y 1) := by
    conv_lhs => rw [eq_ix2 y]
    exact reshapeEquiv_ix2_1ab _ _ _
  show ((Rect.unit (s := S32x200x128) off S1x200x128.size h).emb
    (Shape.reshapeEquiv (squeezes_S1x200x128_S200x128).numel_eq y) a).val = _
  rw [hy]
  show off a + 1 * _ = _
  rw [Nat.one_mul]

/-- A window's in-bounds evidence at offsets (w, 0, 0) bounds w. -/
theorem iWin_lt {off : Fin 3 → ℕ} {w : ℕ} (hoff : off = ![w, 0, 0])
    (h : ∀ a, off a + S1x200x128.size a ≤ S32x200x128.size a) : w < 32 := by
  subst hoff; exact h 0

/-- The index array's window at offsets (w, 0, 0), squeezed to 200 × 128, read at (x, y) is the array's element
    (w, x, y). -/
theorem read_iWin (off : Fin 3 → ℕ) (w : ℕ) (hoff : off = ![w, 0, 0])
    (h : ∀ a, off a + S1x200x128.size a ≤ S32x200x128.size a)
    (hs : ∀ a, (Rect.unit (s := S32x200x128) off S1x200x128.size h).stride a = 1)
    (f : (iV).view.ty.Contents (Elt F)) (y : S200x128.Idx) :
    View.read (Elt F) (((iV).slice (Rect.unit (s := S32x200x128) off S1x200x128.size h) hs).squeeze S200x128
        squeezes_S1x200x128_S200x128).view f y = f (ix3 (⟨w, iWin_lt hoff h⟩ : Fin 32) (y 0) (y 1)) := by
  have he : (((iV).slice (Rect.unit (s := S32x200x128) off S1x200x128.size h) hs).squeeze S200x128
        squeezes_S1x200x128_S200x128).view.emb y = ix3 (⟨w, iWin_lt hoff h⟩ : Fin 32) (y 0) (y 1) := by
    funext a; apply Fin.ext
    rw [iStretch_emb]
    subst hoff
    match a with
    | ⟨0, _⟩ => exact Nat.add_zero _
    | ⟨1, _⟩ => exact Nat.zero_add _
    | ⟨2, _⟩ => exact Nat.zero_add _
  rw [View.read_apply, he]
  rfl

/-- READ THE TILE'S INDEX STRETCH. Tile (c, s)'s window of the index array read at (x, y) is the array's element
    (2 s + c, x, y). -/
theorem read_iStretch (L : grid0.Coords) (h : ∀ a, (k0_off1 L) a + S1x200x128.size a ≤ S32x200x128.size a)
    (hs : ∀ a, (Rect.unit (s := S32x200x128) (k0_off1 L) S1x200x128.size h).stride a = 1)
    (f : (iV).view.ty.Contents (Elt F)) (y : S200x128.Idx) :
    View.read (Elt F) (((iV).slice (Rect.unit (s := S32x200x128) (k0_off1 L) S1x200x128.size h) hs).squeeze S200x128
        squeezes_S1x200x128_S200x128).view f y
      = f (ix3 (⟨2 * (L 1).val + (L 0).val, stretch_lt L h⟩ : Fin 32) (y 0) (y 1)) := by
  exact read_iWin (k0_off1 L) _ (k0_off1_eq L) h hs f y

/-! ## The shared table's whole-extent window, and a whole write of the index buffer -/

/-- THE WHOLE-EXTENT SLICE. The shared table read through its window of every element is the table. -/
theorem read_shWhole (h : ∀ a, (![0, 0] : Fin 2 → ℕ) a + S4x128.size a ≤ S4x128.size a)
    (hs : ∀ a, (Rect.unit (s := S4x128) ![0, 0] S4x128.size h).stride a = 1)
    (f : (shV).view.ty.Contents (Elt F)) (y : S4x128.Idx) :
    View.read (Elt F) ((shV).slice (Rect.unit (s := S4x128) ![0, 0] S4x128.size h) hs).view f y = f y := by
  have he : ((shV).slice (Rect.unit (s := S4x128) ![0, 0] S4x128.size h) hs).view.emb y = y := by
    funext a; apply Fin.ext
    show (![0, 0] : Fin 2 → ℕ) a + 1 * (y a).val = (y a).val
    rw [Nat.one_mul]
    match a with
    | ⟨0, _⟩ => exact Nat.zero_add _
    | ⟨1, _⟩ => exact Nat.zero_add _
  rw [View.read_apply, he]
  rfl

/-- THE WHOLE WRITE. Writing the index buffer whole replaces its contents. -/
theorem write_xWhole (f p : (xV).view.ty.Contents (Elt F)) : View.write (Elt F) (xV).view f p Finset.univ = p :=
  View.write_whole_univ _ f p

end Cert.KI

end
-- ==== Proof.KI.Value.lean ====
/-
  What the lookup kernel's tile leaves in the result array, as pure facts about its views. The symbolic run of one tile ends with
  the result array as a chain of two hundred window writes, one 128 × 128 block per chunk; the facts here close that chain:
  after the first c writes every row (w, k, ·, ·) with k < c holds the target, a further write of the target's block c extends this
  to c + 1, and after two hundred the whole stretch w holds it. The block written for chunk c is the gather's payload: the table
  row each of the chunk's 128 index entries names, which is the target's block (the entries are below 4, so reading them modulo 4
  changes nothing). And what is copied out of a row buffer is the latest gather into that buffer: a gather into another buffer
  in between is not seen.
-/
import proofs.«216814_g8117488189630_cont_sun_m_833_27_alg».proof.Proof.KI.Views

noncomputable section

namespace Cert.KI

open Cert.KernelIdeal Cert.KernelIdeal.Gen
open Idealize.ShloMosaic
open Idealize.ShloMosaic.ValueIdx

variable {F : FTy → Type}

local notation "oV" => (Memref.whole Cert.KernelIdeal.main_v1_scv : Memref Cert.KernelIdeal.sig Kind.scVector Space.hbm Cert.KernelIdeal.S32x200x128x128 EltTy.f32)
local notation "xV" => (Memref.whole Cert.KernelIdeal.cc0_scratch0 : Memref Cert.KernelIdeal.sig Kind.scVector Space.vmem Cert.KernelIdeal.S200x128 EltTy.i32)
local notation "bV" => (Memref.whole Cert.KernelIdeal.cc0_scratch1 : Memref Cert.KernelIdeal.sig Kind.scVector Space.vmem Cert.KernelIdeal.S4x128x128 EltTy.f32)
local notation "iV" => (Memref.whole Cert.KernelIdeal.main_v0_scv : Memref Cert.KernelIdeal.sig Kind.scVector Space.hbm Cert.KernelIdeal.S32x200x128 EltTy.i32)
local notation "shV" => (Memref.whole Cert.KernelIdeal.cc0_scratch2 : Memref Cert.KernelIdeal.sig Kind.scVector Space.shared Cert.KernelIdeal.S4x128 EltTy.f32)

/-! ## The chain of window writes -/

/-- Rows (w, k, ·, ·) with k < c of `prev` hold the target `T`. -/
def DoneBelow (w : ℕ) (T prev : S32x200x128x128.Idx → Elt F .f32) (c : ℕ) : Prop :=
  ∀ i, (i 0).val = w → (i 1).val < c → prev i = T i

/-- Nothing is asked below chunk 0. -/
theorem doneBelow_zero (w : ℕ) (T prev : S32x200x128x128.Idx → Elt F .f32) : DoneBelow w T prev 0 :=
  fun _ _ h => absurd h (Nat.not_lt_zero _)

/-- Writing the target's block c through the window at (w, c, 0, 0) extends the done rows from c to c + 1. -/
theorem doneBelow_step {w c : ℕ} {T prev : S32x200x128x128.Idx → Elt F .f32} {off : Fin 4 → ℕ}
    {hinb : ∀ a, off a + S1x1x128x128.size a ≤ S32x200x128x128.size a}
    {hs : ∀ a, (Rect.unit (s := S32x200x128x128) off S1x1x128x128.size hinb).stride a = 1}
    {pay : S128x128.Idx → Elt F .f32} (hw : w < 32) (hc : c < 200) (hoff : off = ![w, c, 0, 0])
    (hprev : DoneBelow w T prev c)
    (hpay : ∀ y : S128x128.Idx, pay y = T (ix4 (⟨w, hw⟩ : Fin 32) (⟨c, hc⟩ : Fin 200) (y 0) (y 1))) :
    DoneBelow w T (View.write (Elt F) (((oV).slice (Rect.unit (s := S32x200x128x128) off S1x1x128x128.size hinb) hs).squeeze S128x128
        squeezes_S1x1x128x128_S128x128).view prev pay Finset.univ) (c + 1) := by
  intro i h0 h1
  rw [write_oWin off hinb hs w c hoff prev pay i]
  split
  · next h =>
    rw [hpay]
    refine congrArg T (funext fun a => Fin.ext ?_)
    match a with
    | ⟨0, _⟩ => exact h.1.symm
    | ⟨1, _⟩ => exact h.2.symm
    | ⟨2, _⟩ => rfl
    | ⟨3, _⟩ => rfl
  · next h =>
    refine hprev i h0 ?_
    have h2 : (i 1).val ≠ c := fun e => h ⟨h0, e⟩
    omega

/-- With all two hundred chunks done, every element of stretch w holds the target. -/
theorem done_all {w : ℕ} {T X : S32x200x128x128.Idx → Elt F .f32} (off : Fin 4 → ℕ) (hoff : off = ![w, 0, 0, 0])
    (hinb : ∀ a, off a + (![1, 200, 128, 128] : Fin 4 → ℕ) a ≤ S32x200x128x128.size a) (h : DoneBelow w T X 200) :
    ∀ i ∈ (oV).view.setOn (Rect.unit (s := S32x200x128x128) off ![1, 200, 128, 128] hinb).set, X i = T i := by
  intro i hi
  obtain ⟨x, hx, rfl⟩ := Finset.mem_map.mp hi
  subst hoff
  have hm := Rect.mem_set_unit.mp hx
  have h0 := hm 0
  have h1 := hm 1
  refine h _ ?_ ?_
  · show (x 0).val = w
    have e : (![w, 0, 0, 0] : Fin 4 → ℕ) 0 = w := rfl
    have e1 : (![1, 200, 128, 128] : Fin 4 → ℕ) 0 = 1 := rfl
    rw [e, e1] at h0
    omega
  · show (x 1).val < 200
    have e : (![w, 0, 0, 0] : Fin 4 → ℕ) 1 = 0 := rfl
    have e1 : (![1, 200, 128, 128] : Fin 4 → ℕ) 1 = 200 := rfl
    rw [e, e1] at h1
    omega

/-! ## The copy-out reads the latest gather of its row buffer -/

/-- What is read back through a row buffer right after a gather into it is the gather's payload. -/
theorem pay_hit (b : ℕ) (hk : ∀ a, (![b, 0, 0] : Fin 3 → ℕ) a + S1x128x128.size a ≤ S4x128x128.size a)
    (hsk : ∀ a, (Rect.unit (s := S4x128x128) ![b, 0, 0] S1x128x128.size hk).stride a = 1)
    (prev : (bV).view.ty.Contents (Elt F)) (g : S128x128.Idx → Elt F .f32) :
    ReadAs.same.apply (View.read (Elt F) (((bV).slice (Rect.unit (s := S4x128x128) ![b, 0, 0] S1x128x128.size hk) hsk).squeeze S128x128
        squeezes_S1x128x128_S128x128).view
      (View.write (Elt F) (((bV).slice (Rect.unit (s := S4x128x128) ![b, 0, 0] S1x128x128.size hk) hsk).squeeze S128x128
        squeezes_S1x128x128_S128x128).view prev g Finset.univ)) = g :=
  View.read_write_univ _ _

/-- A gather into another row buffer in between is not seen. -/
theorem pay_skip (b b' : ℕ) (hne : b ≠ b')
    (hk : ∀ a, (![b, 0, 0] : Fin 3 → ℕ) a + S1x128x128.size a ≤ S4x128x128.size a)
    (hsk : ∀ a, (Rect.unit (s := S4x128x128) ![b, 0, 0] S1x128x128.size hk).stride a = 1)
    (hk' : ∀ a, (![b', 0, 0] : Fin 3 → ℕ) a + S1x128x128.size a ≤ S4x128x128.size a)
    (hsk' : ∀ a, (Rect.unit (s := S4x128x128) ![b', 0, 0] S1x128x128.size hk').stride a = 1)
    (hk2 : ∀ a, (![b, 0, 0] : Fin 3 → ℕ) a + S1x128x128.size a ≤ S4x128x128.size a)
    (hsk2 : ∀ a, (Rect.unit (s := S4x128x128) ![b, 0, 0] S1x128x128.size hk2).stride a = 1)
    (prev : (bV).view.ty.Contents (Elt F)) (g g' : S128x128.Idx → Elt F .f32) :
    ReadAs.same.apply (View.read (Elt F) (((bV).slice (Rect.unit (s := S4x128x128) ![b, 0, 0] S1x128x128.size hk) hsk).squeeze S128x128
        squeezes_S1x128x128_S128x128).view
      (View.write (Elt F) (((bV).slice (Rect.unit (s := S4x128x128) ![b', 0, 0] S1x128x128.size hk') hsk').squeeze S128x128
        squeezes_S1x128x128_S128x128).view
        (View.write (Elt F) (((bV).slice (Rect.unit (s := S4x128x128) ![b, 0, 0] S1x128x128.size hk2) hsk2).squeeze S128x128
          squeezes_S1x128x128_S128x128).view prev g Finset.univ) g' Finset.univ)) = g := by
  funext y
  show View.read (Elt F) _ _ y = g y
  rw [read_bSlot_write_bSlot_of_ne b b' hne hk hsk hk' hsk']
  exact congrFun (View.read_write_univ (v := (((bV).slice (Rect.unit (s := S4x128x128) ![b, 0, 0] S1x128x128.size hk) hsk).squeeze S128x128
        squeezes_S1x128x128_S128x128).view) prev g) y

/-! ## The gathered rows are the target -/

/-- THE GATHERED ROWS ARE THE TARGET. The gather's payload for chunk c of the tile's stretch w = 2 L₁ + L₀ — the shared table's rows
    at the words of index row c, the index rows being the stretch as copied in — is the target's block (w, c): the word at r is the
    stretch's entry (w, c, r), it is below 4, and row (w, c, r) of the target is the table row that entry names. -/
theorem gathered_eq_Gout (fI : IVec S32x200x128 32) (hlt : ∀ x, (fI x).toNat < 4) (ft : S4x128.Idx → Elt F .f32)
    (L : grid0.Coords) (c : ℕ) (hc : c < 200) (fx : (xV).view.ty.Contents (Elt F))
    (h : ∀ a, (![c, 0] : Fin 2 → ℕ) a + S1x128.size a ≤ S200x128.size a)
    (hs : ∀ a, (Rect.unit (s := S200x128) ![c, 0] S1x128.size h).stride a = 1)
    (h' : ∀ a, (![0, 0] : Fin 2 → ℕ) a + S4x128.size a ≤ S4x128.size a)
    (hs' : ∀ a, (Rect.unit (s := S4x128) ![0, 0] S4x128.size h').stride a = 1)
    (hn : S128.numel = S128x128.size gathers_S4x128_S128x128.axis')
    (hin : ∀ x, (View.read (Elt F) (((xV).slice (Rect.unit (s := S200x128) ![c, 0] S1x128.size h) hs).squeeze S128 squeezes_S1x128_S128).view
        (View.write (Elt F) (xV).view fx
          (ReadAs.same.apply (View.read (Elt F) (((iV).slice (Rect.unit (s := S32x200x128) (k0_off1 L) S1x200x128.size (k0_off1_inb L)) (fun _ => rfl)).squeeze S200x128
            squeezes_S1x200x128_S200x128).view fI)) Finset.univ) x).toNat < S4x128.size gathers_S4x128_S128x128.axis)
    (y : S128x128.Idx) :
    SparseCore.gatherPayload gathers_S4x128_S128x128
        (View.read (Elt F) ((shV).slice (Rect.unit (s := S4x128) ![0, 0] S4x128.size h') hs').view ft)
        (SparseCore.rows (View.read (Elt F) (((xV).slice (Rect.unit (s := S200x128) ![c, 0] S1x128.size h) hs).squeeze S128 squeezes_S1x128_S128).view
          (View.write (Elt F) (xV).view fx
            (ReadAs.same.apply (View.read (Elt F) (((iV).slice (Rect.unit (s := S32x200x128) (k0_off1 L) S1x200x128.size (k0_off1_inb L)) (fun _ => rfl)).squeeze S200x128
              squeezes_S1x200x128_S200x128).view fI)) Finset.univ)) hn hin) y
      = Gout fI ft (ix4 (⟨2 * (L 1).val + (L 0).val, stretch_lt L (k0_off1_inb L)⟩ : Fin 32) (⟨c, hc⟩ : Fin 200) (y 0) (y 1)) := by
  rw [gatherPayload_apply, read_shWhole]
  unfold Gout
  refine congrArg (fun r : Fin 4 => ft (ix2 r (y 1))) (Fin.ext ?_)
  rw [rows_val, read_xRow c ![c, 0] rfl h hs, write_xWhole]
  have e := read_iStretch (F := F) L (k0_off1_inb L) (fun _ => rfl) fI
    (ix2 (⟨c, xRow_lt rfl h⟩ : Fin 200) ((ix1 (⟨(y 0).val, offs_lt hn (y 0)⟩ : Fin 128)) 0))
  refine (congrArg (fun v : BitVec 32 => v.toNat) e).trans ?_
  exact (Nat.mod_eq_of_lt (hlt _)).symm

end Cert.KI

end
-- ==== Proof.KI.TilePre.lean ====
/-
  One tile's task, the vocabulary: the views the task addresses its stretches, row buffers and semaphores through, the
  tile's own semaphores and scratch buffers out of what the launch deals it, what crosses the barrier (tile 0 hands each
  tile its sixteenth of the shared table), the read tokens the four gather semaphores take of that sixteenth, and the
  two closing arguments of the run: every wait the task records is at the kernel's own index, and the result's stretch,
  left as a chain of two hundred window writes, holds the looked-up rows (by recursion on the chain).
-/
import proofs.«216814_g8117488189630_cont_sun_m_833_27_alg».proof.Proof.KI.Common
import proofs.«216814_g8117488189630_cont_sun_m_833_27_alg».proof.Proof.KI.Value

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x200x128 EltTy.i32)
local notation "tV" => (Memref.whole Cert.KernelIdeal.main_arg1_scv : Memref Cert.KernelIdeal.sig Kind.scVector Space.hbm Cert.KernelIdeal.S4x128 EltTy.f32)
local notation "oV" => (Memref.whole Cert.KernelIdeal.main_v1_scv : Memref Cert.KernelIdeal.sig Kind.scVector Space.hbm Cert.KernelIdeal.S32x200x128x128 EltTy.f32)
local notation "xV" => (Memref.whole Cert.KernelIdeal.cc0_scratch0 : Memref Cert.KernelIdeal.sig Kind.scVector Space.vmem Cert.KernelIdeal.S200x128 EltTy.i32)
local notation "bV" => (Memref.whole Cert.KernelIdeal.cc0_scratch1 : Memref Cert.KernelIdeal.sig Kind.scVector Space.vmem Cert.KernelIdeal.S4x128x128 EltTy.f32)
local notation "shV" => (Memref.whole Cert.KernelIdeal.cc0_scratch2 : Memref Cert.KernelIdeal.sig Kind.scVector Space.shared Cert.KernelIdeal.S4x128 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

/-- The gathers' and the copies-out's semaphores, one per row buffer, as the task names them. -/
abbrev gsemK : Fin 4 → DmaSems sig S_
  | 0 => (cc0_scratch3.slice (Rect.unit (s := S4) ![0] S1.size inb_S4_S1_0)).squeeze S_ squeezes_S1_S_
  | 1 => (cc0_scratch3.slice (Rect.unit (s := S4) ![1] S1.size inb_S4_S1_1)).squeeze S_ squeezes_S1_S_
  | 2 => (cc0_scratch3.slice (Rect.unit (s := S4) ![2] S1.size inb_S4_S1_2)).squeeze S_ squeezes_S1_S_
  | 3 => (cc0_scratch3.slice (Rect.unit (s := S4) ![3] S1.size inb_S4_S1_3)).squeeze S_ squeezes_S1_S_
abbrev ssemK : Fin 4 → DmaSems sig S_
  | 0 => (cc0_scratch4.slice (Rect.unit (s := S4) ![0] S1.size inb_S4_S1_0)).squeeze S_ squeezes_S1_S_
  | 1 => (cc0_scratch4.slice (Rect.unit (s := S4) ![1] S1.size inb_S4_S1_1)).squeeze S_ squeezes_S1_S_
  | 2 => (cc0_scratch4.slice (Rect.unit (s := S4) ![2] S1.size inb_S4_S1_2)).squeeze S_ squeezes_S1_S_
  | 3 => (cc0_scratch4.slice (Rect.unit (s := S4) ![3] S1.size inb_S4_S1_3)).squeeze S_ squeezes_S1_S_

/-- The tile's stretch of the index array, squeezed, as the task addresses it. -/
abbrev iRowK (L : grid0.Coords) : Rect S32x200x128 := Rect.unit (s := S32x200x128) (k0_off1 L) S1x200x128.size (k0_off1_inb L)
abbrev iRowM (L : grid0.Coords) : Memref sig .scVector .hbm S200x128 .i32 := ((iV).slice (iRowK L) (fun _ => rfl)).squeeze S200x128 squeezes_S1x200x128_S200x128

/-- The tile's stretch of the result as one rectangle over the tile's coordinates. -/
def offT (L : grid0.Coords) : Fin 4 → Nat := ![2 * (L 1).val + (L 0).val, 0, 0, 0]
instance closedOff_offT (L : grid0.Coords) : ClosedOff (offT L) := ⟨![2 * (L 1).val + (L 0).val, 0, 0, 0], rfl⟩
abbrev S1x200x128x128 : Shape := ⟨4, ![1, 200, 128, 128]⟩
theorem offT_inb : ∀ L : grid0.Coords, ∀ a, (offT L) a + S1x200x128x128.size a ≤ S32x200x128x128.size a := by decide +kernel
abbrev oTR (L : grid0.Coords) : Rect S32x200x128x128 := Rect.unit (s := S32x200x128x128) (offT L) S1x200x128x128.size (offT_inb L)

abbrev thr (d : Dev nD) (L : grid0.Coords) : Thread nD τ := V d (cV L) (jV L)

abbrev g0cell (d : Dev nD) (c : Fin τ.nSC) (i : Fin τ.nSub) : GSem nD τ sig := (V d c i, .dma (gsemK 0).sem)
abbrev g1cell (d : Dev nD) (c : Fin τ.nSC) (i : Fin τ.nSub) : GSem nD τ sig := (V d c i, .dma (gsemK 1).sem)
abbrev g2cell (d : Dev nD) (c : Fin τ.nSC) (i : Fin τ.nSub) : GSem nD τ sig := (V d c i, .dma (gsemK 2).sem)
abbrev g3cell (d : Dev nD) (c : Fin τ.nSC) (i : Fin τ.nSub) : GSem nD τ sig := (V d c i, .dma (gsemK 3).sem)
abbrev s0cell (d : Dev nD) (c : Fin τ.nSC) (i : Fin τ.nSub) : GSem nD τ sig := (V d c i, .dma (ssemK 0).sem)
abbrev s1cell (d : Dev nD) (c : Fin τ.nSC) (i : Fin τ.nSub) : GSem nD τ sig := (V d c i, .dma (ssemK 1).sem)
abbrev s2cell (d : Dev nD) (c : Fin τ.nSC) (i : Fin τ.nSub) : GSem nD τ sig := (V d c i, .dma (ssemK 2).sem)
abbrev s3cell (d : Dev nD) (c : Fin τ.nSC) (i : Fin τ.nSub) : GSem nD τ sig := (V d c i, .dma (ssemK 3).sem)
abbrev cAcell (d : Dev nD) (c : Fin τ.nSC) (i : Fin τ.nSub) : GSem nD τ sig := (V d c i, .dma (cc0_scoped0).sem)
abbrev cBcell (d : Dev nD) (c : Fin τ.nSC) (i : Fin τ.nSub) : GSem nD τ sig := (V d c i, .dma (cc0_scoped1).sem)

theorem cell_ne_g1_g0 : g1cell d (cV L) (jV L) ≠ g0cell d (cV L) (jV L) := fun e => absurd (SemLoc.dma.inj (Prod.mk.inj e).2) (by decide)
theorem cell_ne_g2_g0 : g2cell d (cV L) (jV L) ≠ g0cell d (cV L) (jV L) := fun e => absurd (SemLoc.dma.inj (Prod.mk.inj e).2) (by decide)
theorem cell_ne_g2_g1 : g2cell d (cV L) (jV L) ≠ g1cell d (cV L) (jV L) := fun e => absurd (SemLoc.dma.inj (Prod.mk.inj e).2) (by decide)
theorem cell_ne_g3_g0 : g3cell d (cV L) (jV L) ≠ g0cell d (cV L) (jV L) := fun e => absurd (SemLoc.dma.inj (Prod.mk.inj e).2) (by decide)
theorem cell_ne_g3_g1 : g3cell d (cV L) (jV L) ≠ g1cell d (cV L) (jV L) := fun e => absurd (SemLoc.dma.inj (Prod.mk.inj e).2) (by decide)
theorem cell_ne_g3_g2 : g3cell d (cV L) (jV L) ≠ g2cell d (cV L) (jV L) := fun e => absurd (SemLoc.dma.inj (Prod.mk.inj e).2) (by decide)
theorem cell_ne_s0_g0 : s0cell d (cV L) (jV L) ≠ g0cell d (cV L) (jV L) := fun e => absurd (SemLoc.dma.inj (Prod.mk.inj e).2) (by decide)
theorem cell_ne_s0_g1 : s0cell d (cV L) (jV L) ≠ g1cell d (cV L) (jV L) := fun e => absurd (SemLoc.dma.inj (Prod.mk.inj e).2) (by decide)
theorem cell_ne_s0_g2 : s0cell d (cV L) (jV L) ≠ g2cell d (cV L) (jV L) := fun e => absurd (SemLoc.dma.inj (Prod.mk.inj e).2) (by decide)
theorem cell_ne_s0_g3 : s0cell d (cV L) (jV L) ≠ g3cell d (cV L) (jV L) := fun e => absurd (SemLoc.dma.inj (Prod.mk.inj e).2) (by decide)
theorem cell_ne_s1_g0 : s1cell d (cV L) (jV L) ≠ g0cell d (cV L) (jV L) := fun e => absurd (SemLoc.dma.inj (Prod.mk.inj e).2) (by decide)
theorem cell_ne_s1_g1 : s1cell d (cV L) (jV L) ≠ g1cell d (cV L) (jV L) := fun e => absurd (SemLoc.dma.inj (Prod.mk.inj e).2) (by decide)
theorem cell_ne_s1_g2 : s1cell d (cV L) (jV L) ≠ g2cell d (cV L) (jV L) := fun e => absurd (SemLoc.dma.inj (Prod.mk.inj e).2) (by decide)
theorem cell_ne_s1_g3 : s1cell d (cV L) (jV L) ≠ g3cell d (cV L) (jV L) := fun e => absurd (SemLoc.dma.inj (Prod.mk.inj e).2) (by decide)
theorem cell_ne_s1_s0 : s1cell d (cV L) (jV L) ≠ s0cell d (cV L) (jV L) := fun e => absurd (SemLoc.dma.inj (Prod.mk.inj e).2) (by decide)
theorem cell_ne_s2_g0 : s2cell d (cV L) (jV L) ≠ g0cell d (cV L) (jV L) := fun e => absurd (SemLoc.dma.inj (Prod.mk.inj e).2) (by decide)
theorem cell_ne_s2_g1 : s2cell d (cV L) (jV L) ≠ g1cell d (cV L) (jV L) := fun e => absurd (SemLoc.dma.inj (Prod.mk.inj e).2) (by decide)
theorem cell_ne_s2_g2 : s2cell d (cV L) (jV L) ≠ g2cell d (cV L) (jV L) := fun e => absurd (SemLoc.dma.inj (Prod.mk.inj e).2) (by decide)
theorem cell_ne_s2_g3 : s2cell d (cV L) (jV L) ≠ g3cell d (cV L) (jV L) := fun e => absurd (SemLoc.dma.inj (Prod.mk.inj e).2) (by decide)
theorem cell_ne_s2_s0 : s2cell d (cV L) (jV L) ≠ s0cell d (cV L) (jV L) := fun e => absurd (SemLoc.dma.inj (Prod.mk.inj e).2) (by decide)
theorem cell_ne_s2_s1 : s2cell d (cV L) (jV L) ≠ s1cell d (cV L) (jV L) := fun e => absurd (SemLoc.dma.inj (Prod.mk.inj e).2) (by decide)
theorem cell_ne_s3_g0 : s3cell d (cV L) (jV L) ≠ g0cell d (cV L) (jV L) := fun e => absurd (SemLoc.dma.inj (Prod.mk.inj e).2) (by decide)
theorem cell_ne_s3_g1 : s3cell d (cV L) (jV L) ≠ g1cell d (cV L) (jV L) := fun e => absurd (SemLoc.dma.inj (Prod.mk.inj e).2) (by decide)
theorem cell_ne_s3_g2 : s3cell d (cV L) (jV L) ≠ g2cell d (cV L) (jV L) := fun e => absurd (SemLoc.dma.inj (Prod.mk.inj e).2) (by decide)
theorem cell_ne_s3_g3 : s3cell d (cV L) (jV L) ≠ g3cell d (cV L) (jV L) := fun e => absurd (SemLoc.dma.inj (Prod.mk.inj e).2) (by decide)
theorem cell_ne_s3_s0 : s3cell d (cV L) (jV L) ≠ s0cell d (cV L) (jV L) := fun e => absurd (SemLoc.dma.inj (Prod.mk.inj e).2) (by decide)
theorem cell_ne_s3_s1 : s3cell d (cV L) (jV L) ≠ s1cell d (cV L) (jV L) := fun e => absurd (SemLoc.dma.inj (Prod.mk.inj e).2) (by decide)
theorem cell_ne_s3_s2 : s3cell d (cV L) (jV L) ≠ s2cell d (cV L) (jV L) := fun e => absurd (SemLoc.dma.inj (Prod.mk.inj e).2) (by decide)
theorem cell_ne_cA_g0 : cAcell d (cV L) (jV L) ≠ g0cell d (cV L) (jV L) := fun e => absurd (SemLoc.dma.inj (Prod.mk.inj e).2) (by decide)
theorem cell_ne_cA_g1 : cAcell d (cV L) (jV L) ≠ g1cell d (cV L) (jV L) := fun e => absurd (SemLoc.dma.inj (Prod.mk.inj e).2) (by decide)
theorem cell_ne_cA_g2 : cAcell d (cV L) (jV L) ≠ g2cell d (cV L) (jV L) := fun e => absurd (SemLoc.dma.inj (Prod.mk.inj e).2) (by decide)
theorem cell_ne_cA_g3 : cAcell d (cV L) (jV L) ≠ g3cell d (cV L) (jV L) := fun e => absurd (SemLoc.dma.inj (Prod.mk.inj e).2) (by decide)
theorem cell_ne_cA_s0 : cAcell d (cV L) (jV L) ≠ s0cell d (cV L) (jV L) := fun e => absurd (SemLoc.dma.inj (Prod.mk.inj e).2) (by decide)
theorem cell_ne_cA_s1 : cAcell d (cV L) (jV L) ≠ s1cell d (cV L) (jV L) := fun e => absurd (SemLoc.dma.inj (Prod.mk.inj e).2) (by decide)
theorem cell_ne_cA_s2 : cAcell d (cV L) (jV L) ≠ s2cell d (cV L) (jV L) := fun e => absurd (SemLoc.dma.inj (Prod.mk.inj e).2) (by decide)
theorem cell_ne_cA_s3 : cAcell d (cV L) (jV L) ≠ s3cell d (cV L) (jV L) := fun e => absurd (SemLoc.dma.inj (Prod.mk.inj e).2) (by decide)
theorem cell_ne_cB_g0 : cBcell d (cV L) (jV L) ≠ g0cell d (cV L) (jV L) := fun e => absurd (SemLoc.dma.inj (Prod.mk.inj e).2) (by decide)
theorem cell_ne_cB_g1 : cBcell d (cV L) (jV L) ≠ g1cell d (cV L) (jV L) := fun e => absurd (SemLoc.dma.inj (Prod.mk.inj e).2) (by decide)
theorem cell_ne_cB_g2 : cBcell d (cV L) (jV L) ≠ g2cell d (cV L) (jV L) := fun e => absurd (SemLoc.dma.inj (Prod.mk.inj e).2) (by decide)
theorem cell_ne_cB_g3 : cBcell d (cV L) (jV L) ≠ g3cell d (cV L) (jV L) := fun e => absurd (SemLoc.dma.inj (Prod.mk.inj e).2) (by decide)
theorem cell_ne_cB_s0 : cBcell d (cV L) (jV L) ≠ s0cell d (cV L) (jV L) := fun e => absurd (SemLoc.dma.inj (Prod.mk.inj e).2) (by decide)
theorem cell_ne_cB_s1 : cBcell d (cV L) (jV L) ≠ s1cell d (cV L) (jV L) := fun e => absurd (SemLoc.dma.inj (Prod.mk.inj e).2) (by decide)
theorem cell_ne_cB_s2 : cBcell d (cV L) (jV L) ≠ s2cell d (cV L) (jV L) := fun e => absurd (SemLoc.dma.inj (Prod.mk.inj e).2) (by decide)
theorem cell_ne_cB_s3 : cBcell d (cV L) (jV L) ≠ s3cell d (cV L) (jV L) := fun e => absurd (SemLoc.dma.inj (Prod.mk.inj e).2) (by decide)
theorem cell_ne_cB_cA : cBcell d (cV L) (jV L) ≠ cAcell d (cV L) (jV L) := fun e => absurd (SemLoc.dma.inj (Prod.mk.inj e).2) (by decide)

theorem ownSems0_V :
    (ownSems0 (V d (cV L) (jV L)) : sProp 𝕄)
      = iprop(semVal (g0cell d (cV L) (jV L)) 0 ∗ semVal (g1cell d (cV L) (jV L)) 0 ∗ semVal (g2cell d (cV L) (jV L)) 0 ∗ semVal (g3cell d (cV L) (jV L)) 0 ∗ semVal (s0cell d (cV L) (jV L)) 0 ∗ semVal (s1cell d (cV L) (jV L)) 0 ∗ semVal (s2cell d (cV L) (jV L)) 0 ∗ semVal (s3cell d (cV L) (jV L)) 0 ∗ semVal (cAcell d (cV L) (jV L)) 0 ∗ semVal (cBcell d (cV L) (jV L)) 0
          ∗ bigSep (((((((((((ownCells (V d (cV L) (jV L))).erase (g0cell d (cV L) (jV L))).erase (g1cell d (cV L) (jV L))).erase (g2cell d (cV L) (jV L))).erase (g3cell d (cV L) (jV L))).erase (s0cell d (cV L) (jV L))).erase (s1cell d (cV L) (jV L))).erase (s2cell d (cV L) (jV L))).erase (s3cell d (cV L) (jV L))).erase (cAcell d (cV L) (jV L))).erase (cBcell d (cV L) (jV L))) fun g => semVal g 0) := by
  unfold SparseCore.Cfg.ownSems0
  rw [SparseCore.bigSep_erase' ((mem_ownCells (g := g0cell d (cV L) (jV L))).mpr ⟨rfl, by
      show (SemLoc.dma (gsemK 0).sem : SemLoc sig).isScoped .scVector = true; decide⟩),
    SparseCore.bigSep_erase' (Finset.mem_erase.mpr ⟨cell_ne_g1_g0 d L, (mem_ownCells (g := g1cell d (cV L) (jV L))).mpr ⟨rfl, by
      show (SemLoc.dma (gsemK 1).sem : SemLoc sig).isScoped .scVector = true; decide⟩⟩),
    SparseCore.bigSep_erase' (Finset.mem_erase.mpr ⟨cell_ne_g2_g1 d L, Finset.mem_erase.mpr ⟨cell_ne_g2_g0 d L, (mem_ownCells (g := g2cell d (cV L) (jV L))).mpr ⟨rfl, by
      show (SemLoc.dma (gsemK 2).sem : SemLoc sig).isScoped .scVector = true; decide⟩⟩⟩),
    SparseCore.bigSep_erase' (Finset.mem_erase.mpr ⟨cell_ne_g3_g2 d L, Finset.mem_erase.mpr ⟨cell_ne_g3_g1 d L, Finset.mem_erase.mpr ⟨cell_ne_g3_g0 d L, (mem_ownCells (g := g3cell d (cV L) (jV L))).mpr ⟨rfl, by
      show (SemLoc.dma (gsemK 3).sem : SemLoc sig).isScoped .scVector = true; decide⟩⟩⟩⟩),
    SparseCore.bigSep_erase' (Finset.mem_erase.mpr ⟨cell_ne_s0_g3 d L, Finset.mem_erase.mpr ⟨cell_ne_s0_g2 d L, Finset.mem_erase.mpr ⟨cell_ne_s0_g1 d L, Finset.mem_erase.mpr ⟨cell_ne_s0_g0 d L, (mem_ownCells (g := s0cell d (cV L) (jV L))).mpr ⟨rfl, by
      show (SemLoc.dma (ssemK 0).sem : SemLoc sig).isScoped .scVector = true; decide⟩⟩⟩⟩⟩),
    SparseCore.bigSep_erase' (Finset.mem_erase.mpr ⟨cell_ne_s1_s0 d L, Finset.mem_erase.mpr ⟨cell_ne_s1_g3 d L, Finset.mem_erase.mpr ⟨cell_ne_s1_g2 d L, Finset.mem_erase.mpr ⟨cell_ne_s1_g1 d L, Finset.mem_erase.mpr ⟨cell_ne_s1_g0 d L, (mem_ownCells (g := s1cell d (cV L) (jV L))).mpr ⟨rfl, by
      show (SemLoc.dma (ssemK 1).sem : SemLoc sig).isScoped .scVector = true; decide⟩⟩⟩⟩⟩⟩),
    SparseCore.bigSep_erase' (Finset.mem_erase.mpr ⟨cell_ne_s2_s1 d L, Finset.mem_erase.mpr ⟨cell_ne_s2_s0 d L, Finset.mem_erase.mpr ⟨cell_ne_s2_g3 d L, Finset.mem_erase.mpr ⟨cell_ne_s2_g2 d L, Finset.mem_erase.mpr ⟨cell_ne_s2_g1 d L, Finset.mem_erase.mpr ⟨cell_ne_s2_g0 d L, (mem_ownCells (g := s2cell d (cV L) (jV L))).mpr ⟨rfl, by
      show (SemLoc.dma (ssemK 2).sem : SemLoc sig).isScoped .scVector = true; decide⟩⟩⟩⟩⟩⟩⟩),
    SparseCore.bigSep_erase' (Finset.mem_erase.mpr ⟨cell_ne_s3_s2 d L, Finset.mem_erase.mpr ⟨cell_ne_s3_s1 d L, Finset.mem_erase.mpr ⟨cell_ne_s3_s0 d L, Finset.mem_erase.mpr ⟨cell_ne_s3_g3 d L, Finset.mem_erase.mpr ⟨cell_ne_s3_g2 d L, Finset.mem_erase.mpr ⟨cell_ne_s3_g1 d L, Finset.mem_erase.mpr ⟨cell_ne_s3_g0 d L, (mem_ownCells (g := s3cell d (cV L) (jV L))).mpr ⟨rfl, by
      show (SemLoc.dma (ssemK 3).sem : SemLoc sig).isScoped .scVector = true; decide⟩⟩⟩⟩⟩⟩⟩⟩),
    SparseCore.bigSep_erase' (Finset.mem_erase.mpr ⟨cell_ne_cA_s3 d L, Finset.mem_erase.mpr ⟨cell_ne_cA_s2 d L, Finset.mem_erase.mpr ⟨cell_ne_cA_s1 d L, Finset.mem_erase.mpr ⟨cell_ne_cA_s0 d L, Finset.mem_erase.mpr ⟨cell_ne_cA_g3 d L, Finset.mem_erase.mpr ⟨cell_ne_cA_g2 d L, Finset.mem_erase.mpr ⟨cell_ne_cA_g1 d L, Finset.mem_erase.mpr ⟨cell_ne_cA_g0 d L, (mem_ownCells (g := cAcell d (cV L) (jV L))).mpr ⟨rfl, by
      show (SemLoc.dma (cc0_scoped0).sem : SemLoc sig).isScoped .scVector = true; decide⟩⟩⟩⟩⟩⟩⟩⟩⟩),
    SparseCore.bigSep_erase' (Finset.mem_erase.mpr ⟨cell_ne_cB_cA d L, Finset.mem_erase.mpr ⟨cell_ne_cB_s3 d L, Finset.mem_erase.mpr ⟨cell_ne_cB_s2 d L, Finset.mem_erase.mpr ⟨cell_ne_cB_s1 d L, Finset.mem_erase.mpr ⟨cell_ne_cB_s0 d L, Finset.mem_erase.mpr ⟨cell_ne_cB_g3 d L, Finset.mem_erase.mpr ⟨cell_ne_cB_g2 d L, Finset.mem_erase.mpr ⟨cell_ne_cB_g1 d L, Finset.mem_erase.mpr ⟨cell_ne_cB_g0 d L, (mem_ownCells (g := cBcell d (cV L) (jV L))).mpr ⟨rfl, by
      show (SemLoc.dma (cc0_scoped1).sem : SemLoc sig).isScoped .scVector = true; decide⟩⟩⟩⟩⟩⟩⟩⟩⟩⟩)]

/-! ## The stretches as the task addresses them -/

theorem wid_val : (wid (cV L) (jV L)).val = 2 * (L 1).val + (L 0).val := rfl

theorem iRowK_eq : iRowK L = iRow (wid (cV L) (jV L)) := by
  unfold iRowK iRow Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem oTR_eq : oTR L = oRow (wid (cV L) (jV L)) := by
  unfold oTR oRow Rect.part Rect.block
  congr 1 <;> funext a
  · unfold offT
    match a with
    | 0 => simp [Shape.partIx, Shape.partSize, wid]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

theorem set_iRowM : (iRowM L).view.set = iRowSet (wid (cV L) (jV L)) := by
  show (((iV).view.slice (iRowK L)).reshape S200x128 squeezes_S1x200x128_S200x128.numel_eq).set = ((iV).view.slice (iRow (wid (cV L) (jV L)))).set
  rw [View.set_reshape]
  exact iRowK_eq L ▸ rfl

theorem setOn_oTR : (oV).view.setOn (oTR L).set = oRowSet (wid (cV L) (jV L)) := by
  show _ = ((oV).view.slice (oRow (wid (cV L) (jV L)))).set
  rw [View.set_slice, oTR_eq]; rfl

theorem pts_iRowM (f : Buf (Elt F) (iLoc d)) :
    ((iRowM L).view.loc (V d (cV L) (jV L)) ↦[(iRowM L).view.set]{fullShare} f : sProp 𝕄) = iLoc d ↦[iRowSet (wid (cV L) (jV L))]{fullShare} f := by
  rw [set_iRowM]
theorem pts_oTR (f : Buf (Elt F) (oLoc d)) :
    ((oV).view.loc (V d (cV L) (jV L)) ↦[(oV).view.setOn (oTR L).set]{fullShare} f : sProp 𝕄) = oLoc d ↦[oRowSet (wid (cV L) (jV L))]{fullShare} f := by
  rw [setOn_oTR]
theorem pts_tV (q : PosShare TreeShare) (f : Buf (Elt F) (tLoc d)) :
    ((tV).view.loc (V d (cV L) (jV L)) ↦{q} f : sProp 𝕄) = tLoc d ↦{q} f := rfl
theorem pts_shV (q : PosShare TreeShare) (f : Buf (Elt F) (shLoc d (cV L))) :
    ((shV).view.loc (V d (cV L) (jV L)) ↦{q} f : sProp 𝕄) = shLoc d (cV L) ↦{q} f := rfl
theorem pts_xV (f : Buf (Elt F) ((V d (cV L) (jV L)).loc cc0_scratch0)) :
    ((xV).view.loc (V d (cV L) (jV L)) ↦{fullShare} f : sProp 𝕄) = (V d (cV L) (jV L)).loc cc0_scratch0 ↦{fullShare} f := rfl
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-! ## Across the barrier -/

omit [FloatOps F] in
theorem pay_zero (j : Fin (grid0.bound 1)) :
    (bRd (F := F) m).payload (bcell d (cV L) (j.castLE hsub0)) 0 0 = shShare m d (cV L) (Fin.cast nSub_eq (j.castLE hsub0)) := by
  show bPay m (bcell d (cV L) (j.castLE hsub0)) 0 = _
  unfold bPay; dsimp only; rw [if_pos rfl]
omit [FloatOps F] in
theorem pay_pos (j : Fin τ.nSub) (n : ℕ) (hn : n ≠ 0) :
    (bRd (F := F) m).payload (bcell d (cV L) j) 0 n = iprop(emp) := by
  show bPay m (bcell d (cV L) j) n = _
  unfold bPay; dsimp only; rw [if_neg hn]

omit [FloatOps F] in
/-- Tile 0 hands every tile its sixteenth of the shared table. -/
theorem pays_intro0 (hs0 : (L 1).val = 0) :
    (shLoc d (cV L) ↦{fullShare} tabC m d (cV L) : sProp 𝕄)
      ⊢ (bigSep Finset.univ fun j : Fin (grid0.bound 1) => (bRd (F := F) m).payload (bcell d (cV L) (j.castLE hsub0)) 0 (jV L).val) := by
  have hme : (jV L).val = 0 := hs0
  rw [hme, pointsTo_piecesOf Finset.univ (tabC m d (cV L)) pos16 fullShare]
  refine Entails.of_eq (bigSep_congr (s := (Finset.univ : Finset (Fin (grid0.bound 1)))) fun j _ => ?_)
  rw [pay_zero]
  exact congrArg (fun i => (shLoc d (cV L) ↦{pieceOf fullShare 16 pos16 i} tabC m d (cV L) : sProp 𝕄)) (Fin.ext rfl)

omit [FloatOps F] in
/-- The other tiles hand over nothing. -/
theorem pays_introS (hs0 : (L 1).val ≠ 0) :
    (iprop(emp) : sProp 𝕄)
      ⊢ (bigSep Finset.univ fun j : Fin (grid0.bound 1) => (bRd (F := F) m).payload (bcell d (cV L) (j.castLE hsub0)) 0 (jV L).val) := by
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from bigSep_congr fun j _ => pay_pos m d L _ _ hs0, bigSep_emp']

omit [FloatOps F] in
/-- What a tile's own round collected holds its sixteenth of the shared table. -/
theorem pays_elim : (bigSep ((bRd (F := F) m).duties (bcell d (cV L) (jV L)) 0 \ ∅) fun n => (bRd (F := F) m).payload (bcell d (cV L) (jV L)) 0 n)
    ⊢ (shShare m d (cV L) (Fin.cast nSub_eq (jV L)) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

omit [FloatOps F] in
/-- A read share cut into a remainder and four read tokens, one per gather semaphore. -/
theorem toks4 {ℓ : Loc nD τ sig} (f : Buf (Elt F) ℓ) (q : PosShare TreeShare) :
    (ℓ ↦{q} f : sProp 𝕄) ⊣⊢ iprop((ℓ ↦{Transfers.shareDrop q 4} f) ∗ (ℓ ↦{Transfers.shareTokN q 3} f) ∗ (ℓ ↦{Transfers.shareTokN q 2} f)
        ∗ (ℓ ↦{Transfers.shareTokN q 1} f) ∗ (ℓ ↦{Transfers.shareTokN q 0} f) ∗ emp) := by
  have hr : Finset.range 4 = insert 3 (insert 2 (insert 1 (insert 0 ∅))) := by decide
  have h : (ℓ ↦[Finset.univ]{q} f : sProp 𝕄) ⊣⊢ _ := Transfers.pointsTo_toks_range q 4
  rw [hr, SparseCore.bigSep_insert' (by decide), SparseCore.bigSep_insert' (by decide), SparseCore.bigSep_insert' (by decide),
    SparseCore.bigSep_insert' (by decide), bigSep_empty] at h
  exact h

/-! ## Closing the run: the waits recorded, the chain of window writes -/

omit [FloatOps F] in
theorem waits_base (W : Waits sig (HIx 1)) : ∀ p ∈ W, p ∈ W ∨ p.2 = none ∨ p.2 = some (0 : Fin 1) := fun _ hp => .inl hp
omit [FloatOps F] in
theorem waits_insert {W W' : Waits sig (HIx 1)} (a : SemLoc sig × HIx 1) (ha : a.2 = none ∨ a.2 = some (0 : Fin 1))
    (h : ∀ p ∈ W', p ∈ W ∨ p.2 = none ∨ p.2 = some (0 : Fin 1)) :
    ∀ p ∈ insert a W', p ∈ W ∨ p.2 = none ∨ p.2 = some (0 : Fin 1) := by
  intro p hp
  rcases Finset.mem_insert.mp hp with rfl | hp
  · exact .inr ha
  · exact h p hp

/-- Every wait the task recorded is one of the launch's or at the kernel's own index. -/
macro "waits_ok" : tactic =>
  `(tactic| ((repeat (refine waits_insert _ (by first | exact Or.inl rfl | exact Or.inr rfl) ?_)); exact waits_base _))

omit [FloatOps F] in
theorem wL_lt (L : grid0.Coords) : 2 * (L 1).val + (L 0).val < 32 := by
  have h0 : (L 0).val < 2 := (L 0).isLt
  have h1 : (L 1).val < 16 := (L 1).isLt
  omega

open Lean Elab Tactic Meta in
/-- Unfold the definition at the head of the left side of the equation to prove. -/
elab "unfold_lhs_head" : tactic => do
  let g ← getMainGoal
  let t ← instantiateMVars (← g.getType)
  let some (_, lhs, _) := t.eq? | throwError "unfold_lhs_head: not an equation"
  let some n := lhs.getAppFn.constName? | throwError "unfold_lhs_head: no constant at the head"
  let t' ← Meta.deltaExpand t (· == n)
  let g' ← g.replaceTargetDefEq t'.headBeta
  replaceMainGoal [g']

/-- A copy-out's payload is the latest gather of its row buffer (one other buffer's gather may lie above it), and that
    gather's rows are the table rows the chunk's indices name. -/
syntax "pay_tac" : tactic
set_option hygiene false in
macro_rules | `(tactic| pay_tac) => `(tactic|
  (intro y
   unfold_lhs_head
   first
   | (refine (congrFun (pay_skip _ _ ?_ _ _ _ _ _ _ _ _ _) y).trans ?_
      · decide)
   | (refine (congrFun (pay_hit _ _ _ _ _) y).trans ?_)
   unfold_lhs_head
   exact gathered_eq_Gout (fI d) hidx _ L _ (by decide) _ _ _ _ _ _ _ y))

/-- The result array after chunk c's copy-out agrees with the looked-up rows on the chunks up to c: by recursion on the
    chain of window writes. -/
syntax "value_chain" : tactic
macro_rules | `(tactic| value_chain) => `(tactic|
  first
  | exact doneBelow_zero _ _ _
  | (refine doneBelow_step (wL_lt _) (by decide) ClosedOff.eq ?_ ?_
     · value_chain
     · pay_tac))

end Tile

end Cert.KI

end
-- ==== Proof.KI.Tile0.lean ====
/-
  Tile 0 of a SparseCore: it also copies the table into the shared memory and hands every tile its sixteenth of it.
  The run: the fetches before the barrier and the barrier by their rules; after it the two hundred chunks — chunk k's rows
  gathered from the shared table into row buffer k mod 4 while chunk k - 1's copy-out is under way, each semaphore
  serving one transfer at a time — by symbolic execution; then the closing arguments.
-/
import proofs.«216814_g8117488189630_cont_sun_m_833_27_alg».proof.Proof.KI.TilePre
import proofs.«216814_g8117488189630_cont_sun_m_833_27_alg».proof.Proof.Gen.KernelIdeal.Skeleton

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x200x128 EltTy.i32)
local notation "tV" => (Memref.whole Cert.KernelIdeal.main_arg1_scv : Memref Cert.KernelIdeal.sig Kind.scVector Space.hbm Cert.KernelIdeal.S4x128 EltTy.f32)
local notation "oV" => (Memref.whole Cert.KernelIdeal.main_v1_scv : Memref Cert.KernelIdeal.sig Kind.scVector Space.hbm Cert.KernelIdeal.S32x200x128x128 EltTy.f32)
local notation "xV" => (Memref.whole Cert.KernelIdeal.cc0_scratch0 : Memref Cert.KernelIdeal.sig Kind.scVector Space.vmem Cert.KernelIdeal.S200x128 EltTy.i32)
local notation "bV" => (Memref.whole Cert.KernelIdeal.cc0_scratch1 : Memref Cert.KernelIdeal.sig Kind.scVector Space.vmem Cert.KernelIdeal.S4x128x128 EltTy.f32)
local notation "shV" => (Memref.whole Cert.KernelIdeal.cc0_scratch2 : Memref Cert.KernelIdeal.sig Kind.scVector Space.shared Cert.KernelIdeal.S4x128 EltTy.f32)

variable (m : (ℓ : Loc nD τ sig) → Buf (Elt F) ℓ)

section Tile

variable (d : Dev nD) (L : grid0.Coords)

variable [FloatOps F]

variable (fI : (d : Dev nD) → IVec S32x200x128 32)

set_option maxHeartbeats 64000000 in
theorem tile_body0 (hF : (K (F := F)).Facts) (hidx : ∀ x, (fI d x).toNat < 4) (hs0 : (L 1).val = 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m fI d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_lookup L iV (Memref.isWhole_whole _) tV (Memref.isWhole_whole _) oV (Memref.isWhole_whole _) xV (Memref.isWhole_whole _)
            bV (Memref.isWhole_whole _) shV (Memref.isWhole_whole _) cc0_scratch3 cc0_scratch4 cc0_scoped0 cc0_scoped1)
          fun _ => iprop(tdRes m fI d (cV L) (jV L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0__emb_lookup_eq_skeleton]; unfold cc0__emb_lookup_skel
  rw [(K (F := F)).scopedBufs_V hF d (cV L) (jV L), SparseCore.Cfg.scopedSems0_V (Val := Elt F) d (cV L) (jV L), ownSems0_V, ownBufs_V]
  unfold bkit goRes tdRes
  have hO' : ∀ g, (O + oxV d (cV L)) g none = 0 := fun g => by rw [Pi.add_apply, Finsupp.add_apply, hO g, oxV_none]
  -- tile 0: the table into the shared memory, the index stretch, the barrier handing the sixteenths over
  have hv4 : Scalar.cmpi .ne (Scalar.extui (Scalar.cmpi .eq (BitVec.ofNat 32 (L 1).val) 0#32) : BitVec 32) 0#32 = 1#1 := by rw [hs0]; decide
  rw [if_pos (show (jV L).val = 0 from hs0), if_pos (show (jV L).val = 0 from hs0)]
  iintro ⟨#Hlv, ⟨⟨%κ, #Hinv⟩, Htoks, #Hrch, Hat, Hcred⟩, ⟨Hi, Ho, Ht, ⟨%fsh, Hsh⟩⟩, ⟨⟨%fx, Hx⟩, ⟨%fb, Hb⟩, Hbufs⟩, ⟨Hg0, Hg1, Hg2, Hg3, Hs0, Hs1, Hs2, Hs3, HcA, HcB, Hsems⟩, HO⟩
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowM (F := F) d L _).symm) $$ Hi
  ihave Ho' := (Entails.of_eq (pts_oTR (F := F) d L _).symm) $$ Ho
  ihave Hx' := (Entails.of_eq (pts_xV (F := F) d L _).symm) $$ Hx
  ihave Hb' := (Entails.of_eq (pts_bV (F := F) d L _).symm) $$ Hb
  ihave Ht' := (Entails.of_eq (pts_tV (F := F) d L _ _).symm) $$ Ht
  ihave Hsh' := (Entails.of_eq (pts_shV (F := F) d L _ _).symm) $$ Hsh
  sl_exec (disch := first | sl_exact hv4 | omega)
  -- the shared copy holds the table
  have hshc : View.write (Elt F) (shV).view fsh (tile_body0.sl.dma0 m d) Finset.univ = tabC m d (cV L) := by
    rw [View.write_whole_univ]; rfl
  ihave Hsh2 := (Entails.of_eq (congrArg (fun f => ((shV).view.loc (V d (cV L) (jV L)) ↦{fullShare} f : sProp 𝕄)) hshc)) $$ Hsh'
  ihave Hpays := (pays_intro0 (F := F) m d L hs0) $$ [Hsh2]
  · iapply (Entails.of_eq (pts_shV (F := F) d L _ _)); iexact Hsh2
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  ihave Hmine' := (Entails.of_eq (pts_shV (F := F) d L _ _).symm) $$ Hmine
  ihave Hspl := (toks4 (F := F) _ _).1 $$ Hmine'
  icases Hspl with ⟨Hshr, Htk3, Htk2, Htk1, Htk0, -⟩
  have hinAll : ∀ (r : Fin 2 → Nat) (hr : ∀ a, r a + S1x128.size a ≤ S200x128.size a) (hs : ∀ a, (Rect.unit (s := S200x128) r S1x128.size hr).stride a = 1) (x : S128.Idx),
      BitVec.toNat (View.read (Elt F) (((xV).slice (Rect.unit (s := S200x128) r S1x128.size hr) hs).squeeze S128 squeezes_S1x128_S128).view
        (View.write (Elt F) (xV).view fx (tile_body0.sl.dma0_1 d L fI) Finset.univ) x) < 4 :=
    fun r hr hs x => by rw [View.write_whole_univ]; exact hidx _
  sl_exec_parts (disch := omega)
  sl_step
  -- the result's stretch holds the looked-up rows: the chain of window writes, chunk by chunk
  have hval : ∀ i ∈ (oV).view.setOn (oTR L).set, (tile_body0.sl.Ho'_w399 m d L fI fx fb hinAll) i = Gout (fI d) (m (tLoc d)) i :=
    done_all (offT L) rfl (offT_inb L) (by value_chain)
  isplitl [Hi' Ho' Ht' Hshr Htk0 Htk1 Htk2 Htk3]
  · isplitl [Hi']; · iapply (Entails.of_eq (pts_iRowM (F := F) d L _)); iexact Hi'
    isplitl [Ho']
    · iapply (Entails.of_eq (pts_oTR (F := F) d L _))
      iapply (Entails.of_eq (pointsTo_congr hval))
      iexact Ho'
    isplitl [Ht']; · iapply (Entails.of_eq (pts_tV (F := F) d L _ _)); iexact Ht'
    iapply (Entails.of_eq (pts_shV (F := F) d L _ _))
    iapply (toks4 (F := F) _ _).2
    isplitl [Hshr]; · iexact Hshr
    isplitl [Htk3]; · iexact Htk3
    isplitl [Htk2]; · iexact Htk2
    isplitl [Htk1]; · iexact Htk1
    isplitl [Htk0]; · iexact Htk0
    iempintro
  isplitl [Hx' Hb' Hbufs]
  · isplitl [Hx']; · iexists _; iexact Hx'
    isplitl [Hb']; · iexists _; iexact Hb'
    iexact Hbufs
  isplitl [Hg0 Hg1 Hg2 Hg3 Hs0 Hs1 Hs2 Hs3 HcA HcB Hsems]
  · isplitl [Hg0]; · iexact Hg0
    isplitl [Hg1]; · iexact Hg1
    isplitl [Hg2]; · iexact Hg2
    isplitl [Hg3]; · iexact Hg3
    isplitl [Hs0]; · iexact Hs0
    isplitl [Hs1]; · iexact Hs1
    isplitl [Hs2]; · iexact Hs2
    isplitl [Hs3]; · iexact Hs3
    isplitl [HcA]; · iexact HcA
    isplitl [HcB]; · iexact HcB
    iexact Hsems
  iexists _; isplitr
  swap; · iexact HO
  ipureintro
  waits_ok

end Tile

end Cert.KI

end
-- ==== Proof.KI.TileS.lean ====
/-
  Tiles 1 to 15 of a SparseCore: they receive their sixteenth of the shared table across the barrier.
  The run: the fetches before the barrier and the barrier by their rules; after it the two hundred chunks — chunk k's rows
  gathered from the shared table into row buffer k mod 4 while chunk k - 1's copy-out is under way, each semaphore
  serving one transfer at a time — by symbolic execution; then the closing arguments.
-/
import proofs.«216814_g8117488189630_cont_sun_m_833_27_alg».proof.Proof.KI.TilePre
import proofs.«216814_g8117488189630_cont_sun_m_833_27_alg».proof.Proof.Gen.KernelIdeal.Skeleton

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x200x128 EltTy.i32)
local notation "tV" => (Memref.whole Cert.KernelIdeal.main_arg1_scv : Memref Cert.KernelIdeal.sig Kind.scVector Space.hbm Cert.KernelIdeal.S4x128 EltTy.f32)
local notation "oV" => (Memref.whole Cert.KernelIdeal.main_v1_scv : Memref Cert.KernelIdeal.sig Kind.scVector Space.hbm Cert.KernelIdeal.S32x200x128x128 EltTy.f32)
local notation "xV" => (Memref.whole Cert.KernelIdeal.cc0_scratch0 : Memref Cert.KernelIdeal.sig Kind.scVector Space.vmem Cert.KernelIdeal.S200x128 EltTy.i32)
local notation "bV" => (Memref.whole Cert.KernelIdeal.cc0_scratch1 : Memref Cert.KernelIdeal.sig Kind.scVector Space.vmem Cert.KernelIdeal.S4x128x128 EltTy.f32)
local notation "shV" => (Memref.whole Cert.KernelIdeal.cc0_scratch2 : Memref Cert.KernelIdeal.sig Kind.scVector Space.shared Cert.KernelIdeal.S4x128 EltTy.f32)

variable (m : (ℓ : Loc nD τ sig) → Buf (Elt F) ℓ)

section Tile

variable (d : Dev nD) (L : grid0.Coords)

variable [FloatOps F]

variable (fI : (d : Dev nD) → IVec S32x200x128 32)

set_option maxHeartbeats 64000000 in
theorem tile_bodyS (hF : (K (F := F)).Facts) (hidx : ∀ x, (fI d x).toNat < 4) (hs0 : 0 < (L 1).val) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m fI d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_lookup L iV (Memref.isWhole_whole _) tV (Memref.isWhole_whole _) oV (Memref.isWhole_whole _) xV (Memref.isWhole_whole _)
            bV (Memref.isWhole_whole _) shV (Memref.isWhole_whole _) cc0_scratch3 cc0_scratch4 cc0_scoped0 cc0_scoped1)
          fun _ => iprop(tdRes m fI d (cV L) (jV L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0__emb_lookup_eq_skeleton]; unfold cc0__emb_lookup_skel
  rw [(K (F := F)).scopedBufs_V hF d (cV L) (jV L), SparseCore.Cfg.scopedSems0_V (Val := Elt F) d (cV L) (jV L), ownSems0_V, ownBufs_V]
  unfold bkit goRes tdRes
  have hO' : ∀ g, (O + oxV d (cV L)) g none = 0 := fun g => by rw [Pi.add_apply, Finsupp.add_apply, hO g, oxV_none]
  -- the other tiles: the index stretch, the barrier (nothing to hand over), the sixteenth received
  have hv4 : ¬ (Scalar.cmpi .ne (Scalar.extui (Scalar.cmpi .eq (BitVec.ofNat 32 (L 1).val) 0#32) : BitVec 32) 0#32 = 1#1) := by
    have h : ∀ s : Fin (grid0.bound 1), 0 < s.val → ¬ (Scalar.cmpi .ne (Scalar.extui (Scalar.cmpi .eq (BitVec.ofNat 32 s.val) 0#32) : BitVec 32) 0#32 = 1#1) := by decide
    exact h (L 1) hs0
  have hne : (L 1).val ≠ 0 := Nat.pos_iff_ne_zero.mp hs0
  rw [if_neg (show ¬ (jV L).val = 0 from hne), if_neg (show ¬ (jV L).val = 0 from hne)]
  iintro ⟨#Hlv, ⟨⟨%κ, #Hinv⟩, Htoks, #Hrch, Hat, Hcred⟩, ⟨Hi, Ho, -⟩, ⟨⟨%fx, Hx⟩, ⟨%fb, Hb⟩, Hbufs⟩, ⟨Hg0, Hg1, Hg2, Hg3, Hs0, Hs1, Hs2, Hs3, HcA, HcB, Hsems⟩, HO⟩
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowM (F := F) d L _).symm) $$ Hi
  ihave Ho' := (Entails.of_eq (pts_oTR (F := F) d L _).symm) $$ Ho
  ihave Hx' := (Entails.of_eq (pts_xV (F := F) d L _).symm) $$ Hx
  ihave Hb' := (Entails.of_eq (pts_bV (F := F) d L _).symm) $$ Hb
  sl_exec (disch := first | sl_exact hv4 | omega)
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks ]
    · rw [bigSep_sep', bigSep_sep']
      isplitl [Htoks]; · iexact Htoks
      isplitr; · iapply (pays_introS (F := F) m d L hne); iempintro
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  ihave Hmine' := (Entails.of_eq (pts_shV (F := F) d L _ _).symm) $$ Hmine
  ihave Hspl := (toks4 (F := F) _ _).1 $$ Hmine'
  icases Hspl with ⟨Hshr, Htk3, Htk2, Htk1, Htk0, -⟩
  have hinAll : ∀ (r : Fin 2 → Nat) (hr : ∀ a, r a + S1x128.size a ≤ S200x128.size a) (hs : ∀ a, (Rect.unit (s := S200x128) r S1x128.size hr).stride a = 1) (x : S128.Idx),
      BitVec.toNat (View.read (Elt F) (((xV).slice (Rect.unit (s := S200x128) r S1x128.size hr) hs).squeeze S128 squeezes_S1x128_S128).view
        (View.write (Elt F) (xV).view fx (tile_bodyS.sl.dma0 d L fI) Finset.univ) x) < 4 :=
    fun r hr hs x => by rw [View.write_whole_univ]; exact hidx _
  sl_exec_parts (disch := omega)
  sl_step
  -- the result's stretch holds the looked-up rows: the chain of window writes, chunk by chunk
  have hval : ∀ i ∈ (oV).view.setOn (oTR L).set, (tile_bodyS.sl.Ho'_w399 m d L fI fx fb hinAll) i = Gout (fI d) (m (tLoc d)) i :=
    done_all (offT L) rfl (offT_inb L) (by value_chain)
  isplitl [Hi' Ho' Hshr Htk0 Htk1 Htk2 Htk3]
  · isplitl [Hi']; · iapply (Entails.of_eq (pts_iRowM (F := F) d L _)); iexact Hi'
    isplitl [Ho']
    · iapply (Entails.of_eq (pts_oTR (F := F) d L _))
      iapply (Entails.of_eq (pointsTo_congr hval))
      iexact Ho'
    isplitr; · iempintro
    iapply (Entails.of_eq (pts_shV (F := F) d L _ _))
    iapply (toks4 (F := F) _ _).2
    isplitl [Hshr]; · iexact Hshr
    isplitl [Htk3]; · iexact Htk3
    isplitl [Htk2]; · iexact Htk2
    isplitl [Htk1]; · iexact Htk1
    isplitl [Htk0]; · iexact Htk0
    iempintro
  isplitl [Hx' Hb' Hbufs]
  · isplitl [Hx']; · iexists _; iexact Hx'
    isplitl [Hb']; · iexists _; iexact Hb'
    iexact Hbufs
  isplitl [Hg0 Hg1 Hg2 Hg3 Hs0 Hs1 Hs2 Hs3 HcA HcB Hsems]
  · isplitl [Hg0]; · iexact Hg0
    isplitl [Hg1]; · iexact Hg1
    isplitl [Hg2]; · iexact Hg2
    isplitl [Hg3]; · iexact Hg3
    isplitl [Hs0]; · iexact Hs0
    isplitl [Hs1]; · iexact Hs1
    isplitl [Hs2]; · iexact Hs2
    isplitl [Hs3]; · iexact Hs3
    isplitl [HcA]; · iexact HcA
    isplitl [HcB]; · iexact HcB
    iexact Hsems
  iexists _; isplitr
  swap; · iexact HO
  ipureintro
  waits_ok

end Tile

end Cert.KI

end
-- ==== Proof.KI.Tile.lean ====
/-
  One tile's task, for every tile: tile 0 of its SparseCore or one of the other fifteen.
-/
import proofs.«216814_g8117488189630_cont_sun_m_833_27_alg».proof.Proof.KI.Tile0
import proofs.«216814_g8117488189630_cont_sun_m_833_27_alg».proof.Proof.KI.TileS

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x200x128 EltTy.i32)
local notation "tV" => (Memref.whole Cert.KernelIdeal.main_arg1_scv : Memref Cert.KernelIdeal.sig Kind.scVector Space.hbm Cert.KernelIdeal.S4x128 EltTy.f32)
local notation "oV" => (Memref.whole Cert.KernelIdeal.main_v1_scv : Memref Cert.KernelIdeal.sig Kind.scVector Space.hbm Cert.KernelIdeal.S32x200x128x128 EltTy.f32)
local notation "xV" => (Memref.whole Cert.KernelIdeal.cc0_scratch0 : Memref Cert.KernelIdeal.sig Kind.scVector Space.vmem Cert.KernelIdeal.S200x128 EltTy.i32)
local notation "bV" => (Memref.whole Cert.KernelIdeal.cc0_scratch1 : Memref Cert.KernelIdeal.sig Kind.scVector Space.vmem Cert.KernelIdeal.S4x128x128 EltTy.f32)
local notation "shV" => (Memref.whole Cert.KernelIdeal.cc0_scratch2 : Memref Cert.KernelIdeal.sig Kind.scVector Space.shared Cert.KernelIdeal.S4x128 EltTy.f32)

theorem tile_body [FloatOps F] (m : (ℓ : Loc nD τ sig) → Buf (Elt F) ℓ) (fI : (d : Dev nD) → IVec S32x200x128 32) (d : Dev nD) (L : grid0.Coords)
    (hF : (K (F := F)).Facts) (hidx : ∀ x, (fI d x).toNat < 4) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m fI d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_lookup L iV (Memref.isWhole_whole _) tV (Memref.isWhole_whole _) oV (Memref.isWhole_whole _) xV (Memref.isWhole_whole _)
            bV (Memref.isWhole_whole _) shV (Memref.isWhole_whole _) cc0_scratch3 cc0_scratch4 cc0_scoped0 cc0_scoped1)
          fun _ => iprop(tdRes m fI d (cV L) (jV L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rcases Nat.eq_zero_or_pos (L 1).val with hs0 | hs0
  · exact tile_body0 m d L fI hF hidx hs0 O W hO hOlev
  · exact tile_bodyS m d L fI hF hidx hs0 O W hO hOlev

end Cert.KI

end
-- ==== Proof.KB.Views.lean ====
/-
  The kernel's memref views read and written index by index. Each access of the lookup kernel goes through a whole
  buffer restricted to a unit-stride window and then squeezed (the window's unit axes dropped). Such a view places its
  index at the window's offsets followed by the index's own coordinates; so a write through it replaces exactly the
  elements of the window, and a read through it reads the buffer at the offset index. Last, the indirect gather's
  payload at an index is the source at the row its offset names, and the row an offset list names is the list's word.
-/
import proofs.«216814_g8117488189630_cont_sun_m_833_27_alg».proof.Proof.KB.Common
import Idealize.ShloMosaic.Lib.ValueLayout

noncomputable section

namespace Cert.KB

open Cert.Kernel Cert.Kernel.Gen
open Idealize.ShloMosaic
open Idealize.ShloMosaic.ValueIdx

variable {F : FTy → Type}

local notation "oV" => (Memref.whole Cert.Kernel.main_v1_scv : Memref Cert.Kernel.sig Kind.scVector Space.hbm Cert.Kernel.S32x200x128x128 EltTy.f32)
local notation "xV" => (Memref.whole Cert.Kernel.cc0_scratch0 : Memref Cert.Kernel.sig Kind.scVector Space.vmem Cert.Kernel.S200x128 EltTy.i32)
local notation "bV" => (Memref.whole Cert.Kernel.cc0_scratch1 : Memref Cert.Kernel.sig Kind.scVector Space.vmem Cert.Kernel.S4x128x128 EltTy.f32)
local notation "iV" => (Memref.whole Cert.Kernel.main_v0_scv : Memref Cert.Kernel.sig Kind.scVector Space.hbm Cert.Kernel.S32x200x128 EltTy.i32)
local notation "shV" => (Memref.whole Cert.Kernel.cc0_scratch2 : Memref Cert.Kernel.sig Kind.scVector Space.shared Cert.Kernel.S4x128 EltTy.f32)

/-! ## The result window -/

/-- Index (x, y) of the result's window at offsets `off`, squeezed to 128 × 128, sits at `off` plus (0, 0, x, y). -/
theorem oWin_emb (off : Fin 4 → ℕ) (hinb : ∀ a, off a + S1x1x128x128.size a ≤ S32x200x128x128.size a)
    (hs : ∀ a, (Rect.unit (s := S32x200x128x128) off S1x1x128x128.size hinb).stride a = 1)
    (y : S128x128.Idx) (a : Fin 4) :
    ((((oV).slice (Rect.unit (s := S32x200x128x128) off S1x1x128x128.size hinb) hs).squeeze S128x128
        squeezes_S1x1x128x128_S128x128).view.emb y a).val
      = off a + (ix4 (n2 := 128) (n3 := 128) (⟨0, Nat.one_pos⟩ : Fin 1) (⟨0, Nat.one_pos⟩ : Fin 1) (y 0) (y 1) a).val := by
  have hy : Shape.reshapeEquiv (squeezes_S1x1x128x128_S128x128).numel_eq y
      = ix4 (n2 := 128) (n3 := 128) (⟨0, Nat.one_pos⟩ : Fin 1) (⟨0, Nat.one_pos⟩ : Fin 1) (y 0) (y 1) := by
    conv_lhs => rw [eq_ix2 y]
    exact reshapeEquiv_ix2_11ab _ _ _
  show ((Rect.unit (s := S32x200x128x128) off S1x1x128x128.size hinb).emb
    (Shape.reshapeEquiv (squeezes_S1x1x128x128_S128x128).numel_eq y) a).val = _
  rw [hy]
  show off a + 1 * _ = _
  rw [Nat.one_mul]

/-- WRITE THROUGH A RESULT WINDOW. Writing a 128 × 128 block through the result's window at (w, c, 0, 0) replaces the
    elements (w, c, ·, ·) of the result by the block and leaves every other element as it was. -/
theorem write_oWin (off : Fin 4 → ℕ) (hinb : ∀ a, off a + S1x1x128x128.size a ≤ S32x200x128x128.size a)
    (hs : ∀ a, (Rect.unit (s := S32x200x128x128) off S1x1x128x128.size hinb).stride a = 1)
    (w c : ℕ) (hoff : off = ![w, c, 0, 0])
    (prev : (oV).view.ty.Contents (Elt F)) (pay : S128x128.Idx → Elt F .f32) (i : S32x200x128x128.Idx) :
    View.write (Elt F) (((oV).slice (Rect.unit (s := S32x200x128x128) off S1x1x128x128.size hinb) hs).squeeze S128x128
        squeezes_S1x1x128x128_S128x128).view prev pay Finset.univ i
      = if (i 0).val = w ∧ (i 1).val = c then pay (ix2 (i 2) (i 3)) else prev i := by
  subst hoff
  split
  · next h =>
    have hi : (((oV).slice (Rect.unit (s := S32x200x128x128) ![w, c, 0, 0] S1x1x128x128.size hinb) hs).squeeze S128x128
        squeezes_S1x1x128x128_S128x128).view.emb (ix2 (i 2) (i 3)) = i := by
      funext a; apply Fin.ext
      rw [oWin_emb]
      match a with
      | ⟨0, _⟩ => exact h.1.symm
      | ⟨1, _⟩ => exact h.2.symm
      | ⟨2, _⟩ => exact Nat.zero_add _
      | ⟨3, _⟩ => exact Nat.zero_add _
    conv_lhs => rw [← hi, View.write_emb_of_mem _ _ (Finset.mem_univ _)]
    rfl
  · next h =>
    refine View.write_of_not_mem _ _ _ fun hmem => h ?_
    obtain ⟨x, -, hx⟩ := Finset.mem_map.mp hmem
    subst hx
    exact ⟨by rw [oWin_emb]; rfl, by rw [oWin_emb]; rfl⟩

/-! ## The row buffers -/

/-- A window's in-bounds evidence at offsets (b, 0, 0) bounds b. -/
theorem slot_lt {b : ℕ} (h : ∀ a, (![b, 0, 0] : Fin 3 → ℕ) a + S1x128x128.size a ≤ S4x128x128.size a) : b < 4 := h 0

/-- Index (x, y) of the row buffers' window at offsets `off`, squeezed to 128 × 128, sits at `off` plus (0, x, y). -/
theorem bSlot_emb (off : Fin 3 → ℕ) (h : ∀ a, off a + S1x128x128.size a ≤ S4x128x128.size a)
    (hs : ∀ a, (Rect.unit (s := S4x128x128) off S1x128x128.size h).stride a = 1)
    (y : S128x128.Idx) (a : Fin 3) :
    ((((bV).slice (Rect.unit (s := S4x128x128) off S1x128x128.size h) hs).squeeze S128x128
        squeezes_S1x128x128_S128x128).view.emb y a).val
      = off a + (ix3 (n1 := 128) (n2 := 128) (⟨0, Nat.one_pos⟩ : Fin 1) (y 0) (y 1) a).val := by
  have hy : Shape.reshapeEquiv (squeezes_S1x128x128_S128x128).numel_eq y
      = ix3 (n1 := 128) (n2 := 128) (⟨0, Nat.one_pos⟩ : Fin 1) (y 0) (y 1) := by
    conv_lhs => rw [eq_ix2 y]
    exact reshapeEquiv_ix2_1ab _ _ _
  show ((Rect.unit (s := S4x128x128) off S1x128x128.size h).emb
    (Shape.reshapeEquiv (squeezes_S1x128x128_S128x128).numel_eq y) a).val = _
  rw [hy]
  show off a + 1 * _ = _
  rw [Nat.one_mul]

/-- Index (x, y) of row buffer b is element (b, x, y) of the buffers. -/
theorem bSlot_emb_eq (b : ℕ) (h : ∀ a, (![b, 0, 0] : Fin 3 → ℕ) a + S1x128x128.size a ≤ S4x128x128.size a)
    (hs : ∀ a, (Rect.unit (s := S4x128x128) ![b, 0, 0] S1x128x128.size h).stride a = 1) (y : S128x128.Idx) :
    (((bV).slice (Rect.unit (s := S4x128x128) ![b, 0, 0] S1x128x128.size h) hs).squeeze S128x128
        squeezes_S1x128x128_S128x128).view.emb y = ix3 (⟨b, slot_lt h⟩ : Fin 4) (y 0) (y 1) := by
  funext a; apply Fin.ext
  rw [bSlot_emb]
  match a with
  | ⟨0, _⟩ => exact Nat.add_zero _
  | ⟨1, _⟩ => exact Nat.zero_add _
  | ⟨2, _⟩ => exact Nat.zero_add _

/-- READ A ROW BUFFER. Row buffer b read at (x, y) is the buffers' element (b, x, y). -/
theorem read_bSlot (b : ℕ) (h : ∀ a, (![b, 0, 0] : Fin 3 → ℕ) a + S1x128x128.size a ≤ S4x128x128.size a)
    (hs : ∀ a, (Rect.unit (s := S4x128x128) ![b, 0, 0] S1x128x128.size h).stride a = 1)
    (f : (bV).view.ty.Contents (Elt F)) (y : S128x128.Idx) :
    View.read (Elt F) (((bV).slice (Rect.unit (s := S4x128x128) ![b, 0, 0] S1x128x128.size h) hs).squeeze S128x128
        squeezes_S1x128x128_S128x128).view f y = f (ix3 (⟨b, slot_lt h⟩ : Fin 4) (y 0) (y 1)) := by
  rw [View.read_apply, bSlot_emb_eq]
  rfl

/-- THE ROW BUFFERS ARE DISJOINT. A write through row buffer b' is not seen through another row buffer b. -/
theorem read_bSlot_write_bSlot_of_ne (b b' : ℕ) (hne : b ≠ b')
    (h : ∀ a, (![b, 0, 0] : Fin 3 → ℕ) a + S1x128x128.size a ≤ S4x128x128.size a)
    (hs : ∀ a, (Rect.unit (s := S4x128x128) ![b, 0, 0] S1x128x128.size h).stride a = 1)
    (h' : ∀ a, (![b', 0, 0] : Fin 3 → ℕ) a + S1x128x128.size a ≤ S4x128x128.size a)
    (hs' : ∀ a, (Rect.unit (s := S4x128x128) ![b', 0, 0] S1x128x128.size h').stride a = 1)
    (f : (bV).view.ty.Contents (Elt F)) (g : S128x128.Idx → Elt F .f32) (y : S128x128.Idx) :
    View.read (Elt F) (((bV).slice (Rect.unit (s := S4x128x128) ![b, 0, 0] S1x128x128.size h) hs).squeeze S128x128
        squeezes_S1x128x128_S128x128).view
      (View.write (Elt F) (((bV).slice (Rect.unit (s := S4x128x128) ![b', 0, 0] S1x128x128.size h') hs').squeeze S128x128
        squeezes_S1x128x128_S128x128).view f g Finset.univ) y
      = View.read (Elt F) (((bV).slice (Rect.unit (s := S4x128x128) ![b, 0, 0] S1x128x128.size h) hs).squeeze S128x128
        squeezes_S1x128x128_S128x128).view f y := by
  refine View.read_congr_at y (View.write_of_not_mem _ _ _ fun hmem => hne ?_)
  obtain ⟨x, -, hx⟩ := Finset.mem_map.mp hmem
  have h0 := congrArg (fun i : S4x128x128.Idx => (i 0).val) hx
  rw [bSlot_emb_eq, bSlot_emb_eq] at h0
  exact h0.symm

/-! ## The indirect gather -/

/-- THE GATHER'S PAYLOAD AT AN INDEX. The payload of a gather of 128 rows of the 4 × 128 table is, at (k, x), the table
    at (the row named for k, x). -/
theorem gatherPayload_apply (hg : S4x128.Gathers 0 S128x128) (g : S4x128.Idx → Elt F .f32)
    (r : Fin (S128x128.size hg.axis') → Fin (S4x128.size hg.axis)) (y : S128x128.Idx) :
    SparseCore.gatherPayload hg g r y = g (ix2 (n0 := 4) (n1 := 128) (r (y 0)) (y 1)) := by
  unfold SparseCore.gatherPayload
  refine congrArg g (funext fun b => Fin.ext ?_)
  match b with
  | ⟨0, _⟩ => exact congrArg Fin.val (Shape.Gathers.idx_axis hg r y)
  | ⟨1, _⟩ => exact Shape.Gathers.idx_of_ne hg r y ⟨1, by decide⟩ (by decide)

/-- An offset list of 128 words has as many entries as it is said to have. -/
theorem offs_lt {o : ℕ} (hn : S128.numel = o) (k : Fin o) : k.val < 128 := by
  exact k.isLt.trans_eq (hn.symm.trans (Shape.numel_rank1 _))

/-- THE ROW AN OFFSET LIST NAMES. Entry k of a list of 128 words names the row its k-th word spells. -/
theorem rows_val {o z : ℕ} (idx : S128.Idx → Elt F .i32) (hn : S128.numel = o) (hlt : ∀ x, (idx x).toNat < z) (k : Fin o) :
    (SparseCore.rows idx hn hlt k).val = (idx (ix1 (⟨k.val, offs_lt hn k⟩ : Fin 128))).toNat := by
  unfold SparseCore.rows
  have hk : S128.rowMajor.symm (k.cast hn.symm) = ix1 (⟨k.val, offs_lt hn k⟩ : Fin 128) := by
    rw [Equiv.symm_apply_eq]
    apply Fin.ext
    rw [Shape.rowMajor_val_one]
    rfl
  show (idx (S128.rowMajor.symm (k.cast hn.symm))).toNat = _
  rw [hk]

/-! ## The index rows -/

/-- An index x matched with shape [1, a] is (0, x). -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

/-- A window's in-bounds evidence at offsets (c, 0) bounds c. -/
theorem xRow_lt {r : Fin 2 → ℕ} {c : ℕ} (hr : r = ![c, 0]) (h : ∀ a, r a + S1x128.size a ≤ S200x128.size a) : c < 200 := by
  subst hr; exact h 0

/-- Index x of the index buffer's window at offsets `r`, squeezed to 128, sits at `r` plus (0, x). -/
theorem xRow_emb (r : Fin 2 → ℕ) (h : ∀ a, r a + S1x128.size a ≤ S200x128.size a)
    (hs : ∀ a, (Rect.unit (s := S200x128) r S1x128.size h).stride a = 1) (y : S128.Idx) (a : Fin 2) :
    ((((xV).slice (Rect.unit (s := S200x128) r S1x128.size h) hs).squeeze S128 squeezes_S1x128_S128).view.emb y a).val
      = r a + (ix2 (n1 := 128) (⟨0, Nat.one_pos⟩ : Fin 1) (y 0) a).val := by
  have hy : Shape.reshapeEquiv (squeezes_S1x128_S128).numel_eq y = ix2 (n1 := 128) (⟨0, Nat.one_pos⟩ : Fin 1) (y 0) := by
    conv_lhs => rw [eq_ix1 y]
    exact reshapeEquiv_ix1_1a _ _
  show ((Rect.unit (s := S200x128) r S1x128.size h).emb (Shape.reshapeEquiv (squeezes_S1x128_S128).numel_eq y) a).val = _
  rw [hy]
  show r a + 1 * _ = _
  rw [Nat.one_mul]

/-- READ AN INDEX ROW. Row c of the index buffer read at x is the buffer's element (c, x). -/
theorem read_xRow (c : ℕ) (r : Fin 2 → ℕ) (hr : r = ![c, 0]) (h : ∀ a, r a + S1x128.size a ≤ S200x128.size a)
    (hs : ∀ a, (Rect.unit (s := S200x128) r S1x128.size h).stride a = 1)
    (f : (xV).view.ty.Contents (Elt F)) (y : S128.Idx) :
    View.read (Elt F) (((xV).slice (Rect.unit (s := S200x128) r S1x128.size h) hs).squeeze S128 squeezes_S1x128_S128).view f y
      = f (ix2 (⟨c, xRow_lt hr h⟩ : Fin 200) (y 0)) := by
  have he : (((xV).slice (Rect.unit (s := S200x128) r S1x128.size h) hs).squeeze S128 squeezes_S1x128_S128).view.emb y
      = ix2 (⟨c, xRow_lt hr h⟩ : Fin 200) (y 0) := by
    funext a; apply Fin.ext
    rw [xRow_emb]
    subst hr
    match a with
    | ⟨0, _⟩ => exact Nat.add_zero _
    | ⟨1, _⟩ => exact Nat.zero_add _
  rw [View.read_apply, he]
  rfl

/-! ## The tile's stretch of the index array -/

/-- Tile (c, s)'s stretch 2 s + c is one of the 32. -/
theorem stretch_lt (L : grid0.Coords) (h : ∀ a, (k0_off1 L) a + S1x200x128.size a ≤ S32x200x128.size a) :
    2 * (L 1).val + (L 0).val < 32 := by
  have h0 := h 0
  rw [k0_off1_eq L] at h0
  exact h0

/-- Index (x, y) of the index array's window at offsets `off`, squeezed to 200 × 128, sits at `off` plus (0, x, y). -/
theorem iStretch_emb (off : Fin 3 → ℕ) (h : ∀ a, off a + S1x200x128.size a ≤ S32x200x128.size a)
    (hs : ∀ a, (Rect.unit (s := S32x200x128) off S1x200x128.size h).stride a = 1)
    (y : S200x128.Idx) (a : Fin 3) :
    ((((iV).slice (Rect.unit (s := S32x200x128) off S1x200x128.size h) hs).squeeze S200x128
        squeezes_S1x200x128_S200x128).view.emb y a).val
      = off a + (ix3 (n1 := 200) (n2 := 128) (⟨0, Nat.one_pos⟩ : Fin 1) (y 0) (y 1) a).val := by
  have hy : Shape.reshapeEquiv (squeezes_S1x200x128_S200x128).numel_eq y
      = ix3 (n1 := 200) (n2 := 128) (⟨0, Nat.one_pos⟩ : Fin 1) (y 0) (y 1) := by
    conv_lhs => rw [eq_ix2 y]
    exact reshapeEquiv_ix2_1ab _ _ _
  show ((Rect.unit (s := S32x200x128) off S1x200x128.size h).emb
    (Shape.reshapeEquiv (squeezes_S1x200x128_S200x128).numel_eq y) a).val = _
  rw [hy]
  show off a + 1 * _ = _
  rw [Nat.one_mul]

/-- A window's in-bounds evidence at offsets (w, 0, 0) bounds w. -/
theorem iWin_lt {off : Fin 3 → ℕ} {w : ℕ} (hoff : off = ![w, 0, 0])
    (h : ∀ a, off a + S1x200x128.size a ≤ S32x200x128.size a) : w < 32 := by
  subst hoff; exact h 0

/-- The index array's window at offsets (w, 0, 0), squeezed to 200 × 128, read at (x, y) is the array's element
    (w, x, y). -/
theorem read_iWin (off : Fin 3 → ℕ) (w : ℕ) (hoff : off = ![w, 0, 0])
    (h : ∀ a, off a + S1x200x128.size a ≤ S32x200x128.size a)
    (hs : ∀ a, (Rect.unit (s := S32x200x128) off S1x200x128.size h).stride a = 1)
    (f : (iV).view.ty.Contents (Elt F)) (y : S200x128.Idx) :
    View.read (Elt F) (((iV).slice (Rect.unit (s := S32x200x128) off S1x200x128.size h) hs).squeeze S200x128
        squeezes_S1x200x128_S200x128).view f y = f (ix3 (⟨w, iWin_lt hoff h⟩ : Fin 32) (y 0) (y 1)) := by
  have he : (((iV).slice (Rect.unit (s := S32x200x128) off S1x200x128.size h) hs).squeeze S200x128
        squeezes_S1x200x128_S200x128).view.emb y = ix3 (⟨w, iWin_lt hoff h⟩ : Fin 32) (y 0) (y 1) := by
    funext a; apply Fin.ext
    rw [iStretch_emb]
    subst hoff
    match a with
    | ⟨0, _⟩ => exact Nat.add_zero _
    | ⟨1, _⟩ => exact Nat.zero_add _
    | ⟨2, _⟩ => exact Nat.zero_add _
  rw [View.read_apply, he]
  rfl

/-- READ THE TILE'S INDEX STRETCH. Tile (c, s)'s window of the index array read at (x, y) is the array's element
    (2 s + c, x, y). -/
theorem read_iStretch (L : grid0.Coords) (h : ∀ a, (k0_off1 L) a + S1x200x128.size a ≤ S32x200x128.size a)
    (hs : ∀ a, (Rect.unit (s := S32x200x128) (k0_off1 L) S1x200x128.size h).stride a = 1)
    (f : (iV).view.ty.Contents (Elt F)) (y : S200x128.Idx) :
    View.read (Elt F) (((iV).slice (Rect.unit (s := S32x200x128) (k0_off1 L) S1x200x128.size h) hs).squeeze S200x128
        squeezes_S1x200x128_S200x128).view f y
      = f (ix3 (⟨2 * (L 1).val + (L 0).val, stretch_lt L h⟩ : Fin 32) (y 0) (y 1)) := by
  exact read_iWin (k0_off1 L) _ (k0_off1_eq L) h hs f y

/-! ## The shared table's whole-extent window, and a whole write of the index buffer -/

/-- THE WHOLE-EXTENT SLICE. The shared table read through its window of every element is the table. -/
theorem read_shWhole (h : ∀ a, (![0, 0] : Fin 2 → ℕ) a + S4x128.size a ≤ S4x128.size a)
    (hs : ∀ a, (Rect.unit (s := S4x128) ![0, 0] S4x128.size h).stride a = 1)
    (f : (shV).view.ty.Contents (Elt F)) (y : S4x128.Idx) :
    View.read (Elt F) ((shV).slice (Rect.unit (s := S4x128) ![0, 0] S4x128.size h) hs).view f y = f y := by
  have he : ((shV).slice (Rect.unit (s := S4x128) ![0, 0] S4x128.size h) hs).view.emb y = y := by
    funext a; apply Fin.ext
    show (![0, 0] : Fin 2 → ℕ) a + 1 * (y a).val = (y a).val
    rw [Nat.one_mul]
    match a with
    | ⟨0, _⟩ => exact Nat.zero_add _
    | ⟨1, _⟩ => exact Nat.zero_add _
  rw [View.read_apply, he]
  rfl

/-- THE WHOLE WRITE. Writing the index buffer whole replaces its contents. -/
theorem write_xWhole (f p : (xV).view.ty.Contents (Elt F)) : View.write (Elt F) (xV).view f p Finset.univ = p :=
  View.write_whole_univ _ f p

end Cert.KB

end
-- ==== Proof.KB.Value.lean ====
/-
  What the lookup kernel's tile leaves in the result array, as pure facts about its views. The symbolic run of one tile ends with
  the result array as a chain of two hundred window writes, one 128 × 128 block per chunk; the facts here close that chain:
  after the first c writes every row (w, k, ·, ·) with k < c holds the target, a further write of the target's block c extends this
  to c + 1, and after two hundred the whole stretch w holds it. The block written for chunk c is the gather's payload: the table
  row each of the chunk's 128 index entries names, which is the target's block (the entries are below 4, so reading them modulo 4
  changes nothing). And what is copied out of a row buffer is the latest gather into that buffer: a gather into another buffer
  in between is not seen.
-/
import proofs.«216814_g8117488189630_cont_sun_m_833_27_alg».proof.Proof.KB.Views

noncomputable section

namespace Cert.KB

open Cert.Kernel Cert.Kernel.Gen
open Idealize.ShloMosaic
open Idealize.ShloMosaic.ValueIdx

variable {F : FTy → Type}

local notation "oV" => (Memref.whole Cert.Kernel.main_v1_scv : Memref Cert.Kernel.sig Kind.scVector Space.hbm Cert.Kernel.S32x200x128x128 EltTy.f32)
local notation "xV" => (Memref.whole Cert.Kernel.cc0_scratch0 : Memref Cert.Kernel.sig Kind.scVector Space.vmem Cert.Kernel.S200x128 EltTy.i32)
local notation "bV" => (Memref.whole Cert.Kernel.cc0_scratch1 : Memref Cert.Kernel.sig Kind.scVector Space.vmem Cert.Kernel.S4x128x128 EltTy.f32)
local notation "iV" => (Memref.whole Cert.Kernel.main_v0_scv : Memref Cert.Kernel.sig Kind.scVector Space.hbm Cert.Kernel.S32x200x128 EltTy.i32)
local notation "shV" => (Memref.whole Cert.Kernel.cc0_scratch2 : Memref Cert.Kernel.sig Kind.scVector Space.shared Cert.Kernel.S4x128 EltTy.f32)

/-! ## The chain of window writes -/

/-- Rows (w, k, ·, ·) with k < c of `prev` hold the target `T`. -/
def DoneBelow (w : ℕ) (T prev : S32x200x128x128.Idx → Elt F .f32) (c : ℕ) : Prop :=
  ∀ i, (i 0).val = w → (i 1).val < c → prev i = T i

/-- Nothing is asked below chunk 0. -/
theorem doneBelow_zero (w : ℕ) (T prev : S32x200x128x128.Idx → Elt F .f32) : DoneBelow w T prev 0 :=
  fun _ _ h => absurd h (Nat.not_lt_zero _)

/-- Writing the target's block c through the window at (w, c, 0, 0) extends the done rows from c to c + 1. -/
theorem doneBelow_step {w c : ℕ} {T prev : S32x200x128x128.Idx → Elt F .f32} {off : Fin 4 → ℕ}
    {hinb : ∀ a, off a + S1x1x128x128.size a ≤ S32x200x128x128.size a}
    {hs : ∀ a, (Rect.unit (s := S32x200x128x128) off S1x1x128x128.size hinb).stride a = 1}
    {pay : S128x128.Idx → Elt F .f32} (hw : w < 32) (hc : c < 200) (hoff : off = ![w, c, 0, 0])
    (hprev : DoneBelow w T prev c)
    (hpay : ∀ y : S128x128.Idx, pay y = T (ix4 (⟨w, hw⟩ : Fin 32) (⟨c, hc⟩ : Fin 200) (y 0) (y 1))) :
    DoneBelow w T (View.write (Elt F) (((oV).slice (Rect.unit (s := S32x200x128x128) off S1x1x128x128.size hinb) hs).squeeze S128x128
        squeezes_S1x1x128x128_S128x128).view prev pay Finset.univ) (c + 1) := by
  intro i h0 h1
  rw [write_oWin off hinb hs w c hoff prev pay i]
  split
  · next h =>
    rw [hpay]
    refine congrArg T (funext fun a => Fin.ext ?_)
    match a with
    | ⟨0, _⟩ => exact h.1.symm
    | ⟨1, _⟩ => exact h.2.symm
    | ⟨2, _⟩ => rfl
    | ⟨3, _⟩ => rfl
  · next h =>
    refine hprev i h0 ?_
    have h2 : (i 1).val ≠ c := fun e => h ⟨h0, e⟩
    omega

/-- With all two hundred chunks done, every element of stretch w holds the target. -/
theorem done_all {w : ℕ} {T X : S32x200x128x128.Idx → Elt F .f32} (off : Fin 4 → ℕ) (hoff : off = ![w, 0, 0, 0])
    (hinb : ∀ a, off a + (![1, 200, 128, 128] : Fin 4 → ℕ) a ≤ S32x200x128x128.size a) (h : DoneBelow w T X 200) :
    ∀ i ∈ (oV).view.setOn (Rect.unit (s := S32x200x128x128) off ![1, 200, 128, 128] hinb).set, X i = T i := by
  intro i hi
  obtain ⟨x, hx, rfl⟩ := Finset.mem_map.mp hi
  subst hoff
  have hm := Rect.mem_set_unit.mp hx
  have h0 := hm 0
  have h1 := hm 1
  refine h _ ?_ ?_
  · show (x 0).val = w
    have e : (![w, 0, 0, 0] : Fin 4 → ℕ) 0 = w := rfl
    have e1 : (![1, 200, 128, 128] : Fin 4 → ℕ) 0 = 1 := rfl
    rw [e, e1] at h0
    omega
  · show (x 1).val < 200
    have e : (![w, 0, 0, 0] : Fin 4 → ℕ) 1 = 0 := rfl
    have e1 : (![1, 200, 128, 128] : Fin 4 → ℕ) 1 = 200 := rfl
    rw [e, e1] at h1
    omega

/-! ## The copy-out reads the latest gather of its row buffer -/

/-- What is read back through a row buffer right after a gather into it is the gather's payload. -/
theorem pay_hit (b : ℕ) (hk : ∀ a, (![b, 0, 0] : Fin 3 → ℕ) a + S1x128x128.size a ≤ S4x128x128.size a)
    (hsk : ∀ a, (Rect.unit (s := S4x128x128) ![b, 0, 0] S1x128x128.size hk).stride a = 1)
    (prev : (bV).view.ty.Contents (Elt F)) (g : S128x128.Idx → Elt F .f32) :
    ReadAs.same.apply (View.read (Elt F) (((bV).slice (Rect.unit (s := S4x128x128) ![b, 0, 0] S1x128x128.size hk) hsk).squeeze S128x128
        squeezes_S1x128x128_S128x128).view
      (View.write (Elt F) (((bV).slice (Rect.unit (s := S4x128x128) ![b, 0, 0] S1x128x128.size hk) hsk).squeeze S128x128
        squeezes_S1x128x128_S128x128).view prev g Finset.univ)) = g :=
  View.read_write_univ _ _

/-- A gather into another row buffer in between is not seen. -/
theorem pay_skip (b b' : ℕ) (hne : b ≠ b')
    (hk : ∀ a, (![b, 0, 0] : Fin 3 → ℕ) a + S1x128x128.size a ≤ S4x128x128.size a)
    (hsk : ∀ a, (Rect.unit (s := S4x128x128) ![b, 0, 0] S1x128x128.size hk).stride a = 1)
    (hk' : ∀ a, (![b', 0, 0] : Fin 3 → ℕ) a + S1x128x128.size a ≤ S4x128x128.size a)
    (hsk' : ∀ a, (Rect.unit (s := S4x128x128) ![b', 0, 0] S1x128x128.size hk').stride a = 1)
    (hk2 : ∀ a, (![b, 0, 0] : Fin 3 → ℕ) a + S1x128x128.size a ≤ S4x128x128.size a)
    (hsk2 : ∀ a, (Rect.unit (s := S4x128x128) ![b, 0, 0] S1x128x128.size hk2).stride a = 1)
    (prev : (bV).view.ty.Contents (Elt F)) (g g' : S128x128.Idx → Elt F .f32) :
    ReadAs.same.apply (View.read (Elt F) (((bV).slice (Rect.unit (s := S4x128x128) ![b, 0, 0] S1x128x128.size hk) hsk).squeeze S128x128
        squeezes_S1x128x128_S128x128).view
      (View.write (Elt F) (((bV).slice (Rect.unit (s := S4x128x128) ![b', 0, 0] S1x128x128.size hk') hsk').squeeze S128x128
        squeezes_S1x128x128_S128x128).view
        (View.write (Elt F) (((bV).slice (Rect.unit (s := S4x128x128) ![b, 0, 0] S1x128x128.size hk2) hsk2).squeeze S128x128
          squeezes_S1x128x128_S128x128).view prev g Finset.univ) g' Finset.univ)) = g := by
  funext y
  show View.read (Elt F) _ _ y = g y
  rw [read_bSlot_write_bSlot_of_ne b b' hne hk hsk hk' hsk']
  exact congrFun (View.read_write_univ (v := (((bV).slice (Rect.unit (s := S4x128x128) ![b, 0, 0] S1x128x128.size hk) hsk).squeeze S128x128
        squeezes_S1x128x128_S128x128).view) prev g) y

/-! ## The gathered rows are the target -/

/-- THE GATHERED ROWS ARE THE TARGET. The gather's payload for chunk c of the tile's stretch w = 2 L₁ + L₀ — the shared table's rows
    at the words of index row c, the index rows being the stretch as copied in — is the target's block (w, c): the word at r is the
    stretch's entry (w, c, r), it is below 4, and row (w, c, r) of the target is the table row that entry names. -/
theorem gathered_eq_Gout (fI : IVec S32x200x128 32) (hlt : ∀ x, (fI x).toNat < 4) (ft : S4x128.Idx → Elt F .f32)
    (L : grid0.Coords) (c : ℕ) (hc : c < 200) (fx : (xV).view.ty.Contents (Elt F))
    (h : ∀ a, (![c, 0] : Fin 2 → ℕ) a + S1x128.size a ≤ S200x128.size a)
    (hs : ∀ a, (Rect.unit (s := S200x128) ![c, 0] S1x128.size h).stride a = 1)
    (h' : ∀ a, (![0, 0] : Fin 2 → ℕ) a + S4x128.size a ≤ S4x128.size a)
    (hs' : ∀ a, (Rect.unit (s := S4x128) ![0, 0] S4x128.size h').stride a = 1)
    (hn : S128.numel = S128x128.size gathers_S4x128_S128x128.axis')
    (hin : ∀ x, (View.read (Elt F) (((xV).slice (Rect.unit (s := S200x128) ![c, 0] S1x128.size h) hs).squeeze S128 squeezes_S1x128_S128).view
        (View.write (Elt F) (xV).view fx
          (ReadAs.same.apply (View.read (Elt F) (((iV).slice (Rect.unit (s := S32x200x128) (k0_off1 L) S1x200x128.size (k0_off1_inb L)) (fun _ => rfl)).squeeze S200x128
            squeezes_S1x200x128_S200x128).view fI)) Finset.univ) x).toNat < S4x128.size gathers_S4x128_S128x128.axis)
    (y : S128x128.Idx) :
    SparseCore.gatherPayload gathers_S4x128_S128x128
        (View.read (Elt F) ((shV).slice (Rect.unit (s := S4x128) ![0, 0] S4x128.size h') hs').view ft)
        (SparseCore.rows (View.read (Elt F) (((xV).slice (Rect.unit (s := S200x128) ![c, 0] S1x128.size h) hs).squeeze S128 squeezes_S1x128_S128).view
          (View.write (Elt F) (xV).view fx
            (ReadAs.same.apply (View.read (Elt F) (((iV).slice (Rect.unit (s := S32x200x128) (k0_off1 L) S1x200x128.size (k0_off1_inb L)) (fun _ => rfl)).squeeze S200x128
              squeezes_S1x200x128_S200x128).view fI)) Finset.univ)) hn hin) y
      = Gout fI ft (ix4 (⟨2 * (L 1).val + (L 0).val, stretch_lt L (k0_off1_inb L)⟩ : Fin 32) (⟨c, hc⟩ : Fin 200) (y 0) (y 1)) := by
  rw [gatherPayload_apply, read_shWhole]
  unfold Gout
  refine congrArg (fun r : Fin 4 => ft (ix2 r (y 1))) (Fin.ext ?_)
  rw [rows_val, read_xRow c ![c, 0] rfl h hs, write_xWhole]
  have e := read_iStretch (F := F) L (k0_off1_inb L) (fun _ => rfl) fI
    (ix2 (⟨c, xRow_lt rfl h⟩ : Fin 200) ((ix1 (⟨(y 0).val, offs_lt hn (y 0)⟩ : Fin 128)) 0))
  refine (congrArg (fun v : BitVec 32 => v.toNat) e).trans ?_
  exact (Nat.mod_eq_of_lt (hlt _)).symm

end Cert.KB

end
-- ==== Proof.KB.TilePre.lean ====
/-
  One tile's task, the vocabulary: the views the task addresses its stretches, row buffers and semaphores through, the
  tile's own semaphores and scratch buffers out of what the launch deals it, what crosses the barrier (tile 0 hands each
  tile its sixteenth of the shared table), the read tokens the four gather semaphores take of that sixteenth, and the
  two closing arguments of the run: every wait the task records is at the kernel's own index, and the result's stretch,
  left as a chain of two hundred window writes, holds the looked-up rows (by recursion on the chain).
-/
import proofs.«216814_g8117488189630_cont_sun_m_833_27_alg».proof.Proof.KB.Common
import proofs.«216814_g8117488189630_cont_sun_m_833_27_alg».proof.Proof.KB.Value

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x200x128 EltTy.i32)
local notation "tV" => (Memref.whole Cert.Kernel.main_arg1_scv : Memref Cert.Kernel.sig Kind.scVector Space.hbm Cert.Kernel.S4x128 EltTy.f32)
local notation "oV" => (Memref.whole Cert.Kernel.main_v1_scv : Memref Cert.Kernel.sig Kind.scVector Space.hbm Cert.Kernel.S32x200x128x128 EltTy.f32)
local notation "xV" => (Memref.whole Cert.Kernel.cc0_scratch0 : Memref Cert.Kernel.sig Kind.scVector Space.vmem Cert.Kernel.S200x128 EltTy.i32)
local notation "bV" => (Memref.whole Cert.Kernel.cc0_scratch1 : Memref Cert.Kernel.sig Kind.scVector Space.vmem Cert.Kernel.S4x128x128 EltTy.f32)
local notation "shV" => (Memref.whole Cert.Kernel.cc0_scratch2 : Memref Cert.Kernel.sig Kind.scVector Space.shared Cert.Kernel.S4x128 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

/-- The gathers' and the copies-out's semaphores, one per row buffer, as the task names them. -/
abbrev gsemK : Fin 4 → DmaSems sig S_
  | 0 => (cc0_scratch3.slice (Rect.unit (s := S4) ![0] S1.size inb_S4_S1_0)).squeeze S_ squeezes_S1_S_
  | 1 => (cc0_scratch3.slice (Rect.unit (s := S4) ![1] S1.size inb_S4_S1_1)).squeeze S_ squeezes_S1_S_
  | 2 => (cc0_scratch3.slice (Rect.unit (s := S4) ![2] S1.size inb_S4_S1_2)).squeeze S_ squeezes_S1_S_
  | 3 => (cc0_scratch3.slice (Rect.unit (s := S4) ![3] S1.size inb_S4_S1_3)).squeeze S_ squeezes_S1_S_
abbrev ssemK : Fin 4 → DmaSems sig S_
  | 0 => (cc0_scratch4.slice (Rect.unit (s := S4) ![0] S1.size inb_S4_S1_0)).squeeze S_ squeezes_S1_S_
  | 1 => (cc0_scratch4.slice (Rect.unit (s := S4) ![1] S1.size inb_S4_S1_1)).squeeze S_ squeezes_S1_S_
  | 2 => (cc0_scratch4.slice (Rect.unit (s := S4) ![2] S1.size inb_S4_S1_2)).squeeze S_ squeezes_S1_S_
  | 3 => (cc0_scratch4.slice (Rect.unit (s := S4) ![3] S1.size inb_S4_S1_3)).squeeze S_ squeezes_S1_S_

/-- The tile's stretch of the index array, squeezed, as the task addresses it. -/
abbrev iRowK (L : grid0.Coords) : Rect S32x200x128 := Rect.unit (s := S32x200x128) (k0_off1 L) S1x200x128.size (k0_off1_inb L)
abbrev iRowM (L : grid0.Coords) : Memref sig .scVector .hbm S200x128 .i32 := ((iV).slice (iRowK L) (fun _ => rfl)).squeeze S200x128 squeezes_S1x200x128_S200x128

/-- The tile's stretch of the result as one rectangle over the tile's coordinates. -/
def offT (L : grid0.Coords) : Fin 4 → Nat := ![2 * (L 1).val + (L 0).val, 0, 0, 0]
instance closedOff_offT (L : grid0.Coords) : ClosedOff (offT L) := ⟨![2 * (L 1).val + (L 0).val, 0, 0, 0], rfl⟩
abbrev S1x200x128x128 : Shape := ⟨4, ![1, 200, 128, 128]⟩
theorem offT_inb : ∀ L : grid0.Coords, ∀ a, (offT L) a + S1x200x128x128.size a ≤ S32x200x128x128.size a := by decide +kernel
abbrev oTR (L : grid0.Coords) : Rect S32x200x128x128 := Rect.unit (s := S32x200x128x128) (offT L) S1x200x128x128.size (offT_inb L)

abbrev thr (d : Dev nD) (L : grid0.Coords) : Thread nD τ := V d (cV L) (jV L)

abbrev g0cell (d : Dev nD) (c : Fin τ.nSC) (i : Fin τ.nSub) : GSem nD τ sig := (V d c i, .dma (gsemK 0).sem)
abbrev g1cell (d : Dev nD) (c : Fin τ.nSC) (i : Fin τ.nSub) : GSem nD τ sig := (V d c i, .dma (gsemK 1).sem)
abbrev g2cell (d : Dev nD) (c : Fin τ.nSC) (i : Fin τ.nSub) : GSem nD τ sig := (V d c i, .dma (gsemK 2).sem)
abbrev g3cell (d : Dev nD) (c : Fin τ.nSC) (i : Fin τ.nSub) : GSem nD τ sig := (V d c i, .dma (gsemK 3).sem)
abbrev s0cell (d : Dev nD) (c : Fin τ.nSC) (i : Fin τ.nSub) : GSem nD τ sig := (V d c i, .dma (ssemK 0).sem)
abbrev s1cell (d : Dev nD) (c : Fin τ.nSC) (i : Fin τ.nSub) : GSem nD τ sig := (V d c i, .dma (ssemK 1).sem)
abbrev s2cell (d : Dev nD) (c : Fin τ.nSC) (i : Fin τ.nSub) : GSem nD τ sig := (V d c i, .dma (ssemK 2).sem)
abbrev s3cell (d : Dev nD) (c : Fin τ.nSC) (i : Fin τ.nSub) : GSem nD τ sig := (V d c i, .dma (ssemK 3).sem)
abbrev cAcell (d : Dev nD) (c : Fin τ.nSC) (i : Fin τ.nSub) : GSem nD τ sig := (V d c i, .dma (cc0_scoped0).sem)
abbrev cBcell (d : Dev nD) (c : Fin τ.nSC) (i : Fin τ.nSub) : GSem nD τ sig := (V d c i, .dma (cc0_scoped1).sem)

theorem cell_ne_g1_g0 : g1cell d (cV L) (jV L) ≠ g0cell d (cV L) (jV L) := fun e => absurd (SemLoc.dma.inj (Prod.mk.inj e).2) (by decide)
theorem cell_ne_g2_g0 : g2cell d (cV L) (jV L) ≠ g0cell d (cV L) (jV L) := fun e => absurd (SemLoc.dma.inj (Prod.mk.inj e).2) (by decide)
theorem cell_ne_g2_g1 : g2cell d (cV L) (jV L) ≠ g1cell d (cV L) (jV L) := fun e => absurd (SemLoc.dma.inj (Prod.mk.inj e).2) (by decide)
theorem cell_ne_g3_g0 : g3cell d (cV L) (jV L) ≠ g0cell d (cV L) (jV L) := fun e => absurd (SemLoc.dma.inj (Prod.mk.inj e).2) (by decide)
theorem cell_ne_g3_g1 : g3cell d (cV L) (jV L) ≠ g1cell d (cV L) (jV L) := fun e => absurd (SemLoc.dma.inj (Prod.mk.inj e).2) (by decide)
theorem cell_ne_g3_g2 : g3cell d (cV L) (jV L) ≠ g2cell d (cV L) (jV L) := fun e => absurd (SemLoc.dma.inj (Prod.mk.inj e).2) (by decide)
theorem cell_ne_s0_g0 : s0cell d (cV L) (jV L) ≠ g0cell d (cV L) (jV L) := fun e => absurd (SemLoc.dma.inj (Prod.mk.inj e).2) (by decide)
theorem cell_ne_s0_g1 : s0cell d (cV L) (jV L) ≠ g1cell d (cV L) (jV L) := fun e => absurd (SemLoc.dma.inj (Prod.mk.inj e).2) (by decide)
theorem cell_ne_s0_g2 : s0cell d (cV L) (jV L) ≠ g2cell d (cV L) (jV L) := fun e => absurd (SemLoc.dma.inj (Prod.mk.inj e).2) (by decide)
theorem cell_ne_s0_g3 : s0cell d (cV L) (jV L) ≠ g3cell d (cV L) (jV L) := fun e => absurd (SemLoc.dma.inj (Prod.mk.inj e).2) (by decide)
theorem cell_ne_s1_g0 : s1cell d (cV L) (jV L) ≠ g0cell d (cV L) (jV L) := fun e => absurd (SemLoc.dma.inj (Prod.mk.inj e).2) (by decide)
theorem cell_ne_s1_g1 : s1cell d (cV L) (jV L) ≠ g1cell d (cV L) (jV L) := fun e => absurd (SemLoc.dma.inj (Prod.mk.inj e).2) (by decide)
theorem cell_ne_s1_g2 : s1cell d (cV L) (jV L) ≠ g2cell d (cV L) (jV L) := fun e => absurd (SemLoc.dma.inj (Prod.mk.inj e).2) (by decide)
theorem cell_ne_s1_g3 : s1cell d (cV L) (jV L) ≠ g3cell d (cV L) (jV L) := fun e => absurd (SemLoc.dma.inj (Prod.mk.inj e).2) (by decide)
theorem cell_ne_s1_s0 : s1cell d (cV L) (jV L) ≠ s0cell d (cV L) (jV L) := fun e => absurd (SemLoc.dma.inj (Prod.mk.inj e).2) (by decide)
theorem cell_ne_s2_g0 : s2cell d (cV L) (jV L) ≠ g0cell d (cV L) (jV L) := fun e => absurd (SemLoc.dma.inj (Prod.mk.inj e).2) (by decide)
theorem cell_ne_s2_g1 : s2cell d (cV L) (jV L) ≠ g1cell d (cV L) (jV L) := fun e => absurd (SemLoc.dma.inj (Prod.mk.inj e).2) (by decide)
theorem cell_ne_s2_g2 : s2cell d (cV L) (jV L) ≠ g2cell d (cV L) (jV L) := fun e => absurd (SemLoc.dma.inj (Prod.mk.inj e).2) (by decide)
theorem cell_ne_s2_g3 : s2cell d (cV L) (jV L) ≠ g3cell d (cV L) (jV L) := fun e => absurd (SemLoc.dma.inj (Prod.mk.inj e).2) (by decide)
theorem cell_ne_s2_s0 : s2cell d (cV L) (jV L) ≠ s0cell d (cV L) (jV L) := fun e => absurd (SemLoc.dma.inj (Prod.mk.inj e).2) (by decide)
theorem cell_ne_s2_s1 : s2cell d (cV L) (jV L) ≠ s1cell d (cV L) (jV L) := fun e => absurd (SemLoc.dma.inj (Prod.mk.inj e).2) (by decide)
theorem cell_ne_s3_g0 : s3cell d (cV L) (jV L) ≠ g0cell d (cV L) (jV L) := fun e => absurd (SemLoc.dma.inj (Prod.mk.inj e).2) (by decide)
theorem cell_ne_s3_g1 : s3cell d (cV L) (jV L) ≠ g1cell d (cV L) (jV L) := fun e => absurd (SemLoc.dma.inj (Prod.mk.inj e).2) (by decide)
theorem cell_ne_s3_g2 : s3cell d (cV L) (jV L) ≠ g2cell d (cV L) (jV L) := fun e => absurd (SemLoc.dma.inj (Prod.mk.inj e).2) (by decide)
theorem cell_ne_s3_g3 : s3cell d (cV L) (jV L) ≠ g3cell d (cV L) (jV L) := fun e => absurd (SemLoc.dma.inj (Prod.mk.inj e).2) (by decide)
theorem cell_ne_s3_s0 : s3cell d (cV L) (jV L) ≠ s0cell d (cV L) (jV L) := fun e => absurd (SemLoc.dma.inj (Prod.mk.inj e).2) (by decide)
theorem cell_ne_s3_s1 : s3cell d (cV L) (jV L) ≠ s1cell d (cV L) (jV L) := fun e => absurd (SemLoc.dma.inj (Prod.mk.inj e).2) (by decide)
theorem cell_ne_s3_s2 : s3cell d (cV L) (jV L) ≠ s2cell d (cV L) (jV L) := fun e => absurd (SemLoc.dma.inj (Prod.mk.inj e).2) (by decide)
theorem cell_ne_cA_g0 : cAcell d (cV L) (jV L) ≠ g0cell d (cV L) (jV L) := fun e => absurd (SemLoc.dma.inj (Prod.mk.inj e).2) (by decide)
theorem cell_ne_cA_g1 : cAcell d (cV L) (jV L) ≠ g1cell d (cV L) (jV L) := fun e => absurd (SemLoc.dma.inj (Prod.mk.inj e).2) (by decide)
theorem cell_ne_cA_g2 : cAcell d (cV L) (jV L) ≠ g2cell d (cV L) (jV L) := fun e => absurd (SemLoc.dma.inj (Prod.mk.inj e).2) (by decide)
theorem cell_ne_cA_g3 : cAcell d (cV L) (jV L) ≠ g3cell d (cV L) (jV L) := fun e => absurd (SemLoc.dma.inj (Prod.mk.inj e).2) (by decide)
theorem cell_ne_cA_s0 : cAcell d (cV L) (jV L) ≠ s0cell d (cV L) (jV L) := fun e => absurd (SemLoc.dma.inj (Prod.mk.inj e).2) (by decide)
theorem cell_ne_cA_s1 : cAcell d (cV L) (jV L) ≠ s1cell d (cV L) (jV L) := fun e => absurd (SemLoc.dma.inj (Prod.mk.inj e).2) (by decide)
theorem cell_ne_cA_s2 : cAcell d (cV L) (jV L) ≠ s2cell d (cV L) (jV L) := fun e => absurd (SemLoc.dma.inj (Prod.mk.inj e).2) (by decide)
theorem cell_ne_cA_s3 : cAcell d (cV L) (jV L) ≠ s3cell d (cV L) (jV L) := fun e => absurd (SemLoc.dma.inj (Prod.mk.inj e).2) (by decide)
theorem cell_ne_cB_g0 : cBcell d (cV L) (jV L) ≠ g0cell d (cV L) (jV L) := fun e => absurd (SemLoc.dma.inj (Prod.mk.inj e).2) (by decide)
theorem cell_ne_cB_g1 : cBcell d (cV L) (jV L) ≠ g1cell d (cV L) (jV L) := fun e => absurd (SemLoc.dma.inj (Prod.mk.inj e).2) (by decide)
theorem cell_ne_cB_g2 : cBcell d (cV L) (jV L) ≠ g2cell d (cV L) (jV L) := fun e => absurd (SemLoc.dma.inj (Prod.mk.inj e).2) (by decide)
theorem cell_ne_cB_g3 : cBcell d (cV L) (jV L) ≠ g3cell d (cV L) (jV L) := fun e => absurd (SemLoc.dma.inj (Prod.mk.inj e).2) (by decide)
theorem cell_ne_cB_s0 : cBcell d (cV L) (jV L) ≠ s0cell d (cV L) (jV L) := fun e => absurd (SemLoc.dma.inj (Prod.mk.inj e).2) (by decide)
theorem cell_ne_cB_s1 : cBcell d (cV L) (jV L) ≠ s1cell d (cV L) (jV L) := fun e => absurd (SemLoc.dma.inj (Prod.mk.inj e).2) (by decide)
theorem cell_ne_cB_s2 : cBcell d (cV L) (jV L) ≠ s2cell d (cV L) (jV L) := fun e => absurd (SemLoc.dma.inj (Prod.mk.inj e).2) (by decide)
theorem cell_ne_cB_s3 : cBcell d (cV L) (jV L) ≠ s3cell d (cV L) (jV L) := fun e => absurd (SemLoc.dma.inj (Prod.mk.inj e).2) (by decide)
theorem cell_ne_cB_cA : cBcell d (cV L) (jV L) ≠ cAcell d (cV L) (jV L) := fun e => absurd (SemLoc.dma.inj (Prod.mk.inj e).2) (by decide)

theorem ownSems0_V :
    (ownSems0 (V d (cV L) (jV L)) : sProp 𝕄)
      = iprop(semVal (g0cell d (cV L) (jV L)) 0 ∗ semVal (g1cell d (cV L) (jV L)) 0 ∗ semVal (g2cell d (cV L) (jV L)) 0 ∗ semVal (g3cell d (cV L) (jV L)) 0 ∗ semVal (s0cell d (cV L) (jV L)) 0 ∗ semVal (s1cell d (cV L) (jV L)) 0 ∗ semVal (s2cell d (cV L) (jV L)) 0 ∗ semVal (s3cell d (cV L) (jV L)) 0 ∗ semVal (cAcell d (cV L) (jV L)) 0 ∗ semVal (cBcell d (cV L) (jV L)) 0
          ∗ bigSep (((((((((((ownCells (V d (cV L) (jV L))).erase (g0cell d (cV L) (jV L))).erase (g1cell d (cV L) (jV L))).erase (g2cell d (cV L) (jV L))).erase (g3cell d (cV L) (jV L))).erase (s0cell d (cV L) (jV L))).erase (s1cell d (cV L) (jV L))).erase (s2cell d (cV L) (jV L))).erase (s3cell d (cV L) (jV L))).erase (cAcell d (cV L) (jV L))).erase (cBcell d (cV L) (jV L))) fun g => semVal g 0) := by
  unfold SparseCore.Cfg.ownSems0
  rw [SparseCore.bigSep_erase' ((mem_ownCells (g := g0cell d (cV L) (jV L))).mpr ⟨rfl, by
      show (SemLoc.dma (gsemK 0).sem : SemLoc sig).isScoped .scVector = true; decide⟩),
    SparseCore.bigSep_erase' (Finset.mem_erase.mpr ⟨cell_ne_g1_g0 d L, (mem_ownCells (g := g1cell d (cV L) (jV L))).mpr ⟨rfl, by
      show (SemLoc.dma (gsemK 1).sem : SemLoc sig).isScoped .scVector = true; decide⟩⟩),
    SparseCore.bigSep_erase' (Finset.mem_erase.mpr ⟨cell_ne_g2_g1 d L, Finset.mem_erase.mpr ⟨cell_ne_g2_g0 d L, (mem_ownCells (g := g2cell d (cV L) (jV L))).mpr ⟨rfl, by
      show (SemLoc.dma (gsemK 2).sem : SemLoc sig).isScoped .scVector = true; decide⟩⟩⟩),
    SparseCore.bigSep_erase' (Finset.mem_erase.mpr ⟨cell_ne_g3_g2 d L, Finset.mem_erase.mpr ⟨cell_ne_g3_g1 d L, Finset.mem_erase.mpr ⟨cell_ne_g3_g0 d L, (mem_ownCells (g := g3cell d (cV L) (jV L))).mpr ⟨rfl, by
      show (SemLoc.dma (gsemK 3).sem : SemLoc sig).isScoped .scVector = true; decide⟩⟩⟩⟩),
    SparseCore.bigSep_erase' (Finset.mem_erase.mpr ⟨cell_ne_s0_g3 d L, Finset.mem_erase.mpr ⟨cell_ne_s0_g2 d L, Finset.mem_erase.mpr ⟨cell_ne_s0_g1 d L, Finset.mem_erase.mpr ⟨cell_ne_s0_g0 d L, (mem_ownCells (g := s0cell d (cV L) (jV L))).mpr ⟨rfl, by
      show (SemLoc.dma (ssemK 0).sem : SemLoc sig).isScoped .scVector = true; decide⟩⟩⟩⟩⟩),
    SparseCore.bigSep_erase' (Finset.mem_erase.mpr ⟨cell_ne_s1_s0 d L, Finset.mem_erase.mpr ⟨cell_ne_s1_g3 d L, Finset.mem_erase.mpr ⟨cell_ne_s1_g2 d L, Finset.mem_erase.mpr ⟨cell_ne_s1_g1 d L, Finset.mem_erase.mpr ⟨cell_ne_s1_g0 d L, (mem_ownCells (g := s1cell d (cV L) (jV L))).mpr ⟨rfl, by
      show (SemLoc.dma (ssemK 1).sem : SemLoc sig).isScoped .scVector = true; decide⟩⟩⟩⟩⟩⟩),
    SparseCore.bigSep_erase' (Finset.mem_erase.mpr ⟨cell_ne_s2_s1 d L, Finset.mem_erase.mpr ⟨cell_ne_s2_s0 d L, Finset.mem_erase.mpr ⟨cell_ne_s2_g3 d L, Finset.mem_erase.mpr ⟨cell_ne_s2_g2 d L, Finset.mem_erase.mpr ⟨cell_ne_s2_g1 d L, Finset.mem_erase.mpr ⟨cell_ne_s2_g0 d L, (mem_ownCells (g := s2cell d (cV L) (jV L))).mpr ⟨rfl, by
      show (SemLoc.dma (ssemK 2).sem : SemLoc sig).isScoped .scVector = true; decide⟩⟩⟩⟩⟩⟩⟩),
    SparseCore.bigSep_erase' (Finset.mem_erase.mpr ⟨cell_ne_s3_s2 d L, Finset.mem_erase.mpr ⟨cell_ne_s3_s1 d L, Finset.mem_erase.mpr ⟨cell_ne_s3_s0 d L, Finset.mem_erase.mpr ⟨cell_ne_s3_g3 d L, Finset.mem_erase.mpr ⟨cell_ne_s3_g2 d L, Finset.mem_erase.mpr ⟨cell_ne_s3_g1 d L, Finset.mem_erase.mpr ⟨cell_ne_s3_g0 d L, (mem_ownCells (g := s3cell d (cV L) (jV L))).mpr ⟨rfl, by
      show (SemLoc.dma (ssemK 3).sem : SemLoc sig).isScoped .scVector = true; decide⟩⟩⟩⟩⟩⟩⟩⟩),
    SparseCore.bigSep_erase' (Finset.mem_erase.mpr ⟨cell_ne_cA_s3 d L, Finset.mem_erase.mpr ⟨cell_ne_cA_s2 d L, Finset.mem_erase.mpr ⟨cell_ne_cA_s1 d L, Finset.mem_erase.mpr ⟨cell_ne_cA_s0 d L, Finset.mem_erase.mpr ⟨cell_ne_cA_g3 d L, Finset.mem_erase.mpr ⟨cell_ne_cA_g2 d L, Finset.mem_erase.mpr ⟨cell_ne_cA_g1 d L, Finset.mem_erase.mpr ⟨cell_ne_cA_g0 d L, (mem_ownCells (g := cAcell d (cV L) (jV L))).mpr ⟨rfl, by
      show (SemLoc.dma (cc0_scoped0).sem : SemLoc sig).isScoped .scVector = true; decide⟩⟩⟩⟩⟩⟩⟩⟩⟩),
    SparseCore.bigSep_erase' (Finset.mem_erase.mpr ⟨cell_ne_cB_cA d L, Finset.mem_erase.mpr ⟨cell_ne_cB_s3 d L, Finset.mem_erase.mpr ⟨cell_ne_cB_s2 d L, Finset.mem_erase.mpr ⟨cell_ne_cB_s1 d L, Finset.mem_erase.mpr ⟨cell_ne_cB_s0 d L, Finset.mem_erase.mpr ⟨cell_ne_cB_g3 d L, Finset.mem_erase.mpr ⟨cell_ne_cB_g2 d L, Finset.mem_erase.mpr ⟨cell_ne_cB_g1 d L, Finset.mem_erase.mpr ⟨cell_ne_cB_g0 d L, (mem_ownCells (g := cBcell d (cV L) (jV L))).mpr ⟨rfl, by
      show (SemLoc.dma (cc0_scoped1).sem : SemLoc sig).isScoped .scVector = true; decide⟩⟩⟩⟩⟩⟩⟩⟩⟩⟩)]

/-! ## The stretches as the task addresses them -/

theorem wid_val : (wid (cV L) (jV L)).val = 2 * (L 1).val + (L 0).val := rfl

theorem iRowK_eq : iRowK L = iRow (wid (cV L) (jV L)) := by
  unfold iRowK iRow Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem oTR_eq : oTR L = oRow (wid (cV L) (jV L)) := by
  unfold oTR oRow Rect.part Rect.block
  congr 1 <;> funext a
  · unfold offT
    match a with
    | 0 => simp [Shape.partIx, Shape.partSize, wid]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

theorem set_iRowM : (iRowM L).view.set = iRowSet (wid (cV L) (jV L)) := by
  show (((iV).view.slice (iRowK L)).reshape S200x128 squeezes_S1x200x128_S200x128.numel_eq).set = ((iV).view.slice (iRow (wid (cV L) (jV L)))).set
  rw [View.set_reshape]
  exact iRowK_eq L ▸ rfl

theorem setOn_oTR : (oV).view.setOn (oTR L).set = oRowSet (wid (cV L) (jV L)) := by
  show _ = ((oV).view.slice (oRow (wid (cV L) (jV L)))).set
  rw [View.set_slice, oTR_eq]; rfl

theorem pts_iRowM (f : Buf (Elt F) (iLoc d)) :
    ((iRowM L).view.loc (V d (cV L) (jV L)) ↦[(iRowM L).view.set]{fullShare} f : sProp 𝕄) = iLoc d ↦[iRowSet (wid (cV L) (jV L))]{fullShare} f := by
  rw [set_iRowM]
theorem pts_oTR (f : Buf (Elt F) (oLoc d)) :
    ((oV).view.loc (V d (cV L) (jV L)) ↦[(oV).view.setOn (oTR L).set]{fullShare} f : sProp 𝕄) = oLoc d ↦[oRowSet (wid (cV L) (jV L))]{fullShare} f := by
  rw [setOn_oTR]
theorem pts_tV (q : PosShare TreeShare) (f : Buf (Elt F) (tLoc d)) :
    ((tV).view.loc (V d (cV L) (jV L)) ↦{q} f : sProp 𝕄) = tLoc d ↦{q} f := rfl
theorem pts_shV (q : PosShare TreeShare) (f : Buf (Elt F) (shLoc d (cV L))) :
    ((shV).view.loc (V d (cV L) (jV L)) ↦{q} f : sProp 𝕄) = shLoc d (cV L) ↦{q} f := rfl
theorem pts_xV (f : Buf (Elt F) ((V d (cV L) (jV L)).loc cc0_scratch0)) :
    ((xV).view.loc (V d (cV L) (jV L)) ↦{fullShare} f : sProp 𝕄) = (V d (cV L) (jV L)).loc cc0_scratch0 ↦{fullShare} f := rfl
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-! ## Across the barrier -/

omit [FloatOps F] in
theorem pay_zero (j : Fin (grid0.bound 1)) :
    (bRd (F := F) m).payload (bcell d (cV L) (j.castLE hsub0)) 0 0 = shShare m d (cV L) (Fin.cast nSub_eq (j.castLE hsub0)) := by
  show bPay m (bcell d (cV L) (j.castLE hsub0)) 0 = _
  unfold bPay; dsimp only; rw [if_pos rfl]
omit [FloatOps F] in
theorem pay_pos (j : Fin τ.nSub) (n : ℕ) (hn : n ≠ 0) :
    (bRd (F := F) m).payload (bcell d (cV L) j) 0 n = iprop(emp) := by
  show bPay m (bcell d (cV L) j) n = _
  unfold bPay; dsimp only; rw [if_neg hn]

omit [FloatOps F] in
/-- Tile 0 hands every tile its sixteenth of the shared table. -/
theorem pays_intro0 (hs0 : (L 1).val = 0) :
    (shLoc d (cV L) ↦{fullShare} tabC m d (cV L) : sProp 𝕄)
      ⊢ (bigSep Finset.univ fun j : Fin (grid0.bound 1) => (bRd (F := F) m).payload (bcell d (cV L) (j.castLE hsub0)) 0 (jV L).val) := by
  have hme : (jV L).val = 0 := hs0
  rw [hme, pointsTo_piecesOf Finset.univ (tabC m d (cV L)) pos16 fullShare]
  refine Entails.of_eq (bigSep_congr (s := (Finset.univ : Finset (Fin (grid0.bound 1)))) fun j _ => ?_)
  rw [pay_zero]
  exact congrArg (fun i => (shLoc d (cV L) ↦{pieceOf fullShare 16 pos16 i} tabC m d (cV L) : sProp 𝕄)) (Fin.ext rfl)

omit [FloatOps F] in
/-- The other tiles hand over nothing. -/
theorem pays_introS (hs0 : (L 1).val ≠ 0) :
    (iprop(emp) : sProp 𝕄)
      ⊢ (bigSep Finset.univ fun j : Fin (grid0.bound 1) => (bRd (F := F) m).payload (bcell d (cV L) (j.castLE hsub0)) 0 (jV L).val) := by
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from bigSep_congr fun j _ => pay_pos m d L _ _ hs0, bigSep_emp']

omit [FloatOps F] in
/-- What a tile's own round collected holds its sixteenth of the shared table. -/
theorem pays_elim : (bigSep ((bRd (F := F) m).duties (bcell d (cV L) (jV L)) 0 \ ∅) fun n => (bRd (F := F) m).payload (bcell d (cV L) (jV L)) 0 n)
    ⊢ (shShare m d (cV L) (Fin.cast nSub_eq (jV L)) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

omit [FloatOps F] in
/-- A read share cut into a remainder and four read tokens, one per gather semaphore. -/
theorem toks4 {ℓ : Loc nD τ sig} (f : Buf (Elt F) ℓ) (q : PosShare TreeShare) :
    (ℓ ↦{q} f : sProp 𝕄) ⊣⊢ iprop((ℓ ↦{Transfers.shareDrop q 4} f) ∗ (ℓ ↦{Transfers.shareTokN q 3} f) ∗ (ℓ ↦{Transfers.shareTokN q 2} f)
        ∗ (ℓ ↦{Transfers.shareTokN q 1} f) ∗ (ℓ ↦{Transfers.shareTokN q 0} f) ∗ emp) := by
  have hr : Finset.range 4 = insert 3 (insert 2 (insert 1 (insert 0 ∅))) := by decide
  have h : (ℓ ↦[Finset.univ]{q} f : sProp 𝕄) ⊣⊢ _ := Transfers.pointsTo_toks_range q 4
  rw [hr, SparseCore.bigSep_insert' (by decide), SparseCore.bigSep_insert' (by decide), SparseCore.bigSep_insert' (by decide),
    SparseCore.bigSep_insert' (by decide), bigSep_empty] at h
  exact h

/-! ## Closing the run: the waits recorded, the chain of window writes -/

omit [FloatOps F] in
theorem waits_base (W : Waits sig (HIx 1)) : ∀ p ∈ W, p ∈ W ∨ p.2 = none ∨ p.2 = some (0 : Fin 1) := fun _ hp => .inl hp
omit [FloatOps F] in
theorem waits_insert {W W' : Waits sig (HIx 1)} (a : SemLoc sig × HIx 1) (ha : a.2 = none ∨ a.2 = some (0 : Fin 1))
    (h : ∀ p ∈ W', p ∈ W ∨ p.2 = none ∨ p.2 = some (0 : Fin 1)) :
    ∀ p ∈ insert a W', p ∈ W ∨ p.2 = none ∨ p.2 = some (0 : Fin 1) := by
  intro p hp
  rcases Finset.mem_insert.mp hp with rfl | hp
  · exact .inr ha
  · exact h p hp

/-- Every wait the task recorded is one of the launch's or at the kernel's own index. -/
macro "waits_ok" : tactic =>
  `(tactic| ((repeat (refine waits_insert _ (by first | exact Or.inl rfl | exact Or.inr rfl) ?_)); exact waits_base _))

omit [FloatOps F] in
theorem wL_lt (L : grid0.Coords) : 2 * (L 1).val + (L 0).val < 32 := by
  have h0 : (L 0).val < 2 := (L 0).isLt
  have h1 : (L 1).val < 16 := (L 1).isLt
  omega

open Lean Elab Tactic Meta in
/-- Unfold the definition at the head of the left side of the equation to prove. -/
elab "unfold_lhs_head" : tactic => do
  let g ← getMainGoal
  let t ← instantiateMVars (← g.getType)
  let some (_, lhs, _) := t.eq? | throwError "unfold_lhs_head: not an equation"
  let some n := lhs.getAppFn.constName? | throwError "unfold_lhs_head: no constant at the head"
  let t' ← Meta.deltaExpand t (· == n)
  let g' ← g.replaceTargetDefEq t'.headBeta
  replaceMainGoal [g']

/-- A copy-out's payload is the latest gather of its row buffer (one other buffer's gather may lie above it), and that
    gather's rows are the table rows the chunk's indices name. -/
syntax "pay_tac" : tactic
set_option hygiene false in
macro_rules | `(tactic| pay_tac) => `(tactic|
  (intro y
   unfold_lhs_head
   first
   | (refine (congrFun (pay_skip _ _ ?_ _ _ _ _ _ _ _ _ _) y).trans ?_
      · decide)
   | (refine (congrFun (pay_hit _ _ _ _ _) y).trans ?_)
   unfold_lhs_head
   exact gathered_eq_Gout (fI d) hidx _ L _ (by decide) _ _ _ _ _ _ _ y))

/-- The result array after chunk c's copy-out agrees with the looked-up rows on the chunks up to c: by recursion on the
    chain of window writes. -/
syntax "value_chain" : tactic
macro_rules | `(tactic| value_chain) => `(tactic|
  first
  | exact doneBelow_zero _ _ _
  | (refine doneBelow_step (wL_lt _) (by decide) ClosedOff.eq ?_ ?_
     · value_chain
     · pay_tac))

end Tile

end Cert.KB

end
-- ==== Proof.KB.Tile0.lean ====
/-
  Tile 0 of a SparseCore: it also copies the table into the shared memory and hands every tile its sixteenth of it.
  The run: the fetches before the barrier and the barrier by their rules; after it the two hundred chunks — chunk k's rows
  gathered from the shared table into row buffer k mod 4 while chunk k - 1's copy-out is under way, each semaphore
  serving one transfer at a time — by symbolic execution; then the closing arguments.
-/
import proofs.«216814_g8117488189630_cont_sun_m_833_27_alg».proof.Proof.KB.TilePre
import proofs.«216814_g8117488189630_cont_sun_m_833_27_alg».proof.Proof.Gen.Kernel.Skeleton

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x200x128 EltTy.i32)
local notation "tV" => (Memref.whole Cert.Kernel.main_arg1_scv : Memref Cert.Kernel.sig Kind.scVector Space.hbm Cert.Kernel.S4x128 EltTy.f32)
local notation "oV" => (Memref.whole Cert.Kernel.main_v1_scv : Memref Cert.Kernel.sig Kind.scVector Space.hbm Cert.Kernel.S32x200x128x128 EltTy.f32)
local notation "xV" => (Memref.whole Cert.Kernel.cc0_scratch0 : Memref Cert.Kernel.sig Kind.scVector Space.vmem Cert.Kernel.S200x128 EltTy.i32)
local notation "bV" => (Memref.whole Cert.Kernel.cc0_scratch1 : Memref Cert.Kernel.sig Kind.scVector Space.vmem Cert.Kernel.S4x128x128 EltTy.f32)
local notation "shV" => (Memref.whole Cert.Kernel.cc0_scratch2 : Memref Cert.Kernel.sig Kind.scVector Space.shared Cert.Kernel.S4x128 EltTy.f32)

variable (m : (ℓ : Loc nD τ sig) → Buf (Elt F) ℓ)

section Tile

variable (d : Dev nD) (L : grid0.Coords)

variable [FloatOps F]

variable (fI : (d : Dev nD) → IVec S32x200x128 32)

set_option maxHeartbeats 64000000 in
theorem tile_body0 (hF : (K (F := F)).Facts) (hidx : ∀ x, (fI d x).toNat < 4) (hs0 : (L 1).val = 0) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m fI d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_lookup L iV (Memref.isWhole_whole _) tV (Memref.isWhole_whole _) oV (Memref.isWhole_whole _) xV (Memref.isWhole_whole _)
            bV (Memref.isWhole_whole _) shV (Memref.isWhole_whole _) cc0_scratch3 cc0_scratch4 cc0_scoped0 cc0_scoped1)
          fun _ => iprop(tdRes m fI d (cV L) (jV L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0__emb_lookup_eq_skeleton]; unfold cc0__emb_lookup_skel
  rw [(K (F := F)).scopedBufs_V hF d (cV L) (jV L), SparseCore.Cfg.scopedSems0_V (Val := Elt F) d (cV L) (jV L), ownSems0_V, ownBufs_V]
  unfold bkit goRes tdRes
  have hO' : ∀ g, (O + oxV d (cV L)) g none = 0 := fun g => by rw [Pi.add_apply, Finsupp.add_apply, hO g, oxV_none]
  -- tile 0: the table into the shared memory, the index stretch, the barrier handing the sixteenths over
  have hv4 : Scalar.cmpi .ne (Scalar.extui (Scalar.cmpi .eq (BitVec.ofNat 32 (L 1).val) 0#32) : BitVec 32) 0#32 = 1#1 := by rw [hs0]; decide
  rw [if_pos (show (jV L).val = 0 from hs0), if_pos (show (jV L).val = 0 from hs0)]
  iintro ⟨#Hlv, ⟨⟨%κ, #Hinv⟩, Htoks, #Hrch, Hat, Hcred⟩, ⟨Hi, Ho, Ht, ⟨%fsh, Hsh⟩⟩, ⟨⟨%fx, Hx⟩, ⟨%fb, Hb⟩, Hbufs⟩, ⟨Hg0, Hg1, Hg2, Hg3, Hs0, Hs1, Hs2, Hs3, HcA, HcB, Hsems⟩, HO⟩
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowM (F := F) d L _).symm) $$ Hi
  ihave Ho' := (Entails.of_eq (pts_oTR (F := F) d L _).symm) $$ Ho
  ihave Hx' := (Entails.of_eq (pts_xV (F := F) d L _).symm) $$ Hx
  ihave Hb' := (Entails.of_eq (pts_bV (F := F) d L _).symm) $$ Hb
  ihave Ht' := (Entails.of_eq (pts_tV (F := F) d L _ _).symm) $$ Ht
  ihave Hsh' := (Entails.of_eq (pts_shV (F := F) d L _ _).symm) $$ Hsh
  sl_exec (disch := first | sl_exact hv4 | omega)
  -- the shared copy holds the table
  have hshc : View.write (Elt F) (shV).view fsh (tile_body0.sl.dma0 m d) Finset.univ = tabC m d (cV L) := by
    rw [View.write_whole_univ]; rfl
  ihave Hsh2 := (Entails.of_eq (congrArg (fun f => ((shV).view.loc (V d (cV L) (jV L)) ↦{fullShare} f : sProp 𝕄)) hshc)) $$ Hsh'
  ihave Hpays := (pays_intro0 (F := F) m d L hs0) $$ [Hsh2]
  · iapply (Entails.of_eq (pts_shV (F := F) d L _ _)); iexact Hsh2
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  ihave Hmine' := (Entails.of_eq (pts_shV (F := F) d L _ _).symm) $$ Hmine
  ihave Hspl := (toks4 (F := F) _ _).1 $$ Hmine'
  icases Hspl with ⟨Hshr, Htk3, Htk2, Htk1, Htk0, -⟩
  have hinAll : ∀ (r : Fin 2 → Nat) (hr : ∀ a, r a + S1x128.size a ≤ S200x128.size a) (hs : ∀ a, (Rect.unit (s := S200x128) r S1x128.size hr).stride a = 1) (x : S128.Idx),
      BitVec.toNat (View.read (Elt F) (((xV).slice (Rect.unit (s := S200x128) r S1x128.size hr) hs).squeeze S128 squeezes_S1x128_S128).view
        (View.write (Elt F) (xV).view fx (tile_body0.sl.dma0_1 d L fI) Finset.univ) x) < 4 :=
    fun r hr hs x => by rw [View.write_whole_univ]; exact hidx _
  sl_exec_parts (disch := omega)
  sl_step
  -- the result's stretch holds the looked-up rows: the chain of window writes, chunk by chunk
  have hval : ∀ i ∈ (oV).view.setOn (oTR L).set, (tile_body0.sl.Ho'_w399 m d L fI fx fb hinAll) i = Gout (fI d) (m (tLoc d)) i :=
    done_all (offT L) rfl (offT_inb L) (by value_chain)
  isplitl [Hi' Ho' Ht' Hshr Htk0 Htk1 Htk2 Htk3]
  · isplitl [Hi']; · iapply (Entails.of_eq (pts_iRowM (F := F) d L _)); iexact Hi'
    isplitl [Ho']
    · iapply (Entails.of_eq (pts_oTR (F := F) d L _))
      iapply (Entails.of_eq (pointsTo_congr hval))
      iexact Ho'
    isplitl [Ht']; · iapply (Entails.of_eq (pts_tV (F := F) d L _ _)); iexact Ht'
    iapply (Entails.of_eq (pts_shV (F := F) d L _ _))
    iapply (toks4 (F := F) _ _).2
    isplitl [Hshr]; · iexact Hshr
    isplitl [Htk3]; · iexact Htk3
    isplitl [Htk2]; · iexact Htk2
    isplitl [Htk1]; · iexact Htk1
    isplitl [Htk0]; · iexact Htk0
    iempintro
  isplitl [Hx' Hb' Hbufs]
  · isplitl [Hx']; · iexists _; iexact Hx'
    isplitl [Hb']; · iexists _; iexact Hb'
    iexact Hbufs
  isplitl [Hg0 Hg1 Hg2 Hg3 Hs0 Hs1 Hs2 Hs3 HcA HcB Hsems]
  · isplitl [Hg0]; · iexact Hg0
    isplitl [Hg1]; · iexact Hg1
    isplitl [Hg2]; · iexact Hg2
    isplitl [Hg3]; · iexact Hg3
    isplitl [Hs0]; · iexact Hs0
    isplitl [Hs1]; · iexact Hs1
    isplitl [Hs2]; · iexact Hs2
    isplitl [Hs3]; · iexact Hs3
    isplitl [HcA]; · iexact HcA
    isplitl [HcB]; · iexact HcB
    iexact Hsems
  iexists _; isplitr
  swap; · iexact HO
  ipureintro
  waits_ok

end Tile

end Cert.KB

end
-- ==== Proof.KB.TileS.lean ====
/-
  Tiles 1 to 15 of a SparseCore: they receive their sixteenth of the shared table across the barrier.
  The run: the fetches before the barrier and the barrier by their rules; after it the two hundred chunks — chunk k's rows
  gathered from the shared table into row buffer k mod 4 while chunk k - 1's copy-out is under way, each semaphore
  serving one transfer at a time — by symbolic execution; then the closing arguments.
-/
import proofs.«216814_g8117488189630_cont_sun_m_833_27_alg».proof.Proof.KB.TilePre
import proofs.«216814_g8117488189630_cont_sun_m_833_27_alg».proof.Proof.Gen.Kernel.Skeleton

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x200x128 EltTy.i32)
local notation "tV" => (Memref.whole Cert.Kernel.main_arg1_scv : Memref Cert.Kernel.sig Kind.scVector Space.hbm Cert.Kernel.S4x128 EltTy.f32)
local notation "oV" => (Memref.whole Cert.Kernel.main_v1_scv : Memref Cert.Kernel.sig Kind.scVector Space.hbm Cert.Kernel.S32x200x128x128 EltTy.f32)
local notation "xV" => (Memref.whole Cert.Kernel.cc0_scratch0 : Memref Cert.Kernel.sig Kind.scVector Space.vmem Cert.Kernel.S200x128 EltTy.i32)
local notation "bV" => (Memref.whole Cert.Kernel.cc0_scratch1 : Memref Cert.Kernel.sig Kind.scVector Space.vmem Cert.Kernel.S4x128x128 EltTy.f32)
local notation "shV" => (Memref.whole Cert.Kernel.cc0_scratch2 : Memref Cert.Kernel.sig Kind.scVector Space.shared Cert.Kernel.S4x128 EltTy.f32)

variable (m : (ℓ : Loc nD τ sig) → Buf (Elt F) ℓ)

section Tile

variable (d : Dev nD) (L : grid0.Coords)

variable [FloatOps F]

variable (fI : (d : Dev nD) → IVec S32x200x128 32)

set_option maxHeartbeats 64000000 in
theorem tile_bodyS (hF : (K (F := F)).Facts) (hidx : ∀ x, (fI d x).toNat < 4) (hs0 : 0 < (L 1).val) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m fI d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_lookup L iV (Memref.isWhole_whole _) tV (Memref.isWhole_whole _) oV (Memref.isWhole_whole _) xV (Memref.isWhole_whole _)
            bV (Memref.isWhole_whole _) shV (Memref.isWhole_whole _) cc0_scratch3 cc0_scratch4 cc0_scoped0 cc0_scoped1)
          fun _ => iprop(tdRes m fI d (cV L) (jV L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0__emb_lookup_eq_skeleton]; unfold cc0__emb_lookup_skel
  rw [(K (F := F)).scopedBufs_V hF d (cV L) (jV L), SparseCore.Cfg.scopedSems0_V (Val := Elt F) d (cV L) (jV L), ownSems0_V, ownBufs_V]
  unfold bkit goRes tdRes
  have hO' : ∀ g, (O + oxV d (cV L)) g none = 0 := fun g => by rw [Pi.add_apply, Finsupp.add_apply, hO g, oxV_none]
  -- the other tiles: the index stretch, the barrier (nothing to hand over), the sixteenth received
  have hv4 : ¬ (Scalar.cmpi .ne (Scalar.extui (Scalar.cmpi .eq (BitVec.ofNat 32 (L 1).val) 0#32) : BitVec 32) 0#32 = 1#1) := by
    have h : ∀ s : Fin (grid0.bound 1), 0 < s.val → ¬ (Scalar.cmpi .ne (Scalar.extui (Scalar.cmpi .eq (BitVec.ofNat 32 s.val) 0#32) : BitVec 32) 0#32 = 1#1) := by decide
    exact h (L 1) hs0
  have hne : (L 1).val ≠ 0 := Nat.pos_iff_ne_zero.mp hs0
  rw [if_neg (show ¬ (jV L).val = 0 from hne), if_neg (show ¬ (jV L).val = 0 from hne)]
  iintro ⟨#Hlv, ⟨⟨%κ, #Hinv⟩, Htoks, #Hrch, Hat, Hcred⟩, ⟨Hi, Ho, -⟩, ⟨⟨%fx, Hx⟩, ⟨%fb, Hb⟩, Hbufs⟩, ⟨Hg0, Hg1, Hg2, Hg3, Hs0, Hs1, Hs2, Hs3, HcA, HcB, Hsems⟩, HO⟩
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowM (F := F) d L _).symm) $$ Hi
  ihave Ho' := (Entails.of_eq (pts_oTR (F := F) d L _).symm) $$ Ho
  ihave Hx' := (Entails.of_eq (pts_xV (F := F) d L _).symm) $$ Hx
  ihave Hb' := (Entails.of_eq (pts_bV (F := F) d L _).symm) $$ Hb
  sl_exec (disch := first | sl_exact hv4 | omega)
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks ]
    · rw [bigSep_sep', bigSep_sep']
      isplitl [Htoks]; · iexact Htoks
      isplitr; · iapply (pays_introS (F := F) m d L hne); iempintro
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  ihave Hmine' := (Entails.of_eq (pts_shV (F := F) d L _ _).symm) $$ Hmine
  ihave Hspl := (toks4 (F := F) _ _).1 $$ Hmine'
  icases Hspl with ⟨Hshr, Htk3, Htk2, Htk1, Htk0, -⟩
  have hinAll : ∀ (r : Fin 2 → Nat) (hr : ∀ a, r a + S1x128.size a ≤ S200x128.size a) (hs : ∀ a, (Rect.unit (s := S200x128) r S1x128.size hr).stride a = 1) (x : S128.Idx),
      BitVec.toNat (View.read (Elt F) (((xV).slice (Rect.unit (s := S200x128) r S1x128.size hr) hs).squeeze S128 squeezes_S1x128_S128).view
        (View.write (Elt F) (xV).view fx (tile_bodyS.sl.dma0 d L fI) Finset.univ) x) < 4 :=
    fun r hr hs x => by rw [View.write_whole_univ]; exact hidx _
  sl_exec_parts (disch := omega)
  sl_step
  -- the result's stretch holds the looked-up rows: the chain of window writes, chunk by chunk
  have hval : ∀ i ∈ (oV).view.setOn (oTR L).set, (tile_bodyS.sl.Ho'_w399 m d L fI fx fb hinAll) i = Gout (fI d) (m (tLoc d)) i :=
    done_all (offT L) rfl (offT_inb L) (by value_chain)
  isplitl [Hi' Ho' Hshr Htk0 Htk1 Htk2 Htk3]
  · isplitl [Hi']; · iapply (Entails.of_eq (pts_iRowM (F := F) d L _)); iexact Hi'
    isplitl [Ho']
    · iapply (Entails.of_eq (pts_oTR (F := F) d L _))
      iapply (Entails.of_eq (pointsTo_congr hval))
      iexact Ho'
    isplitr; · iempintro
    iapply (Entails.of_eq (pts_shV (F := F) d L _ _))
    iapply (toks4 (F := F) _ _).2
    isplitl [Hshr]; · iexact Hshr
    isplitl [Htk3]; · iexact Htk3
    isplitl [Htk2]; · iexact Htk2
    isplitl [Htk1]; · iexact Htk1
    isplitl [Htk0]; · iexact Htk0
    iempintro
  isplitl [Hx' Hb' Hbufs]
  · isplitl [Hx']; · iexists _; iexact Hx'
    isplitl [Hb']; · iexists _; iexact Hb'
    iexact Hbufs
  isplitl [Hg0 Hg1 Hg2 Hg3 Hs0 Hs1 Hs2 Hs3 HcA HcB Hsems]
  · isplitl [Hg0]; · iexact Hg0
    isplitl [Hg1]; · iexact Hg1
    isplitl [Hg2]; · iexact Hg2
    isplitl [Hg3]; · iexact Hg3
    isplitl [Hs0]; · iexact Hs0
    isplitl [Hs1]; · iexact Hs1
    isplitl [Hs2]; · iexact Hs2
    isplitl [Hs3]; · iexact Hs3
    isplitl [HcA]; · iexact HcA
    isplitl [HcB]; · iexact HcB
    iexact Hsems
  iexists _; isplitr
  swap; · iexact HO
  ipureintro
  waits_ok

end Tile

end Cert.KB

end
-- ==== Proof.KB.Tile.lean ====
/-
  One tile's task, for every tile: tile 0 of its SparseCore or one of the other fifteen.
-/
import proofs.«216814_g8117488189630_cont_sun_m_833_27_alg».proof.Proof.KB.Tile0
import proofs.«216814_g8117488189630_cont_sun_m_833_27_alg».proof.Proof.KB.TileS

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x200x128 EltTy.i32)
local notation "tV" => (Memref.whole Cert.Kernel.main_arg1_scv : Memref Cert.Kernel.sig Kind.scVector Space.hbm Cert.Kernel.S4x128 EltTy.f32)
local notation "oV" => (Memref.whole Cert.Kernel.main_v1_scv : Memref Cert.Kernel.sig Kind.scVector Space.hbm Cert.Kernel.S32x200x128x128 EltTy.f32)
local notation "xV" => (Memref.whole Cert.Kernel.cc0_scratch0 : Memref Cert.Kernel.sig Kind.scVector Space.vmem Cert.Kernel.S200x128 EltTy.i32)
local notation "bV" => (Memref.whole Cert.Kernel.cc0_scratch1 : Memref Cert.Kernel.sig Kind.scVector Space.vmem Cert.Kernel.S4x128x128 EltTy.f32)
local notation "shV" => (Memref.whole Cert.Kernel.cc0_scratch2 : Memref Cert.Kernel.sig Kind.scVector Space.shared Cert.Kernel.S4x128 EltTy.f32)

theorem tile_body [FloatOps F] (m : (ℓ : Loc nD τ sig) → Buf (Elt F) ℓ) (fI : (d : Dev nD) → IVec S32x200x128 32) (d : Dev nD) (L : grid0.Coords)
    (hF : (K (F := F)).Facts) (hidx : ∀ x, (fI d x).toNat < 4) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m fI d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_lookup L iV (Memref.isWhole_whole _) tV (Memref.isWhole_whole _) oV (Memref.isWhole_whole _) xV (Memref.isWhole_whole _)
            bV (Memref.isWhole_whole _) shV (Memref.isWhole_whole _) cc0_scratch3 cc0_scratch4 cc0_scoped0 cc0_scoped1)
          fun _ => iprop(tdRes m fI d (cV L) (jV L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rcases Nat.eq_zero_or_pos (L 1).val with hs0 | hs0
  · exact tile_body0 m d L fI hF hidx hs0 O W hO hOlev
  · exact tile_bodyS m d L fI hF hidx hs0 O W hO hOlev

end Cert.KB

end
-- ==== Proof.lean ====
/-
  The proof of the claim: the two frames of the kernel, the reference's frame, the preservation of the idealization and the
  algebraic equality of the kernel and the reference at the ideal instance.
  The kernel is an embedding lookup on the two SparseCores: 32 tiles each look up one stretch of 25600 indices in a table of
  four rows that tile 0 of each SparseCore first copies into the SparseCore's shared memory, the sixteen tiles meeting at the
  subcore barrier before they read it. Its run rests on the task of one tile at a symbolic place of the grid
  (`Cert.KI.tile_body`, `Cert.KB.tile_body`: the same text at the ideal and at the word-level instance) and on the launch
  (`Cert.KI.run_main'`, `Cert.KB.run_main'`): from a memory whose index entries name rows of the table every weakly fair
  execution of the 35 threads ends, nothing faulting, with the result at a named function of the arguments and the arguments
  unchanged. At the ideal instance that function is the specification `Cert.Spec.G` (`Cert.KI.Kout_eq`): result row n is the
  table row the n-th index entry, in row-major order, names. The reference's run is written by hand (`Cert.RefValue.run`) and
  ends at the same specification. `Cert.Asm.claim_of` assembles the five conjuncts from these: each frame is a run with the
  value dropped, the idealization rewrote no operation, and both programs end at the specification of the kernel's arguments.
-/
import proofs.«216814_g8117488189630_cont_sun_m_833_27_alg».proof.Defs
import proofs.«216814_g8117488189630_cont_sun_m_833_27_alg».proof.Proof.Final
import proofs.«216814_g8117488189630_cont_sun_m_833_27_alg».proof.Proof.KI.Tile
import proofs.«216814_g8117488189630_cont_sun_m_833_27_alg».proof.Proof.KB.Tile

noncomputable section

namespace Cert.Proof

theorem claim : Cert.Claim :=
  Cert.Final.claim_of_tiles
    (fun m d L hF hidx O W hO hOlev => Cert.KB.tile_body m (Cert.KB.fIof m) d L hF hidx O W hO hOlev)
    (fun m d L hF hidx O W hO hOlev => Cert.KI.tile_body m (Cert.KI.fIof m) d L hF hidx O W hO hOlev)

end Cert.Proof

end
